-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S128 .f32) (main_arg9 : FVec F S128 .f32) (main_arg10 : FVec F S128x128 .f32) (main_arg11 : FVec F S128 .f32) (main_arg12 : FVec F S128 .f32) (main_arg13 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S5000x128 : Shape := ⟨2, ![5000, 128]⟩
abbrev S1600000x128 : Shape := ⟨2, ![1600000, 128]⟩
abbrev S50000x1 : Shape := ⟨2, ![50000, 1]⟩
abbrev S1x128 : Shape := ⟨2, ![1, 128]⟩

abbrev nBuf : Space → Nat
  | .hbm => 174
  | .vmem => 51
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S50000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S_, .f32⟩
  | 29 => ⟨S1600000, .f32⟩
  | 30 => ⟨S50000, .f32⟩
  | 31 => ⟨S_, .f32⟩
  | 32 => ⟨S50000, .f32⟩
  | 33 => ⟨S50000, .f32⟩
  | 34 => ⟨S50000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S50000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x1, .f32⟩
  | 65 => ⟨S1600000x128, .f32⟩
  | 66 => ⟨S1600000x128, .f32⟩
  | 67 => ⟨S_, .f32⟩
  | 68 => ⟨S50000x128, .f32⟩
  | 69 => ⟨S1600000x1, .i32⟩
  | 70 => ⟨S50000x128, .f32⟩
  | 71 => ⟨S_, .f32⟩
  | 72 => ⟨S50000, .f32⟩
  | 73 => ⟨S50000, .f32⟩
  | 74 => ⟨S50000x1, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S1x128, .f32⟩
  | 90 => ⟨S1x128, .f32⟩
  | 91 => ⟨S1x128, .f32⟩
  | 92 => ⟨S1x128, .f32⟩
  | 93 => ⟨S50000x128, .f32⟩
  | 94 => ⟨S50000x128, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .f32⟩
  | 104 => ⟨S1600000x1, .f32⟩
  | 105 => ⟨S1600000x128, .f32⟩
  | 106 => ⟨S1600000x128, .f32⟩
  | 107 => ⟨S_, .f32⟩
  | 108 => ⟨S50000x128, .f32⟩
  | 109 => ⟨S1600000x1, .i32⟩
  | 110 => ⟨S50000x128, .f32⟩
  | 111 => ⟨S_, .f32⟩
  | 112 => ⟨S50000, .f32⟩
  | 113 => ⟨S50000, .f32⟩
  | 114 => ⟨S50000x1, .f32⟩
  | 115 => ⟨S50000x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S_, .f32⟩
  | 127 => ⟨S1x128, .f32⟩
  | _ => ⟨S50000x128, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S1x128, .f32⟩
  | 5 => ⟨S50000x128, .f32⟩
  | 6 => ⟨S50000x128, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x128, .f32⟩
  | 16 => ⟨S1600000x1, .f32⟩
  | 17 => ⟨S1600000x128, .f32⟩
  | 18 => ⟨S1600000x128, .f32⟩
  | 19 => ⟨S_, .f32⟩
  | 20 => ⟨S50000x128, .f32⟩
  | 21 => ⟨S1600000x1, .i32⟩
  | 22 => ⟨S50000x128, .f32⟩
  | 23 => ⟨S_, .f32⟩
  | 24 => ⟨S50000, .f32⟩
  | 25 => ⟨S50000, .f32⟩
  | 26 => ⟨S50000x1, .f32⟩
  | 27 => ⟨S50000x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S1x128, .f32⟩
  | 34 => ⟨S1x128, .f32⟩
  | 35 => ⟨S_, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S1x128, .f32⟩
  | 42 => ⟨S1x128, .f32⟩
  | 43 => ⟨S1x128, .f32⟩
  | 44 => ⟨S1x128, .f32⟩
  | 45 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S1x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54_0 : Ref sig .tc := ⟨.hbm, 81, rfl⟩
abbrev main_v54_1 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_13 : Ref sig .tc := ⟨.hbm, 95, rfl⟩
abbrev main_v65 : Ref sig .tc := ⟨.hbm, 96, rfl⟩
abbrev main_v66 : Ref sig .tc := ⟨.hbm, 97, rfl⟩
abbrev main_c_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_15 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_16 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87_0 : Ref sig .tc := ⟨.hbm, 121, rfl⟩
abbrev main_v87_1 : Ref sig .tc := ⟨.hbm, 122, rfl⟩
abbrev main_cst_17 : Ref sig .tc := ⟨.hbm, 123, rfl⟩
abbrev main_v88 : Ref sig .tc := ⟨.hbm, 124, rfl⟩
abbrev main_v89 : Ref sig .tc := ⟨.hbm, 125, rfl⟩
abbrev main_cst_18 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_c_19 : Ref sig .tc := ⟨.hbm, 135, rfl⟩
abbrev main_v98 : Ref sig .tc := ⟨.hbm, 136, rfl⟩
abbrev main_v99 : Ref sig .tc := ⟨.hbm, 137, rfl⟩
abbrev main_c_20 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_21 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_22 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120_0 : Ref sig .tc := ⟨.hbm, 161, rfl⟩
abbrev main_v120_1 : Ref sig .tc := ⟨.hbm, 162, rfl⟩
abbrev main_cst_23 : Ref sig .tc := ⟨.hbm, 163, rfl⟩
abbrev main_v121 : Ref sig .tc := ⟨.hbm, 164, rfl⟩
abbrev main_v122 : Ref sig .tc := ⟨.hbm, 165, rfl⟩
abbrev main_cst_24 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg5_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg3_0 : Ref sig .tc := ⟨.vmem, 47, rfl⟩
abbrev cc8_stg4_0 : Ref sig .tc := ⟨.vmem, 48, rfl⟩
abbrev cc8_stg5_0 : Ref sig .tc := ⟨.vmem, 49, rfl⟩
abbrev cc8_stg5_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem3_0 : DmaSem sig := 47
abbrev cc8_sem4_0 : DmaSem sig := 48
abbrev cc8_sem5_0 : DmaSem sig := 49
abbrev cc8_sem5_1 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v86) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v87_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v86) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v96) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v96) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v97) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v119) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v120_0) S1x128.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v120_1) S1x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v119) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v122) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v126) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v127) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v128) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v129) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩

abbrev nBuf : Space → Nat
  | .hbm => 306
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S50000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S_, .f32⟩
  | 29 => ⟨S1600000, .f32⟩
  | 30 => ⟨S50000, .f32⟩
  | 31 => ⟨S_, .f32⟩
  | 32 => ⟨S50000, .f32⟩
  | 33 => ⟨S50000, .f32⟩
  | 34 => ⟨S50000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S50000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x1, .f32⟩
  | 65 => ⟨S1600000x128, .f32⟩
  | 66 => ⟨S1600000x128, .f32⟩
  | 67 => ⟨S_, .f32⟩
  | 68 => ⟨S50000x128, .f32⟩
  | 69 => ⟨S1600000x1, .i32⟩
  | 70 => ⟨S50000x128, .f32⟩
  | 71 => ⟨S_, .f32⟩
  | 72 => ⟨S50000, .f32⟩
  | 73 => ⟨S50000, .f32⟩
  | 74 => ⟨S50000x1, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S50000x128, .f32⟩
  | 90 => ⟨S_, .f32⟩
  | 91 => ⟨S128, .f32⟩
  | 92 => ⟨S_, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S_, .f32⟩
  | 99 => ⟨S128, .f32⟩
  | 100 => ⟨S128, .f32⟩
  | 101 => ⟨S128, .f32⟩
  | 102 => ⟨S1x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S_, .f32⟩
  | 115 => ⟨S50000, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S_, .f32⟩
  | 125 => ⟨S1600000, .f32⟩
  | 126 => ⟨S50000, .f32⟩
  | 127 => ⟨S_, .f32⟩
  | _ => ⟨S50000x128, .f32⟩

abbrev hbmTy0_1 (i : Nat) : BufTy := match i % 128 with
  | 0 => ⟨S50000, .f32⟩
  | 1 => ⟨S50000, .f32⟩
  | 2 => ⟨S50000, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000, .f32⟩
  | 21 => ⟨S1600000, .f32⟩
  | 22 => ⟨S50000x128, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S1600000x1, .f32⟩
  | 33 => ⟨S1600000x128, .f32⟩
  | 34 => ⟨S1600000x128, .f32⟩
  | 35 => ⟨S_, .f32⟩
  | 36 => ⟨S50000x128, .f32⟩
  | 37 => ⟨S1600000x1, .i32⟩
  | 38 => ⟨S50000x128, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S128, .f32⟩
  | 51 => ⟨S_, .f32⟩
  | 52 => ⟨S128, .f32⟩
  | 53 => ⟨S128, .f32⟩
  | 54 => ⟨S1x128, .f32⟩
  | 55 => ⟨S50000x128, .f32⟩
  | 56 => ⟨S50000x128, .f32⟩
  | 57 => ⟨S50000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S128, .f32⟩
  | 68 => ⟨S128, .f32⟩
  | 69 => ⟨S128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S_, .f32⟩
  | 83 => ⟨S50000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S_, .f32⟩
  | 93 => ⟨S1600000, .f32⟩
  | 94 => ⟨S50000, .f32⟩
  | 95 => ⟨S_, .f32⟩
  | 96 => ⟨S50000, .f32⟩
  | 97 => ⟨S50000, .f32⟩
  | 98 => ⟨S50000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000, .f32⟩
  | 117 => ⟨S1600000, .f32⟩
  | 118 => ⟨S50000x128, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x128, .f32⟩
  | _ => ⟨S50000x128, .f32⟩

abbrev hbmTy0_2 (i : Nat) : BufTy := match i % 128 with
  | 0 => ⟨S1600000x1, .f32⟩
  | 1 => ⟨S1600000x128, .f32⟩
  | 2 => ⟨S1600000x128, .f32⟩
  | 3 => ⟨S_, .f32⟩
  | 4 => ⟨S50000x128, .f32⟩
  | 5 => ⟨S1600000x1, .i32⟩
  | 6 => ⟨S50000x128, .f32⟩
  | 7 => ⟨S_, .f32⟩
  | 8 => ⟨S50000, .f32⟩
  | 9 => ⟨S50000, .f32⟩
  | 10 => ⟨S50000x1, .f32⟩
  | 11 => ⟨S50000x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S128, .f32⟩
  | 19 => ⟨S_, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S50000x128, .f32⟩
  | 26 => ⟨S_, .f32⟩
  | 27 => ⟨S128, .f32⟩
  | 28 => ⟨S_, .f32⟩
  | 29 => ⟨S128, .f32⟩
  | 30 => ⟨S128, .f32⟩
  | 31 => ⟨S1x128, .f32⟩
  | 32 => ⟨S50000x128, .f32⟩
  | 33 => ⟨S50000x128, .f32⟩
  | 34 => ⟨S_, .f32⟩
  | 35 => ⟨S128, .f32⟩
  | 36 => ⟨S128, .f32⟩
  | 37 => ⟨S128, .f32⟩
  | 38 => ⟨S1x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S50000x128, .f32⟩
  | 49 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_15 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_call0_cst : Ref sig .tc := ⟨.hbm, 111, rfl⟩
abbrev main_call0_v0 : Ref sig .tc := ⟨.hbm, 112, rfl⟩
abbrev main_v79 : Ref sig .tc := ⟨.hbm, 113, rfl⟩
abbrev main_cst_16 : Ref sig .tc := ⟨.hbm, 114, rfl⟩
abbrev main_v80 : Ref sig .tc := ⟨.hbm, 115, rfl⟩
abbrev main_c_17 : Ref sig .tc := ⟨.hbm, 116, rfl⟩
abbrev main_v81 : Ref sig .tc := ⟨.hbm, 117, rfl⟩
abbrev main_v82 : Ref sig .tc := ⟨.hbm, 118, rfl⟩
abbrev main_c_18 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_19 : Ref sig .tc := ⟨.hbm, 124, rfl⟩
abbrev main_v87 : Ref sig .tc := ⟨.hbm, 125, rfl⟩
abbrev main_v88 : Ref sig .tc := ⟨.hbm, 126, rfl⟩
abbrev main_cst_20 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_21 : Ref sig .tc := ⟨.hbm, 131, rfl⟩
abbrev main_v92 : Ref sig .tc := ⟨.hbm, 132, rfl⟩
abbrev main_v93 : Ref sig .tc := ⟨.hbm, 133, rfl⟩
abbrev main_c_22 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_c_23 : Ref sig .tc := ⟨.hbm, 140, rfl⟩
abbrev main_v99 : Ref sig .tc := ⟨.hbm, 141, rfl⟩
abbrev main_v100 : Ref sig .tc := ⟨.hbm, 142, rfl⟩
abbrev main_c_24 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_c_25 : Ref sig .tc := ⟨.hbm, 151, rfl⟩
abbrev main_v108 : Ref sig .tc := ⟨.hbm, 152, rfl⟩
abbrev main_v109 : Ref sig .tc := ⟨.hbm, 153, rfl⟩
abbrev main_c_26 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_27 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_28 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_29 : Ref sig .tc := ⟨.hbm, 177, rfl⟩
abbrev main_v130 : Ref sig .tc := ⟨.hbm, 178, rfl⟩
abbrev main_cst_30 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_cst_31 : Ref sig .tc := ⟨.hbm, 186, rfl⟩
abbrev main_v137 : Ref sig .tc := ⟨.hbm, 187, rfl⟩
abbrev main_cst_32 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_33 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_call1_cst : Ref sig .tc := ⟨.hbm, 207, rfl⟩
abbrev main_call1_v0 : Ref sig .tc := ⟨.hbm, 208, rfl⟩
abbrev main_v155 : Ref sig .tc := ⟨.hbm, 209, rfl⟩
abbrev main_cst_34 : Ref sig .tc := ⟨.hbm, 210, rfl⟩
abbrev main_v156 : Ref sig .tc := ⟨.hbm, 211, rfl⟩
abbrev main_c_35 : Ref sig .tc := ⟨.hbm, 212, rfl⟩
abbrev main_v157 : Ref sig .tc := ⟨.hbm, 213, rfl⟩
abbrev main_v158 : Ref sig .tc := ⟨.hbm, 214, rfl⟩
abbrev main_c_36 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_cst_37 : Ref sig .tc := ⟨.hbm, 220, rfl⟩
abbrev main_v163 : Ref sig .tc := ⟨.hbm, 221, rfl⟩
abbrev main_v164 : Ref sig .tc := ⟨.hbm, 222, rfl⟩
abbrev main_cst_38 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_c_39 : Ref sig .tc := ⟨.hbm, 227, rfl⟩
abbrev main_v168 : Ref sig .tc := ⟨.hbm, 228, rfl⟩
abbrev main_v169 : Ref sig .tc := ⟨.hbm, 229, rfl⟩
abbrev main_c_40 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_c_41 : Ref sig .tc := ⟨.hbm, 236, rfl⟩
abbrev main_v175 : Ref sig .tc := ⟨.hbm, 237, rfl⟩
abbrev main_v176 : Ref sig .tc := ⟨.hbm, 238, rfl⟩
abbrev main_c_42 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_c_43 : Ref sig .tc := ⟨.hbm, 247, rfl⟩
abbrev main_v184 : Ref sig .tc := ⟨.hbm, 248, rfl⟩
abbrev main_v185 : Ref sig .tc := ⟨.hbm, 249, rfl⟩
abbrev main_c_44 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_cst_45 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_cst_46 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_cst_47 : Ref sig .tc := ⟨.hbm, 273, rfl⟩
abbrev main_v206 : Ref sig .tc := ⟨.hbm, 274, rfl⟩
abbrev main_cst_48 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_cst_49 : Ref sig .tc := ⟨.hbm, 282, rfl⟩
abbrev main_v213 : Ref sig .tc := ⟨.hbm, 283, rfl⟩
abbrev main_cst_50 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_cst_51 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_call2_cst : Ref sig .tc := ⟨.hbm, 303, rfl⟩
abbrev main_call2_v0 : Ref sig .tc := ⟨.hbm, 304, rfl⟩
abbrev main_v231 : Ref sig .tc := ⟨.hbm, 305, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.KRun.lean ====
/-
  The idealized kernel program's run, with its result named: every weakly fair execution of the nine regions and
  the host operations between them terminates, the argument arrays end as launched, and the result array holds
  what the fold of the segment boundaries leaves there (the last region's output array after its ten grid points).
-/
import proofs.«139531_j89996744720583_1_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result read: the launch over the sixteen segments, the last thread state read against the
    final memory, the result buffer at the last boundary's contents and each argument walked back to the launch. -/
theorem run_value : θ_run defs (onTc (τ := τ) (main (F := F))) ⟨m, fun _ => 0, ρ⟩ (fun r => ∀ c : Dev nD,
      r.2.mem ((c.tc : Thread nD τ).loc main_v129) = W16 m ρ c (Proc.devRef .tc main_v129)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v129 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c)⟩)

end Cert.KernelIdeal.RunValue

end
-- ==== Proof.Spec.lean ====
/-
  The dense pieces of one graph-convolution layer over 50000 nodes and 128 features, as functions of whole
  arrays on the extended reals, entry by entry:
  * `mm h w`         : the matrix product, entry (r, j) the sum over k < 128 of h(r,k) * w(k,j);
  * `colSum x`       : the 1 x 128 row of column sums of x;
  * `colSumSq x`     : the 1 x 128 row of column sums of squares of x;
  * `bnApply x mean var g be` : max (((x(r,j) - mean(0,j)) * rsqrt (var(0,j) + eps)) * g(0,j) + be(0,j), 0),
    the batch normalisation of column j followed by the rectifier, eps the single-precision value nearest 1e-5.
-/
import Idealize.ShloMosaic.PureOps.Ideal
import Idealize.ShloMosaic.Lib.ValueIdx

noncomputable section

namespace Cert.GcnBn

open Idealize.ShloMosaic Idealize.ShloMosaic.ValueIdx

/-- Nodes by features. -/
abbrev SNxD : Shape := ⟨2, ![50000, 128]⟩
/-- A weight matrix. -/
abbrev SDxD : Shape := ⟨2, ![128, 128]⟩
/-- One row of per-feature numbers. -/
abbrev S1xD : Shape := ⟨2, ![1, 128]⟩

/-- Every entry is a real number (neither infinity). -/
def AllReal {S : Shape} (x : S.Idx → EReal) : Prop := ∀ i, ∃ r : ℝ, x i = (r : EReal)

/-- The matrix product h · w. -/
def mm (h : SNxD.Idx → EReal) (w : SDxD.Idx → EReal) : SNxD.Idx → EReal :=
  fun i => ∑ k : Fin 128, h (ix2 (i 0) k) * w (ix2 k (i 1))

/-- The column sums of x, as one row. -/
def colSum (x : SNxD.Idx → EReal) : S1xD.Idx → EReal :=
  fun i => ∑ r : Fin 50000, x (ix2 r (i 1))

/-- The column sums of the squares of x, as one row. -/
def colSumSq (x : SNxD.Idx → EReal) : S1xD.Idx → EReal :=
  fun i => ∑ r : Fin 50000, x (ix2 r (i 1)) * x (ix2 r (i 1))

/-- The stabiliser added to the variance: the single-precision value nearest 1e-5. -/
def eps : EReal := Ideal.ofBits .f32 0x3727C5AC#32

/-- Normalise column j by the row-vectors mean and var, scale by g, shift by be, and clamp below at 0. -/
def bnApply (x : SNxD.Idx → EReal) (mean var g be : S1xD.Idx → EReal) : SNxD.Idx → EReal :=
  fun i => max ((((x i - mean (ix2 0 (i 1))) * Ideal.rsqrt (var (ix2 0 (i 1)) + eps)) * g (ix2 0 (i 1))) + be (ix2 0 (i 1))) 0

/-- The number of nodes as a single-precision literal (50000 is exactly representable). -/
def c50000 : EReal := Ideal.ofBits .f32 0x47435000#32

/-- The row of column means from the row of column sums. -/
def meanRow (s : S1xD.Idx → EReal) : S1xD.Idx → EReal := fun i => Ideal.div (s i) c50000

/-- The row of column variances from the rows of column sums and column sums of squares: mean of squares minus
    squared mean. -/
def varRow (s1 s2 : S1xD.Idx → EReal) : S1xD.Idx → EReal :=
  fun i => Ideal.div (s2 i) c50000 - meanRow s1 i * meanRow s1 i

/-- A length-128 vector as one row. -/
def rowOf (g : (⟨1, ![128]⟩ : Shape).Idx → EReal) : S1xD.Idx → EReal := fun i => g (ix1 (i 1))

/-- Training-mode batch normalisation of the columns of P followed by the rectifier, with the statistics computed
    as column sums and column sums of squares. -/
def bnLayer (P : SNxD.Idx → EReal) (g be : (⟨1, ![128]⟩ : Shape).Idx → EReal) : SNxD.Idx → EReal :=
  bnApply P (meanRow (colSum P)) (varRow (colSum P) (colSumSq P)) (rowOf g) (rowOf be)

end Cert.GcnBn

end
-- ==== Proof.KCarry.lean ====
/-
  Buffers that survive segments: an argument array, and an intermediate array computed before a region or a stretch
  of host operations that neither writes it, holds after the segment what it held before. Each statement walks one
  buffer back through the boundaries between the segments of the idealized kernel program.
-/
import proofs.«139531_j89996744720583_1_alg».proof.Proof.Gen.KernelIdeal.Frame

set_option maxRecDepth 16384

noncomputable section

namespace Cert.KernelIdeal.Carry

open Idealize.ShloMosaic Idealize.ShloMosaic.TcCoe Idealize.ShloMosaic.Tactic
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

theorem carry_main_arg0_0_1 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_arg2_0_1 (c : Dev nD) : W1 m ρ c (Proc.devRef .tc main_arg2) = W0 m ρ c (Proc.devRef .tc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_v1_1_2 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem carry_main_v3_1_2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem carry_main_v30_1_2 (c : Dev nD) : W2 m ρ c (Proc.devRef .tc main_v30) = W1 m ρ c (Proc.devRef .tc main_v30) :=
  calc W2 m ρ c (Proc.devRef .tc main_v30)
    _ = W1 m ρ c (Proc.devRef .tc main_v30) := W2_of_ne m ρ c main_v30 (by decide)

theorem carry_main_v14_1_2 (c : Dev nD) : W2 m ρ c (Proc.devRef .tc main_v14) = W1 m ρ c (Proc.devRef .tc main_v14) :=
  calc W2 m ρ c (Proc.devRef .tc main_v14)
    _ = W1 m ρ c (Proc.devRef .tc main_v14) := W2_of_ne m ρ c main_v14 (by decide)

theorem carry_main_arg3_0_2 (c : Dev nD) : W2 m ρ c (Proc.devRef .tc main_arg3) = W0 m ρ c (Proc.devRef .tc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_arg4_0_4 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_arg5_0_4 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_v53_3_5 (c : Dev nD) : W5 m ρ c (Proc.devRef .tc main_v53) = W3 m ρ c (Proc.devRef .tc main_v53) :=
  calc W5 m ρ c (Proc.devRef .tc main_v53)
    _ = W4 m ρ c (Proc.devRef .tc main_v53) := StableHlo.after_of_forall_not_mem (b := Proc.devRef .tc main_v53) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v53) := (W4_arr m ρ c 0).trans (((dat1 (V3 m ρ) c).arrAt_in 0 rfl _).trans (A_eq1 (V3 m ρ) c 0))

theorem carry_main_arg6_0_6 (c : Dev nD) : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_v1_2_7 (c : Dev nD) : W7 m ρ c (Proc.devRef .tc main_v1) = W2 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_v3_2_7 (c : Dev nD) : W7 m ρ c (Proc.devRef .tc main_v3) = W2 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_v30_2_7 (c : Dev nD) : W7 m ρ c (Proc.devRef .tc main_v30) = W2 m ρ c (Proc.devRef .tc main_v30) :=
  calc W7 m ρ c (Proc.devRef .tc main_v30)
    _ = W6 m ρ c (Proc.devRef .tc main_v30) := W7_of_ne m ρ c main_v30 (by decide)
    _ = W5 m ρ c (Proc.devRef .tc main_v30) := W6_of_ne m ρ c main_v30 (by decide)
    _ = W4 m ρ c (Proc.devRef .tc main_v30) := StableHlo.after_of_forall_not_mem (b := Proc.devRef .tc main_v30) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v30) := W4_of_ne m ρ c main_v30 (by decide)
    _ = W2 m ρ c (Proc.devRef .tc main_v30) := StableHlo.after_of_forall_not_mem (b := Proc.devRef .tc main_v30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_v14_2_7 (c : Dev nD) : W7 m ρ c (Proc.devRef .tc main_v14) = W2 m ρ c (Proc.devRef .tc main_v14) :=
  calc W7 m ρ c (Proc.devRef .tc main_v14)
    _ = W6 m ρ c (Proc.devRef .tc main_v14) := W7_of_ne m ρ c main_v14 (by decide)
    _ = W5 m ρ c (Proc.devRef .tc main_v14) := W6_of_ne m ρ c main_v14 (by decide)
    _ = W4 m ρ c (Proc.devRef .tc main_v14) := StableHlo.after_of_forall_not_mem (b := Proc.devRef .tc main_v14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v14) := W4_of_ne m ρ c main_v14 (by decide)
    _ = W2 m ρ c (Proc.devRef .tc main_v14) := StableHlo.after_of_forall_not_mem (b := Proc.devRef .tc main_v14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_arg7_0_7 (c : Dev nD) : W7 m ρ c (Proc.devRef .tc main_arg7) = W0 m ρ c (Proc.devRef .tc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_arg8_0_9 (c : Dev nD) : W9 m ρ c (Proc.devRef .tc main_arg8) = W0 m ρ c (Proc.devRef .tc main_arg8) :=
  calc W9 m ρ c (Proc.devRef .tc main_arg8)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_arg9_0_9 (c : Dev nD) : W9 m ρ c (Proc.devRef .tc main_arg9) = W0 m ρ c (Proc.devRef .tc main_arg9) :=
  calc W9 m ρ c (Proc.devRef .tc main_arg9)
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_v86_8_10 (c : Dev nD) : W10 m ρ c (Proc.devRef .tc main_v86) = W8 m ρ c (Proc.devRef .tc main_v86) :=
  calc W10 m ρ c (Proc.devRef .tc main_v86)
    _ = W9 m ρ c (Proc.devRef .tc main_v86) := StableHlo.after_of_forall_not_mem (b := Proc.devRef .tc main_v86) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v86) := (W9_arr m ρ c 0).trans (((dat4 (V8 m ρ) c).arrAt_in 0 rfl _).trans (A_eq4 (V8 m ρ) c 0))

theorem carry_main_arg10_0_11 (c : Dev nD) : W11 m ρ c (Proc.devRef .tc main_arg10) = W0 m ρ c (Proc.devRef .tc main_arg10) :=
  calc W11 m ρ c (Proc.devRef .tc main_arg10)
    _ = W10 m ρ c (Proc.devRef .tc main_arg10) := W11_of_ne m ρ c main_arg10 (by decide)
    _ = W9 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg10) := W9_of_ne m ρ c main_arg10 (by decide)
    _ = W7 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_v1_7_12 (c : Dev nD) : W12 m ρ c (Proc.devRef .tc main_v1) = W7 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := W11_of_ne m ρ c main_v1 (by decide)
    _ = W9 m ρ c (Proc.devRef .tc main_v1) := StableHlo.after_of_forall_not_mem (b := Proc.devRef .tc main_v1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v1) := W9_of_ne m ρ c main_v1 (by decide)
    _ = W7 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_v3_7_12 (c : Dev nD) : W12 m ρ c (Proc.devRef .tc main_v3) = W7 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_v30_7_12 (c : Dev nD) : W12 m ρ c (Proc.devRef .tc main_v30) = W7 m ρ c (Proc.devRef .tc main_v30) :=
  calc W12 m ρ c (Proc.devRef .tc main_v30)
    _ = W11 m ρ c (Proc.devRef .tc main_v30) := W12_of_ne m ρ c main_v30 (by decide)
    _ = W10 m ρ c (Proc.devRef .tc main_v30) := W11_of_ne m ρ c main_v30 (by decide)
    _ = W9 m ρ c (Proc.devRef .tc main_v30) := StableHlo.after_of_forall_not_mem (b := Proc.devRef .tc main_v30) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v30) := W9_of_ne m ρ c main_v30 (by decide)
    _ = W7 m ρ c (Proc.devRef .tc main_v30) := StableHlo.after_of_forall_not_mem (b := Proc.devRef .tc main_v30) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_v14_7_12 (c : Dev nD) : W12 m ρ c (Proc.devRef .tc main_v14) = W7 m ρ c (Proc.devRef .tc main_v14) :=
  calc W12 m ρ c (Proc.devRef .tc main_v14)
    _ = W11 m ρ c (Proc.devRef .tc main_v14) := W12_of_ne m ρ c main_v14 (by decide)
    _ = W10 m ρ c (Proc.devRef .tc main_v14) := W11_of_ne m ρ c main_v14 (by decide)
    _ = W9 m ρ c (Proc.devRef .tc main_v14) := StableHlo.after_of_forall_not_mem (b := Proc.devRef .tc main_v14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v14) := W9_of_ne m ρ c main_v14 (by decide)
    _ = W7 m ρ c (Proc.devRef .tc main_v14) := StableHlo.after_of_forall_not_mem (b := Proc.devRef .tc main_v14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_arg11_0_12 (c : Dev nD) : W12 m ρ c (Proc.devRef .tc main_arg11) = W0 m ρ c (Proc.devRef .tc main_arg11) :=
  calc W12 m ρ c (Proc.devRef .tc main_arg11)
    _ = W11 m ρ c (Proc.devRef .tc main_arg11) := W12_of_ne m ρ c main_arg11 (by decide)
    _ = W10 m ρ c (Proc.devRef .tc main_arg11) := W11_of_ne m ρ c main_arg11 (by decide)
    _ = W9 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg11) := W9_of_ne m ρ c main_arg11 (by decide)
    _ = W7 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_arg12_0_14 (c : Dev nD) : W14 m ρ c (Proc.devRef .tc main_arg12) = W0 m ρ c (Proc.devRef .tc main_arg12) :=
  calc W14 m ρ c (Proc.devRef .tc main_arg12)
    _ = W13 m ρ c (Proc.devRef .tc main_arg12) := W14_of_ne m ρ c main_arg12 (by decide)
    _ = W12 m ρ c (Proc.devRef .tc main_arg12) := StableHlo.after_of_forall_not_mem (b := Proc.devRef .tc main_arg12) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg12) := W12_of_ne m ρ c main_arg12 (by decide)
    _ = W10 m ρ c (Proc.devRef .tc main_arg12) := W11_of_ne m ρ c main_arg12 (by decide)
    _ = W9 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg12) := W9_of_ne m ρ c main_arg12 (by decide)
    _ = W7 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_arg13_0_14 (c : Dev nD) : W14 m ρ c (Proc.devRef .tc main_arg13) = W0 m ρ c (Proc.devRef .tc main_arg13) :=
  calc W14 m ρ c (Proc.devRef .tc main_arg13)
    _ = W13 m ρ c (Proc.devRef .tc main_arg13) := W14_of_ne m ρ c main_arg13 (by decide)
    _ = W12 m ρ c (Proc.devRef .tc main_arg13) := StableHlo.after_of_forall_not_mem (b := Proc.devRef .tc main_arg13) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg13) := W12_of_ne m ρ c main_arg13 (by decide)
    _ = W10 m ρ c (Proc.devRef .tc main_arg13) := W11_of_ne m ρ c main_arg13 (by decide)
    _ = W9 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg13) := W9_of_ne m ρ c main_arg13 (by decide)
    _ = W7 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_main_v119_13_15 (c : Dev nD) : W15 m ρ c (Proc.devRef .tc main_v119) = W13 m ρ c (Proc.devRef .tc main_v119) :=
  calc W15 m ρ c (Proc.devRef .tc main_v119)
    _ = W14 m ρ c (Proc.devRef .tc main_v119) := StableHlo.after_of_forall_not_mem (b := Proc.devRef .tc main_v119) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v119) := (W14_arr m ρ c 0).trans (((dat7 (V13 m ρ) c).arrAt_in 0 rfl _).trans (A_eq7 (V13 m ρ) c 0))

end Cert.KernelIdeal.Carry

end
-- ==== Proof.KHost.lean ====
/-
  What the stretches of host operations of the idealized kernel program leave in the buffers they write, for
  arbitrary buffer contents before the stretch, as the reference program's stage functions of the same
  operations: the edge preprocessing (source and target lists, degrees, edge weights) and, for each of the
  three layers, the aggregation before the batch normalisation (gather along the edges, scaling by the edge
  weights, scatter-add, the self term, the bias).
-/
import proofs.«139531_j89996744720583_1_alg».proof.Proof.Gen.KernelIdeal.Launch
import proofs.«139531_j89996744720583_1_alg».proof.Proof.RefRead
import Idealize.ShloMosaic.Lib.StableHlo.Run

set_option maxRecDepth 16384

noncomputable section

open Idealize.ShloMosaic Idealize.ShloMosaic.TcCoe Idealize.SL.Sem
open Idealize.ShloMosaic.StableHlo

namespace Cert.KernelIdeal.HostVal

open Cert.KernelIdeal Cert.KernelIdeal.Gen

/-! ## The edge preprocessing (the first stretch) -/

/-- The source list of the edges. -/
theorem host0_v1 (W : Valuation τ sig (Elt Ideal)) :
    StableHlo.after (hostOps0 (F := Ideal)) W (Proc.devRef .tc main_v1)
      = Cert.ReferenceIdeal.Read.val_main_v1 (F := Ideal) (W (Proc.devRef .tc main_arg1)) := by
  after_results_simp
  rfl

/-- The target list of the edges. -/
theorem host0_v3 (W : Valuation τ sig (Elt Ideal)) :
    StableHlo.after (hostOps0 (F := Ideal)) W (Proc.devRef .tc main_v3)
      = Cert.ReferenceIdeal.Read.val_main_v3 (F := Ideal) (W (Proc.devRef .tc main_arg1)) := by
  after_results_simp
  rfl

/-- The degrees of the nodes (with the self loop counted twice). -/
theorem host0_v14 (W : Valuation τ sig (Elt Ideal)) :
    StableHlo.after (hostOps0 (F := Ideal)) W (Proc.devRef .tc main_v14)
      = Cert.ReferenceIdeal.Read.val_main_v14 (F := Ideal) (W (Proc.devRef .tc main_arg1)) := by
  after_results_simp
  rfl

/-- The weights of the edges. -/
theorem host0_v30 (W : Valuation τ sig (Elt Ideal)) :
    StableHlo.after (hostOps0 (F := Ideal)) W (Proc.devRef .tc main_v30)
      = Cert.ReferenceIdeal.Read.val_main_v30 (F := Ideal) (W (Proc.devRef .tc main_arg1)) := by
  after_results_simp
  rfl

/-! ## The aggregation of each layer (the stretch before each statistics region)

The three stretches are the same operations on different buffers; each re-derives the gather indices from the
source list and the self-term factor from the degrees, as the reference's first layer does, so all three are
the reference's first-layer stage function of the layer's own inputs. -/

set_option maxHeartbeats 1000000 in
/-- The aggregation of a layer before its batch normalisation, from the edge lists, degrees and edge weights
    of the preprocessing, the product of the layer's input and weight matrix, and the bias. -/
theorem host1_pre (W : Valuation τ sig (Elt Ideal))
    (H : (⟨Cert.ReferenceIdeal.S50000x128, .f32⟩ : BufTy).Contents (Elt Ideal))
    (a1 : (⟨Cert.ReferenceIdeal.S2x1600000, .i32⟩ : BufTy).Contents (Elt Ideal))
    (Wt : (⟨Cert.ReferenceIdeal.S128x128, .f32⟩ : BufTy).Contents (Elt Ideal))
    (b : (⟨Cert.ReferenceIdeal.S128, .f32⟩ : BufTy).Contents (Elt Ideal))
    (h1 : W (Proc.devRef .tc main_v1) = Cert.ReferenceIdeal.Read.val_main_v1 (F := Ideal) a1)
    (h3 : W (Proc.devRef .tc main_v3) = Cert.ReferenceIdeal.Read.val_main_v3 (F := Ideal) a1)
    (h14 : W (Proc.devRef .tc main_v14) = Cert.ReferenceIdeal.Read.val_main_v14 (F := Ideal) a1)
    (h30 : W (Proc.devRef .tc main_v30) = Cert.ReferenceIdeal.Read.val_main_v30 (F := Ideal) a1)
    (hhw : W (Proc.devRef .tc main_v31) = Cert.ReferenceIdeal.Read.val_main_v31 (F := Ideal) H Wt)
    (hb : W (Proc.devRef .tc main_arg3) = b) :
    StableHlo.after (hostOps1 (F := Ideal)) W (Proc.devRef .tc main_v53)
      = Cert.ReferenceIdeal.Read.val_main_v53 (F := Ideal) H a1 Wt b := by
  after_results_simp
  rw [h1, h3, h14, h30, hhw, hb]
  rfl

set_option maxHeartbeats 1000000 in
/-- The aggregation of a layer before its batch normalisation, from the edge lists, degrees and edge weights
    of the preprocessing, the product of the layer's input and weight matrix, and the bias. -/
theorem host4_pre (W : Valuation τ sig (Elt Ideal))
    (H : (⟨Cert.ReferenceIdeal.S50000x128, .f32⟩ : BufTy).Contents (Elt Ideal))
    (a1 : (⟨Cert.ReferenceIdeal.S2x1600000, .i32⟩ : BufTy).Contents (Elt Ideal))
    (Wt : (⟨Cert.ReferenceIdeal.S128x128, .f32⟩ : BufTy).Contents (Elt Ideal))
    (b : (⟨Cert.ReferenceIdeal.S128, .f32⟩ : BufTy).Contents (Elt Ideal))
    (h1 : W (Proc.devRef .tc main_v1) = Cert.ReferenceIdeal.Read.val_main_v1 (F := Ideal) a1)
    (h3 : W (Proc.devRef .tc main_v3) = Cert.ReferenceIdeal.Read.val_main_v3 (F := Ideal) a1)
    (h14 : W (Proc.devRef .tc main_v14) = Cert.ReferenceIdeal.Read.val_main_v14 (F := Ideal) a1)
    (h30 : W (Proc.devRef .tc main_v30) = Cert.ReferenceIdeal.Read.val_main_v30 (F := Ideal) a1)
    (hhw : W (Proc.devRef .tc main_v64) = Cert.ReferenceIdeal.Read.val_main_v31 (F := Ideal) H Wt)
    (hb : W (Proc.devRef .tc main_arg7) = b) :
    StableHlo.after (hostOps4 (F := Ideal)) W (Proc.devRef .tc main_v86)
      = Cert.ReferenceIdeal.Read.val_main_v53 (F := Ideal) H a1 Wt b := by
  after_results_simp
  rw [h1, h3, h14, h30, hhw, hb]
  rfl

set_option maxHeartbeats 1000000 in
/-- The aggregation of a layer before its batch normalisation, from the edge lists, degrees and edge weights
    of the preprocessing, the product of the layer's input and weight matrix, and the bias. -/
theorem host7_pre (W : Valuation τ sig (Elt Ideal))
    (H : (⟨Cert.ReferenceIdeal.S50000x128, .f32⟩ : BufTy).Contents (Elt Ideal))
    (a1 : (⟨Cert.ReferenceIdeal.S2x1600000, .i32⟩ : BufTy).Contents (Elt Ideal))
    (Wt : (⟨Cert.ReferenceIdeal.S128x128, .f32⟩ : BufTy).Contents (Elt Ideal))
    (b : (⟨Cert.ReferenceIdeal.S128, .f32⟩ : BufTy).Contents (Elt Ideal))
    (h1 : W (Proc.devRef .tc main_v1) = Cert.ReferenceIdeal.Read.val_main_v1 (F := Ideal) a1)
    (h3 : W (Proc.devRef .tc main_v3) = Cert.ReferenceIdeal.Read.val_main_v3 (F := Ideal) a1)
    (h14 : W (Proc.devRef .tc main_v14) = Cert.ReferenceIdeal.Read.val_main_v14 (F := Ideal) a1)
    (h30 : W (Proc.devRef .tc main_v30) = Cert.ReferenceIdeal.Read.val_main_v30 (F := Ideal) a1)
    (hhw : W (Proc.devRef .tc main_v97) = Cert.ReferenceIdeal.Read.val_main_v31 (F := Ideal) H Wt)
    (hb : W (Proc.devRef .tc main_arg11) = b) :
    StableHlo.after (hostOps7 (F := Ideal)) W (Proc.devRef .tc main_v119)
      = Cert.ReferenceIdeal.Read.val_main_v53 (F := Ideal) H a1 Wt b := by
  after_results_simp
  rw [h1, h3, h14, h30, hhw, hb]
  rfl

end Cert.KernelIdeal.HostVal
end
-- ==== Proof.KHostBn.lean ====
/-
  The rows that feed the batch normalisation, as the stretch of host operations after each statistics region
  leaves them, for arbitrary buffer contents before the stretch: the row of column means and the row of column
  variances from the rows of column sums and column sums of squares, and the scale and shift vectors as rows.
-/
import proofs.«139531_j89996744720583_1_alg».proof.Proof.Gen.KernelIdeal.Launch
import proofs.«139531_j89996744720583_1_alg».proof.Proof.Spec
import Idealize.ShloMosaic.Lib.StableHlo.Run
import Idealize.ShloMosaic.Lib.IdealHost
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.StableHlo

namespace Cert.KernelIdeal.HostVal

open Cert.KernelIdeal Cert.KernelIdeal.Gen

/-! ## The rows that feed the batch normalisation (the stretch after each statistics region) -/

/-- A scalar constant broadcast to a 1 x 128 row reads the constant's value everywhere. -/
theorem row_const_apply (b : BitVec 32) (i : S1x128.Idx) :
    broadcastInDim S1x128 ![] bcast_S_S1x128 (constant (F := Ideal) S_ .f32 b) i = Ideal.ofBits .f32 b :=
  broadcastInDim_scalar_apply _ _ i

/-- The row of column means: the row of column sums divided by the number of nodes. -/
theorem host2_mean (W : Valuation τ sig (Elt Ideal)) :
    (StableHlo.after (hostOps2 (F := Ideal)) W (Proc.devRef .tc main_v56) : S1x128.Idx → EReal)
      = Cert.GcnBn.meanRow (W (Proc.devRef .tc main_v54_0)) := by
  after_results
  funext i
  exact congrArg (Ideal.div (W (Proc.devRef .tc main_v54_0) i)) (row_const_apply _ i)

/-- The row of column variances: the mean of the squares minus the squared mean. -/
theorem host2_var (W : Valuation τ sig (Elt Ideal)) :
    (StableHlo.after (hostOps2 (F := Ideal)) W (Proc.devRef .tc main_v60) : S1x128.Idx → EReal)
      = Cert.GcnBn.varRow (W (Proc.devRef .tc main_v54_0)) (W (Proc.devRef .tc main_v54_1)) := by
  after_results
  funext i
  refine congrArg₂ (· - ·) (congrArg (Ideal.div (W (Proc.devRef .tc main_v54_1) i)) (row_const_apply _ i))
    (congrArg₂ (· * ·) ?_ ?_) <;>
  exact congrArg (Ideal.div (W (Proc.devRef .tc main_v54_0) i)) (row_const_apply _ i)

/-- The scale vector as one row. -/
theorem host2_g (W : Valuation τ sig (Elt Ideal)) :
    (StableHlo.after (hostOps2 (F := Ideal)) W (Proc.devRef .tc main_v61) : S1x128.Idx → EReal)
      = Cert.GcnBn.rowOf (W (Proc.devRef .tc main_arg4)) := by
  after_results
  funext i
  obtain ⟨u, q, rfl⟩ : ∃ (u : Fin 1) (q : Fin 128), i = ix2 u q := ⟨i 0, i 1, eq_ix2 i⟩
  exact shapeCast_a_1a_apply (W (Proc.devRef .tc main_arg4)) shapeCasts_S128_S1x128 u q

/-- The shift vector as one row. -/
theorem host2_be (W : Valuation τ sig (Elt Ideal)) :
    (StableHlo.after (hostOps2 (F := Ideal)) W (Proc.devRef .tc main_v62) : S1x128.Idx → EReal)
      = Cert.GcnBn.rowOf (W (Proc.devRef .tc main_arg5)) := by
  after_results
  funext i
  obtain ⟨u, q, rfl⟩ : ∃ (u : Fin 1) (q : Fin 128), i = ix2 u q := ⟨i 0, i 1, eq_ix2 i⟩
  exact shapeCast_a_1a_apply (W (Proc.devRef .tc main_arg5)) shapeCasts_S128_S1x128 u q

/-- The row of column means: the row of column sums divided by the number of nodes. -/
theorem host5_mean (W : Valuation τ sig (Elt Ideal)) :
    (StableHlo.after (hostOps5 (F := Ideal)) W (Proc.devRef .tc main_v89) : S1x128.Idx → EReal)
      = Cert.GcnBn.meanRow (W (Proc.devRef .tc main_v87_0)) := by
  after_results
  funext i
  exact congrArg (Ideal.div (W (Proc.devRef .tc main_v87_0) i)) (row_const_apply _ i)

/-- The row of column variances: the mean of the squares minus the squared mean. -/
theorem host5_var (W : Valuation τ sig (Elt Ideal)) :
    (StableHlo.after (hostOps5 (F := Ideal)) W (Proc.devRef .tc main_v93) : S1x128.Idx → EReal)
      = Cert.GcnBn.varRow (W (Proc.devRef .tc main_v87_0)) (W (Proc.devRef .tc main_v87_1)) := by
  after_results
  funext i
  refine congrArg₂ (· - ·) (congrArg (Ideal.div (W (Proc.devRef .tc main_v87_1) i)) (row_const_apply _ i))
    (congrArg₂ (· * ·) ?_ ?_) <;>
  exact congrArg (Ideal.div (W (Proc.devRef .tc main_v87_0) i)) (row_const_apply _ i)

/-- The scale vector as one row. -/
theorem host5_g (W : Valuation τ sig (Elt Ideal)) :
    (StableHlo.after (hostOps5 (F := Ideal)) W (Proc.devRef .tc main_v94) : S1x128.Idx → EReal)
      = Cert.GcnBn.rowOf (W (Proc.devRef .tc main_arg8)) := by
  after_results
  funext i
  obtain ⟨u, q, rfl⟩ : ∃ (u : Fin 1) (q : Fin 128), i = ix2 u q := ⟨i 0, i 1, eq_ix2 i⟩
  exact shapeCast_a_1a_apply (W (Proc.devRef .tc main_arg8)) shapeCasts_S128_S1x128 u q

/-- The shift vector as one row. -/
theorem host5_be (W : Valuation τ sig (Elt Ideal)) :
    (StableHlo.after (hostOps5 (F := Ideal)) W (Proc.devRef .tc main_v95) : S1x128.Idx → EReal)
      = Cert.GcnBn.rowOf (W (Proc.devRef .tc main_arg9)) := by
  after_results
  funext i
  obtain ⟨u, q, rfl⟩ : ∃ (u : Fin 1) (q : Fin 128), i = ix2 u q := ⟨i 0, i 1, eq_ix2 i⟩
  exact shapeCast_a_1a_apply (W (Proc.devRef .tc main_arg9)) shapeCasts_S128_S1x128 u q

/-- The row of column means: the row of column sums divided by the number of nodes. -/
theorem host8_mean (W : Valuation τ sig (Elt Ideal)) :
    (StableHlo.after (hostOps8 (F := Ideal)) W (Proc.devRef .tc main_v122) : S1x128.Idx → EReal)
      = Cert.GcnBn.meanRow (W (Proc.devRef .tc main_v120_0)) := by
  after_results
  funext i
  exact congrArg (Ideal.div (W (Proc.devRef .tc main_v120_0) i)) (row_const_apply _ i)

/-- The row of column variances: the mean of the squares minus the squared mean. -/
theorem host8_var (W : Valuation τ sig (Elt Ideal)) :
    (StableHlo.after (hostOps8 (F := Ideal)) W (Proc.devRef .tc main_v126) : S1x128.Idx → EReal)
      = Cert.GcnBn.varRow (W (Proc.devRef .tc main_v120_0)) (W (Proc.devRef .tc main_v120_1)) := by
  after_results
  funext i
  refine congrArg₂ (· - ·) (congrArg (Ideal.div (W (Proc.devRef .tc main_v120_1) i)) (row_const_apply _ i))
    (congrArg₂ (· * ·) ?_ ?_) <;>
  exact congrArg (Ideal.div (W (Proc.devRef .tc main_v120_0) i)) (row_const_apply _ i)

/-- The scale vector as one row. -/
theorem host8_g (W : Valuation τ sig (Elt Ideal)) :
    (StableHlo.after (hostOps8 (F := Ideal)) W (Proc.devRef .tc main_v127) : S1x128.Idx → EReal)
      = Cert.GcnBn.rowOf (W (Proc.devRef .tc main_arg12)) := by
  after_results
  funext i
  obtain ⟨u, q, rfl⟩ : ∃ (u : Fin 1) (q : Fin 128), i = ix2 u q := ⟨i 0, i 1, eq_ix2 i⟩
  exact shapeCast_a_1a_apply (W (Proc.devRef .tc main_arg12)) shapeCasts_S128_S1x128 u q

/-- The shift vector as one row. -/
theorem host8_be (W : Valuation τ sig (Elt Ideal)) :
    (StableHlo.after (hostOps8 (F := Ideal)) W (Proc.devRef .tc main_v128) : S1x128.Idx → EReal)
      = Cert.GcnBn.rowOf (W (Proc.devRef .tc main_arg13)) := by
  after_results
  funext i
  obtain ⟨u, q, rfl⟩ : ∃ (u : Fin 1) (q : Fin 128), i = ix2 u q := ⟨i 0, i 1, eq_ix2 i⟩
  exact shapeCast_a_1a_apply (W (Proc.devRef .tc main_arg13)) shapeCasts_S128_S1x128 u q

end Cert.KernelIdeal.HostVal
end
-- ==== Proof.Variance.lean ====
/-
  Batch statistics of finitely many real numbers, read on the extended reals.
  * The variance two ways: the mean of the squared deviations from the mean equals the mean of the squares minus the
    square of the mean (`real_var` over the reals, `var_two_ways` for the exact division on the extended reals).
  * A normalised, scaled, shifted and clamped entry of real data is a real number, because the variance of real data
    is a non-negative real and the stabiliser added to it is positive (`bn_entry_real`).
-/
import Idealize.ShloMosaic.PureOps.Ideal
import Mathlib.Tactic

noncomputable section

namespace Cert.GcnBn

open Idealize.ShloMosaic

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Mean of squared deviations = mean of squares − squared mean, for N real numbers and c = N ≠ 0. -/
theorem real_var {N : ℕ} (p : Fin N → ℝ) (c : ℝ) (hc : c = N) (hc0 : c ≠ 0) :
    (∑ k, (p k - (∑ k, p k) * (1 / c)) * (p k - (∑ k, p k) * (1 / c))) * (1 / c)
      = (∑ k, p k * p k) * (1 / c) - ((∑ k, p k) * (1 / c)) * ((∑ k, p k) * (1 / c)) := by
  have h : ∀ k, (p k - (∑ k, p k) * (1 / c)) * (p k - (∑ k, p k) * (1 / c))
      = p k * p k - 2 * ((∑ k, p k) * (1 / c)) * p k + ((∑ k, p k) * (1 / c)) * ((∑ k, p k) * (1 / c)) := fun k => by ring
  simp_rw [h]
  rw [Finset.sum_add_distrib, Finset.sum_sub_distrib, ← Finset.mul_sum, Finset.sum_const, Finset.card_univ,
    Fintype.card_fin, nsmul_eq_mul, ← hc]
  field_simp
  ring

/-- The exact quotient of two reals, the divisor not zero, is the real quotient. -/
theorem div_coe_coe (a c : ℝ) (hc : c ≠ 0) : Ideal.div (a : EReal) (c : EReal) = ((a * (1 / c) : ℝ) : EReal) := by
  rw [Ideal.div_coe hc, ← EReal.coe_mul]

/-- The variance two ways on the extended reals, for real data: the divisor is the number of data. -/
theorem var_two_ways {N : ℕ} (hN : 0 < N) (p : Fin N → ℝ) (c : EReal) (hc : c = ((N : ℝ) : EReal)) :
    Ideal.div (0 + ∑ k, ((p k : EReal) - Ideal.div (0 + ∑ k, (p k : EReal)) c) * ((p k : EReal) - Ideal.div (0 + ∑ k, (p k : EReal)) c)) c
      = Ideal.div (∑ k, (p k : EReal) * (p k : EReal)) c - Ideal.div (∑ k, (p k : EReal)) c * Ideal.div (∑ k, (p k : EReal)) c := by
  subst hc
  have hN0 : ((N : ℝ)) ≠ 0 := Nat.cast_ne_zero.mpr hN.ne'
  simp only [zero_add]
  rw [← coe_sum, div_coe_coe _ _ hN0]
  simp only [← EReal.coe_sub, ← EReal.coe_mul]
  rw [← coe_sum, ← coe_sum, div_coe_coe _ _ hN0, div_coe_coe _ _ hN0, ← EReal.coe_sub]
  exact congrArg _ (real_var p (N : ℝ) rfl hN0)

/-- The reciprocal square root of a positive real is a real. -/
theorem rsqrt_pos_real {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- The larger of a real and zero is a real. -/
theorem max_coe_zero (a : ℝ) : ∃ y : ℝ, max (a : EReal) ((0 : ℝ) : EReal) = (y : EReal) := by
  rcases le_total a 0 with h | h
  · exact ⟨0, max_eq_right (EReal.coe_le_coe_iff.mpr h)⟩
  · exact ⟨a, max_eq_left (EReal.coe_le_coe_iff.mpr h)⟩

/-- A batch-normalised entry of real data, scaled and shifted by reals and clamped below at 0, is a real:
    the variance is a mean of squares, so not negative, and the stabiliser is positive. -/
theorem bn_entry_real {N : ℕ} (hN : 0 < N) (p : Fin N → ℝ) (r : Fin N) (g b e : ℝ) (he : 0 < e) (c : EReal) (hc : c = ((N : ℝ) : EReal)) :
    ∃ y : ℝ, max (((((p r : EReal) - Ideal.div (0 + ∑ k, (p k : EReal)) c)
        * Ideal.rsqrt (Ideal.div (0 + ∑ k, ((p k : EReal) - Ideal.div (0 + ∑ k, (p k : EReal)) c) * ((p k : EReal) - Ideal.div (0 + ∑ k, (p k : EReal)) c)) c + (e : EReal)))
        * (g : EReal)) + (b : EReal)) 0 = (y : EReal) := by
  subst hc
  have hN0 : ((N : ℝ)) ≠ 0 := Nat.cast_ne_zero.mpr hN.ne'
  simp only [zero_add]
  rw [← coe_sum, div_coe_coe _ _ hN0]
  simp only [← EReal.coe_sub, ← EReal.coe_mul]
  rw [← coe_sum, div_coe_coe _ _ hN0, ← EReal.coe_add]
  have hv : 0 ≤ (∑ k, (p k - (∑ k, p k) * (1 / (N : ℝ))) * (p k - (∑ k, p k) * (1 / (N : ℝ)))) * (1 / (N : ℝ)) :=
    mul_nonneg (Finset.sum_nonneg fun k _ => mul_self_nonneg _) (by positivity)
  rw [rsqrt_pos_real (by linarith), ← EReal.coe_mul, ← EReal.coe_mul, ← EReal.coe_add, ← EReal.coe_zero]
  exact max_coe_zero _

end Cert.GcnBn

end
-- ==== Proof.RefBn.lean ====
/-
  The reference's first layer against the specification's functions.
  * Its product of the node array with the weight matrix is the matrix product.
  * Its batch normalisation computes, per column, the mean as the column sum over 50000 and the variance as the mean
    of the squared deviations from that mean; the specification computes the variance as the mean of squares minus
    the squared mean.  On real data the two agree, so the normalised, scaled, shifted and clamped arrays are equal
    entry by entry; and such an array has only real entries.
-/
import proofs.«139531_j89996744720583_1_alg».proof.Proof.RefRead
import proofs.«139531_j89996744720583_1_alg».proof.Proof.Spec
import proofs.«139531_j89996744720583_1_alg».proof.Proof.Variance

noncomputable section

namespace Cert.GcnBn.RefBn

open Cert.ReferenceIdeal Cert.GcnBn Idealize.ShloMosaic Idealize.ShloMosaic.ValueIdx

/-! ## The matrix product -/

/-- The reference's product of the node array and a weight matrix is the matrix product, entry by entry. -/
theorem dot_eq_mm (x0 : (⟨S50000x128, .f32⟩ : BufTy).Contents (Elt Ideal)) (x2 : (⟨S128x128, .f32⟩ : BufTy).Contents (Elt Ideal)) :
    Read.val_main_v31 (F := Ideal) x0 x2 = Cert.GcnBn.mm x0 x2 := by
  funext i
  rw [Read.val_main_v31_apply]
  unfold Cert.GcnBn.mm
  refine Finset.sum_congr rfl fun k _ => ?_
  have el : Read.lidx_main_v31 i k = ix2 (i 0) k := funext fun a => Fin.ext (by match a with | ⟨0, _⟩ => rfl | ⟨1, _⟩ => rfl)
  have er : Read.ridx_main_v31 i k = ix2 k (i 1) := funext fun a => Fin.ext (by match a with | ⟨0, _⟩ => rfl | ⟨1, _⟩ => rfl)
  exact congrArg₂ (· * ·) (congrArg x0 el) (congrArg x2 er)

/-! ## The two literals -/

/-- The divisor of the means is the real number 50000. -/
theorem c50000_real : Cert.GcnBn.c50000 = (((50000 : ℕ) : ℝ) : EReal) := by
  unfold Cert.GcnBn.c50000
  simp [Ideal.ofBits, Ideal.ieee, -EReal.coe_mul]
  all_goals norm_num

/-- The stabiliser is a positive real number. -/
theorem eps_pos_real : ∃ e : ℝ, 0 < e ∧ Cert.GcnBn.eps = (e : EReal) := by
  refine ⟨(10995116 : ℝ) * (2 : ℝ) ^ (-40 : ℤ), by positivity, ?_⟩
  unfold Cert.GcnBn.eps
  simp [Ideal.ofBits, Ideal.ieee, -EReal.coe_mul]
  all_goals norm_num

/-! ## The reference's arrangement of the batch statistics, over an arbitrary array -/

/-- The mean of column q: the sum of the column started from 0, divided by the number of rows. -/
def refMean (P : SNxD.Idx → EReal) (q : Fin 128) : EReal :=
  Ideal.div (0 + ∑ k : Fin 50000, P (ix2 k q)) c50000

/-- The variance of column q: the mean of the squared deviations from the column's mean. -/
def refVar (P : SNxD.Idx → EReal) (q : Fin 128) : EReal :=
  Ideal.div (0 + ∑ k : Fin 50000, (P (ix2 k q) - refMean P q) * (P (ix2 k q) - refMean P q)) c50000

/-- Entry (p, q) normalised by those statistics, scaled, shifted and clamped below at 0. -/
def refEntry (P : SNxD.Idx → EReal) (g be : (⟨1, ![128]⟩ : Shape).Idx → EReal) (p : Fin 50000) (q : Fin 128) : EReal :=
  max ((((P (ix2 p q) - refMean P q) * Ideal.rsqrt (refVar P q + eps)) * g (ix1 q)) + be (ix1 q)) 0

/-- On a column of real numbers the two arrangements of the statistics give the same entry: the means are the same
    sum divided by the same number, and the mean of squared deviations is the mean of squares minus the squared mean. -/
theorem refEntry_eq_bnLayer (P : SNxD.Idx → EReal) (g be : (⟨1, ![128]⟩ : Shape).Idx → EReal) (p : Fin 50000) (q : Fin 128)
    (hcol : ∀ r : Fin 50000, ∃ y : ℝ, P (ix2 r q) = (y : EReal)) :
    refEntry P g be p q = bnLayer P g be (ix2 p q) := by
  choose f hf using hcol
  have hv := var_two_ways (N := 50000) (by norm_num) f c50000 c50000_real
  show max ((((P (ix2 p q) - refMean P q) * Ideal.rsqrt (refVar P q + eps)) * g (ix1 q)) + be (ix1 q)) 0
    = max ((((P (ix2 p q) - Ideal.div (∑ r : Fin 50000, P (ix2 r q)) c50000)
        * Ideal.rsqrt ((Ideal.div (∑ r : Fin 50000, P (ix2 r q) * P (ix2 r q)) c50000
            - Ideal.div (∑ r : Fin 50000, P (ix2 r q)) c50000 * Ideal.div (∑ r : Fin 50000, P (ix2 r q)) c50000) + eps))
        * g (ix1 q)) + be (ix1 q)) 0
  have hm : refMean P q = Ideal.div (∑ r : Fin 50000, P (ix2 r q)) c50000 := by unfold refMean; rw [zero_add]
  have hvar : refVar P q = Ideal.div (∑ r : Fin 50000, P (ix2 r q) * P (ix2 r q)) c50000
      - Ideal.div (∑ r : Fin 50000, P (ix2 r q)) c50000 * Ideal.div (∑ r : Fin 50000, P (ix2 r q)) c50000 := by
    unfold refVar refMean
    simp only [hf]
    exact hv
  rw [hm, hvar]

/-- Batch normalisation of an array of real numbers with real scale and shift has only real entries: the variance of
    real data is not negative and the stabiliser is positive, so the reciprocal square root is a real number. -/
theorem bnLayer_allReal (P : SNxD.Idx → EReal) (g be : (⟨1, ![128]⟩ : Shape).Idx → EReal)
    (hP : AllReal P) (hg : AllReal g) (hb : AllReal be) : AllReal (bnLayer P g be) := by
  intro i
  obtain ⟨p, q, rfl⟩ : ∃ (p : Fin 50000) (q : Fin 128), i = ix2 p q := ⟨i 0, i 1, eq_ix2 i⟩
  rw [← refEntry_eq_bnLayer P g be p q (fun r => hP (ix2 r q))]
  choose f hf using fun r => hP (ix2 r q)
  obtain ⟨gq, hgq⟩ := hg (ix1 q)
  obtain ⟨bq, hbq⟩ := hb (ix1 q)
  obtain ⟨e, he, hee⟩ := eps_pos_real
  obtain ⟨y, hy⟩ := bn_entry_real (N := 50000) (by norm_num) f p gq bq e he c50000 c50000_real
  refine ⟨y, ?_⟩
  unfold refEntry refVar refMean
  simp only [hf, hgq, hbq, hee]
  exact hy

/-! ## The reference's stages are that arrangement -/

section Stages

variable (x0 : (⟨S50000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))

/-- The reference's row of column means, at column q. -/
theorem mean_at (q : Fin 128) :
    Read.val_main_v56 (F := Ideal) x0 x1 x2 x3 (ix1 q) = refMean (Read.val_main_v53 (F := Ideal) x0 x1 x2 x3) q := by
  rw [Read.val_main_v56_apply, Read.val_main_v54_apply, Read.val_main_v55_apply, Read.val_main_cst_11_apply,
    Read.val_main_cst_12_apply]
  generalize Read.val_main_v53 (F := Ideal) x0 x1 x2 x3 = P
  have e : ∀ k : Fin 50000, Read.idx_main_v54 (ix1 q) k = ix2 k q := fun k => funext fun a => Fin.ext (by
    match a with | ⟨0, _⟩ => rfl | ⟨1, _⟩ => rfl)
  unfold refMean Cert.GcnBn.c50000
  simp only [e, Ideal.hostDivf_def, Ideal.ofBits_def, Ideal.ofBits_zero_f32]

/-- The reference's row of column variances, at column q. -/
theorem var_at (q : Fin 128) :
    Read.val_main_v63 (F := Ideal) x0 x1 x2 x3 (ix1 q) = refVar (Read.val_main_v53 (F := Ideal) x0 x1 x2 x3) q := by
  have em : ∀ k : Fin 50000, Read.idx_main_v57 (Read.idx_main_v58 (ix2 k q)) = ix1 q := fun k =>
    funext fun a => Fin.ext (by match a with | ⟨0, _⟩ => rfl)
  have e : ∀ k : Fin 50000, Read.idx_main_v61 (ix1 q) k = ix2 k q := fun k => funext fun a => Fin.ext (by
    match a with | ⟨0, _⟩ => rfl | ⟨1, _⟩ => rfl)
  -- one squared deviation, rewritten stage by stage (never by unfolding the stages)
  have hk : ∀ k : Fin 50000, Read.val_main_v60 (F := Ideal) x0 x1 x2 x3 (Read.idx_main_v61 (ix1 q) k)
      = (Read.val_main_v53 (F := Ideal) x0 x1 x2 x3 (ix2 k q) - refMean (Read.val_main_v53 (F := Ideal) x0 x1 x2 x3) q)
        * (Read.val_main_v53 (F := Ideal) x0 x1 x2 x3 (ix2 k q) - refMean (Read.val_main_v53 (F := Ideal) x0 x1 x2 x3) q) := by
    intro k
    rw [e k, Read.val_main_v60_apply, Read.val_main_v59_apply, Read.val_main_v58_apply, Read.val_main_v57_apply, em k, mean_at]
    generalize Read.val_main_v53 (F := Ideal) x0 x1 x2 x3 = P
    generalize refMean P q = mu
    simp only [Ideal.subf_def, Ideal.mulf_def]
  rw [Read.val_main_v63_apply, Read.val_main_v61_apply, Read.val_main_v62_apply, Read.val_main_cst_13_apply,
    Read.val_main_cst_14_apply]
  simp only [hk]
  generalize Read.val_main_v53 (F := Ideal) x0 x1 x2 x3 = P
  unfold refVar Cert.GcnBn.c50000
  generalize refMean P q = mu
  simp only [Ideal.hostDivf_def, Ideal.ofBits_def, Ideal.ofBits_zero_f32]

/-- The reference's normalised, scaled, shifted and clamped array, at entry (p, q). -/
theorem entry_at (p : Fin 50000) (q : Fin 128) :
    Read.val_main_v79 (F := Ideal) x0 x1 x2 x3 x4 x5 (ix2 p q)
      = refEntry (Read.val_main_v53 (F := Ideal) x0 x1 x2 x3) x4 x5 p q := by
  have e65 : Read.idx_main_v64 (Read.idx_main_v65 (ix2 p q)) = ix1 q := funext fun a => Fin.ext (by match a with | ⟨0, _⟩ => rfl)
  have e71 : Read.idx_main_v70 (Read.idx_main_v71 (ix2 p q)) = ix1 q := funext fun a => Fin.ext (by match a with | ⟨0, _⟩ => rfl)
  have e74 : Read.idx_main_v73 (Read.idx_main_v74 (ix2 p q)) = ix1 q := funext fun a => Fin.ext (by match a with | ⟨0, _⟩ => rfl)
  have e77 : Read.idx_main_v76 (Read.idx_main_v77 (ix2 p q)) = ix1 q := funext fun a => Fin.ext (by match a with | ⟨0, _⟩ => rfl)
  rw [Read.val_main_v79_apply, Read.val_main_v78_apply, Read.val_main_v75_apply, Read.val_main_v72_apply,
    Read.val_main_v66_apply, Read.val_main_v65_apply, Read.val_main_v64_apply, e65, mean_at,
    Read.val_main_v71_apply, Read.val_main_v70_apply, e71, Read.val_main_v69_apply, Read.val_main_v68_apply, var_at,
    Read.val_main_v67_apply, Read.val_main_cst_15_apply,
    Read.val_main_v74_apply, Read.val_main_v73_apply, e74, Read.val_main_v77_apply, Read.val_main_v76_apply, e77,
    Read.val_main_call0_v0_apply, Read.val_main_call0_cst_apply]
  generalize Read.val_main_v53 (F := Ideal) x0 x1 x2 x3 = P
  unfold refEntry Cert.GcnBn.eps
  simp only [Ideal.maximumf_def, Ideal.addf_def, Ideal.subf_def, Ideal.mulf_def, Ideal.hostUnary_rsqrt_def, Ideal.ofBits_def,
    Ideal.ofBits_zero_f32]

/-- The reference's batch-normalised array is the specification's, when the array it normalises has only real entries. -/
theorem bn_eq (hP : AllReal (Read.val_main_v53 (F := Ideal) x0 x1 x2 x3)) :
    Read.val_main_v79 (F := Ideal) x0 x1 x2 x3 x4 x5 = bnLayer (Read.val_main_v53 (F := Ideal) x0 x1 x2 x3) x4 x5 := by
  funext i
  obtain ⟨p, q, rfl⟩ : ∃ (p : Fin 50000) (q : Fin 128), i = ix2 p q := ⟨i 0, i 1, eq_ix2 i⟩
  rw [entry_at]
  exact refEntry_eq_bnLayer _ x4 x5 p q fun r => hP (ix2 r q)

end Stages

end Cert.GcnBn.RefBn

end
-- ==== Proof.LibScatterRows.lean ====
/-
  A scatter-add of ROWS, read at an entry. The operand is [N, C] (or [N]); update row e carries one scalar
  index idx[e, 0], read as a signed integer, and is added to operand row idx[e, 0] when that is a row of the
  operand (0 ≤ idx[e, 0] < N) and dropped otherwise. So entry (n, c) of the result is the operand's entry plus
  the sum over all update rows e of: the update's entry (e, c) if idx[e, 0] = n, else 0. The proof reads the
  dimension numbers once — where update index (e, c) lands — and then collapses the sum over update indices
  to the sum over update rows; nothing depends on the sizes N, C, E.
  Then: three arrays joined along the columns, read at a column of each piece.
-/
import Idealize.ShloMosaic.PureOps.Ideal.Laws
import Idealize.ShloMosaic.Lib.ValueIdx
import Idealize.ShloMosaic.Lib.Pipeline.Value
import Idealize.ShloMosaic.Lib.ValueLayout

noncomputable section
open scoped BigOperators
namespace Cert.Val
open Idealize.ShloMosaic Idealize.ShloMosaic.ValueIdx

/-! ## Rows of a rank-2 operand -/

/-- The dimension numbers of a row scatter: operand [N, C], indices [E, 1] with the index vector on axis 1 (one
    scalar per update row) naming operand axis 0, updates [E, C] whose axis 1 is the window (a whole row). -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)

/-- On the row axis the window of update (e, c) starts at the index idx[e, 0], read signed. -/
theorem rowDims_start_zero (e : Fin E) (c : Fin C) (idx : IVec ⟨2, ![E, 1]⟩ w) :
    (rowDims N C E wf).start (ix2 e c) idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e c) ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem rowDims_start_one (e : Fin E) (c : Fin C) (idx : IVec ⟨2, ![E, 1]⟩ w) :
    (rowDims N C E wf).start (ix2 e c) idx 1 = 0 := rfl

/-- The row axis is inserted: no window coordinate there. -/
theorem rowDims_window_zero (e : Fin E) (c : Fin C) :
    (rowDims N C E wf).window (ix2 e c) 0 = 0 := rfl

/-- On the column axis the window coordinate is the update's column. -/
theorem rowDims_window_one (e : Fin E) (c : Fin C) :
    (rowDims N C E wf).window (ix2 e c) 1 = c.val := rfl

/-- WHERE AN UPDATE LANDS: update (e, c) lands at operand entry (n, c') exactly when its row's index is n and
    the columns agree (an index outside [0, N) lands nowhere). -/
theorem rowDims_resultIdx?_eq_some_iff (e : Fin E) (c : Fin C) (n : Fin N) (c' : Fin C) (idx : IVec ⟨2, ![E, 1]⟩ w) :
    (rowDims N C E wf).resultIdx? (ix2 e c) idx = some (ix2 n c') ↔
      ((idx (ix2 e (0 : Fin 1))).toInt = (n.val : Int) ∧ c = c') := by
  have hs0 := rowDims_start_zero wf e c idx
  have hs1 := rowDims_start_one wf e c idx
  have hw0 := rowDims_window_zero wf e c
  have hw1 := rowDims_window_one wf e c
  generalize (idx (ix2 e (0 : Fin 1))).toInt = v at hs0 ⊢
  unfold ScatterDims.resultIdx?
  split
  · next h =>
    have h0 := h 0
    rw [hs0, hw0] at h0
    rw [Option.some.injEq]
    constructor
    · intro hf
      have f0 := congrArg Fin.val (congrFun hf 0)
      have f1 := congrArg Fin.val (congrFun hf 1)
      simp only [hs0, hw0, hs1, hw1] at f0 f1
      refine ⟨?_, Fin.ext ?_⟩
      · change (v + ((0 : Nat) : Int)).toNat = n.val at f0
        omega
      · change (((0 : Int) + (c.val : Int))).toNat = c'.val at f1
        omega
    · rintro ⟨hv, rfl⟩
      funext a
      refine Fin.ext ?_
      match a with
      | ⟨0, _⟩ =>
        show ((rowDims N C E wf).start (ix2 e c) idx 0 + ((rowDims N C E wf).window (ix2 e c) 0 : Int)).toNat = n.val
        rw [hs0, hw0]; omega
      | ⟨1, _⟩ =>
        show ((rowDims N C E wf).start (ix2 e c) idx 1 + ((rowDims N C E wf).window (ix2 e c) 1 : Int)).toNat = c.val
        rw [hs1, hw1]; omega
  · next h =>
    constructor
    · intro hf; exact absurd hf (by simp)
    · rintro ⟨hv, rfl⟩
      exfalso; apply h
      intro a
      match a with
      | ⟨0, _⟩ =>
        show 0 ≤ (rowDims N C E wf).start (ix2 e c) idx 0 + ((rowDims N C E wf).window (ix2 e c) 0 : Int) ∧
          (rowDims N C E wf).start (ix2 e c) idx 0 + ((rowDims N C E wf).window (ix2 e c) 0 : Int) < (N : Int)
        rw [hs0, hw0]; have := n.isLt; omega
      | ⟨1, _⟩ =>
        show 0 ≤ (rowDims N C E wf).start (ix2 e c) idx 1 + ((rowDims N C E wf).window (ix2 e c) 1 : Int) ∧
          (rowDims N C E wf).start (ix2 e c) idx 1 + ((rowDims N C E wf).window (ix2 e c) 1 : Int) < (C : Int)
        rw [hs1, hw1]; have := c.isLt; omega

/-- THE ROW SCATTER-ADD AT AN ENTRY: the operand's entry plus, over the update rows whose index is the entry's
    row, the update's entry in the same column. -/
theorem scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowDims N C E wf) x idx upd (ix2 n c) =
      x (ix2 n c) + ∑ e : Fin E, if (idx (ix2 e (0 : Fin 1))).toInt = (n.val : Int) then upd (ix2 e c) else 0 := by
  show x (ix2 n c) + ∑ j ∈ Finset.univ.filter (fun j => (rowDims N C E wf).resultIdx? j idx = some (ix2 n c)), upd j = _
  congr 1
  rw [Finset.sum_filter, sum_idx2]
  refine Finset.sum_congr rfl fun e _ => ?_
  simp only [rowDims_resultIdx?_eq_some_iff]
  by_cases hv : (idx (ix2 e (0 : Fin 1))).toInt = (n.val : Int)
  · simp only [hv, true_and, if_true]
    rw [Finset.sum_ite_eq' Finset.univ c]
    simp
  · simp only [hv, false_and, if_false]
    exact Finset.sum_const_zero

/-! ## The same for a rank-1 operand: one scalar update per index -/

/-- The dimension numbers of a scatter of scalars: operand [N], indices [E, 1], updates [E] (no window axis). -/
abbrev rowDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf1 : ScatterDims.WF ⟨1, ![N]⟩ ⟨2, ![E, 1]⟩ ⟨1, ![E]⟩ [] [0] [0] 1)

/-- The window of update e starts at the index idx[e, 0], read signed. -/
theorem rowDims1_start_zero (e : Fin E) (idx : IVec ⟨2, ![E, 1]⟩ w) :
    (rowDims1 N E wf1).start (ix1 e) idx 0 = (idx (ix2 e (0 : Fin 1))).toInt := by
  unfold ScatterDims.start
  rw [dif_pos (show (0 : Fin 1) ∈ (rowDims1 N E wf1).scatterDimsToOperandDims from List.mem_singleton.mpr rfl)]
  have hsi : (rowDims1 N E wf1).siIdx (ix1 e) ⟨List.idxOf (0 : Fin 1) (rowDims1 N E wf1).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: no window coordinate. -/
theorem rowDims1_window_zero (e : Fin E) : (rowDims1 N E wf1).window (ix1 e) 0 = 0 := rfl

/-- Update e lands at operand entry n exactly when its index is n. -/
theorem rowDims1_resultIdx?_eq_some_iff (e : Fin E) (n : Fin N) (idx : IVec ⟨2, ![E, 1]⟩ w) :
    (rowDims1 N E wf1).resultIdx? (ix1 e) idx = some (ix1 n) ↔ (idx (ix2 e (0 : Fin 1))).toInt = (n.val : Int) := by
  have hs0 := rowDims1_start_zero wf1 e idx
  have hw0 := rowDims1_window_zero wf1 e
  generalize (idx (ix2 e (0 : Fin 1))).toInt = v at hs0 ⊢
  unfold ScatterDims.resultIdx?
  split
  · next h =>
    have h0 := h 0
    rw [hs0, hw0] at h0
    rw [Option.some.injEq]
    constructor
    · intro hf
      have f0 := congrArg Fin.val (congrFun hf 0)
      simp only [hs0, hw0] at f0
      change (v + ((0 : Nat) : Int)).toNat = n.val at f0
      omega
    · intro hv
      funext a
      refine Fin.ext ?_
      match a with
      | ⟨0, _⟩ =>
        show ((rowDims1 N E wf1).start (ix1 e) idx 0 + ((rowDims1 N E wf1).window (ix1 e) 0 : Int)).toNat = n.val
        rw [hs0, hw0]; omega
  · next h =>
    constructor
    · intro hf; exact absurd hf (by simp)
    · intro hv
      exfalso; apply h
      intro a
      match a with
      | ⟨0, _⟩ =>
        show 0 ≤ (rowDims1 N E wf1).start (ix1 e) idx 0 + ((rowDims1 N E wf1).window (ix1 e) 0 : Int) ∧
          (rowDims1 N E wf1).start (ix1 e) idx 0 + ((rowDims1 N E wf1).window (ix1 e) 0 : Int) < (N : Int)
        rw [hs0, hw0]; have := n.isLt; omega

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  refine (Fintype.sum_equiv (⟨fun i => i 0, fun a => ix1 a, fun i => (eq_ix1 i).symm, fun _ => rfl⟩ :
    (⟨1, ![n]⟩ : Shape).Idx ≃ Fin n) _ _ fun i => ?_)
  exact congrArg f (eq_ix1 i)

/-- THE SCALAR SCATTER-ADD AT AN ENTRY: the operand's entry plus the updates whose index is the entry. -/
theorem scatterAdd_rows1_apply {φ : FTy} (x : FVec Ideal ⟨1, ![N]⟩ φ) (idx : IVec ⟨2, ![E, 1]⟩ w)
    (upd : FVec Ideal ⟨1, ![E]⟩ φ) (n : Fin N) :
    Host.scatterAdd (F := Ideal) (rowDims1 N E wf1) x idx upd (ix1 n) =
      x (ix1 n) + ∑ e : Fin E, if (idx (ix2 e (0 : Fin 1))).toInt = (n.val : Int) then upd (ix1 e) else 0 := by
  show x (ix1 n) + ∑ j ∈ Finset.univ.filter (fun j => (rowDims1 N E wf1).resultIdx? j idx = some (ix1 n)), upd j = _
  congr 1
  rw [Finset.sum_filter, sum_idx1]
  refine Finset.sum_congr rfl fun e _ => ?_
  simp only [rowDims1_resultIdx?_eq_some_iff]

/-! ## Three arrays joined along the columns, read at a column of each -/

section Concat3
variable {α : Type} {R a b c t : Nat}
  (x₁ : (⟨2, ![R, a]⟩ : Shape).Idx → α) (x₂ : (⟨2, ![R, b]⟩ : Shape).Idx → α) (x₃ : (⟨2, ![R, c]⟩ : Shape).Idx → α)
  (h : Shape.Concatenates [⟨2, ![R, a]⟩, ⟨2, ![R, b]⟩, ⟨2, ![R, c]⟩] ⟨2, ![R, t]⟩ 1)

/-- A column of the first piece. -/
theorem concat3_cols_first (r : Fin R) (q : Fin a) (hq : q.val < t) :
    concatenate ⟨2, ![R, t]⟩ 1 [⟨⟨2, ![R, a]⟩, x₁⟩, ⟨⟨2, ![R, b]⟩, x₂⟩, ⟨⟨2, ![R, c]⟩, x₃⟩] h (ix2 r ⟨q.val, hq⟩) = x₁ (ix2 r q) :=
  concatenate_apply_piece 1 [⟨⟨2, ![R, a]⟩, x₁⟩, ⟨⟨2, ![R, b]⟩, x₂⟩, ⟨⟨2, ![R, c]⟩, x₃⟩] h (ix2 r ⟨q.val, hq⟩)
    0 (by simp) ⟨2, ![R, a]⟩ x₁ rfl rfl 0 rfl (ix2 r q)
    (fun ax hax => match ax with
      | ⟨0, _⟩ => rfl
      | ⟨1, _⟩ => absurd rfl hax)
    (by show 0 + q.val = q.val; omega)

/-- A column of the second piece: the first piece's width further on. -/
theorem concat3_cols_second (r : Fin R) (q : Fin b) (hq : a + q.val < t) :
    concatenate ⟨2, ![R, t]⟩ 1 [⟨⟨2, ![R, a]⟩, x₁⟩, ⟨⟨2, ![R, b]⟩, x₂⟩, ⟨⟨2, ![R, c]⟩, x₃⟩] h (ix2 r ⟨a + q.val, hq⟩) = x₂ (ix2 r q) :=
  concatenate_apply_piece 1 [⟨⟨2, ![R, a]⟩, x₁⟩, ⟨⟨2, ![R, b]⟩, x₂⟩, ⟨⟨2, ![R, c]⟩, x₃⟩] h (ix2 r ⟨a + q.val, hq⟩)
    1 (by simp) ⟨2, ![R, b]⟩ x₂ rfl rfl a (by simp) (ix2 r q)
    (fun ax hax => match ax with
      | ⟨0, _⟩ => rfl
      | ⟨1, _⟩ => absurd rfl hax)
    rfl

/-- A column of the third piece: the first two pieces' widths further on. -/
theorem concat3_cols_third (r : Fin R) (q : Fin c) (hq : a + b + q.val < t) :
    concatenate ⟨2, ![R, t]⟩ 1 [⟨⟨2, ![R, a]⟩, x₁⟩, ⟨⟨2, ![R, b]⟩, x₂⟩, ⟨⟨2, ![R, c]⟩, x₃⟩] h (ix2 r ⟨a + b + q.val, hq⟩) = x₃ (ix2 r q) :=
  concatenate_apply_piece 1 [⟨⟨2, ![R, a]⟩, x₁⟩, ⟨⟨2, ![R, b]⟩, x₂⟩, ⟨⟨2, ![R, c]⟩, x₃⟩] h (ix2 r ⟨a + b + q.val, hq⟩)
    2 (by simp) ⟨2, ![R, c]⟩ x₃ rfl rfl (a + b) (by simp) (ix2 r q)
    (fun ax hax => match ax with
      | ⟨0, _⟩ => rfl
      | ⟨1, _⟩ => absurd rfl hax)
    rfl

end Concat3

end Cert.Val
-- ==== Proof.LibGatherRows.lean ====
/-
  Taking rows of a matrix by an integer index column, read at an entry, for any sizes and any element type.

  The host's gather of an  N x C  array at start indices of shape  E x 1  (each start index one row number; the slice a
  whole row: offset axis 1, collapsed axis 0, slice sizes 1 x C) has at entry (e, c) the array's entry (r, c), where
  r is the start index  idx[e, 0]  read as a signed integer and clamped into [0, N - 1].  The row r depends on N and on
  the index column only, not on the row length C: two arrays with the same number of rows, gathered by the same
  index column, are read at the same rows.
-/
import Idealize.ShloMosaic.Lib.Pipeline.Value
import Idealize.ShloMosaic.Lib.ValueIdx

namespace Cert.LibGatherRows

open Idealize.ShloMosaic Idealize.ShloMosaic.ValueIdx

variable {α : Type}

/-- The dimension numbers of a row gather: operand  N x C, start indices  E x 1, result  E x C. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that entry e of the index column selects among N rows: the signed value, clamped into [0, N - 1]. -/
def rowOf (N : Nat) {E w : Nat} (idx : IVec ⟨2, ![E, 1]⟩ w) (e : Fin E) : Nat :=
  min (idx (ix2 e (⟨0, Nat.one_pos⟩ : Fin 1))).toInt.toNat (N - 1)

theorem rowOf_lt {N : Nat} (hN : 0 < N) {E w : Nat} (idx : IVec ⟨2, ![E, 1]⟩ w) (e : Fin E) : rowOf N idx e < N := by
  unfold rowOf; omega

/-- THE ROW GATHER READ AT (e, c): the operand's entry (rowOf N idx e, c). -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) = x (ix2 (⟨rowOf N idx e, rowOf_lt hN idx e⟩ : Fin N) c) := by
  unfold Host.gather
  congr 1
  funext a
  refine Fin.ext ?_
  match a with
  | ⟨0, _⟩ =>
    show (rowDims N E C wf).start (ix2 e c) idx 0 + (rowDims N E C wf).batchCoord (ix2 e c) 0
      + (rowDims N E C wf).offCoord (ix2 e c) 0 = rowOf N idx e
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = ix2 e (⟨0, Nat.one_pos⟩ : Fin 1) := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1
      + (rowDims N E C wf).offCoord (ix2 e c) 1 = c.val
    rw [GatherDims.batchCoord_eq_zero _ _ _ List.not_mem_nil]
    unfold GatherDims.start
    rw [dif_neg (show ¬ (1 : Fin 2) ∈ (rowDims N E C wf).startIndexMap from fun h =>
      absurd (show (1 : ℕ) = 0 from congrArg Fin.val (List.mem_singleton.mp h)) Nat.one_ne_zero)]
    simp only [Nat.add_zero, Nat.zero_add]
    rfl

end Cert.LibGatherRows
-- ==== Proof.LibGatherVec.lean ====
/-
  Taking entries of a flat array by an integer index column, read at a position, for any sizes and any element type.

  The host's gather of an array of length N at start indices of shape  E x 1  (each start index one position; the slice
  a single entry: no offset axis, collapsed axis 0, slice size 1) has at position e the array's entry r, where r is the
  start index  idx[e, 0]  read as a signed integer and clamped into [0, N - 1]: the same row a row gather of an
  N-row matrix by the same index column reads.
-/
import Idealize.ShloMosaic.Lib.Pipeline.Value
import Idealize.ShloMosaic.Lib.ValueIdx
import proofs.«139531_j89996744720583_1_alg».proof.Proof.LibGatherRows

namespace Cert.LibGatherVec

open Idealize.ShloMosaic Idealize.ShloMosaic.ValueIdx

variable {α : Type}

/-- The dimension numbers of an entry gather: operand  N, start indices  E x 1, result  E. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT e: the operand's entry at the clamped signed value of idx[e, 0]. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) =
      x (ix1 (⟨Cert.LibGatherRows.rowOf N idx e, Cert.LibGatherRows.rowOf_lt hN idx e⟩ : Fin N)) := by
  unfold Host.gather
  congr 1
  funext a
  refine Fin.ext ?_
  match a with
  | ⟨0, _⟩ =>
    show (vecDims N E wf).start (ix1 e) idx 0 + (vecDims N E wf).batchCoord (ix1 e) 0
      + (vecDims N E wf).offCoord (ix1 e) 0 = Cert.LibGatherRows.rowOf N idx e
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N E wf).startIndexMap from List.mem_singleton.mpr rfl)]
    have hsi : (vecDims N E wf).siIdx (ix1 e) ⟨List.idxOf (0 : Fin 1) (vecDims N E wf).startIndexMap,
        List.idxOf_lt_length_iff.2 (List.mem_singleton.mpr rfl)⟩ = ix2 e (⟨0, Nat.one_pos⟩ : Fin 1) := by
      funext b; refine Fin.ext ?_
      match b with
      | ⟨0, _⟩ => rfl
      | ⟨1, _⟩ => rfl
    rw [hsi]
    rfl

end Cert.LibGatherVec
-- ==== Proof.RefPreReal.lean ====
/-
  Every entry of the first layer's pre-normalisation array is a real number, whatever the integer edge indices are.
  The degree of a node is 0 plus a finite sum of ones plus 2, a real at least 2, so its reciprocal square root and
  the quotient 2 / degree are reals; a gathered entry is an entry of the operand; a scattered entry is the operand's
  entry plus a finite sum of update entries; an entry of the matrix product is a finite sum of products of reals.
-/
import proofs.«139531_j89996744720583_1_alg».proof.Proof.RefRead
import proofs.«139531_j89996744720583_1_alg».proof.Proof.Spec
import proofs.«139531_j89996744720583_1_alg».proof.Proof.LibScatterRows
import proofs.«139531_j89996744720583_1_alg».proof.Proof.LibGatherRows
import proofs.«139531_j89996744720583_1_alg».proof.Proof.LibGatherVec
import Idealize.ShloMosaic.PureOps.Ideal.Laws
import Idealize.ShloMosaic.Lib.ValueIdx

noncomputable section

namespace Cert.GcnBn.RefReal

open Idealize.ShloMosaic Idealize.ShloMosaic.ValueIdx Cert.GcnBn

/-! ## Real numbers among the extended reals -/

/-- The extended real a is a real number. -/
def IsReal (a : EReal) : Prop := ∃ r : ℝ, a = (r : EReal)

theorem isReal_coe (r : ℝ) : IsReal (r : EReal) := ⟨r, rfl⟩

theorem isReal_zero : IsReal 0 := ⟨0, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem isReal_ite (p : Prop) [Decidable p] {a b : EReal} (ha : IsReal a) (hb : IsReal b) :
    IsReal (if p then a else b) := by
  split
  · exact ha
  · exact hb

/-- A finite sum of reals is a real. -/
theorem isReal_sum {ι : Type} (s : Finset ι) (f : ι → EReal) (h : ∀ i ∈ s, IsReal (f i)) :
    IsReal (∑ i ∈ s, f i) :=
  Finset.sum_induction f IsReal (fun _ _ ha hb => ha.add hb) isReal_zero h

/-- The extended real a is a real number not below c. -/
def IsRealGe (c : ℝ) (a : EReal) : Prop := ∃ r : ℝ, c ≤ r ∧ a = (r : EReal)

theorem IsRealGe.isReal {c : ℝ} {a : EReal} (h : IsRealGe c a) : IsReal a := by
  obtain ⟨r, _, e⟩ := h
  exact ⟨r, e⟩

theorem IsRealGe.add {c d : ℝ} {a b : EReal} (ha : IsRealGe c a) (hb : IsRealGe d b) : IsRealGe (c + d) (a + b) := by
  obtain ⟨r, hr, rfl⟩ := ha
  obtain ⟨s, hs, rfl⟩ := hb
  exact ⟨r + s, add_le_add hr hs, (EReal.coe_add r s).symm⟩

/-- A finite sum of non-negative reals is a non-negative real. -/
theorem isRealGe_zero_sum {ι : Type} (s : Finset ι) (f : ι → EReal) (h : ∀ i ∈ s, IsRealGe 0 (f i)) :
    IsRealGe 0 (∑ i ∈ s, f i) :=
  Finset.sum_induction f (IsRealGe 0) (fun _ _ ha hb => by simpa using ha.add hb) ⟨0, le_refl _, rfl⟩ h

/-- The reciprocal square root of a positive real is a real. -/
theorem isReal_rsqrt {a : EReal} (h : IsRealGe 2 a) : IsReal (Ideal.rsqrt a) := by
  obtain ⟨r, hr, rfl⟩ := h
  refine ⟨(Real.sqrt r)⁻¹, ?_⟩
  show (if r < 0 then (⊥ : EReal) else if r = 0 then ⊤ else (((Real.sqrt r)⁻¹ : ℝ) : EReal)) = _
  rw [if_neg (by linarith), if_neg (by linarith)]

/-- The exact quotient of a real by a real at least 2 is a real. -/
theorem isReal_div {a b : EReal} (ha : IsReal a) (hb : IsRealGe 2 b) : IsReal (Ideal.div a b) := by
  obtain ⟨r, rfl⟩ := ha
  obtain ⟨s, hs, rfl⟩ := hb
  rw [Ideal.div_coe (by linarith : s ≠ 0)]
  exact (isReal_coe r).mul (isReal_coe _)

/-! ## The constants the program spells -/

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem isRealGe_ofBits_zero : IsRealGe 0 (FloatOps.ofBits (F := Ideal) .f32 0x00000000#32) :=
  ⟨0, le_refl _, Ideal.ofBits_zero_f32⟩

theorem isRealGe_ofBits_one : IsRealGe 0 (FloatOps.ofBits (F := Ideal) .f32 0x3F800000#32) :=
  ⟨1, zero_le_one, ofBits_one⟩

theorem isRealGe_ofBits_two : IsRealGe 2 (FloatOps.ofBits (F := Ideal) .f32 0x40000000#32) :=
  ⟨2, le_refl _, ofBits_two⟩

/-- A sum of two non-negative reals is a non-negative real. -/
theorem IsRealGe.add_nonneg {a b : EReal} (ha : IsRealGe 0 a) (hb : IsRealGe 0 b) : IsRealGe 0 (a + b) := by
  have h := ha.add hb
  rwa [add_zero] at h

/-- A non-negative real plus a real at least 2 is a real at least 2. -/
theorem IsRealGe.add_two {a b : EReal} (ha : IsRealGe 0 a) (hb : IsRealGe 2 b) : IsRealGe 2 (a + b) := by
  have h := ha.add hb
  rwa [zero_add] at h

/-! ## The stages of the first layer, one at a time -/

section Stages

open Cert.ReferenceIdeal Cert.ReferenceIdeal.Gen Cert.ReferenceIdeal.Read

/-- The degree of a node: 0, plus one for every edge whose target it is, plus 2. -/
theorem deg_ge (x1 : (⟨S2x1600000, .i32⟩ : BufTy).Contents (Elt Ideal)) (i : S50000.Idx) : IsRealGe 2 (val_main_v14 (F := Ideal) x1 i) := by
  rw [val_main_v14_apply, Ideal.addf_def]
  refine IsRealGe.add_two ?_ ?_
  · obtain ⟨n, rfl⟩ : ∃ n : Fin 50000, i = ix1 n := ⟨i 0, eq_ix1 i⟩
    show IsRealGe 0 (Host.scatterAdd (F := Ideal) (Cert.Val.rowDims1 50000 1600000 _) (val_main_v4 (F := Ideal))
      (val_main_v10 (F := Ideal) x1) (val_main_v11 (F := Ideal)) (ix1 n))
    rw [Cert.Val.scatterAdd_rows1_apply]
    refine IsRealGe.add_nonneg ?_ (isRealGe_zero_sum _ _ fun e _ => ?_)
    · rw [val_main_v4_apply, val_main_cst_apply]
      exact isRealGe_ofBits_zero
    · split
      · rw [val_main_v11_apply, val_main_cst_1_apply]
        exact isRealGe_ofBits_one
      · exact ⟨0, le_refl _, rfl⟩
  · rw [val_main_v13_apply, val_main_cst_2_apply]
    exact isRealGe_ofBits_two

/-- The reciprocal square root of the degree. -/
theorem v15_real (x1 : (⟨S2x1600000, .i32⟩ : BufTy).Contents (Elt Ideal)) (i : S50000.Idx) : IsReal (val_main_v15 (F := Ideal) x1 i) := by
  rw [val_main_v15_apply, Ideal.hostUnary_rsqrt_def]
  exact isReal_rsqrt (deg_ge x1 i)

/-- It gathered at the source of every edge. -/
theorem v22_real (x1 : (⟨S2x1600000, .i32⟩ : BufTy).Contents (Elt Ideal)) (i : S1600000.Idx) : IsReal (val_main_v22 (F := Ideal) x1 i) := by
  obtain ⟨e, rfl⟩ : ∃ e : Fin 1600000, i = ix1 e := ⟨i 0, eq_ix1 i⟩
  show IsReal (Host.gather (Cert.LibGatherVec.vecDims 50000 1600000 _) (val_main_v15 (F := Ideal) x1)
    (val_main_v21 (F := Ideal) x1) (ix1 e))
  rw [Cert.LibGatherVec.gather_vec_apply (show 0 < 50000 by decide)]
  exact v15_real x1 _

/-- It gathered at the target of every edge. -/
theorem v29_real (x1 : (⟨S2x1600000, .i32⟩ : BufTy).Contents (Elt Ideal)) (i : S1600000.Idx) : IsReal (val_main_v29 (F := Ideal) x1 i) := by
  obtain ⟨e, rfl⟩ : ∃ e : Fin 1600000, i = ix1 e := ⟨i 0, eq_ix1 i⟩
  show IsReal (Host.gather (Cert.LibGatherVec.vecDims 50000 1600000 _) (val_main_v15 (F := Ideal) x1)
    (val_main_v28 (F := Ideal) x1) (ix1 e))
  rw [Cert.LibGatherVec.gather_vec_apply (show 0 < 50000 by decide)]
  exact v15_real x1 _

/-- The weight of an edge: the product of the two. -/
theorem v30_real (x1 : (⟨S2x1600000, .i32⟩ : BufTy).Contents (Elt Ideal)) (i : S1600000.Idx) : IsReal (val_main_v30 (F := Ideal) x1 i) := by
  rw [val_main_v30_apply, Ideal.mulf_def]
  exact (v22_real x1 i).mul (v29_real x1 i)

/-- The matrix product of the node features and the weights: a finite sum of products of reals. -/
theorem v31_real (x0 : (⟨S50000x128, .f32⟩ : BufTy).Contents (Elt Ideal)) (x2 : (⟨S128x128, .f32⟩ : BufTy).Contents (Elt Ideal)) (h0 : AllReal (S := S50000x128) x0) (h2 : AllReal (S := S128x128) x2) (i : S50000x128.Idx) :
    IsReal (val_main_v31 (F := Ideal) x0 x2 i) := by
  rw [val_main_v31_apply]
  exact isReal_sum _ _ fun k _ => IsReal.mul (h0 _) (h2 _)

/-- Its rows gathered at the source of every edge. -/
theorem v38_real (x0 : (⟨S50000x128, .f32⟩ : BufTy).Contents (Elt Ideal)) (x1 : (⟨S2x1600000, .i32⟩ : BufTy).Contents (Elt Ideal)) (x2 : (⟨S128x128, .f32⟩ : BufTy).Contents (Elt Ideal)) (h0 : AllReal (S := S50000x128) x0) (h2 : AllReal (S := S128x128) x2) (i : S1600000x128.Idx) :
    IsReal (val_main_v38 (F := Ideal) x0 x1 x2 i) := by
  obtain ⟨e, c, rfl⟩ : ∃ (e : Fin 1600000) (c : Fin 128), i = ix2 e c := ⟨i 0, i 1, eq_ix2 i⟩
  show IsReal (Host.gather (Cert.LibGatherRows.rowDims 50000 1600000 128 _) (val_main_v31 (F := Ideal) x0 x2)
    (val_main_v37 (F := Ideal) x1) (ix2 e c))
  rw [Cert.LibGatherRows.gather_rows_apply (show 0 < 50000 by decide)]
  exact v31_real x0 x2 h0 h2 _

/-- The edge weights spread along the feature axis. -/
theorem v40_real (x1 : (⟨S2x1600000, .i32⟩ : BufTy).Contents (Elt Ideal)) (i : S1600000x128.Idx) : IsReal (val_main_v40 (F := Ideal) x1 i) := by
  rw [val_main_v40_apply, val_main_v39_apply]
  exact v30_real x1 _

/-- The message of an edge. -/
theorem v41_real (x0 : (⟨S50000x128, .f32⟩ : BufTy).Contents (Elt Ideal)) (x1 : (⟨S2x1600000, .i32⟩ : BufTy).Contents (Elt Ideal)) (x2 : (⟨S128x128, .f32⟩ : BufTy).Contents (Elt Ideal)) (h0 : AllReal (S := S50000x128) x0) (h2 : AllReal (S := S128x128) x2) (i : S1600000x128.Idx) :
    IsReal (val_main_v41 (F := Ideal) x0 x1 x2 i) := by
  rw [val_main_v41_apply, Ideal.mulf_def]
  exact (v38_real x0 x1 x2 h0 h2 i).mul (v40_real x1 i)

/-- The messages added up at the target of every edge, from zero. -/
theorem v44_real (x0 : (⟨S50000x128, .f32⟩ : BufTy).Contents (Elt Ideal)) (x1 : (⟨S2x1600000, .i32⟩ : BufTy).Contents (Elt Ideal)) (x2 : (⟨S128x128, .f32⟩ : BufTy).Contents (Elt Ideal)) (h0 : AllReal (S := S50000x128) x0) (h2 : AllReal (S := S128x128) x2) (i : S50000x128.Idx) :
    IsReal (val_main_v44 (F := Ideal) x0 x1 x2 i) := by
  obtain ⟨n, c, rfl⟩ : ∃ (n : Fin 50000) (c : Fin 128), i = ix2 n c := ⟨i 0, i 1, eq_ix2 i⟩
  show IsReal (Host.scatterAdd (F := Ideal) (Cert.Val.rowDims 50000 128 1600000 _) (val_main_v42 (F := Ideal))
    (val_main_v43 (F := Ideal) x1) (val_main_v41 (F := Ideal) x0 x1 x2) (ix2 n c))
  rw [Cert.Val.scatterAdd_rows_apply]
  refine IsReal.add ?_ (isReal_sum _ _ fun e _ => isReal_ite _ (v41_real x0 x1 x2 h0 h2 _) isReal_zero)
  rw [val_main_v42_apply, val_main_cst_9_apply]
  exact isRealGe_ofBits_zero.isReal

/-- Two over the degree. -/
theorem v46_real (x1 : (⟨S2x1600000, .i32⟩ : BufTy).Contents (Elt Ideal)) (i : S50000.Idx) : IsReal (val_main_v46 (F := Ideal) x1 i) := by
  rw [val_main_v46_apply, Ideal.hostDivf_def]
  refine isReal_div ?_ (deg_ge x1 i)
  rw [val_main_v45_apply, val_main_cst_10_apply]
  exact isRealGe_ofBits_two.isReal

/-- It spread along the feature axis. -/
theorem v48_real (x1 : (⟨S2x1600000, .i32⟩ : BufTy).Contents (Elt Ideal)) (i : S50000x128.Idx) : IsReal (val_main_v48 (F := Ideal) x1 i) := by
  rw [val_main_v48_apply, val_main_v47_apply]
  exact v46_real x1 _

/-- The self term. -/
theorem v49_real (x0 : (⟨S50000x128, .f32⟩ : BufTy).Contents (Elt Ideal)) (x1 : (⟨S2x1600000, .i32⟩ : BufTy).Contents (Elt Ideal)) (x2 : (⟨S128x128, .f32⟩ : BufTy).Contents (Elt Ideal)) (h0 : AllReal (S := S50000x128) x0) (h2 : AllReal (S := S128x128) x2) (i : S50000x128.Idx) :
    IsReal (val_main_v49 (F := Ideal) x0 x1 x2 i) := by
  rw [val_main_v49_apply, Ideal.mulf_def]
  exact (v48_real x1 i).mul (v31_real x0 x2 h0 h2 i)

/-- The aggregate plus the self term. -/
theorem v50_real (x0 : (⟨S50000x128, .f32⟩ : BufTy).Contents (Elt Ideal)) (x1 : (⟨S2x1600000, .i32⟩ : BufTy).Contents (Elt Ideal)) (x2 : (⟨S128x128, .f32⟩ : BufTy).Contents (Elt Ideal)) (h0 : AllReal (S := S50000x128) x0) (h2 : AllReal (S := S128x128) x2) (i : S50000x128.Idx) :
    IsReal (val_main_v50 (F := Ideal) x0 x1 x2 i) := by
  rw [val_main_v50_apply, Ideal.addf_def]
  exact (v44_real x0 x1 x2 h0 h2 i).add (v49_real x0 x1 x2 h0 h2 i)

/-- The bias spread over the rows. -/
theorem v52_real (x3 : (⟨S128, .f32⟩ : BufTy).Contents (Elt Ideal)) (h3 : AllReal (S := S128) x3) (i : S50000x128.Idx) : IsReal (val_main_v52 (F := Ideal) x3 i) := by
  rw [val_main_v52_apply, val_main_v51_apply]
  exact h3 _

/-- THE LAYER BEFORE NORMALISATION HAS ONLY REAL ENTRIES, for real features, weights and bias and any edge indices. -/
theorem pre_allReal (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (h0 : AllReal (S := S50000x128) x0) (h2 : AllReal (S := S128x128) x2) (h3 : AllReal (S := S128) x3) :
    AllReal (S := S50000x128) (val_main_v53 (F := Ideal) x0 x1 x2 x3) := by
  intro i
  show IsReal (val_main_v53 (F := Ideal) x0 x1 x2 x3 i)
  rw [val_main_v53_apply, Ideal.addf_def]
  exact (v50_real x0 x1 x2 h0 h2 i).add (v52_real x3 h3 i)

end Stages

end Cert.GcnBn.RefReal

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«139531_j89996744720583_1_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.MatmulRegion0.lean ====
/-
  The first dense product of the layer.  The region walks the 50000 x 128 node array in ten blocks of 5000 rows; at
  each block it multiplies the block by the whole 128 x 128 weight matrix into a zero accumulator and writes the
  product back as the same block of rows of the output.  Entry (p, q) of a block's product is the sum over k < 128 of
  block(p, k) * weight(k, q); row p of block t is row 5000 t + p of the array, so the output array, once the ten
  blocks are written, is the matrix product of the two input arrays as the region finds them, entry by entry.
-/
import proofs.«139531_j89996744720583_1_alg».proof.Proof.Gen.KernelIdeal.Frame
import proofs.«139531_j89996744720583_1_alg».proof.Proof.Spec
import proofs.«139531_j89996744720583_1_alg».proof.Proof.LibMatmulSum
import proofs.«139531_j89996744720583_1_alg».proof.Proof.LibPlainLists
import Idealize.ShloMosaic.Lib.Pipeline.Value
import Idealize.ShloMosaic.Lib.ValueIdx

noncomputable section

namespace Cert.KernelIdeal.RegVal0

open Cert.KernelIdeal Idealize.ShloMosaic Idealize.ShloMosaic.TcCoe Idealize.ShloMosaic.ValueIdx Idealize.SL.Sem
open Idealize.ShloMosaic.Pipeline (Dat)

/-! ## One block's product, entry by entry -/

/-- The product's record of dimension numbers is a plain one: the left operand contracted on its columns, the right
    on its rows. -/
theorem plain_dims : Cert.LibMatmulSum.Plain dot_S5000x128_S128x128_S5000x128_1_0_0_1_n_n :=
  Cert.LibMatmulSum.Plain.of_lists _ rfl rfl rfl rfl rfl rfl

/-- What the body stores, at entry (p, q): the sum over k of left(p, k) * right(k, q).  The narrowing of the two
    operands before the product is the identity on the extended reals, and so is a reshape to the same shape where
    the body has one. -/
theorem product_at (x0 : Vec Ideal S5000x128 .f32) (x1 : Vec Ideal S128x128 .f32) (p : Fin 5000) (q : Fin 128) :
    Gen.k0_pay1 (F := Ideal) x0 x1 (ix2 p q) = ∑ k : Fin 128, x0 (ix2 p k) * x1 (ix2 k q) := by
  unfold Gen.k0_pay1
  try simp only [shapeCast_self]
  exact Cert.LibMatmulSum.matmul_zero_at plain_dims none x0 x1 p q

/-- The same entry against the product of two arrays A, B, given where the block's row and the weight's column sit
    in them: if row (j 0) of the left block is row (i 0) of A and column (j 1) of the right block is column (i 1) of
    B, the stored entry j is entry i of the product A B. -/
theorem product_eq_mm (x0 : Vec Ideal S5000x128 .f32) (x1 : Vec Ideal S128x128 .f32)
    (A : Cert.GcnBn.SNxD.Idx → EReal) (B : Cert.GcnBn.SDxD.Idx → EReal) (j : S5000x128.Idx) (i : Cert.GcnBn.SNxD.Idx)
    (hl : ∀ k : Fin 128, x0 (ix2 (j 0) k) = A (ix2 (i 0) k))
    (hr : ∀ k : Fin 128, x1 (ix2 k (j 1)) = B (ix2 k (i 1))) :
    Gen.k0_pay1 (F := Ideal) x0 x1 j = Cert.GcnBn.mm A B i := by
  obtain ⟨p, q, rfl⟩ : ∃ (p : Fin 5000) (q : Fin 128), j = ix2 p q := ⟨j 0, j 1, eq_ix2 j⟩
  rw [product_at]
  unfold Cert.GcnBn.mm
  exact Finset.sum_congr rfl fun k _ => by rw [← hl k, ← hr k]

/-! ## Where the blocks sit -/

theorem zero_offsets : (![0, 0] : Fin 2 → Nat) = fun _ => 0 := funext fun a => by fin_cases a <;> rfl

/-- The block coordinates, decided over the ten grid points: the node blocks of the input and of the output are the
    same block of rows, at column block 0; the weight's one block is the whole matrix. -/
theorem block_coords : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every one of the ten row blocks is some grid point's. -/
theorem block_onto : ∀ b : Fin 10, ∃ t : Fin cfg0.N, win0_2.index t = ![b.val, 0] :=
  (by decide +kernel : ∀ b : Fin 10, ∃ t : Fin grid0.N, win0_2.index t = ![b.val, 0])

/-! ## What each point writes back, and the array after the ten points -/

variable (V : (c : Dev nD) → (b : Ref sig .tc) → Buf (Elt Ideal) ((c : Thread nD τ).loc b))

/-- Point t writes back block t of the matrix product of the two input arrays as the region finds them. -/
theorem flushed_eq (c : Dev nD) (t : Fin cfg0.N) :
    (Gen.dat0 (F := Ideal) V c).flushed 2 t
      = ((cfg0.win 2).blk t).view.read (Elt Ideal) (Cert.GcnBn.mm (V c (Pipeline.arrRef spec0 0)) (V c (Pipeline.arrRef spec0 1))) := by
  show (cfg0.win 2).cut (grid0.coords t) ((Gen.dat0 (F := Ideal) V c).after 2 t) = _
  rw [Gen.after0_2]
  unfold Gen.out0_2
  rw [View.canon_unit_zero zero_offsets]
  simp only [View.ld_unit_zero (S := S5000x128) zero_offsets, View.ld_unit_zero (S := S128x128) zero_offsets]
  obtain ⟨e0, e1, e2, e3, e4, e5⟩ := block_coords t
  funext j
  show Gen.k0_pay1 (F := Ideal) (Gen.iblk0 V c 0 t) (Gen.iblk0 V c 1 t) j
    = Cert.GcnBn.mm (V c (Pipeline.arrRef spec0 0)) (V c (Pipeline.arrRef spec0 1)) (((cfg0.win 2).blk t).view.emb j)
  refine product_eq_mm _ _ _ _ j _ (fun k => ?_) (fun k => ?_)
  · show V c (Pipeline.arrRef spec0 0) (((cfg0.win 0).blk t).view.emb (ix2 (j 0) k)) = _
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c (Pipeline.arrRef spec0 1) (((cfg0.win 1).blk t).view.emb (ix2 k (j 1))) = _
    congr 1
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole (Pipeline.arrRef spec0 2)).slice (win0_2.rect t)).set ↔ _
  rw [View.set_slice_whole, Rect.mem_set_unit]
  exact Iff.rfl

/-- Every index of the output array is in some point's block: row r is in block r / 5000. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, Gen.flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the matrix product of the two input arrays as the region finds them. -/
theorem arr0_2 (c : Dev nD) :
    ((Gen.dat0 (F := Ideal) V c).arrAt 2 cfg0.N : S50000x128.Idx → EReal)
      = Cert.GcnBn.mm (V c (Pipeline.arrRef spec0 0)) (V c (Pipeline.arrRef spec0 1)) :=
  (Gen.dat0 (F := Ideal) V c).arrAt_eq_of_cover 2 _ (fun t _ => flushed_eq V c t) covered

end Cert.KernelIdeal.RegVal0

end
-- ==== Proof.MatmulRegion3.lean ====
/-
  The first dense product of the layer.  The region walks the 50000 x 128 node array in ten blocks of 5000 rows; at
  each block it multiplies the block by the whole 128 x 128 weight matrix into a zero accumulator and writes the
  product back as the same block of rows of the output.  Entry (p, q) of a block's product is the sum over k < 128 of
  block(p, k) * weight(k, q); row p of block t is row 5000 t + p of the array, so the output array, once the ten
  blocks are written, is the matrix product of the two input arrays as the region finds them, entry by entry.
-/
import proofs.«139531_j89996744720583_1_alg».proof.Proof.Gen.KernelIdeal.Frame
import proofs.«139531_j89996744720583_1_alg».proof.Proof.Spec
import proofs.«139531_j89996744720583_1_alg».proof.Proof.LibMatmulSum
import proofs.«139531_j89996744720583_1_alg».proof.Proof.LibPlainLists
import Idealize.ShloMosaic.Lib.Pipeline.Value
import Idealize.ShloMosaic.Lib.ValueIdx

noncomputable section

namespace Cert.KernelIdeal.RegVal3

open Cert.KernelIdeal Idealize.ShloMosaic Idealize.ShloMosaic.TcCoe Idealize.ShloMosaic.ValueIdx Idealize.SL.Sem
open Idealize.ShloMosaic.Pipeline (Dat)

/-! ## One block's product, entry by entry -/

/-- The product's record of dimension numbers is a plain one: the left operand contracted on its columns, the right
    on its rows. -/
theorem plain_dims : Cert.LibMatmulSum.Plain dot_S5000x128_S128x128_S5000x128_1_0_0_1_n_n :=
  Cert.LibMatmulSum.Plain.of_lists _ rfl rfl rfl rfl rfl rfl

/-- What the body stores, at entry (p, q): the sum over k of left(p, k) * right(k, q).  The narrowing of the two
    operands before the product is the identity on the extended reals, and so is a reshape to the same shape where
    the body has one. -/
theorem product_at (x0 : Vec Ideal S5000x128 .f32) (x1 : Vec Ideal S128x128 .f32) (p : Fin 5000) (q : Fin 128) :
    Gen.k3_pay1 (F := Ideal) x0 x1 (ix2 p q) = ∑ k : Fin 128, x0 (ix2 p k) * x1 (ix2 k q) := by
  unfold Gen.k3_pay1
  try simp only [shapeCast_self]
  exact Cert.LibMatmulSum.matmul_zero_at plain_dims none x0 x1 p q

/-- The same entry against the product of two arrays A, B, given where the block's row and the weight's column sit
    in them: if row (j 0) of the left block is row (i 0) of A and column (j 1) of the right block is column (i 1) of
    B, the stored entry j is entry i of the product A B. -/
theorem product_eq_mm (x0 : Vec Ideal S5000x128 .f32) (x1 : Vec Ideal S128x128 .f32)
    (A : Cert.GcnBn.SNxD.Idx → EReal) (B : Cert.GcnBn.SDxD.Idx → EReal) (j : S5000x128.Idx) (i : Cert.GcnBn.SNxD.Idx)
    (hl : ∀ k : Fin 128, x0 (ix2 (j 0) k) = A (ix2 (i 0) k))
    (hr : ∀ k : Fin 128, x1 (ix2 k (j 1)) = B (ix2 k (i 1))) :
    Gen.k3_pay1 (F := Ideal) x0 x1 j = Cert.GcnBn.mm A B i := by
  obtain ⟨p, q, rfl⟩ : ∃ (p : Fin 5000) (q : Fin 128), j = ix2 p q := ⟨j 0, j 1, eq_ix2 j⟩
  rw [product_at]
  unfold Cert.GcnBn.mm
  exact Finset.sum_congr rfl fun k _ => by rw [← hl k, ← hr k]

/-! ## Where the blocks sit -/

theorem zero_offsets : (![0, 0] : Fin 2 → Nat) = fun _ => 0 := funext fun a => by fin_cases a <;> rfl

/-- The block coordinates, decided over the ten grid points: the node blocks of the input and of the output are the
    same block of rows, at column block 0; the weight's one block is the whole matrix. -/
theorem block_coords : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 9
    ∧ win3_2.index t (1 : Fin 2) = 0 :=
  (by decide +kernel : ∀ t : Fin grid3.N, _)

/-- Every one of the ten row blocks is some grid point's. -/
theorem block_onto : ∀ b : Fin 10, ∃ t : Fin cfg3.N, win3_2.index t = ![b.val, 0] :=
  (by decide +kernel : ∀ b : Fin 10, ∃ t : Fin grid3.N, win3_2.index t = ![b.val, 0])

/-! ## What each point writes back, and the array after the ten points -/

variable (V : (c : Dev nD) → (b : Ref sig .tc) → Buf (Elt Ideal) ((c : Thread nD τ).loc b))

/-- Point t writes back block t of the matrix product of the two input arrays as the region finds them. -/
theorem flushed_eq (c : Dev nD) (t : Fin cfg3.N) :
    (Gen.dat3 (F := Ideal) V c).flushed 2 t
      = ((cfg3.win 2).blk t).view.read (Elt Ideal) (Cert.GcnBn.mm (V c (Pipeline.arrRef spec3 0)) (V c (Pipeline.arrRef spec3 1))) := by
  show (cfg3.win 2).cut (grid3.coords t) ((Gen.dat3 (F := Ideal) V c).after 2 t) = _
  rw [Gen.after3_2]
  unfold Gen.out3_2
  rw [View.canon_unit_zero zero_offsets]
  simp only [View.ld_unit_zero (S := S5000x128) zero_offsets, View.ld_unit_zero (S := S128x128) zero_offsets]
  obtain ⟨e0, e1, e2, e3, e4, e5⟩ := block_coords t
  funext j
  show Gen.k3_pay1 (F := Ideal) (Gen.iblk3 V c 0 t) (Gen.iblk3 V c 1 t) j
    = Cert.GcnBn.mm (V c (Pipeline.arrRef spec3 0)) (V c (Pipeline.arrRef spec3 1)) (((cfg3.win 2).blk t).view.emb j)
  refine product_eq_mm _ _ _ _ j _ (fun k => ?_) (fun k => ?_)
  · show V c (Pipeline.arrRef spec3 0) (((cfg3.win 0).blk t).view.emb (ix2 (j 0) k)) = _
    congr 1
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  · show V c (Pipeline.arrRef spec3 1) (((cfg3.win 1).blk t).view.emb (ix2 k (j 1))) = _
    congr 1
    funext a; apply Fin.ext
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega

/-- An index of the output array is in point t's block iff each coordinate is in the block's range on its axis. -/
theorem mem_block (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole (Pipeline.arrRef spec3 2)).slice (win3_2.rect t)).set ↔ _
  rw [View.set_slice_whole, Rect.mem_set_unit]
  exact Iff.rfl

/-- Every index of the output array is in some point's block: row r is in block r / 5000. -/
theorem covered (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := block_onto ⟨(i 0).val / 5000, by omega⟩
  have q0 : win3_2.index t (0 : Fin 2) = (i 0).val / 5000 := congrFun ht 0
  have q1 : win3_2.index t (1 : Fin 2) = 0 := congrFun ht 1
  refine ⟨t, Gen.flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region: the matrix product of the two input arrays as the region finds them. -/
theorem arr3_2 (c : Dev nD) :
    ((Gen.dat3 (F := Ideal) V c).arrAt 2 cfg3.N : S50000x128.Idx → EReal)
      = Cert.GcnBn.mm (V c (Pipeline.arrRef spec3 0)) (V c (Pipeline.arrRef spec3 1)) :=
  (Gen.dat3 (F := Ideal) V c).arrAt_eq_of_cover 2 _ (fun t _ => flushed_eq V c t) covered

end Cert.KernelIdeal.RegVal3

end
-- ==== Proof.MatmulRegion6.lean ====
/-
  The first dense product of the layer.  The region walks the 50000 x 128 node array in ten blocks of 5000 rows; at
  each block it multiplies the block by the whole 128 x 128 weight matrix into a zero accumulator and writes the
  product back as the same block of rows of the output.  Entry (p, q) of a block's product is the sum over k < 128 of
  block(p, k) * weight(k, q); row p of block t is row 5000 t + p of the array, so the output array, once the ten
  blocks are written, is the matrix product of the two input arrays as the region finds them, entry by entry.
-/
import proofs.«139531_j89996744720583_1_alg».proof.Proof.Gen.KernelIdeal.Frame
import proofs.«139531_j89996744720583_1_alg».proof.Proof.Spec
import proofs.«139531_j89996744720583_1_alg».proof.Proof.LibMatmulSum
import proofs.«139531_j89996744720583_1_alg».proof.Proof.LibPlainLists
import Idealize.ShloMosaic.Lib.Pipeline.Value
import Idealize.ShloMosaic.Lib.ValueIdx

noncomputable section

namespace Cert.KernelIdeal.RegVal6

open Cert.KernelIdeal Idealize.ShloMosaic Idealize.ShloMosaic.TcCoe Idealize.ShloMosaic.ValueIdx Idealize.SL.Sem
open Idealize.ShloMosaic.Pipeline (Dat)

/-! ## One block's product, entry by entry -/

/-- The product's record of dimension numbers is a plain one: the left operand contracted on its columns, the right
    on its rows. -/
theorem plain_dims : Cert.LibMatmulSum.Plain dot_S5000x128_S128x128_S5000x128_1_0_0_1_n_n :=
  Cert.LibMatmulSum.Plain.of_lists _ rfl rfl rfl rfl rfl rfl

/-- What the body stores, at entry (p, q): the sum over k of left(p, k) * right(k, q).  The narrowing of the two
    operands before the product is the identity on the extended reals, and so is a reshape to the same shape where
    the body has one. -/
theorem product_at (x0 : Vec Ideal S5000x128 .f32) (x1 : Vec Ideal S128x128 .f32) (p : Fin 5000) (q : Fin 128) :
    Gen.k6_pay1 (F := Ideal) x0 x1 (ix2 p q) = ∑ k : Fin 128, x0 (ix2 p k) * x1 (ix2 k q) := by
  unfold Gen.k6_pay1
  try simp only [shapeCast_self]
  exact Cert.LibMatmulSum.matmul_zero_at plain_dims none x0 x1 p q

/-- The same entry against the product of two arrays A, B, given where the block's row and the weight's column sit
    in them: if row (j 0) of the left block is row (i 0) of A and column (j 1) of the right block is column (i 1) of
    B, the stored entry j is entry i of the product A B. -/
theorem product_eq_mm (x0 : Vec Ideal S5000x128 .f32) (x1 : Vec Ideal S128x128 .f32)
    (A : Cert.GcnBn.SNxD.Idx → EReal) (B : Cert.GcnBn.SDxD.Idx → EReal) (j : S5000x128.Idx) (i : Cert.GcnBn.SNxD.Idx)
    (hl : ∀ k : Fin 128, x0 (ix2 (j 0) k) = A (ix2 (i 0) k))
    (hr : ∀ k : Fin 128, x1 (ix2 k (j 1)) = B (ix2 k (i 1))) :
    Gen.k6_pay1 (F := Ideal) x0 x1 j = Cert.GcnBn.mm A B i := by
  obtain ⟨p, q, rfl⟩ : ∃ (p : Fin 5000) (q : Fin 128), j = ix2 p q := ⟨j 0, j 1, eq_ix2 j⟩
  rw [product_at]
  unfold Cert.GcnBn.mm
  exact Finset.sum_congr rfl fun k _ => by rw [← hl k, ← hr k]

/-! ## Where the blocks sit -/

theorem zero_offsets : (![0, 0] : Fin 2 → Nat) = fun _ => 0 := funext fun a => by fin_cases a <;> rfl

/-- The block coordinates, decided over the ten grid points: the node blocks of the input and of the output are the
    same block of rows, at column block 0; the weight's one block is the whole matrix. -/
theorem block_coords : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (0 : Fin 2) ≤ 9
    ∧ win6_2.index t (1 : Fin 2) = 0 :=
  (by decide +kernel : ∀ t : Fin grid6.N, _)

/-- Every one of the ten row blocks is some grid point's. -/
theorem block_onto : ∀ b : Fin 10, ∃ t : Fin cfg6.N, win6_2.index t = ![b.val, 0] :=
  (by decide +kernel : ∀ b : Fin 10, ∃ t : Fin grid6.N, win6_2.index t = ![b.val, 0])

/-! ## What each point writes back, and the array after the ten points -/

variable (V : (c : Dev nD) → (b : Ref sig .tc) → Buf (Elt Ideal) ((c : Thread nD τ).loc b))

/-- Point t writes back block t of the matrix product of the two input arrays as the region finds them. -/
theorem flushed_eq (c : Dev nD) (t : Fin cfg6.N) :
    (Gen.dat6 (F := Ideal) V c).flushed 2 t
      = ((cfg6.win 2).blk t).view.read (Elt Ideal) (Cert.GcnBn.mm (V c (Pipeline.arrRef spec6 0)) (V c (Pipeline.arrRef spec6 1))) := by
  show (cfg6.win 2).cut (grid6.coords t) ((Gen.dat6 (F := Ideal) V c).after 2 t) = _
  rw [Gen.after6_2]
  unfold Gen.out6_2
  rw [View.canon_unit_zero zero_offsets]
  simp only [View.ld_unit_zero (S := S5000x128) zero_offsets, View.ld_unit_zero (S := S128x128) zero_offsets]
  obtain ⟨e0, e1, e2, e3, e4, e5⟩ := block_coords t
  funext j
  show Gen.k6_pay1 (F := Ideal) (Gen.iblk6 V c 0 t) (Gen.iblk6 V c 1 t) j
    = Cert.GcnBn.mm (V c (Pipeline.arrRef spec6 0)) (V c (Pipeline.arrRef spec6 1)) (((cfg6.win 2).blk t).view.emb j)
  refine product_eq_mm _ _ _ _ j _ (fun k => ?_) (fun k => ?_)
  · show V c (Pipeline.arrRef spec6 0) (((cfg6.win 0).blk t).view.emb (ix2 (j 0) k)) = _
    congr 1
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * k.val = k.val; omega
  · show V c (Pipeline.arrRef spec6 1) (((cfg6.win 1).blk t).view.emb (ix2 k (j 1))) = _
    congr 1
    funext a; apply Fin.ext
    match a with
    | ⟨0, _⟩ => show win6_1.index t (0 : Fin 2) * 128 + 1 * k.val = k.val; omega
    | ⟨1, _⟩ => show win6_1.index t (1 : Fin 2) * 128 + 1 * (j 1).val = win6_2.index t (1 : Fin 2) * 128 + 1 * (j 1).val; omega

/-- An index of the output array is in point t's block iff each coordinate is in the block's range on its axis. -/
theorem mem_block (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole (Pipeline.arrRef spec6 2)).slice (win6_2.rect t)).set ↔ _
  rw [View.set_slice_whole, Rect.mem_set_unit]
  exact Iff.rfl

/-- Every index of the output array is in some point's block: row r is in block r / 5000. -/
theorem covered (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  obtain ⟨t, ht⟩ := block_onto ⟨(i 0).val / 5000, by omega⟩
  have q0 : win6_2.index t (0 : Fin 2) = (i 0).val / 5000 := congrFun ht 0
  have q1 : win6_2.index t (1 : Fin 2) = 0 := congrFun ht 1
  refine ⟨t, Gen.flush6_2 t, ?_⟩
  rw [mem_block]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- The output array after the region: the matrix product of the two input arrays as the region finds them. -/
theorem arr6_2 (c : Dev nD) :
    ((Gen.dat6 (F := Ideal) V c).arrAt 2 cfg6.N : S50000x128.Idx → EReal)
      = Cert.GcnBn.mm (V c (Pipeline.arrRef spec6 0)) (V c (Pipeline.arrRef spec6 1)) :=
  (Gen.dat6 (F := Ideal) V c).arrAt_eq_of_cover 2 _ (fun t _ => flushed_eq V c t) covered

end Cert.KernelIdeal.RegVal6

end
-- ==== Proof.LibBlockedSum.lean ====
/-
  Sums over an initial segment of the naturals, cut into blocks: the first (n + 1) · B terms are the first n · B
  and the next B; and a sum whose terms vanish from N on may stop at N.
-/
import Mathlib.Algebra.BigOperators.Fin
import Mathlib.Algebra.BigOperators.Intervals

namespace Cert.LibBlockedSum

open Finset

/-- The first `(n + 1) · B` terms: the first `n · B`, then the block of `B` terms starting at `n · B`. -/
theorem sum_range_succ_block {M : Type*} [AddCommMonoid M] (f : ℕ → M) (B n : ℕ) :
    ∑ k ∈ range ((n + 1) * B), f k = ∑ k ∈ range (n * B), f k + ∑ j : Fin B, f (n * B + j.val) := by
  rw [Nat.succ_mul, sum_range_add, Fin.sum_univ_eq_sum_range (fun j => f (n * B + j)) B]

/-- Terms that vanish from `N` on contribute nothing. -/
theorem sum_range_of_zero_tail {M : Type*} [AddCommMonoid M] (f : ℕ → M) {N L : ℕ} (h : N ≤ L) (hz : ∀ k, N ≤ k → f k = 0) :
    ∑ k ∈ range L, f k = ∑ k ∈ range N, f k := by
  obtain ⟨d, rfl⟩ := Nat.exists_eq_add_of_le h
  rw [sum_range_add, sum_eq_zero (fun x _ => hz _ (Nat.le_add_right _ _)), add_zero]

end Cert.LibBlockedSum
-- ==== Proof.BnStatsRegion1.lean ====
/-
  Region 1 (the batch-normalisation statistics kernel): over its ten grid points the kernel keeps the two
  1 x 128 output blocks resident and accumulates into them; after the last point output 1 holds the column
  sums of the 50000 x 128 input array and output 2 the column sums of its squares.

  * what each case of the body leaves in each output block, as the payload arithmetic of the input block
    and the block's earlier contents (the first point starts from zeros, the later ones from what the point
    before left);
  * the payloads read at an entry (0, q) over the extended reals: earlier contents plus the sum over the
    5000 rows of the block's column q (of its squares, for output 2);
  * by induction on the point, after point n the blocks hold the sums over the first 5000 (n + 1) rows;
  * the output block is the whole array and is written back after the last point.
-/
import proofs.«139531_j89996744720583_1_alg».proof.Proof.Gen.KernelIdeal.Frame
import proofs.«139531_j89996744720583_1_alg».proof.Proof.Spec
import proofs.«139531_j89996744720583_1_alg».proof.Proof.LibBlockedSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RegVal1

open Cert.KernelIdeal Cert.KernelIdeal.Gen

section Pieces
variable {F : FTy → Type} [FloatOps F]

theorem hz : (![0, 0] : Fin 2 → Nat) = fun _ => 0 := funext fun a => by fin_cases a <;> rfl

/-- A later point (not the first) leaves, in output 1's block holding `xo1`, the payload of the one store that covers
    it: `xo1` plus the column sums of the input block. -/
theorem out_B_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x0 : Vec F S5000x128 .f32) (xo1 xo2 : Vec F S1x128 .f32) :
    out1_B_1 c i a1 h1 a2 h2 a3 h3 hc x0 xo1 xo2 = k1_pay4 x0 xo1 := by
  unfold out1_B_1
  rw [View.read_writes_eq_canon _ _ _ (cover1_B_1 c i a1 h1 a2 h2 a3 h3 hc x0 xo1 xo2)]
  unfold kernelRun1_B
  dsimp only
  rw [View.canon_unit_zero hz]
  simp only [View.readAt_eq_ld, h1.read_unread, h2.read_unread, View.ld_unit_zero (S := S5000x128) hz,
    View.ld_unit_zero (S := S1x128) hz]

/-- The same for output 2: `xo2` plus the column sums of the squares. -/
theorem out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x0 : Vec F S5000x128 .f32) (xo1 xo2 : Vec F S1x128 .f32) :
    out1_B_2 c i a1 h1 a2 h2 a3 h3 hc x0 xo1 xo2 = k1_pay5 x0 xo2 := by
  unfold out1_B_2
  rw [View.read_writes_eq_canon _ _ _ (cover1_B_2 c i a1 h1 a2 h2 a3 h3 hc x0 xo1 xo2)]
  unfold kernelRun1_B
  dsimp only
  rw [View.canon_unit_zero hz]
  simp only [View.readAt_eq_ld, h1.read_unread, h3.read_unread, View.ld_unit_zero (S := S5000x128) hz,
    View.ld_unit_zero (S := S1x128) hz]

/-- The first point stores zeros in output 1's block, reads them back, and leaves the zeros plus the column sums of
    the input block. -/
theorem out_A_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x0 : Vec F S5000x128 .f32) :
    out1_A_1 c i a1 h1 a2 h2 a3 h3 hc x0 = k1_pay4 x0 k1_pay1 := by
  unfold out1_A_1
  rw [View.read_writes_eq_canon _ _ _ (cover1_A_1 c i a1 h1 a2 h2 a3 h3 hc x0)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

/-- The same for output 2. -/
theorem out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x0 : Vec F S5000x128 .f32) :
    out1_A_2 c i a1 h1 a2 h2 a3 h3 hc x0 = k1_pay5 x0 k1_pay2 := by
  unfold out1_A_2
  rw [View.read_writes_eq_canon _ _ _ (cover1_A_2 c i a1 h1 a2 h2 a3 h3 hc x0)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

end Pieces

/-! ## The payloads at an entry, over the extended reals -/

/-- The source index of the lane sum over result lane `q` with row `r` inserted is `(r, q)`. -/
theorem lift_eq (r : Fin 5000) (q : Fin 128) :
    reduces_S5000x128_S128.lift (ix1 q) r = (ix2 r q : S5000x128.Idx) := by
  funext a
  apply Fin.ext
  match a with
  | ⟨0, _⟩ => rfl
  | ⟨1, _⟩ => rfl

/-- The stored zeros read `0`. -/
theorem pay1_apply (j : S1x128.Idx) : (k1_pay1 (F := Ideal) j : EReal) = 0 := Ideal.ofBits_zero_f32
theorem pay2_apply (j : S1x128.Idx) : (k1_pay2 (F := Ideal) j : EReal) = 0 := Ideal.ofBits_zero_f32

/-- Output 1's payload at `(u, q)`: the block's earlier entry plus the sum of column `q` of the input block. -/
theorem pay4_apply (x0 : Vec Ideal S5000x128 .f32) (xo : Vec Ideal S1x128 .f32) (u : Fin 1) (q : Fin 128) :
    (k1_pay4 (F := Ideal) x0 xo (ix2 u q) : EReal) = xo (ix2 u q) + ∑ r : Fin 5000, x0 (ix2 r q) := by
  unfold k1_pay4 k1_pay3
  refine congrArg₂ (· + ·) ?_ ?_
  · exact congrFun (shapeCast_self xo _) _
  · refine (shapeCast_a_1a_apply _ _ u q).trans ?_
    refine (Ideal.multiReduction_add_single _ _ _ _ _ _).trans ?_
    refine Finset.sum_congr rfl fun r _ => ?_
    exact (congrFun (shapeCast_self x0 _) _).trans (congrArg x0 (lift_eq r q))

/-- Output 2's payload at `(u, q)`: the block's earlier entry plus the sum of the squares of column `q`. -/
theorem pay5_apply (x0 : Vec Ideal S5000x128 .f32) (xo : Vec Ideal S1x128 .f32) (u : Fin 1) (q : Fin 128) :
    (k1_pay5 (F := Ideal) x0 xo (ix2 u q) : EReal) = xo (ix2 u q) + ∑ r : Fin 5000, x0 (ix2 r q) * x0 (ix2 r q) := by
  unfold k1_pay5 k1_pay3
  refine congrArg₂ (· + ·) ?_ ?_
  · exact congrFun (shapeCast_self xo _) _
  · refine (shapeCast_a_1a_apply _ _ u q).trans ?_
    refine (Ideal.multiReduction_add_single _ _ _ _ _ _).trans ?_
    refine Finset.sum_congr rfl fun r _ => ?_
    have e : (shapeCast S5000x128 x0 shapeCasts_S5000x128_S5000x128) (reduces_S5000x128_S128.lift (ix1 q) r) = x0 (ix2 r q) :=
      (congrFun (shapeCast_self x0 _) _).trans (congrArg x0 (lift_eq r q))
    exact congrArg₂ (· * ·) e e

/-! ## The input blocks, and the outputs point by point -/

section Sums
variable (V : (c : Dev nD) → (b : Ref sig .tc) → Buf (Elt Ideal) ((c : Thread nD τ).loc b)) (c : Dev nD)

/-- The index map of the input window over the grid: block `t` is rows `5000 t …`, all columns. -/
theorem idx_facts : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Entry `(k, q)` of an array of 50000 rows, for any natural `k`: `0` past the last row. -/
def rowAt (X : S50000x128.Idx → EReal) (q : Fin 128) (k : ℕ) : EReal :=
  if h : k < 50000 then X (ix2 ⟨k, h⟩ q) else 0

/-- Block `t` of the input, as a 5000 x 128 vector of extended reals. -/
abbrev xb (t : Fin cfg1.N) : Vec Ideal S5000x128 .f32 := iblk1 V c 0 t

/-- Block `t` of the input at local `(p, q)` is the array at `(5000 t + p, q)`. -/
theorem iblk_apply (t : Fin cfg1.N) (p : Fin 5000) (q : Fin 128) :
    xb V c t (ix2 p q) = rowAt (V c (Pipeline.arrRef spec1 0)) q (t.val * 5000 + p.val) := by
  have hN : t.val < 10 := lt_of_lt_of_eq t.isLt N_1
  have h : t.val * 5000 + p.val < 50000 := by have := p.isLt; omega
  unfold rowAt
  rw [dif_pos h]
  show iblk1 V c 0 t (ix2 p q) = _
  unfold iblk1
  rw [View.read_apply]
  show V c (Pipeline.arrRef spec1 0) _ = V c (Pipeline.arrRef spec1 0) _
  congr 1
  funext a
  apply Fin.ext
  match a with
  | ⟨0, _⟩ => show win1_0.index t 0 * 5000 + 1 * p.val = t.val * 5000 + p.val; rw [(idx_facts t).1]; omega
  | ⟨1, _⟩ => show win1_0.index t 1 * 128 + 1 * q.val = q.val; rw [(idx_facts t).2]; omega

/-- The first point leaves in output 1's block, at `(u, q)`, the sum of column `q` of block `t`; -/
theorem outs1_A (t : Fin cfg1.N) (h0 : t.val % 10 = 0) (u : Fin 1) (q : Fin 128) :
    ((outsAt1 V c t.val t.isLt).1 (ix2 u q) : EReal) = 0 + ∑ r : Fin 5000, xb V c t (ix2 r q) := by
  refine (congrArg (fun z : Vec Ideal S1x128 .f32 × Vec Ideal S1x128 .f32 => (z.1 (ix2 u q) : EReal)) (outsAt1_A V c t h0)).trans ?_
  dsimp only
  refine (congrFun (out_A_1 c (grid1.coords t) (ms1_0 t) (hs1_0 t) (ms1_1 t) (hs1_1 t) (ms1_2 t) (hs1_2 t)
    ((hcond1_0 t).mpr h0) (iblk1 V c 0 t)) (ix2 u q)).trans ?_
  refine (pay4_apply (xb V c t) (k1_pay1 (F := Ideal)) u q).trans ?_
  exact congrArg (· + ∑ r : Fin 5000, xb V c t (ix2 r q)) (pay1_apply (ix2 u q))

/-- and in output 2's block the sum of its squares. -/
theorem outs2_A (t : Fin cfg1.N) (h0 : t.val % 10 = 0) (u : Fin 1) (q : Fin 128) :
    ((outsAt1 V c t.val t.isLt).2 (ix2 u q) : EReal)
      = 0 + ∑ r : Fin 5000, xb V c t (ix2 r q) * xb V c t (ix2 r q) := by
  refine (congrArg (fun z : Vec Ideal S1x128 .f32 × Vec Ideal S1x128 .f32 => (z.2 (ix2 u q) : EReal)) (outsAt1_A V c t h0)).trans ?_
  dsimp only
  refine (congrFun (out_A_2 c (grid1.coords t) (ms1_0 t) (hs1_0 t) (ms1_1 t) (hs1_1 t) (ms1_2 t) (hs1_2 t)
    ((hcond1_0 t).mpr h0) (iblk1 V c 0 t)) (ix2 u q)).trans ?_
  refine (pay5_apply (xb V c t) (k1_pay2 (F := Ideal)) u q).trans ?_
  exact congrArg (· + ∑ r : Fin 5000, xb V c t (ix2 r q) * xb V c t (ix2 r q)) (pay2_apply (ix2 u q))

/-- A later point adds the sum of column `q` of its block to what the point before left in output 1's block; -/
theorem outs1_B (t : Fin cfg1.N) (h0 : ¬t.val % 10 = 0) (u : Fin 1) (q : Fin 128) :
    ((outsAt1 V c t.val t.isLt).1 (ix2 u q) : EReal)
      = ((outsAt1 V c (t.val - 1) (Nat.lt_of_le_of_lt (Nat.sub_le _ _) t.isLt)).1 (ix2 u q) : EReal)
        + ∑ r : Fin 5000, xb V c t (ix2 r q) := by
  refine (congrArg (fun z : Vec Ideal S1x128 .f32 × Vec Ideal S1x128 .f32 => (z.1 (ix2 u q) : EReal)) (outsAt1_B V c t h0)).trans ?_
  dsimp only
  refine (congrFun (out_B_1 c (grid1.coords t) (ms1_0 t) (hs1_0 t) (ms1_1 t) (hs1_1 t) (ms1_2 t) (hs1_2 t)
    (fun h => h0 ((hcond1_0 t).mp h)) (iblk1 V c 0 t)
    (outsAt1 V c (t.val - 1) (Nat.lt_of_le_of_lt (Nat.sub_le _ _) t.isLt)).1
    (outsAt1 V c (t.val - 1) (Nat.lt_of_le_of_lt (Nat.sub_le _ _) t.isLt)).2) (ix2 u q)).trans ?_
  exact pay4_apply (xb V c t) (outsAt1 V c (t.val - 1) (Nat.lt_of_le_of_lt (Nat.sub_le _ _) t.isLt)).1 u q

/-- and the sum of its squares to what it left in output 2's. -/
theorem outs2_B (t : Fin cfg1.N) (h0 : ¬t.val % 10 = 0) (u : Fin 1) (q : Fin 128) :
    ((outsAt1 V c t.val t.isLt).2 (ix2 u q) : EReal)
      = ((outsAt1 V c (t.val - 1) (Nat.lt_of_le_of_lt (Nat.sub_le _ _) t.isLt)).2 (ix2 u q) : EReal)
        + ∑ r : Fin 5000, xb V c t (ix2 r q) * xb V c t (ix2 r q) := by
  refine (congrArg (fun z : Vec Ideal S1x128 .f32 × Vec Ideal S1x128 .f32 => (z.2 (ix2 u q) : EReal)) (outsAt1_B V c t h0)).trans ?_
  dsimp only
  refine (congrFun (out_B_2 c (grid1.coords t) (ms1_0 t) (hs1_0 t) (ms1_1 t) (hs1_1 t) (ms1_2 t) (hs1_2 t)
    (fun h => h0 ((hcond1_0 t).mp h)) (iblk1 V c 0 t)
    (outsAt1 V c (t.val - 1) (Nat.lt_of_le_of_lt (Nat.sub_le _ _) t.isLt)).1
    (outsAt1 V c (t.val - 1) (Nat.lt_of_le_of_lt (Nat.sub_le _ _) t.isLt)).2) (ix2 u q)).trans ?_
  exact pay5_apply (xb V c t) (outsAt1 V c (t.val - 1) (Nat.lt_of_le_of_lt (Nat.sub_le _ _) t.isLt)).2 u q

/-- After point `n` output 1's block holds, at `(u, q)`, the sum of column `q` over the first `5000 (n + 1)` rows of
    the array, and output 2's block the sum of the squares: by induction on the point. -/
theorem outs_eq : ∀ (n : ℕ) (hn : n < cfg1.N) (u : Fin 1) (q : Fin 128),
    ((outsAt1 V c n hn).1 (ix2 u q) : EReal)
        = ∑ k ∈ Finset.range ((n + 1) * 5000), rowAt (V c (Pipeline.arrRef spec1 0)) q k
    ∧ ((outsAt1 V c n hn).2 (ix2 u q) : EReal)
        = ∑ k ∈ Finset.range ((n + 1) * 5000), rowAt (V c (Pipeline.arrRef spec1 0)) q k * rowAt (V c (Pipeline.arrRef spec1 0)) q k
  | 0, hn, u, q => by
    constructor
    · refine (outs1_A V c ⟨0, hn⟩ rfl u q).trans ?_
      rw [Cert.LibBlockedSum.sum_range_succ_block, Nat.zero_mul, Finset.range_zero, Finset.sum_empty]
      exact congrArg (0 + ·) (Finset.sum_congr rfl fun r _ => (iblk_apply V c ⟨0, hn⟩ r q).trans (by rw [Nat.zero_mul]))
    · refine (outs2_A V c ⟨0, hn⟩ rfl u q).trans ?_
      rw [Cert.LibBlockedSum.sum_range_succ_block, Nat.zero_mul, Finset.range_zero, Finset.sum_empty]
      exact congrArg (0 + ·) (Finset.sum_congr rfl fun r _ => by rw [iblk_apply V c ⟨0, hn⟩ r q, Nat.zero_mul])
  | n + 1, hn, u, q => by
    have hN : n + 1 < 10 := lt_of_lt_of_eq hn N_1
    have hB : ¬(⟨n + 1, hn⟩ : Fin cfg1.N).val % 10 = 0 := by dsimp only; omega
    have ih := outs_eq n (Nat.lt_of_succ_lt hn) u q
    constructor
    · refine (outs1_B V c ⟨n + 1, hn⟩ hB u q).trans ?_
      rw [Cert.LibBlockedSum.sum_range_succ_block _ 5000 (n + 1)]
      refine congrArg₂ (· + ·) ih.1 (Finset.sum_congr rfl fun r _ => iblk_apply V c ⟨n + 1, hn⟩ r q)
    · refine (outs2_B V c ⟨n + 1, hn⟩ hB u q).trans ?_
      rw [Cert.LibBlockedSum.sum_range_succ_block _ 5000 (n + 1)]
      refine congrArg₂ (· + ·) ih.2 (Finset.sum_congr rfl fun r _ => by rw [iblk_apply V c ⟨n + 1, hn⟩ r q])

end Sums

/-! ## The output arrays after the last point -/

section Final
variable (V : (c : Dev nD) → (b : Ref sig .tc) → Buf (Elt Ideal) ((c : Thread nD τ).loc b)) (c : Dev nD)

/-- The sum over the first 50000 naturals of the entries of column `q` is the sum over the rows. -/
theorem sum_rowAt (X : S50000x128.Idx → EReal) (q : Fin 128) :
    ∑ k ∈ Finset.range 50000, rowAt X q k = ∑ r : Fin 50000, X (ix2 r q) := by
  rw [Finset.sum_range]
  exact Finset.sum_congr rfl fun r _ => dif_pos r.isLt

theorem sum_rowAt_sq (X : S50000x128.Idx → EReal) (q : Fin 128) :
    ∑ k ∈ Finset.range 50000, rowAt X q k * rowAt X q k = ∑ r : Fin 50000, X (ix2 r q) * X (ix2 r q) := by
  rw [Finset.sum_range]
  exact Finset.sum_congr rfl fun r _ => by rw [show rowAt X q r.val = X (ix2 r q) from dif_pos r.isLt]

/-- What output 1's array is to end holding: the column sums of the input array. -/
abbrev G1 : Buf (Elt Ideal) ((c : Thread nD τ).loc (Pipeline.arrRef spec1 1)) :=
  (Cert.GcnBn.colSum (V c (Pipeline.arrRef spec1 0)) : S1x128.Idx → EReal)

/-- What output 2's array is to end holding: the column sums of the squares. -/
abbrev G2 : Buf (Elt Ideal) ((c : Thread nD τ).loc (Pipeline.arrRef spec1 2)) :=
  (Cert.GcnBn.colSumSq (V c (Pipeline.arrRef spec1 0)) : S1x128.Idx → EReal)

/-- After the last point output 1's block holds the column sums, -/
theorem last1 (h9 : 9 < cfg1.N) : ((outsAt1 V c 9 h9).1 : S1x128.Idx → EReal) = G1 V c := by
  funext j
  obtain ⟨u, q, rfl⟩ : ∃ (u : Fin 1) (q : Fin 128), j = ix2 u q := ⟨j 0, j 1, eq_ix2 j⟩
  exact ((outs_eq V c 9 h9 u q).1).trans (sum_rowAt _ q)

/-- and output 2's the column sums of the squares. -/
theorem last2 (h9 : 9 < cfg1.N) : ((outsAt1 V c 9 h9).2 : S1x128.Idx → EReal) = G2 V c := by
  funext j
  obtain ⟨u, q, rfl⟩ : ∃ (u : Fin 1) (q : Fin 128), j = ix2 u q := ⟨j 0, j 1, eq_ix2 j⟩
  exact ((outs_eq V c 9 h9 u q).2).trans (sum_rowAt_sq _ q)

/-- The one write-back of output 1, after the last point, writes the column sums: its block is the whole array. -/
theorem flushed1_eq (t : Fin cfg1.N) (hf : (cfg1.win 1).flush t = true) :
    (dat1 V c).flushed 1 t = ((cfg1.win 1).blk t).view.read (Elt Ideal) (G1 V c) := by
  have hN : t.val < 10 := lt_of_lt_of_eq t.isLt N_1
  have h9 : t.val = 9 := by have := (flush1_1 t).mp hf; omega
  obtain rfl : t = t1_9 := Fin.ext h9
  show (cfg1.win 1).cut (grid1.coords t1_9) ((dat1 V c).after 1 t1_9) = _
  rw [after1_1]
  have e : (outsAt1 V c t1_9.val t1_9.isLt).1 = G1 V c := last1 V c t1_9.isLt
  rw [e]
  have hz' : (fun a => win1_1.index t1_9 a * (Pipeline.arrRef spec1 1).ty.shape.size a) = fun _ => 0 :=
    funext fun a => by fin_cases a <;> decide
  exact (Memref.read_access_unit_zero (Elt Ideal) (Pipeline.arrRef spec1 1) hz' (fun a => by rw [congrFun hz' a]; simp) (G1 V c)).symm

/-- The one write-back of output 2 writes the column sums of the squares. -/
theorem flushed2_eq (t : Fin cfg1.N) (hf : (cfg1.win 2).flush t = true) :
    (dat1 V c).flushed 2 t = ((cfg1.win 2).blk t).view.read (Elt Ideal) (G2 V c) := by
  have hN : t.val < 10 := lt_of_lt_of_eq t.isLt N_1
  have h9 : t.val = 9 := by have := (flush1_2 t).mp hf; omega
  obtain rfl : t = t1_9 := Fin.ext h9
  show (cfg1.win 2).cut (grid1.coords t1_9) ((dat1 V c).after 2 t1_9) = _
  rw [after1_2]
  have e : (outsAt1 V c t1_9.val t1_9.isLt).2 = G2 V c := last2 V c t1_9.isLt
  rw [e]
  have hz' : (fun a => win1_2.index t1_9 a * (Pipeline.arrRef spec1 2).ty.shape.size a) = fun _ => 0 :=
    funext fun a => by fin_cases a <;> decide
  exact (Memref.read_access_unit_zero (Elt Ideal) (Pipeline.arrRef spec1 2) hz' (fun a => by rw [congrFun hz' a]; simp) (G2 V c)).symm

/-- So output 1's array ends holding the column sums of the input array: the last point's block covers it. -/
theorem arr1_1 : ((dat1 (F := Ideal) V c).arrAt 1 cfg1.N : S1x128.Idx → EReal)
    = Cert.GcnBn.colSum (V c (Pipeline.arrRef spec1 0)) :=
  (dat1 V c).arrAt_eq_of_cover 1 (G1 V c) (flushed1_eq V c) fun i =>
    ⟨t1_9, (flush1_1 t1_9).mpr rfl, by
      show i ∈ ((View.whole (Pipeline.arrRef spec1 1)).slice (win1_1.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_1.index t1_9 0 * win1_1.size 0 ≤ (i 0 : Nat) ∧ (i 0 : Nat) < win1_1.index t1_9 0 * win1_1.size 0 + win1_1.xsize (grid1.coords t1_9) 0
                  rw [show win1_1.index t1_9 0 * win1_1.size 0 = 0 from by decide +kernel, show win1_1.xsize (grid1.coords t1_9) 0 = 1 from by decide +kernel]; omega
      | ⟨1, _⟩ => show win1_1.index t1_9 1 * win1_1.size 1 ≤ (i 1 : Nat) ∧ (i 1 : Nat) < win1_1.index t1_9 1 * win1_1.size 1 + win1_1.xsize (grid1.coords t1_9) 1
                  rw [show win1_1.index t1_9 1 * win1_1.size 1 = 0 from by decide +kernel, show win1_1.xsize (grid1.coords t1_9) 1 = 128 from by decide +kernel]; omega⟩

/-- And output 2's array ends holding the column sums of the squares. -/
theorem arr1_2 : ((dat1 (F := Ideal) V c).arrAt 2 cfg1.N : S1x128.Idx → EReal)
    = Cert.GcnBn.colSumSq (V c (Pipeline.arrRef spec1 0)) :=
  (dat1 V c).arrAt_eq_of_cover 2 (G2 V c) (flushed2_eq V c) fun i =>
    ⟨t1_9, (flush1_2 t1_9).mpr rfl, by
      show i ∈ ((View.whole (Pipeline.arrRef spec1 2)).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

end Final

end Cert.KernelIdeal.RegVal1
end
-- ==== Proof.BnStatsRegion4.lean ====
/-
  Region 4 (the batch-normalisation statistics kernel of the second layer): over its ten grid points the kernel keeps the two
  1 x 128 output blocks resident and accumulates into them; after the last point output 1 holds the column
  sums of the 50000 x 128 input array and output 2 the column sums of its squares.

  * what each case of the body leaves in each output block, as the payload arithmetic of the input block
    and the block's earlier contents (the first point starts from zeros, the later ones from what the point
    before left);
  * the payloads read at an entry (0, q) over the extended reals: earlier contents plus the sum over the
    5000 rows of the block's column q (of its squares, for output 2);
  * by induction on the point, after point n the blocks hold the sums over the first 5000 (n + 1) rows;
  * the output block is the whole array and is written back after the last point.
-/
import proofs.«139531_j89996744720583_1_alg».proof.Proof.Gen.KernelIdeal.Frame
import proofs.«139531_j89996744720583_1_alg».proof.Proof.Spec
import proofs.«139531_j89996744720583_1_alg».proof.Proof.LibBlockedSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RegVal4

open Cert.KernelIdeal Cert.KernelIdeal.Gen

section Pieces
variable {F : FTy → Type} [FloatOps F]

theorem hz : (![0, 0] : Fin 2 → Nat) = fun _ => 0 := funext fun a => by fin_cases a <;> rfl

/-- A later point (not the first) leaves, in output 1's block holding `xo1`, the payload of the one store that covers
    it: `xo1` plus the column sums of the input block. -/
theorem out_B_1 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x0 : Vec F S5000x128 .f32) (xo1 xo2 : Vec F S1x128 .f32) :
    out4_B_1 c i a1 h1 a2 h2 a3 h3 hc x0 xo1 xo2 = k4_pay4 x0 xo1 := by
  unfold out4_B_1
  rw [View.read_writes_eq_canon _ _ _ (cover4_B_1 c i a1 h1 a2 h2 a3 h3 hc x0 xo1 xo2)]
  unfold kernelRun4_B
  dsimp only
  rw [View.canon_unit_zero hz]
  simp only [View.readAt_eq_ld, h1.read_unread, h2.read_unread, View.ld_unit_zero (S := S5000x128) hz,
    View.ld_unit_zero (S := S1x128) hz]

/-- The same for output 2: `xo2` plus the column sums of the squares. -/
theorem out_B_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x0 : Vec F S5000x128 .f32) (xo1 xo2 : Vec F S1x128 .f32) :
    out4_B_2 c i a1 h1 a2 h2 a3 h3 hc x0 xo1 xo2 = k4_pay5 x0 xo2 := by
  unfold out4_B_2
  rw [View.read_writes_eq_canon _ _ _ (cover4_B_2 c i a1 h1 a2 h2 a3 h3 hc x0 xo1 xo2)]
  unfold kernelRun4_B
  dsimp only
  rw [View.canon_unit_zero hz]
  simp only [View.readAt_eq_ld, h1.read_unread, h3.read_unread, View.ld_unit_zero (S := S5000x128) hz,
    View.ld_unit_zero (S := S1x128) hz]

/-- The first point stores zeros in output 1's block, reads them back, and leaves the zeros plus the column sums of
    the input block. -/
theorem out_A_1 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x0 : Vec F S5000x128 .f32) :
    out4_A_1 c i a1 h1 a2 h2 a3 h3 hc x0 = k4_pay4 x0 k4_pay1 := by
  unfold out4_A_1
  rw [View.read_writes_eq_canon _ _ _ (cover4_A_1 c i a1 h1 a2 h2 a3 h3 hc x0)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S5000x128) hz]

/-- The same for output 2. -/
theorem out_A_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x0 : Vec F S5000x128 .f32) :
    out4_A_2 c i a1 h1 a2 h2 a3 h3 hc x0 = k4_pay5 x0 k4_pay2 := by
  unfold out4_A_2
  rw [View.read_writes_eq_canon _ _ _ (cover4_A_2 c i a1 h1 a2 h2 a3 h3 hc x0)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S5000x128) hz]

end Pieces

/-! ## The payloads at an entry, over the extended reals -/

/-- The source index of the lane sum over result lane `q` with row `r` inserted is `(r, q)`. -/
theorem lift_eq (r : Fin 5000) (q : Fin 128) :
    reduces_S5000x128_S128.lift (ix1 q) r = (ix2 r q : S5000x128.Idx) := by
  funext a
  apply Fin.ext
  match a with
  | ⟨0, _⟩ => rfl
  | ⟨1, _⟩ => rfl

/-- The stored zeros read `0`. -/
theorem pay1_apply (j : S1x128.Idx) : (k4_pay1 (F := Ideal) j : EReal) = 0 := Ideal.ofBits_zero_f32
theorem pay2_apply (j : S1x128.Idx) : (k4_pay2 (F := Ideal) j : EReal) = 0 := Ideal.ofBits_zero_f32

/-- Output 1's payload at `(u, q)`: the block's earlier entry plus the sum of column `q` of the input block. -/
theorem pay4_apply (x0 : Vec Ideal S5000x128 .f32) (xo : Vec Ideal S1x128 .f32) (u : Fin 1) (q : Fin 128) :
    (k4_pay4 (F := Ideal) x0 xo (ix2 u q) : EReal) = xo (ix2 u q) + ∑ r : Fin 5000, x0 (ix2 r q) := by
  unfold k4_pay4 k4_pay3
  refine congrArg₂ (· + ·) ?_ ?_
  · exact congrFun (shapeCast_self xo _) _
  · refine (shapeCast_a_1a_apply _ _ u q).trans ?_
    refine (Ideal.multiReduction_add_single _ _ _ _ _ _).trans ?_
    refine Finset.sum_congr rfl fun r _ => ?_
    exact (congrFun (shapeCast_self x0 _) _).trans (congrArg x0 (lift_eq r q))

/-- Output 2's payload at `(u, q)`: the block's earlier entry plus the sum of the squares of column `q`. -/
theorem pay5_apply (x0 : Vec Ideal S5000x128 .f32) (xo : Vec Ideal S1x128 .f32) (u : Fin 1) (q : Fin 128) :
    (k4_pay5 (F := Ideal) x0 xo (ix2 u q) : EReal) = xo (ix2 u q) + ∑ r : Fin 5000, x0 (ix2 r q) * x0 (ix2 r q) := by
  unfold k4_pay5 k4_pay3
  refine congrArg₂ (· + ·) ?_ ?_
  · exact congrFun (shapeCast_self xo _) _
  · refine (shapeCast_a_1a_apply _ _ u q).trans ?_
    refine (Ideal.multiReduction_add_single _ _ _ _ _ _).trans ?_
    refine Finset.sum_congr rfl fun r _ => ?_
    have e : (shapeCast S5000x128 x0 shapeCasts_S5000x128_S5000x128) (reduces_S5000x128_S128.lift (ix1 q) r) = x0 (ix2 r q) :=
      (congrFun (shapeCast_self x0 _) _).trans (congrArg x0 (lift_eq r q))
    exact congrArg₂ (· * ·) e e

/-! ## The input blocks, and the outputs point by point -/

section Sums
variable (V : (c : Dev nD) → (b : Ref sig .tc) → Buf (Elt Ideal) ((c : Thread nD τ).loc b)) (c : Dev nD)

/-- The index map of the input window over the grid: block `t` is rows `5000 t …`, all columns. -/
theorem idx_facts : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- Entry `(k, q)` of an array of 50000 rows, for any natural `k`: `0` past the last row. -/
def rowAt (X : S50000x128.Idx → EReal) (q : Fin 128) (k : ℕ) : EReal :=
  if h : k < 50000 then X (ix2 ⟨k, h⟩ q) else 0

/-- Block `t` of the input, as a 5000 x 128 vector of extended reals. -/
abbrev xb (t : Fin cfg4.N) : Vec Ideal S5000x128 .f32 := iblk4 V c 0 t

/-- Block `t` of the input at local `(p, q)` is the array at `(5000 t + p, q)`. -/
theorem iblk_apply (t : Fin cfg4.N) (p : Fin 5000) (q : Fin 128) :
    xb V c t (ix2 p q) = rowAt (V c (Pipeline.arrRef spec4 0)) q (t.val * 5000 + p.val) := by
  have hN : t.val < 10 := lt_of_lt_of_eq t.isLt N_4
  have h : t.val * 5000 + p.val < 50000 := by have := p.isLt; omega
  unfold rowAt
  rw [dif_pos h]
  show iblk4 V c 0 t (ix2 p q) = _
  unfold iblk4
  rw [View.read_apply]
  show V c (Pipeline.arrRef spec4 0) _ = V c (Pipeline.arrRef spec4 0) _
  congr 1
  funext a
  apply Fin.ext
  match a with
  | ⟨0, _⟩ => show win4_0.index t 0 * 5000 + 1 * p.val = t.val * 5000 + p.val; rw [(idx_facts t).1]; omega
  | ⟨1, _⟩ => show win4_0.index t 1 * 128 + 1 * q.val = q.val; rw [(idx_facts t).2]; omega

/-- The first point leaves in output 1's block, at `(u, q)`, the sum of column `q` of block `t`; -/
theorem outs1_A (t : Fin cfg4.N) (h0 : t.val % 10 = 0) (u : Fin 1) (q : Fin 128) :
    ((outsAt4 V c t.val t.isLt).1 (ix2 u q) : EReal) = 0 + ∑ r : Fin 5000, xb V c t (ix2 r q) := by
  refine (congrArg (fun z : Vec Ideal S1x128 .f32 × Vec Ideal S1x128 .f32 => (z.1 (ix2 u q) : EReal)) (outsAt4_A V c t h0)).trans ?_
  dsimp only
  refine (congrFun (out_A_1 c (grid4.coords t) (ms4_0 t) (hs4_0 t) (ms4_1 t) (hs4_1 t) (ms4_2 t) (hs4_2 t)
    ((hcond4_0 t).mpr h0) (iblk4 V c 0 t)) (ix2 u q)).trans ?_
  refine (pay4_apply (xb V c t) (k4_pay1 (F := Ideal)) u q).trans ?_
  exact congrArg (· + ∑ r : Fin 5000, xb V c t (ix2 r q)) (pay1_apply (ix2 u q))

/-- and in output 2's block the sum of its squares. -/
theorem outs2_A (t : Fin cfg4.N) (h0 : t.val % 10 = 0) (u : Fin 1) (q : Fin 128) :
    ((outsAt4 V c t.val t.isLt).2 (ix2 u q) : EReal)
      = 0 + ∑ r : Fin 5000, xb V c t (ix2 r q) * xb V c t (ix2 r q) := by
  refine (congrArg (fun z : Vec Ideal S1x128 .f32 × Vec Ideal S1x128 .f32 => (z.2 (ix2 u q) : EReal)) (outsAt4_A V c t h0)).trans ?_
  dsimp only
  refine (congrFun (out_A_2 c (grid4.coords t) (ms4_0 t) (hs4_0 t) (ms4_1 t) (hs4_1 t) (ms4_2 t) (hs4_2 t)
    ((hcond4_0 t).mpr h0) (iblk4 V c 0 t)) (ix2 u q)).trans ?_
  refine (pay5_apply (xb V c t) (k4_pay2 (F := Ideal)) u q).trans ?_
  exact congrArg (· + ∑ r : Fin 5000, xb V c t (ix2 r q) * xb V c t (ix2 r q)) (pay2_apply (ix2 u q))

/-- A later point adds the sum of column `q` of its block to what the point before left in output 1's block; -/
theorem outs1_B (t : Fin cfg4.N) (h0 : ¬t.val % 10 = 0) (u : Fin 1) (q : Fin 128) :
    ((outsAt4 V c t.val t.isLt).1 (ix2 u q) : EReal)
      = ((outsAt4 V c (t.val - 1) (Nat.lt_of_le_of_lt (Nat.sub_le _ _) t.isLt)).1 (ix2 u q) : EReal)
        + ∑ r : Fin 5000, xb V c t (ix2 r q) := by
  refine (congrArg (fun z : Vec Ideal S1x128 .f32 × Vec Ideal S1x128 .f32 => (z.1 (ix2 u q) : EReal)) (outsAt4_B V c t h0)).trans ?_
  dsimp only
  refine (congrFun (out_B_1 c (grid4.coords t) (ms4_0 t) (hs4_0 t) (ms4_1 t) (hs4_1 t) (ms4_2 t) (hs4_2 t)
    (fun h => h0 ((hcond4_0 t).mp h)) (iblk4 V c 0 t)
    (outsAt4 V c (t.val - 1) (Nat.lt_of_le_of_lt (Nat.sub_le _ _) t.isLt)).1
    (outsAt4 V c (t.val - 1) (Nat.lt_of_le_of_lt (Nat.sub_le _ _) t.isLt)).2) (ix2 u q)).trans ?_
  exact pay4_apply (xb V c t) (outsAt4 V c (t.val - 1) (Nat.lt_of_le_of_lt (Nat.sub_le _ _) t.isLt)).1 u q

/-- and the sum of its squares to what it left in output 2's. -/
theorem outs2_B (t : Fin cfg4.N) (h0 : ¬t.val % 10 = 0) (u : Fin 1) (q : Fin 128) :
    ((outsAt4 V c t.val t.isLt).2 (ix2 u q) : EReal)
      = ((outsAt4 V c (t.val - 1) (Nat.lt_of_le_of_lt (Nat.sub_le _ _) t.isLt)).2 (ix2 u q) : EReal)
        + ∑ r : Fin 5000, xb V c t (ix2 r q) * xb V c t (ix2 r q) := by
  refine (congrArg (fun z : Vec Ideal S1x128 .f32 × Vec Ideal S1x128 .f32 => (z.2 (ix2 u q) : EReal)) (outsAt4_B V c t h0)).trans ?_
  dsimp only
  refine (congrFun (out_B_2 c (grid4.coords t) (ms4_0 t) (hs4_0 t) (ms4_1 t) (hs4_1 t) (ms4_2 t) (hs4_2 t)
    (fun h => h0 ((hcond4_0 t).mp h)) (iblk4 V c 0 t)
    (outsAt4 V c (t.val - 1) (Nat.lt_of_le_of_lt (Nat.sub_le _ _) t.isLt)).1
    (outsAt4 V c (t.val - 1) (Nat.lt_of_le_of_lt (Nat.sub_le _ _) t.isLt)).2) (ix2 u q)).trans ?_
  exact pay5_apply (xb V c t) (outsAt4 V c (t.val - 1) (Nat.lt_of_le_of_lt (Nat.sub_le _ _) t.isLt)).2 u q

/-- After point `n` output 1's block holds, at `(u, q)`, the sum of column `q` over the first `5000 (n + 1)` rows of
    the array, and output 2's block the sum of the squares: by induction on the point. -/
theorem outs_eq : ∀ (n : ℕ) (hn : n < cfg4.N) (u : Fin 1) (q : Fin 128),
    ((outsAt4 V c n hn).1 (ix2 u q) : EReal)
        = ∑ k ∈ Finset.range ((n + 1) * 5000), rowAt (V c (Pipeline.arrRef spec4 0)) q k
    ∧ ((outsAt4 V c n hn).2 (ix2 u q) : EReal)
        = ∑ k ∈ Finset.range ((n + 1) * 5000), rowAt (V c (Pipeline.arrRef spec4 0)) q k * rowAt (V c (Pipeline.arrRef spec4 0)) q k
  | 0, hn, u, q => by
    constructor
    · refine (outs1_A V c ⟨0, hn⟩ rfl u q).trans ?_
      rw [Cert.LibBlockedSum.sum_range_succ_block, Nat.zero_mul, Finset.range_zero, Finset.sum_empty]
      exact congrArg (0 + ·) (Finset.sum_congr rfl fun r _ => (iblk_apply V c ⟨0, hn⟩ r q).trans (by rw [Nat.zero_mul]))
    · refine (outs2_A V c ⟨0, hn⟩ rfl u q).trans ?_
      rw [Cert.LibBlockedSum.sum_range_succ_block, Nat.zero_mul, Finset.range_zero, Finset.sum_empty]
      exact congrArg (0 + ·) (Finset.sum_congr rfl fun r _ => by rw [iblk_apply V c ⟨0, hn⟩ r q, Nat.zero_mul])
  | n + 1, hn, u, q => by
    have hN : n + 1 < 10 := lt_of_lt_of_eq hn N_4
    have hB : ¬(⟨n + 1, hn⟩ : Fin cfg4.N).val % 10 = 0 := by dsimp only; omega
    have ih := outs_eq n (Nat.lt_of_succ_lt hn) u q
    constructor
    · refine (outs1_B V c ⟨n + 1, hn⟩ hB u q).trans ?_
      rw [Cert.LibBlockedSum.sum_range_succ_block _ 5000 (n + 1)]
      refine congrArg₂ (· + ·) ih.1 (Finset.sum_congr rfl fun r _ => iblk_apply V c ⟨n + 1, hn⟩ r q)
    · refine (outs2_B V c ⟨n + 1, hn⟩ hB u q).trans ?_
      rw [Cert.LibBlockedSum.sum_range_succ_block _ 5000 (n + 1)]
      refine congrArg₂ (· + ·) ih.2 (Finset.sum_congr rfl fun r _ => by rw [iblk_apply V c ⟨n + 1, hn⟩ r q])

end Sums

/-! ## The output arrays after the last point -/

section Final
variable (V : (c : Dev nD) → (b : Ref sig .tc) → Buf (Elt Ideal) ((c : Thread nD τ).loc b)) (c : Dev nD)

/-- The sum over the first 50000 naturals of the entries of column `q` is the sum over the rows. -/
theorem sum_rowAt (X : S50000x128.Idx → EReal) (q : Fin 128) :
    ∑ k ∈ Finset.range 50000, rowAt X q k = ∑ r : Fin 50000, X (ix2 r q) := by
  rw [Finset.sum_range]
  exact Finset.sum_congr rfl fun r _ => dif_pos r.isLt

theorem sum_rowAt_sq (X : S50000x128.Idx → EReal) (q : Fin 128) :
    ∑ k ∈ Finset.range 50000, rowAt X q k * rowAt X q k = ∑ r : Fin 50000, X (ix2 r q) * X (ix2 r q) := by
  rw [Finset.sum_range]
  exact Finset.sum_congr rfl fun r _ => by rw [show rowAt X q r.val = X (ix2 r q) from dif_pos r.isLt]

/-- What output 1's array is to end holding: the column sums of the input array. -/
abbrev G1 : Buf (Elt Ideal) ((c : Thread nD τ).loc (Pipeline.arrRef spec4 1)) :=
  (Cert.GcnBn.colSum (V c (Pipeline.arrRef spec4 0)) : S1x128.Idx → EReal)

/-- What output 2's array is to end holding: the column sums of the squares. -/
abbrev G2 : Buf (Elt Ideal) ((c : Thread nD τ).loc (Pipeline.arrRef spec4 2)) :=
  (Cert.GcnBn.colSumSq (V c (Pipeline.arrRef spec4 0)) : S1x128.Idx → EReal)

/-- After the last point output 1's block holds the column sums, -/
theorem last1 (h9 : 9 < cfg4.N) : ((outsAt4 V c 9 h9).1 : S1x128.Idx → EReal) = G1 V c := by
  funext j
  obtain ⟨u, q, rfl⟩ : ∃ (u : Fin 1) (q : Fin 128), j = ix2 u q := ⟨j 0, j 1, eq_ix2 j⟩
  exact ((outs_eq V c 9 h9 u q).1).trans (sum_rowAt _ q)

/-- and output 2's the column sums of the squares. -/
theorem last2 (h9 : 9 < cfg4.N) : ((outsAt4 V c 9 h9).2 : S1x128.Idx → EReal) = G2 V c := by
  funext j
  obtain ⟨u, q, rfl⟩ : ∃ (u : Fin 1) (q : Fin 128), j = ix2 u q := ⟨j 0, j 1, eq_ix2 j⟩
  exact ((outs_eq V c 9 h9 u q).2).trans (sum_rowAt_sq _ q)

/-- The one write-back of output 1, after the last point, writes the column sums: its block is the whole array. -/
theorem flushed1_eq (t : Fin cfg4.N) (hf : (cfg4.win 1).flush t = true) :
    (dat4 V c).flushed 1 t = ((cfg4.win 1).blk t).view.read (Elt Ideal) (G1 V c) := by
  have hN : t.val < 10 := lt_of_lt_of_eq t.isLt N_4
  have h9 : t.val = 9 := by have := (flush4_1 t).mp hf; omega
  obtain rfl : t = t4_9 := Fin.ext h9
  show (cfg4.win 1).cut (grid4.coords t4_9) ((dat4 V c).after 1 t4_9) = _
  rw [after4_1]
  have e : (outsAt4 V c t4_9.val t4_9.isLt).1 = G1 V c := last1 V c t4_9.isLt
  rw [e]
  have hz' : (fun a => win4_1.index t4_9 a * (Pipeline.arrRef spec4 1).ty.shape.size a) = fun _ => 0 :=
    funext fun a => by fin_cases a <;> decide
  exact (Memref.read_access_unit_zero (Elt Ideal) (Pipeline.arrRef spec4 1) hz' (fun a => by rw [congrFun hz' a]; simp) (G1 V c)).symm

/-- The one write-back of output 2 writes the column sums of the squares. -/
theorem flushed2_eq (t : Fin cfg4.N) (hf : (cfg4.win 2).flush t = true) :
    (dat4 V c).flushed 2 t = ((cfg4.win 2).blk t).view.read (Elt Ideal) (G2 V c) := by
  have hN : t.val < 10 := lt_of_lt_of_eq t.isLt N_4
  have h9 : t.val = 9 := by have := (flush4_2 t).mp hf; omega
  obtain rfl : t = t4_9 := Fin.ext h9
  show (cfg4.win 2).cut (grid4.coords t4_9) ((dat4 V c).after 2 t4_9) = _
  rw [after4_2]
  have e : (outsAt4 V c t4_9.val t4_9.isLt).2 = G2 V c := last2 V c t4_9.isLt
  rw [e]
  have hz' : (fun a => win4_2.index t4_9 a * (Pipeline.arrRef spec4 2).ty.shape.size a) = fun _ => 0 :=
    funext fun a => by fin_cases a <;> decide
  exact (Memref.read_access_unit_zero (Elt Ideal) (Pipeline.arrRef spec4 2) hz' (fun a => by rw [congrFun hz' a]; simp) (G2 V c)).symm

/-- So output 1's array ends holding the column sums of the input array: the last point's block covers it. -/
theorem arr1_1 : ((dat4 (F := Ideal) V c).arrAt 1 cfg4.N : S1x128.Idx → EReal)
    = Cert.GcnBn.colSum (V c (Pipeline.arrRef spec4 0)) :=
  (dat4 V c).arrAt_eq_of_cover 1 (G1 V c) (flushed1_eq V c) fun i =>
    ⟨t4_9, (flush4_1 t4_9).mpr rfl, by
      show i ∈ ((View.whole (Pipeline.arrRef spec4 1)).slice (win4_1.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_1.index t4_9 0 * win4_1.size 0 ≤ (i 0 : Nat) ∧ (i 0 : Nat) < win4_1.index t4_9 0 * win4_1.size 0 + win4_1.xsize (grid4.coords t4_9) 0
                  rw [show win4_1.index t4_9 0 * win4_1.size 0 = 0 from by decide +kernel, show win4_1.xsize (grid4.coords t4_9) 0 = 1 from by decide +kernel]; omega
      | ⟨1, _⟩ => show win4_1.index t4_9 1 * win4_1.size 1 ≤ (i 1 : Nat) ∧ (i 1 : Nat) < win4_1.index t4_9 1 * win4_1.size 1 + win4_1.xsize (grid4.coords t4_9) 1
                  rw [show win4_1.index t4_9 1 * win4_1.size 1 = 0 from by decide +kernel, show win4_1.xsize (grid4.coords t4_9) 1 = 128 from by decide +kernel]; omega⟩

/-- And output 2's array ends holding the column sums of the squares. -/
theorem arr1_2 : ((dat4 (F := Ideal) V c).arrAt 2 cfg4.N : S1x128.Idx → EReal)
    = Cert.GcnBn.colSumSq (V c (Pipeline.arrRef spec4 0)) :=
  (dat4 V c).arrAt_eq_of_cover 2 (G2 V c) (flushed2_eq V c) fun i =>
    ⟨t4_9, (flush4_2 t4_9).mpr rfl, by
      show i ∈ ((View.whole (Pipeline.arrRef spec4 2)).slice (win4_2.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 1 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 128 from by decide +kernel]; omega⟩

end Final

end Cert.KernelIdeal.RegVal4
end
-- ==== Proof.BnStatsRegion7.lean ====
/-
  Region 7 (the batch-normalisation statistics kernel of the third layer): over its ten grid points the kernel keeps the two
  1 x 128 output blocks resident and accumulates into them; after the last point output 1 holds the column
  sums of the 50000 x 128 input array and output 2 the column sums of its squares.

  * what each case of the body leaves in each output block, as the payload arithmetic of the input block
    and the block's earlier contents (the first point starts from zeros, the later ones from what the point
    before left);
  * the payloads read at an entry (0, q) over the extended reals: earlier contents plus the sum over the
    5000 rows of the block's column q (of its squares, for output 2);
  * by induction on the point, after point n the blocks hold the sums over the first 5000 (n + 1) rows;
  * the output block is the whole array and is written back after the last point.
-/
import proofs.«139531_j89996744720583_1_alg».proof.Proof.Gen.KernelIdeal.Frame
import proofs.«139531_j89996744720583_1_alg».proof.Proof.Spec
import proofs.«139531_j89996744720583_1_alg».proof.Proof.LibBlockedSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RegVal7

open Cert.KernelIdeal Cert.KernelIdeal.Gen

section Pieces
variable {F : FTy → Type} [FloatOps F]

theorem hz : (![0, 0] : Fin 2 → Nat) = fun _ => 0 := funext fun a => by fin_cases a <;> rfl

/-- A later point (not the first) leaves, in output 1's block holding `xo1`, the payload of the one store that covers
    it: `xo1` plus the column sums of the input block. -/
theorem out_B_1 (c : Dev nD) (i : grid7.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond7_0 i) (x0 : Vec F S5000x128 .f32) (xo1 xo2 : Vec F S1x128 .f32) :
    out7_B_1 c i a1 h1 a2 h2 a3 h3 hc x0 xo1 xo2 = k7_pay4 x0 xo1 := by
  unfold out7_B_1
  rw [View.read_writes_eq_canon _ _ _ (cover7_B_1 c i a1 h1 a2 h2 a3 h3 hc x0 xo1 xo2)]
  unfold kernelRun7_B
  dsimp only
  rw [View.canon_unit_zero hz]
  simp only [View.readAt_eq_ld, h1.read_unread, h2.read_unread, View.ld_unit_zero (S := S5000x128) hz,
    View.ld_unit_zero (S := S1x128) hz]

/-- The same for output 2: `xo2` plus the column sums of the squares. -/
theorem out_B_2 (c : Dev nD) (i : grid7.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond7_0 i) (x0 : Vec F S5000x128 .f32) (xo1 xo2 : Vec F S1x128 .f32) :
    out7_B_2 c i a1 h1 a2 h2 a3 h3 hc x0 xo1 xo2 = k7_pay5 x0 xo2 := by
  unfold out7_B_2
  rw [View.read_writes_eq_canon _ _ _ (cover7_B_2 c i a1 h1 a2 h2 a3 h3 hc x0 xo1 xo2)]
  unfold kernelRun7_B
  dsimp only
  rw [View.canon_unit_zero hz]
  simp only [View.readAt_eq_ld, h1.read_unread, h3.read_unread, View.ld_unit_zero (S := S5000x128) hz,
    View.ld_unit_zero (S := S1x128) hz]

/-- The first point stores zeros in output 1's block, reads them back, and leaves the zeros plus the column sums of
    the input block. -/
theorem out_A_1 (c : Dev nD) (i : grid7.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond7_0 i) (x0 : Vec F S5000x128 .f32) :
    out7_A_1 c i a1 h1 a2 h2 a3 h3 hc x0 = k7_pay4 x0 k7_pay1 := by
  unfold out7_A_1
  rw [View.read_writes_eq_canon _ _ _ (cover7_A_1 c i a1 h1 a2 h2 a3 h3 hc x0)]
  unfold kernelRun7_A
  dsimp only
  sl_unfold_words
  rw [View.canon_cons_unit_zero (S := S1x128) hz, View.readCov_unit_zero (S := S1x128) _ hz]
  simp only [View.readAt_eq_ld, h1.read_unread, View.ld_unit_zero (S := S5000x128) hz]

/-- The same for output 2. -/
theorem out_A_2 (c : Dev nD) (i : grid7.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond7_0 i) (x0 : Vec F S5000x128 .f32) :
    out7_A_2 c i a1 h1 a2 h2 a3 h3 hc x0 = k7_pay5 x0 k7_pay2 := by
  unfold out7_A_2
  rw [View.read_writes_eq_canon _ _ _ (cover7_A_2 c i a1 h1 a2 h2 a3 h3 hc x0)]
  unfold kernelRun7_A
  dsimp only
  sl_unfold_words
  rw [View.canon_cons_unit_zero (S := S1x128) hz, View.readCov_unit_zero (S := S1x128) _ hz]
  simp only [View.readAt_eq_ld, h1.read_unread, View.ld_unit_zero (S := S5000x128) hz]

end Pieces

/-! ## The payloads at an entry, over the extended reals -/

/-- The source index of the lane sum over result lane `q` with row `r` inserted is `(r, q)`. -/
theorem lift_eq (r : Fin 5000) (q : Fin 128) :
    reduces_S5000x128_S128.lift (ix1 q) r = (ix2 r q : S5000x128.Idx) := by
  funext a
  apply Fin.ext
  match a with
  | ⟨0, _⟩ => rfl
  | ⟨1, _⟩ => rfl

/-- The stored zeros read `0`. -/
theorem pay1_apply (j : S1x128.Idx) : (k7_pay1 (F := Ideal) j : EReal) = 0 := Ideal.ofBits_zero_f32
theorem pay2_apply (j : S1x128.Idx) : (k7_pay2 (F := Ideal) j : EReal) = 0 := Ideal.ofBits_zero_f32

/-- Output 1's payload at `(u, q)`: the block's earlier entry plus the sum of column `q` of the input block. -/
theorem pay4_apply (x0 : Vec Ideal S5000x128 .f32) (xo : Vec Ideal S1x128 .f32) (u : Fin 1) (q : Fin 128) :
    (k7_pay4 (F := Ideal) x0 xo (ix2 u q) : EReal) = xo (ix2 u q) + ∑ r : Fin 5000, x0 (ix2 r q) := by
  unfold k7_pay4 k7_pay3
  refine congrArg₂ (· + ·) ?_ ?_
  · exact congrFun (shapeCast_self xo _) _
  · refine (shapeCast_a_1a_apply _ _ u q).trans ?_
    refine (Ideal.multiReduction_add_single _ _ _ _ _ _).trans ?_
    refine Finset.sum_congr rfl fun r _ => ?_
    exact (congrFun (shapeCast_self x0 _) _).trans (congrArg x0 (lift_eq r q))

/-- Output 2's payload at `(u, q)`: the block's earlier entry plus the sum of the squares of column `q`. -/
theorem pay5_apply (x0 : Vec Ideal S5000x128 .f32) (xo : Vec Ideal S1x128 .f32) (u : Fin 1) (q : Fin 128) :
    (k7_pay5 (F := Ideal) x0 xo (ix2 u q) : EReal) = xo (ix2 u q) + ∑ r : Fin 5000, x0 (ix2 r q) * x0 (ix2 r q) := by
  unfold k7_pay5 k7_pay3
  refine congrArg₂ (· + ·) ?_ ?_
  · exact congrFun (shapeCast_self xo _) _
  · refine (shapeCast_a_1a_apply _ _ u q).trans ?_
    refine (Ideal.multiReduction_add_single _ _ _ _ _ _).trans ?_
    refine Finset.sum_congr rfl fun r _ => ?_
    have e : (shapeCast S5000x128 x0 shapeCasts_S5000x128_S5000x128) (reduces_S5000x128_S128.lift (ix1 q) r) = x0 (ix2 r q) :=
      (congrFun (shapeCast_self x0 _) _).trans (congrArg x0 (lift_eq r q))
    exact congrArg₂ (· * ·) e e

/-! ## The input blocks, and the outputs point by point -/

section Sums
variable (V : (c : Dev nD) → (b : Ref sig .tc) → Buf (Elt Ideal) ((c : Thread nD τ).loc b)) (c : Dev nD)

/-- The index map of the input window over the grid: block `t` is rows `5000 t …`, all columns. -/
theorem idx_facts : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)

/-- Entry `(k, q)` of an array of 50000 rows, for any natural `k`: `0` past the last row. -/
def rowAt (X : S50000x128.Idx → EReal) (q : Fin 128) (k : ℕ) : EReal :=
  if h : k < 50000 then X (ix2 ⟨k, h⟩ q) else 0

/-- Block `t` of the input, as a 5000 x 128 vector of extended reals. -/
abbrev xb (t : Fin cfg7.N) : Vec Ideal S5000x128 .f32 := iblk7 V c 0 t

/-- Block `t` of the input at local `(p, q)` is the array at `(5000 t + p, q)`. -/
theorem iblk_apply (t : Fin cfg7.N) (p : Fin 5000) (q : Fin 128) :
    xb V c t (ix2 p q) = rowAt (V c (Pipeline.arrRef spec7 0)) q (t.val * 5000 + p.val) := by
  have hN : t.val < 10 := lt_of_lt_of_eq t.isLt N_7
  have h : t.val * 5000 + p.val < 50000 := by have := p.isLt; omega
  unfold rowAt
  rw [dif_pos h]
  show iblk7 V c 0 t (ix2 p q) = _
  unfold iblk7
  rw [View.read_apply]
  show V c (Pipeline.arrRef spec7 0) _ = V c (Pipeline.arrRef spec7 0) _
  congr 1
  funext a
  apply Fin.ext
  match a with
  | ⟨0, _⟩ => show win7_0.index t 0 * 5000 + 1 * p.val = t.val * 5000 + p.val; rw [(idx_facts t).1]; omega
  | ⟨1, _⟩ => show win7_0.index t 1 * 128 + 1 * q.val = q.val; rw [(idx_facts t).2]; omega

/-- The first point leaves in output 1's block, at `(u, q)`, the sum of column `q` of block `t`; -/
theorem outs1_A (t : Fin cfg7.N) (h0 : t.val % 10 = 0) (u : Fin 1) (q : Fin 128) :
    ((outsAt7 V c t.val t.isLt).1 (ix2 u q) : EReal) = 0 + ∑ r : Fin 5000, xb V c t (ix2 r q) := by
  refine (congrArg (fun z : Vec Ideal S1x128 .f32 × Vec Ideal S1x128 .f32 => (z.1 (ix2 u q) : EReal)) (outsAt7_A V c t h0)).trans ?_
  dsimp only
  refine (congrFun (out_A_1 c (grid7.coords t) (ms7_0 t) (hs7_0 t) (ms7_1 t) (hs7_1 t) (ms7_2 t) (hs7_2 t)
    ((hcond7_0 t).mpr h0) (iblk7 V c 0 t)) (ix2 u q)).trans ?_
  refine (pay4_apply (xb V c t) (k7_pay1 (F := Ideal)) u q).trans ?_
  exact congrArg (· + ∑ r : Fin 5000, xb V c t (ix2 r q)) (pay1_apply (ix2 u q))

/-- and in output 2's block the sum of its squares. -/
theorem outs2_A (t : Fin cfg7.N) (h0 : t.val % 10 = 0) (u : Fin 1) (q : Fin 128) :
    ((outsAt7 V c t.val t.isLt).2 (ix2 u q) : EReal)
      = 0 + ∑ r : Fin 5000, xb V c t (ix2 r q) * xb V c t (ix2 r q) := by
  refine (congrArg (fun z : Vec Ideal S1x128 .f32 × Vec Ideal S1x128 .f32 => (z.2 (ix2 u q) : EReal)) (outsAt7_A V c t h0)).trans ?_
  dsimp only
  refine (congrFun (out_A_2 c (grid7.coords t) (ms7_0 t) (hs7_0 t) (ms7_1 t) (hs7_1 t) (ms7_2 t) (hs7_2 t)
    ((hcond7_0 t).mpr h0) (iblk7 V c 0 t)) (ix2 u q)).trans ?_
  refine (pay5_apply (xb V c t) (k7_pay2 (F := Ideal)) u q).trans ?_
  exact congrArg (· + ∑ r : Fin 5000, xb V c t (ix2 r q) * xb V c t (ix2 r q)) (pay2_apply (ix2 u q))

/-- A later point adds the sum of column `q` of its block to what the point before left in output 1's block; -/
theorem outs1_B (t : Fin cfg7.N) (h0 : ¬t.val % 10 = 0) (u : Fin 1) (q : Fin 128) :
    ((outsAt7 V c t.val t.isLt).1 (ix2 u q) : EReal)
      = ((outsAt7 V c (t.val - 1) (Nat.lt_of_le_of_lt (Nat.sub_le _ _) t.isLt)).1 (ix2 u q) : EReal)
        + ∑ r : Fin 5000, xb V c t (ix2 r q) := by
  refine (congrArg (fun z : Vec Ideal S1x128 .f32 × Vec Ideal S1x128 .f32 => (z.1 (ix2 u q) : EReal)) (outsAt7_B V c t h0)).trans ?_
  dsimp only
  refine (congrFun (out_B_1 c (grid7.coords t) (ms7_0 t) (hs7_0 t) (ms7_1 t) (hs7_1 t) (ms7_2 t) (hs7_2 t)
    (fun h => h0 ((hcond7_0 t).mp h)) (iblk7 V c 0 t)
    (outsAt7 V c (t.val - 1) (Nat.lt_of_le_of_lt (Nat.sub_le _ _) t.isLt)).1
    (outsAt7 V c (t.val - 1) (Nat.lt_of_le_of_lt (Nat.sub_le _ _) t.isLt)).2) (ix2 u q)).trans ?_
  exact pay4_apply (xb V c t) (outsAt7 V c (t.val - 1) (Nat.lt_of_le_of_lt (Nat.sub_le _ _) t.isLt)).1 u q

/-- and the sum of its squares to what it left in output 2's. -/
theorem outs2_B (t : Fin cfg7.N) (h0 : ¬t.val % 10 = 0) (u : Fin 1) (q : Fin 128) :
    ((outsAt7 V c t.val t.isLt).2 (ix2 u q) : EReal)
      = ((outsAt7 V c (t.val - 1) (Nat.lt_of_le_of_lt (Nat.sub_le _ _) t.isLt)).2 (ix2 u q) : EReal)
        + ∑ r : Fin 5000, xb V c t (ix2 r q) * xb V c t (ix2 r q) := by
  refine (congrArg (fun z : Vec Ideal S1x128 .f32 × Vec Ideal S1x128 .f32 => (z.2 (ix2 u q) : EReal)) (outsAt7_B V c t h0)).trans ?_
  dsimp only
  refine (congrFun (out_B_2 c (grid7.coords t) (ms7_0 t) (hs7_0 t) (ms7_1 t) (hs7_1 t) (ms7_2 t) (hs7_2 t)
    (fun h => h0 ((hcond7_0 t).mp h)) (iblk7 V c 0 t)
    (outsAt7 V c (t.val - 1) (Nat.lt_of_le_of_lt (Nat.sub_le _ _) t.isLt)).1
    (outsAt7 V c (t.val - 1) (Nat.lt_of_le_of_lt (Nat.sub_le _ _) t.isLt)).2) (ix2 u q)).trans ?_
  exact pay5_apply (xb V c t) (outsAt7 V c (t.val - 1) (Nat.lt_of_le_of_lt (Nat.sub_le _ _) t.isLt)).2 u q

/-- After point `n` output 1's block holds, at `(u, q)`, the sum of column `q` over the first `5000 (n + 1)` rows of
    the array, and output 2's block the sum of the squares: by induction on the point. -/
theorem outs_eq : ∀ (n : ℕ) (hn : n < cfg7.N) (u : Fin 1) (q : Fin 128),
    ((outsAt7 V c n hn).1 (ix2 u q) : EReal)
        = ∑ k ∈ Finset.range ((n + 1) * 5000), rowAt (V c (Pipeline.arrRef spec7 0)) q k
    ∧ ((outsAt7 V c n hn).2 (ix2 u q) : EReal)
        = ∑ k ∈ Finset.range ((n + 1) * 5000), rowAt (V c (Pipeline.arrRef spec7 0)) q k * rowAt (V c (Pipeline.arrRef spec7 0)) q k
  | 0, hn, u, q => by
    constructor
    · refine (outs1_A V c ⟨0, hn⟩ rfl u q).trans ?_
      rw [Cert.LibBlockedSum.sum_range_succ_block, Nat.zero_mul, Finset.range_zero, Finset.sum_empty]
      exact congrArg (0 + ·) (Finset.sum_congr rfl fun r _ => (iblk_apply V c ⟨0, hn⟩ r q).trans (by rw [Nat.zero_mul]))
    · refine (outs2_A V c ⟨0, hn⟩ rfl u q).trans ?_
      rw [Cert.LibBlockedSum.sum_range_succ_block, Nat.zero_mul, Finset.range_zero, Finset.sum_empty]
      exact congrArg (0 + ·) (Finset.sum_congr rfl fun r _ => by rw [iblk_apply V c ⟨0, hn⟩ r q, Nat.zero_mul])
  | n + 1, hn, u, q => by
    have hN : n + 1 < 10 := lt_of_lt_of_eq hn N_7
    have hB : ¬(⟨n + 1, hn⟩ : Fin cfg7.N).val % 10 = 0 := by dsimp only; omega
    have ih := outs_eq n (Nat.lt_of_succ_lt hn) u q
    constructor
    · refine (outs1_B V c ⟨n + 1, hn⟩ hB u q).trans ?_
      rw [Cert.LibBlockedSum.sum_range_succ_block _ 5000 (n + 1)]
      refine congrArg₂ (· + ·) ih.1 (Finset.sum_congr rfl fun r _ => iblk_apply V c ⟨n + 1, hn⟩ r q)
    · refine (outs2_B V c ⟨n + 1, hn⟩ hB u q).trans ?_
      rw [Cert.LibBlockedSum.sum_range_succ_block _ 5000 (n + 1)]
      refine congrArg₂ (· + ·) ih.2 (Finset.sum_congr rfl fun r _ => by rw [iblk_apply V c ⟨n + 1, hn⟩ r q])

end Sums

/-! ## The output arrays after the last point -/

section Final
variable (V : (c : Dev nD) → (b : Ref sig .tc) → Buf (Elt Ideal) ((c : Thread nD τ).loc b)) (c : Dev nD)

/-- The sum over the first 50000 naturals of the entries of column `q` is the sum over the rows. -/
theorem sum_rowAt (X : S50000x128.Idx → EReal) (q : Fin 128) :
    ∑ k ∈ Finset.range 50000, rowAt X q k = ∑ r : Fin 50000, X (ix2 r q) := by
  rw [Finset.sum_range]
  exact Finset.sum_congr rfl fun r _ => dif_pos r.isLt

theorem sum_rowAt_sq (X : S50000x128.Idx → EReal) (q : Fin 128) :
    ∑ k ∈ Finset.range 50000, rowAt X q k * rowAt X q k = ∑ r : Fin 50000, X (ix2 r q) * X (ix2 r q) := by
  rw [Finset.sum_range]
  exact Finset.sum_congr rfl fun r _ => by rw [show rowAt X q r.val = X (ix2 r q) from dif_pos r.isLt]

/-- What output 1's array is to end holding: the column sums of the input array. -/
abbrev G1 : Buf (Elt Ideal) ((c : Thread nD τ).loc (Pipeline.arrRef spec7 1)) :=
  (Cert.GcnBn.colSum (V c (Pipeline.arrRef spec7 0)) : S1x128.Idx → EReal)

/-- What output 2's array is to end holding: the column sums of the squares. -/
abbrev G2 : Buf (Elt Ideal) ((c : Thread nD τ).loc (Pipeline.arrRef spec7 2)) :=
  (Cert.GcnBn.colSumSq (V c (Pipeline.arrRef spec7 0)) : S1x128.Idx → EReal)

/-- After the last point output 1's block holds the column sums, -/
theorem last1 (h9 : 9 < cfg7.N) : ((outsAt7 V c 9 h9).1 : S1x128.Idx → EReal) = G1 V c := by
  funext j
  obtain ⟨u, q, rfl⟩ : ∃ (u : Fin 1) (q : Fin 128), j = ix2 u q := ⟨j 0, j 1, eq_ix2 j⟩
  exact ((outs_eq V c 9 h9 u q).1).trans (sum_rowAt _ q)

/-- and output 2's the column sums of the squares. -/
theorem last2 (h9 : 9 < cfg7.N) : ((outsAt7 V c 9 h9).2 : S1x128.Idx → EReal) = G2 V c := by
  funext j
  obtain ⟨u, q, rfl⟩ : ∃ (u : Fin 1) (q : Fin 128), j = ix2 u q := ⟨j 0, j 1, eq_ix2 j⟩
  exact ((outs_eq V c 9 h9 u q).2).trans (sum_rowAt_sq _ q)

/-- The one write-back of output 1, after the last point, writes the column sums: its block is the whole array. -/
theorem flushed1_eq (t : Fin cfg7.N) (hf : (cfg7.win 1).flush t = true) :
    (dat7 V c).flushed 1 t = ((cfg7.win 1).blk t).view.read (Elt Ideal) (G1 V c) := by
  have hN : t.val < 10 := lt_of_lt_of_eq t.isLt N_7
  have h9 : t.val = 9 := by have := (flush7_1 t).mp hf; omega
  obtain rfl : t = t7_9 := Fin.ext h9
  show (cfg7.win 1).cut (grid7.coords t7_9) ((dat7 V c).after 1 t7_9) = _
  rw [after7_1]
  have e : (outsAt7 V c t7_9.val t7_9.isLt).1 = G1 V c := last1 V c t7_9.isLt
  rw [e]
  have hz' : (fun a => win7_1.index t7_9 a * (Pipeline.arrRef spec7 1).ty.shape.size a) = fun _ => 0 :=
    funext fun a => by fin_cases a <;> decide
  exact (Memref.read_access_unit_zero (Elt Ideal) (Pipeline.arrRef spec7 1) hz' (fun a => by rw [congrFun hz' a]; simp) (G1 V c)).symm

/-- The one write-back of output 2 writes the column sums of the squares. -/
theorem flushed2_eq (t : Fin cfg7.N) (hf : (cfg7.win 2).flush t = true) :
    (dat7 V c).flushed 2 t = ((cfg7.win 2).blk t).view.read (Elt Ideal) (G2 V c) := by
  have hN : t.val < 10 := lt_of_lt_of_eq t.isLt N_7
  have h9 : t.val = 9 := by have := (flush7_2 t).mp hf; omega
  obtain rfl : t = t7_9 := Fin.ext h9
  show (cfg7.win 2).cut (grid7.coords t7_9) ((dat7 V c).after 2 t7_9) = _
  rw [after7_2]
  have e : (outsAt7 V c t7_9.val t7_9.isLt).2 = G2 V c := last2 V c t7_9.isLt
  rw [e]
  have hz' : (fun a => win7_2.index t7_9 a * (Pipeline.arrRef spec7 2).ty.shape.size a) = fun _ => 0 :=
    funext fun a => by fin_cases a <;> decide
  exact (Memref.read_access_unit_zero (Elt Ideal) (Pipeline.arrRef spec7 2) hz' (fun a => by rw [congrFun hz' a]; simp) (G2 V c)).symm

/-- So output 1's array ends holding the column sums of the input array: the last point's block covers it. -/
theorem arr1_1 : ((dat7 (F := Ideal) V c).arrAt 1 cfg7.N : S1x128.Idx → EReal)
    = Cert.GcnBn.colSum (V c (Pipeline.arrRef spec7 0)) :=
  (dat7 V c).arrAt_eq_of_cover 1 (G1 V c) (flushed1_eq V c) fun i =>
    ⟨t7_9, (flush7_1 t7_9).mpr rfl, by
      show i ∈ ((View.whole (Pipeline.arrRef spec7 1)).slice (win7_1.rect t7_9)).set
      rw [View.set_slice_whole, Rect.mem_set_unit]
      intro a
      have h0 : (i 0 : Nat) < 1 := (i 0).isLt
      have h1 : (i 1 : Nat) < 128 := (i 1).isLt
      match a with
      | ⟨0, _⟩ => show win7_1.index t7_9 0 * win7_1.size 0 ≤ (i 0 : Nat) ∧ (i 0 : Nat) < win7_1.index t7_9 0 * win7_1.size 0 + win7_1.xsize (grid7.coords t7_9) 0
                  rw [show win7_1.index t7_9 0 * win7_1.size 0 = 0 from by decide +kernel, show win7_1.xsize (grid7.coords t7_9) 0 = 1 from by decide +kernel]; omega
      | ⟨1, _⟩ => show win7_1.index t7_9 1 * win7_1.size 1 ≤ (i 1 : Nat) ∧ (i 1 : Nat) < win7_1.index t7_9 1 * win7_1.size 1 + win7_1.xsize (grid7.coords t7_9) 1
                  rw [show win7_1.index t7_9 1 * win7_1.size 1 = 0 from by decide +kernel, show win7_1.xsize (grid7.coords t7_9) 1 = 128 from by decide +kernel]; omega⟩

/-- And output 2's array ends holding the column sums of the squares. -/
theorem arr1_2 : ((dat7 (F := Ideal) V c).arrAt 2 cfg7.N : S1x128.Idx → EReal)
    = Cert.GcnBn.colSumSq (V c (Pipeline.arrRef spec7 0)) :=
  (dat7 V c).arrAt_eq_of_cover 2 (G2 V c) (flushed2_eq V c) fun i =>
    ⟨t7_9, (flush7_2 t7_9).mpr rfl, by
      show i ∈ ((View.whole (Pipeline.arrRef spec7 2)).slice (win7_2.rect t7_9)).set
      rw [View.set_slice_whole, Rect.mem_set_unit]
      intro a
      have h0 : (i 0 : Nat) < 1 := (i 0).isLt
      have h1 : (i 1 : Nat) < 128 := (i 1).isLt
      match a with
      | ⟨0, _⟩ => show win7_2.index t7_9 0 * win7_2.size 0 ≤ (i 0 : Nat) ∧ (i 0 : Nat) < win7_2.index t7_9 0 * win7_2.size 0 + win7_2.xsize (grid7.coords t7_9) 0
                  rw [show win7_2.index t7_9 0 * win7_2.size 0 = 0 from by decide +kernel, show win7_2.xsize (grid7.coords t7_9) 0 = 1 from by decide +kernel]; omega
      | ⟨1, _⟩ => show win7_2.index t7_9 1 * win7_2.size 1 ≤ (i 1 : Nat) ∧ (i 1 : Nat) < win7_2.index t7_9 1 * win7_2.size 1 + win7_2.xsize (grid7.coords t7_9) 1
                  rw [show win7_2.index t7_9 1 * win7_2.size 1 = 0 from by decide +kernel, show win7_2.xsize (grid7.coords t7_9) 1 = 128 from by decide +kernel]; omega⟩

end Final

end Cert.KernelIdeal.RegVal7
end
-- ==== Proof.BnApplyRegion2.lean ====
/-
  The batch-normalisation region: one launch over ten blocks of 5000 rows.  Each block of the output is the
  rectified normalisation of the same block of the input by the four per-feature rows (mean, variance, scale,
  shift), and the ten blocks tile the 50000 rows, so the whole output array is `bnApply` of the five input arrays.
-/
import proofs.«139531_j89996744720583_1_alg».proof.Proof.Gen.KernelIdeal.Frame
import proofs.«139531_j89996744720583_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal2

open Cert.KernelIdeal Cert.KernelIdeal.Gen Idealize.ShloMosaic Idealize.ShloMosaic.TcCoe Idealize.SL.Sem
open Idealize.ShloMosaic.Pipeline (Dat)
open Idealize.ShloMosaic.ValueIdx

/-! ## The body at one entry of a block -/

/-- Entry (p, q) of what the body computes from a block of x and the four rows: subtract the mean of column q,
    multiply by the reciprocal square root of the variance of column q plus eps, scale, shift, clamp below at 0. -/
theorem pay_apply (x0 : Vec Ideal S5000x128 .f32) (x1 x2 x3 x4 : Vec Ideal S1x128 .f32) (p : Fin 5000) (q : Fin 128) :
    k2_pay1 x0 x1 x2 x3 x4 (ix2 p q)
      = max ((((x0 (ix2 p q) - x1 (ix2 0 q)) * Ideal.rsqrt (x2 (ix2 0 q) + Cert.GcnBn.eps)) * x3 (ix2 0 q)) + x4 (ix2 0 q)) 0 := by
  unfold k2_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rw [broadcast_apply]
  show max _ (Ideal.ofBits .f32 0x00000000#32) = _
  rw [Ideal.ofBits_zero_f32]
  rfl

/-- The same entry, with the block's entries named by the whole arrays they are read from: if the block of x at
    (p, q) is x at i, i is in column q, and each row at column q is read whole, the body's entry is `bnApply` at i. -/
theorem pay_eq_bnApply (x : Cert.GcnBn.SNxD.Idx → EReal) (mean var g be : Cert.GcnBn.S1xD.Idx → EReal)
    (x0 : Vec Ideal S5000x128 .f32) (x1 x2 x3 x4 : Vec Ideal S1x128 .f32) (p : Fin 5000) (q : Fin 128)
    (i : Cert.GcnBn.SNxD.Idx) (hq : i 1 = q) (h0 : x0 (ix2 p q) = x i) (h1 : x1 (ix2 0 q) = mean (ix2 0 q))
    (h2 : x2 (ix2 0 q) = var (ix2 0 q)) (h3 : x3 (ix2 0 q) = g (ix2 0 q)) (h4 : x4 (ix2 0 q) = be (ix2 0 q)) :
    k2_pay1 x0 x1 x2 x3 x4 (ix2 p q) = Cert.GcnBn.bnApply x mean var g be i := by
  rw [pay_apply, h0, h1, h2, h3, h4]
  subst hq
  rfl

/-! ## The blocks of the windows -/

theorem origin_eq : (![0, 0] : Fin 2 → Nat) = fun _ => 0 := funext fun a => by fin_cases a <;> rfl

/-- The block indices over the ten points: the block of x moves with the block of the output, the four rows are
    block (0, 0) at every point, and the output's block index is (t, 0) with t at most 9. -/
theorem index_facts : ∀ t : Fin cfg2.N, win2_0.index t (0 : Fin 2) = win2_5.index t (0 : Fin 2)
    ∧ win2_0.index t (1 : Fin 2) = win2_5.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

/-- Every block of 5000 rows is some point's. -/
theorem index_onto : ∀ (b0 : Fin 10) (b1 : Fin 1), ∃ t : Fin cfg2.N, win2_5.index t = ![b0.val, b1.val] :=
  (by decide +kernel : ∀ (b0 : Fin 10) (b1 : Fin 1), ∃ t : Fin grid2.N, win2_5.index t = ![b0.val, b1.val])

/-- Entry (p, q) of point t's block of x sits in the array where entry (p, q) of its block of the output does. -/
theorem emb_x (t : Fin cfg2.N) (p : Fin 5000) (q : Fin 128) :
    ((cfg2.win 0).blk t).view.emb (ix2 p q) = ((cfg2.win 5).blk t).view.emb (ix2 p q) := by
  obtain ⟨e00, e01, -⟩ := index_facts t
  funext a; apply Fin.ext
  match a with
  | ⟨0, _⟩ => show win2_0.index t (0 : Fin 2) * 5000 + 1 * p.val = win2_5.index t (0 : Fin 2) * 5000 + 1 * p.val; omega
  | ⟨1, _⟩ => show win2_0.index t (1 : Fin 2) * 128 + 1 * q.val = win2_5.index t (1 : Fin 2) * 128 + 1 * q.val; omega

/-- Entry (p, q) of point t's block of the output is in column q of the array. -/
theorem emb_out_col (t : Fin cfg2.N) (p : Fin 5000) (q : Fin 128) :
    ((cfg2.win 5).blk t).view.emb (ix2 p q) 1 = q := by
  obtain ⟨-, -, -, -, -, -, -, -, -, -, -, e51⟩ := index_facts t
  apply Fin.ext
  show win2_5.index t (1 : Fin 2) * 128 + 1 * q.val = q.val
  omega

/-- Entry (0, q) of each row's block, at every point, is entry (0, q) of the row. -/
theorem emb_mean (t : Fin cfg2.N) (q : Fin 128) : ((cfg2.win 1).blk t).view.emb (ix2 0 q) = ix2 0 q := by
  obtain ⟨-, -, e10, e11, -⟩ := index_facts t
  funext a; apply Fin.ext
  match a with
  | ⟨0, _⟩ => show win2_1.index t (0 : Fin 2) * 1 + 1 * 0 = 0; omega
  | ⟨1, _⟩ => show win2_1.index t (1 : Fin 2) * 128 + 1 * q.val = q.val; omega
theorem emb_var (t : Fin cfg2.N) (q : Fin 128) : ((cfg2.win 2).blk t).view.emb (ix2 0 q) = ix2 0 q := by
  obtain ⟨-, -, -, -, e20, e21, -⟩ := index_facts t
  funext a; apply Fin.ext
  match a with
  | ⟨0, _⟩ => show win2_2.index t (0 : Fin 2) * 1 + 1 * 0 = 0; omega
  | ⟨1, _⟩ => show win2_2.index t (1 : Fin 2) * 128 + 1 * q.val = q.val; omega
theorem emb_scale (t : Fin cfg2.N) (q : Fin 128) : ((cfg2.win 3).blk t).view.emb (ix2 0 q) = ix2 0 q := by
  obtain ⟨-, -, -, -, -, -, e30, e31, -⟩ := index_facts t
  funext a; apply Fin.ext
  match a with
  | ⟨0, _⟩ => show win2_3.index t (0 : Fin 2) * 1 + 1 * 0 = 0; omega
  | ⟨1, _⟩ => show win2_3.index t (1 : Fin 2) * 128 + 1 * q.val = q.val; omega
theorem emb_shift (t : Fin cfg2.N) (q : Fin 128) : ((cfg2.win 4).blk t).view.emb (ix2 0 q) = ix2 0 q := by
  obtain ⟨-, -, -, -, -, -, -, -, e40, e41, -⟩ := index_facts t
  funext a; apply Fin.ext
  match a with
  | ⟨0, _⟩ => show win2_4.index t (0 : Fin 2) * 1 + 1 * 0 = 0; omega
  | ⟨1, _⟩ => show win2_4.index t (1 : Fin 2) * 128 + 1 * q.val = q.val; omega

section AtEntry
variable (V : (c : Dev nD) → (b : Ref sig .tc) → Buf (Elt Ideal) ((c : Thread nD τ).loc b))

/-- Entry (p, q) of point t's block of x, read where the output's block puts entry (p, q). -/
theorem read_x (c : Dev nD) (t : Fin cfg2.N) (p : Fin 5000) (q : Fin 128) :
    iblk2 V c 0 t (ix2 p q) = V c (Pipeline.arrRef spec2 0) (((cfg2.win 5).blk t).view.emb (ix2 p q)) := by
  show V c (Pipeline.arrRef spec2 0) (((cfg2.win 0).blk t).view.emb (ix2 p q)) = _
  rw [emb_x]

/-- Entry (0, q) of each row's block at point t is entry (0, q) of the row. -/
theorem read_mean (c : Dev nD) (t : Fin cfg2.N) (q : Fin 128) :
    iblk2 V c 1 t (ix2 0 q) = V c (Pipeline.arrRef spec2 1) (ix2 0 q) := by
  show V c (Pipeline.arrRef spec2 1) (((cfg2.win 1).blk t).view.emb (ix2 0 q)) = _
  rw [emb_mean]
theorem read_var (c : Dev nD) (t : Fin cfg2.N) (q : Fin 128) :
    iblk2 V c 2 t (ix2 0 q) = V c (Pipeline.arrRef spec2 2) (ix2 0 q) := by
  show V c (Pipeline.arrRef spec2 2) (((cfg2.win 2).blk t).view.emb (ix2 0 q)) = _
  rw [emb_var]
theorem read_scale (c : Dev nD) (t : Fin cfg2.N) (q : Fin 128) :
    iblk2 V c 3 t (ix2 0 q) = V c (Pipeline.arrRef spec2 3) (ix2 0 q) := by
  show V c (Pipeline.arrRef spec2 3) (((cfg2.win 3).blk t).view.emb (ix2 0 q)) = _
  rw [emb_scale]
theorem read_shift (c : Dev nD) (t : Fin cfg2.N) (q : Fin 128) :
    iblk2 V c 4 t (ix2 0 q) = V c (Pipeline.arrRef spec2 4) (ix2 0 q) := by
  show V c (Pipeline.arrRef spec2 4) (((cfg2.win 4).blk t).view.emb (ix2 0 q)) = _
  rw [emb_shift]

/-- What point t writes back is the body's result on the five blocks at t. -/
theorem flushed_pay (c : Dev nD) (t : Fin cfg2.N) :
    (dat2 (F := Ideal) V c).flushed 5 t
      = k2_pay1 (iblk2 V c 0 t) (iblk2 V c 1 t) (iblk2 V c 2 t) (iblk2 V c 3 t) (iblk2 V c 4 t) := by
  show (cfg2.win 5).cut (grid2.coords t) ((dat2 V c).after 5 t) = _
  rw [after2_5]
  unfold out2_5
  rw [View.canon_unit_zero origin_eq]
  simp only [View.ld_unit_zero (S := S5000x128) origin_eq, View.ld_unit_zero (S := S1x128) origin_eq]
  rfl

/-- What point t writes back is block t of `bnApply` of the five arrays as the region finds them. -/
theorem flushed_eq (c : Dev nD) (t : Fin cfg2.N) :
    (dat2 (F := Ideal) V c).flushed 5 t = ((cfg2.win 5).blk t).view.read (Elt Ideal)
      (Cert.GcnBn.bnApply (V c (Pipeline.arrRef spec2 0)) (V c (Pipeline.arrRef spec2 1)) (V c (Pipeline.arrRef spec2 2))
        (V c (Pipeline.arrRef spec2 3)) (V c (Pipeline.arrRef spec2 4))) := by
  rw [flushed_pay]
  funext j
  obtain ⟨p, q, rfl⟩ : ∃ (p : Fin 5000) (q : Fin 128), j = ix2 p q := ⟨j 0, j 1, eq_ix2 j⟩
  exact pay_eq_bnApply (V c (Pipeline.arrRef spec2 0)) (V c (Pipeline.arrRef spec2 1)) (V c (Pipeline.arrRef spec2 2))
    (V c (Pipeline.arrRef spec2 3)) (V c (Pipeline.arrRef spec2 4))
    (iblk2 V c 0 t) (iblk2 V c 1 t) (iblk2 V c 2 t) (iblk2 V c 3 t) (iblk2 V c 4 t) p q
    (((cfg2.win 5).blk t).view.emb (ix2 p q)) (emb_out_col t p q)
    (read_x V c t p q) (read_mean V c t q) (read_var V c t q) (read_scale V c t q) (read_shift V c t q)

end AtEntry

/-! ## The ten blocks tile the array -/

/-- An entry of the array is in point t's block of the output iff each coordinate is in the block's range. -/
theorem mem_blk (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole (Pipeline.arrRef spec2 5)).slice (win2_5.rect t)).set ↔ _
  rw [View.set_slice_whole, Rect.mem_set_unit]
  exact Iff.rfl

/-- Row r is in the block of point r / 5000. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := index_onto ⟨(i 0).val / 5000, by omega⟩ ⟨(i 1).val / 128, by omega⟩
  have b0 : win2_5.index t (0 : Fin 2) = (i 0).val / 5000 := congrFun ht 0
  have b1 : win2_5.index t (1 : Fin 2) = (i 1).val / 128 := congrFun ht 1
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-! ## The array after the region -/

section Final
variable (V : (c : Dev nD) → (b : Ref sig .tc) → Buf (Elt Ideal) ((c : Thread nD τ).loc b))

/-- After the ten points the output array is `bnApply` of the five arrays the region found. -/
theorem arr2_5 (c : Dev nD) :
    ((dat2 (F := Ideal) V c).arrAt 5 cfg2.N : S50000x128.Idx → EReal)
      = Cert.GcnBn.bnApply (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5 _ (fun t _ => flushed_eq V c t) cover

end Final

end Cert.KernelIdeal.RegVal2

end
-- ==== Proof.BnApplyRegion5.lean ====
/-
  The batch-normalisation region: one launch over ten blocks of 5000 rows.  Each block of the output is the
  rectified normalisation of the same block of the input by the four per-feature rows (mean, variance, scale,
  shift), and the ten blocks tile the 50000 rows, so the whole output array is `bnApply` of the five input arrays.
-/
import proofs.«139531_j89996744720583_1_alg».proof.Proof.Gen.KernelIdeal.Frame
import proofs.«139531_j89996744720583_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal5

open Cert.KernelIdeal Cert.KernelIdeal.Gen Idealize.ShloMosaic Idealize.ShloMosaic.TcCoe Idealize.SL.Sem
open Idealize.ShloMosaic.Pipeline (Dat)
open Idealize.ShloMosaic.ValueIdx

/-! ## The body at one entry of a block -/

/-- Entry (p, q) of what the body computes from a block of x and the four rows: subtract the mean of column q,
    multiply by the reciprocal square root of the variance of column q plus eps, scale, shift, clamp below at 0. -/
theorem pay_apply (x0 : Vec Ideal S5000x128 .f32) (x1 x2 x3 x4 : Vec Ideal S1x128 .f32) (p : Fin 5000) (q : Fin 128) :
    k5_pay1 x0 x1 x2 x3 x4 (ix2 p q)
      = max ((((x0 (ix2 p q) - x1 (ix2 0 q)) * Ideal.rsqrt (x2 (ix2 0 q) + Cert.GcnBn.eps)) * x3 (ix2 0 q)) + x4 (ix2 0 q)) 0 := by
  unfold k5_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rw [broadcast_apply]
  show max _ (Ideal.ofBits .f32 0x00000000#32) = _
  rw [Ideal.ofBits_zero_f32]
  rfl

/-- The same entry, with the block's entries named by the whole arrays they are read from: if the block of x at
    (p, q) is x at i, i is in column q, and each row at column q is read whole, the body's entry is `bnApply` at i. -/
theorem pay_eq_bnApply (x : Cert.GcnBn.SNxD.Idx → EReal) (mean var g be : Cert.GcnBn.S1xD.Idx → EReal)
    (x0 : Vec Ideal S5000x128 .f32) (x1 x2 x3 x4 : Vec Ideal S1x128 .f32) (p : Fin 5000) (q : Fin 128)
    (i : Cert.GcnBn.SNxD.Idx) (hq : i 1 = q) (h0 : x0 (ix2 p q) = x i) (h1 : x1 (ix2 0 q) = mean (ix2 0 q))
    (h2 : x2 (ix2 0 q) = var (ix2 0 q)) (h3 : x3 (ix2 0 q) = g (ix2 0 q)) (h4 : x4 (ix2 0 q) = be (ix2 0 q)) :
    k5_pay1 x0 x1 x2 x3 x4 (ix2 p q) = Cert.GcnBn.bnApply x mean var g be i := by
  rw [pay_apply, h0, h1, h2, h3, h4]
  subst hq
  rfl

/-! ## The blocks of the windows -/

theorem origin_eq : (![0, 0] : Fin 2 → Nat) = fun _ => 0 := funext fun a => by fin_cases a <;> rfl

/-- The block indices over the ten points: the block of x moves with the block of the output, the four rows are
    block (0, 0) at every point, and the output's block index is (t, 0) with t at most 9. -/
theorem index_facts : ∀ t : Fin cfg5.N, win5_0.index t (0 : Fin 2) = win5_5.index t (0 : Fin 2)
    ∧ win5_0.index t (1 : Fin 2) = win5_5.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) ≤ 9 ∧ win5_5.index t (1 : Fin 2) = 0 :=
  (by decide +kernel : ∀ t : Fin grid5.N, _)

/-- Every block of 5000 rows is some point's. -/
theorem index_onto : ∀ (b0 : Fin 10) (b1 : Fin 1), ∃ t : Fin cfg5.N, win5_5.index t = ![b0.val, b1.val] :=
  (by decide +kernel : ∀ (b0 : Fin 10) (b1 : Fin 1), ∃ t : Fin grid5.N, win5_5.index t = ![b0.val, b1.val])

/-- Entry (p, q) of point t's block of x sits in the array where entry (p, q) of its block of the output does. -/
theorem emb_x (t : Fin cfg5.N) (p : Fin 5000) (q : Fin 128) :
    ((cfg5.win 0).blk t).view.emb (ix2 p q) = ((cfg5.win 5).blk t).view.emb (ix2 p q) := by
  obtain ⟨e00, e01, -⟩ := index_facts t
  funext a; apply Fin.ext
  match a with
  | ⟨0, _⟩ => show win5_0.index t (0 : Fin 2) * 5000 + 1 * p.val = win5_5.index t (0 : Fin 2) * 5000 + 1 * p.val; omega
  | ⟨1, _⟩ => show win5_0.index t (1 : Fin 2) * 128 + 1 * q.val = win5_5.index t (1 : Fin 2) * 128 + 1 * q.val; omega

/-- Entry (p, q) of point t's block of the output is in column q of the array. -/
theorem emb_out_col (t : Fin cfg5.N) (p : Fin 5000) (q : Fin 128) :
    ((cfg5.win 5).blk t).view.emb (ix2 p q) 1 = q := by
  obtain ⟨-, -, -, -, -, -, -, -, -, -, -, e51⟩ := index_facts t
  apply Fin.ext
  show win5_5.index t (1 : Fin 2) * 128 + 1 * q.val = q.val
  omega

/-- Entry (0, q) of each row's block, at every point, is entry (0, q) of the row. -/
theorem emb_mean (t : Fin cfg5.N) (q : Fin 128) : ((cfg5.win 1).blk t).view.emb (ix2 0 q) = ix2 0 q := by
  obtain ⟨-, -, e10, e11, -⟩ := index_facts t
  funext a; apply Fin.ext
  match a with
  | ⟨0, _⟩ => show win5_1.index t (0 : Fin 2) * 1 + 1 * 0 = 0; omega
  | ⟨1, _⟩ => show win5_1.index t (1 : Fin 2) * 128 + 1 * q.val = q.val; omega
theorem emb_var (t : Fin cfg5.N) (q : Fin 128) : ((cfg5.win 2).blk t).view.emb (ix2 0 q) = ix2 0 q := by
  obtain ⟨-, -, -, -, e20, e21, -⟩ := index_facts t
  funext a; apply Fin.ext
  match a with
  | ⟨0, _⟩ => show win5_2.index t (0 : Fin 2) * 1 + 1 * 0 = 0; omega
  | ⟨1, _⟩ => show win5_2.index t (1 : Fin 2) * 128 + 1 * q.val = q.val; omega
theorem emb_scale (t : Fin cfg5.N) (q : Fin 128) : ((cfg5.win 3).blk t).view.emb (ix2 0 q) = ix2 0 q := by
  obtain ⟨-, -, -, -, -, -, e30, e31, -⟩ := index_facts t
  funext a; apply Fin.ext
  match a with
  | ⟨0, _⟩ => show win5_3.index t (0 : Fin 2) * 1 + 1 * 0 = 0; omega
  | ⟨1, _⟩ => show win5_3.index t (1 : Fin 2) * 128 + 1 * q.val = q.val; omega
theorem emb_shift (t : Fin cfg5.N) (q : Fin 128) : ((cfg5.win 4).blk t).view.emb (ix2 0 q) = ix2 0 q := by
  obtain ⟨-, -, -, -, -, -, -, -, e40, e41, -⟩ := index_facts t
  funext a; apply Fin.ext
  match a with
  | ⟨0, _⟩ => show win5_4.index t (0 : Fin 2) * 1 + 1 * 0 = 0; omega
  | ⟨1, _⟩ => show win5_4.index t (1 : Fin 2) * 128 + 1 * q.val = q.val; omega

section AtEntry
variable (V : (c : Dev nD) → (b : Ref sig .tc) → Buf (Elt Ideal) ((c : Thread nD τ).loc b))

/-- Entry (p, q) of point t's block of x, read where the output's block puts entry (p, q). -/
theorem read_x (c : Dev nD) (t : Fin cfg5.N) (p : Fin 5000) (q : Fin 128) :
    iblk5 V c 0 t (ix2 p q) = V c (Pipeline.arrRef spec5 0) (((cfg5.win 5).blk t).view.emb (ix2 p q)) := by
  show V c (Pipeline.arrRef spec5 0) (((cfg5.win 0).blk t).view.emb (ix2 p q)) = _
  rw [emb_x]

/-- Entry (0, q) of each row's block at point t is entry (0, q) of the row. -/
theorem read_mean (c : Dev nD) (t : Fin cfg5.N) (q : Fin 128) :
    iblk5 V c 1 t (ix2 0 q) = V c (Pipeline.arrRef spec5 1) (ix2 0 q) := by
  show V c (Pipeline.arrRef spec5 1) (((cfg5.win 1).blk t).view.emb (ix2 0 q)) = _
  rw [emb_mean]
theorem read_var (c : Dev nD) (t : Fin cfg5.N) (q : Fin 128) :
    iblk5 V c 2 t (ix2 0 q) = V c (Pipeline.arrRef spec5 2) (ix2 0 q) := by
  show V c (Pipeline.arrRef spec5 2) (((cfg5.win 2).blk t).view.emb (ix2 0 q)) = _
  rw [emb_var]
theorem read_scale (c : Dev nD) (t : Fin cfg5.N) (q : Fin 128) :
    iblk5 V c 3 t (ix2 0 q) = V c (Pipeline.arrRef spec5 3) (ix2 0 q) := by
  show V c (Pipeline.arrRef spec5 3) (((cfg5.win 3).blk t).view.emb (ix2 0 q)) = _
  rw [emb_scale]
theorem read_shift (c : Dev nD) (t : Fin cfg5.N) (q : Fin 128) :
    iblk5 V c 4 t (ix2 0 q) = V c (Pipeline.arrRef spec5 4) (ix2 0 q) := by
  show V c (Pipeline.arrRef spec5 4) (((cfg5.win 4).blk t).view.emb (ix2 0 q)) = _
  rw [emb_shift]

/-- What point t writes back is the body's result on the five blocks at t. -/
theorem flushed_pay (c : Dev nD) (t : Fin cfg5.N) :
    (dat5 (F := Ideal) V c).flushed 5 t
      = k5_pay1 (iblk5 V c 0 t) (iblk5 V c 1 t) (iblk5 V c 2 t) (iblk5 V c 3 t) (iblk5 V c 4 t) := by
  show (cfg5.win 5).cut (grid5.coords t) ((dat5 V c).after 5 t) = _
  rw [after5_5]
  unfold out5_5
  rw [View.canon_unit_zero origin_eq]
  simp only [View.ld_unit_zero (S := S5000x128) origin_eq, View.ld_unit_zero (S := S1x128) origin_eq]
  rfl

/-- What point t writes back is block t of `bnApply` of the five arrays as the region finds them. -/
theorem flushed_eq (c : Dev nD) (t : Fin cfg5.N) :
    (dat5 (F := Ideal) V c).flushed 5 t = ((cfg5.win 5).blk t).view.read (Elt Ideal)
      (Cert.GcnBn.bnApply (V c (Pipeline.arrRef spec5 0)) (V c (Pipeline.arrRef spec5 1)) (V c (Pipeline.arrRef spec5 2))
        (V c (Pipeline.arrRef spec5 3)) (V c (Pipeline.arrRef spec5 4))) := by
  rw [flushed_pay]
  funext j
  obtain ⟨p, q, rfl⟩ : ∃ (p : Fin 5000) (q : Fin 128), j = ix2 p q := ⟨j 0, j 1, eq_ix2 j⟩
  exact pay_eq_bnApply (V c (Pipeline.arrRef spec5 0)) (V c (Pipeline.arrRef spec5 1)) (V c (Pipeline.arrRef spec5 2))
    (V c (Pipeline.arrRef spec5 3)) (V c (Pipeline.arrRef spec5 4))
    (iblk5 V c 0 t) (iblk5 V c 1 t) (iblk5 V c 2 t) (iblk5 V c 3 t) (iblk5 V c 4 t) p q
    (((cfg5.win 5).blk t).view.emb (ix2 p q)) (emb_out_col t p q)
    (read_x V c t p q) (read_mean V c t q) (read_var V c t q) (read_scale V c t q) (read_shift V c t q)

end AtEntry

/-! ## The ten blocks tile the array -/

/-- An entry of the array is in point t's block of the output iff each coordinate is in the block's range. -/
theorem mem_blk (t : Fin cfg5.N) (i : S50000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole (Pipeline.arrRef spec5 5)).slice (win5_5.rect t)).set ↔ _
  rw [View.set_slice_whole, Rect.mem_set_unit]
  exact Iff.rfl

/-- Row r is in the block of point r / 5000. -/
theorem cover (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht⟩ := index_onto ⟨(i 0).val / 5000, by omega⟩ ⟨(i 1).val / 128, by omega⟩
  have b0 : win5_5.index t (0 : Fin 2) = (i 0).val / 5000 := congrFun ht 0
  have b1 : win5_5.index t (1 : Fin 2) = (i 1).val / 128 := congrFun ht 1
  refine ⟨t, flush5_5 t, ?_⟩
  rw [mem_blk]
  intro a
  match a with
  | ⟨0, _⟩ =>
    show win5_5.index t (0 : Fin 2) * 5000 ≤ (i 0).val ∧ (i 0).val < win5_5.index t (0 : Fin 2) * 5000 + 5000
    omega
  | ⟨1, _⟩ =>
    show win5_5.index t (1 : Fin 2) * 128 ≤ (i 1).val ∧ (i 1).val < win5_5.index t (1 : Fin 2) * 128 + 128
    omega

/-! ## The array after the region -/

section Final
variable (V : (c : Dev nD) → (b : Ref sig .tc) → Buf (Elt Ideal) ((c : Thread nD τ).loc b))

/-- After the ten points the output array is `bnApply` of the five arrays the region found. -/
theorem arr5_5 (c : Dev nD) :
    ((dat5 (F := Ideal) V c).arrAt 5 cfg5.N : S50000x128.Idx → EReal)
      = Cert.GcnBn.bnApply (V c (Pipeline.arrRef spec5 0)) (V c (Pipeline.arrRef spec5 1)) (V c (Pipeline.arrRef spec5 2))
          (V c (Pipeline.arrRef spec5 3)) (V c (Pipeline.arrRef spec5 4)) :=
  (dat5 V c).arrAt_eq_of_cover 5 _ (fun t _ => flushed_eq V c t) cover

end Final

end Cert.KernelIdeal.RegVal5

end
-- ==== Proof.BnApplyRegion8.lean ====
/-
  The batch-normalisation region: one launch over ten blocks of 5000 rows.  Each block of the output is the
  rectified normalisation of the same block of the input by the four per-feature rows (mean, variance, scale,
  shift), and the ten blocks tile the 50000 rows, so the whole output array is `bnApply` of the five input arrays.
-/
import proofs.«139531_j89996744720583_1_alg».proof.Proof.Gen.KernelIdeal.Frame
import proofs.«139531_j89996744720583_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal8

open Cert.KernelIdeal Cert.KernelIdeal.Gen Idealize.ShloMosaic Idealize.ShloMosaic.TcCoe Idealize.SL.Sem
open Idealize.ShloMosaic.Pipeline (Dat)
open Idealize.ShloMosaic.ValueIdx

/-! ## The body at one entry of a block -/

/-- Entry (p, q) of what the body computes from a block of x and the four rows: subtract the mean of column q,
    multiply by the reciprocal square root of the variance of column q plus eps, scale, shift, clamp below at 0. -/
theorem pay_apply (x0 : Vec Ideal S5000x128 .f32) (x1 x2 x3 x4 : Vec Ideal S1x128 .f32) (p : Fin 5000) (q : Fin 128) :
    k8_pay1 x0 x1 x2 x3 x4 (ix2 p q)
      = max ((((x0 (ix2 p q) - x1 (ix2 0 q)) * Ideal.rsqrt (x2 (ix2 0 q) + Cert.GcnBn.eps)) * x3 (ix2 0 q)) + x4 (ix2 0 q)) 0 := by
  unfold k8_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rw [broadcast_apply]
  show max _ (Ideal.ofBits .f32 0x00000000#32) = _
  rw [Ideal.ofBits_zero_f32]
  rfl

/-- The same entry, with the block's entries named by the whole arrays they are read from: if the block of x at
    (p, q) is x at i, i is in column q, and each row at column q is read whole, the body's entry is `bnApply` at i. -/
theorem pay_eq_bnApply (x : Cert.GcnBn.SNxD.Idx → EReal) (mean var g be : Cert.GcnBn.S1xD.Idx → EReal)
    (x0 : Vec Ideal S5000x128 .f32) (x1 x2 x3 x4 : Vec Ideal S1x128 .f32) (p : Fin 5000) (q : Fin 128)
    (i : Cert.GcnBn.SNxD.Idx) (hq : i 1 = q) (h0 : x0 (ix2 p q) = x i) (h1 : x1 (ix2 0 q) = mean (ix2 0 q))
    (h2 : x2 (ix2 0 q) = var (ix2 0 q)) (h3 : x3 (ix2 0 q) = g (ix2 0 q)) (h4 : x4 (ix2 0 q) = be (ix2 0 q)) :
    k8_pay1 x0 x1 x2 x3 x4 (ix2 p q) = Cert.GcnBn.bnApply x mean var g be i := by
  rw [pay_apply, h0, h1, h2, h3, h4]
  subst hq
  rfl

/-! ## The blocks of the windows -/

theorem origin_eq : (![0, 0] : Fin 2 → Nat) = fun _ => 0 := funext fun a => by fin_cases a <;> rfl

/-- The block indices over the ten points: the block of x moves with the block of the output, the four rows are
    block (0, 0) at every point, and the output's block index is (t, 0) with t at most 9. -/
theorem index_facts : ∀ t : Fin cfg8.N, win8_0.index t (0 : Fin 2) = win8_5.index t (0 : Fin 2)
    ∧ win8_0.index t (1 : Fin 2) = win8_5.index t (1 : Fin 2)
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) ≤ 9 ∧ win8_5.index t (1 : Fin 2) = 0 :=
  (by decide +kernel : ∀ t : Fin grid8.N, _)

/-- Every block of 5000 rows is some point's. -/
theorem index_onto : ∀ (b0 : Fin 10) (b1 : Fin 1), ∃ t : Fin cfg8.N, win8_5.index t = ![b0.val, b1.val] :=
  (by decide +kernel : ∀ (b0 : Fin 10) (b1 : Fin 1), ∃ t : Fin grid8.N, win8_5.index t = ![b0.val, b1.val])

/-- Entry (p, q) of point t's block of x sits in the array where entry (p, q) of its block of the output does. -/
theorem emb_x (t : Fin cfg8.N) (p : Fin 5000) (q : Fin 128) :
    ((cfg8.win 0).blk t).view.emb (ix2 p q) = ((cfg8.win 5).blk t).view.emb (ix2 p q) := by
  obtain ⟨e00, e01, -⟩ := index_facts t
  funext a; apply Fin.ext
  match a with
  | ⟨0, _⟩ => show win8_0.index t (0 : Fin 2) * 5000 + 1 * p.val = win8_5.index t (0 : Fin 2) * 5000 + 1 * p.val; omega
  | ⟨1, _⟩ => show win8_0.index t (1 : Fin 2) * 128 + 1 * q.val = win8_5.index t (1 : Fin 2) * 128 + 1 * q.val; omega

/-- Entry (p, q) of point t's block of the output is in column q of the array. -/
theorem emb_out_col (t : Fin cfg8.N) (p : Fin 5000) (q : Fin 128) :
    ((cfg8.win 5).blk t).view.emb (ix2 p q) 1 = q := by
  obtain ⟨-, -, -, -, -, -, -, -, -, -, -, e51⟩ := index_facts t
  apply Fin.ext
  show win8_5.index t (1 : Fin 2) * 128 + 1 * q.val = q.val
  omega

/-- Entry (0, q) of each row's block, at every point, is entry (0, q) of the row. -/
theorem emb_mean (t : Fin cfg8.N) (q : Fin 128) : ((cfg8.win 1).blk t).view.emb (ix2 0 q) = ix2 0 q := by
  obtain ⟨-, -, e10, e11, -⟩ := index_facts t
  funext a; apply Fin.ext
  match a with
  | ⟨0, _⟩ => show win8_1.index t (0 : Fin 2) * 1 + 1 * 0 = 0; omega
  | ⟨1, _⟩ => show win8_1.index t (1 : Fin 2) * 128 + 1 * q.val = q.val; omega
theorem emb_var (t : Fin cfg8.N) (q : Fin 128) : ((cfg8.win 2).blk t).view.emb (ix2 0 q) = ix2 0 q := by
  obtain ⟨-, -, -, -, e20, e21, -⟩ := index_facts t
  funext a; apply Fin.ext
  match a with
  | ⟨0, _⟩ => show win8_2.index t (0 : Fin 2) * 1 + 1 * 0 = 0; omega
  | ⟨1, _⟩ => show win8_2.index t (1 : Fin 2) * 128 + 1 * q.val = q.val; omega
theorem emb_scale (t : Fin cfg8.N) (q : Fin 128) : ((cfg8.win 3).blk t).view.emb (ix2 0 q) = ix2 0 q := by
  obtain ⟨-, -, -, -, -, -, e30, e31, -⟩ := index_facts t
  funext a; apply Fin.ext
  match a with
  | ⟨0, _⟩ => show win8_3.index t (0 : Fin 2) * 1 + 1 * 0 = 0; omega
  | ⟨1, _⟩ => show win8_3.index t (1 : Fin 2) * 128 + 1 * q.val = q.val; omega
theorem emb_shift (t : Fin cfg8.N) (q : Fin 128) : ((cfg8.win 4).blk t).view.emb (ix2 0 q) = ix2 0 q := by
  obtain ⟨-, -, -, -, -, -, -, -, e40, e41, -⟩ := index_facts t
  funext a; apply Fin.ext
  match a with
  | ⟨0, _⟩ => show win8_4.index t (0 : Fin 2) * 1 + 1 * 0 = 0; omega
  | ⟨1, _⟩ => show win8_4.index t (1 : Fin 2) * 128 + 1 * q.val = q.val; omega

section AtEntry
variable (V : (c : Dev nD) → (b : Ref sig .tc) → Buf (Elt Ideal) ((c : Thread nD τ).loc b))

/-- Entry (p, q) of point t's block of x, read where the output's block puts entry (p, q). -/
theorem read_x (c : Dev nD) (t : Fin cfg8.N) (p : Fin 5000) (q : Fin 128) :
    iblk8 V c 0 t (ix2 p q) = V c (Pipeline.arrRef spec8 0) (((cfg8.win 5).blk t).view.emb (ix2 p q)) := by
  show V c (Pipeline.arrRef spec8 0) (((cfg8.win 0).blk t).view.emb (ix2 p q)) = _
  rw [emb_x]

/-- Entry (0, q) of each row's block at point t is entry (0, q) of the row. -/
theorem read_mean (c : Dev nD) (t : Fin cfg8.N) (q : Fin 128) :
    iblk8 V c 1 t (ix2 0 q) = V c (Pipeline.arrRef spec8 1) (ix2 0 q) := by
  show V c (Pipeline.arrRef spec8 1) (((cfg8.win 1).blk t).view.emb (ix2 0 q)) = _
  rw [emb_mean]
theorem read_var (c : Dev nD) (t : Fin cfg8.N) (q : Fin 128) :
    iblk8 V c 2 t (ix2 0 q) = V c (Pipeline.arrRef spec8 2) (ix2 0 q) := by
  show V c (Pipeline.arrRef spec8 2) (((cfg8.win 2).blk t).view.emb (ix2 0 q)) = _
  rw [emb_var]
theorem read_scale (c : Dev nD) (t : Fin cfg8.N) (q : Fin 128) :
    iblk8 V c 3 t (ix2 0 q) = V c (Pipeline.arrRef spec8 3) (ix2 0 q) := by
  show V c (Pipeline.arrRef spec8 3) (((cfg8.win 3).blk t).view.emb (ix2 0 q)) = _
  rw [emb_scale]
theorem read_shift (c : Dev nD) (t : Fin cfg8.N) (q : Fin 128) :
    iblk8 V c 4 t (ix2 0 q) = V c (Pipeline.arrRef spec8 4) (ix2 0 q) := by
  show V c (Pipeline.arrRef spec8 4) (((cfg8.win 4).blk t).view.emb (ix2 0 q)) = _
  rw [emb_shift]

/-- What point t writes back is the body's result on the five blocks at t. -/
theorem flushed_pay (c : Dev nD) (t : Fin cfg8.N) :
    (dat8 (F := Ideal) V c).flushed 5 t
      = k8_pay1 (iblk8 V c 0 t) (iblk8 V c 1 t) (iblk8 V c 2 t) (iblk8 V c 3 t) (iblk8 V c 4 t) := by
  show (cfg8.win 5).cut (grid8.coords t) ((dat8 V c).after 5 t) = _
  rw [after8_5]
  unfold out8_5
  rw [View.canon_unit_zero origin_eq]
  simp only [View.ld_unit_zero (S := S5000x128) origin_eq, View.ld_unit_zero (S := S1x128) origin_eq]
  rfl

/-- What point t writes back is block t of `bnApply` of the five arrays as the region finds them. -/
theorem flushed_eq (c : Dev nD) (t : Fin cfg8.N) :
    (dat8 (F := Ideal) V c).flushed 5 t = ((cfg8.win 5).blk t).view.read (Elt Ideal)
      (Cert.GcnBn.bnApply (V c (Pipeline.arrRef spec8 0)) (V c (Pipeline.arrRef spec8 1)) (V c (Pipeline.arrRef spec8 2))
        (V c (Pipeline.arrRef spec8 3)) (V c (Pipeline.arrRef spec8 4))) := by
  rw [flushed_pay]
  funext j
  obtain ⟨p, q, rfl⟩ : ∃ (p : Fin 5000) (q : Fin 128), j = ix2 p q := ⟨j 0, j 1, eq_ix2 j⟩
  exact pay_eq_bnApply (V c (Pipeline.arrRef spec8 0)) (V c (Pipeline.arrRef spec8 1)) (V c (Pipeline.arrRef spec8 2))
    (V c (Pipeline.arrRef spec8 3)) (V c (Pipeline.arrRef spec8 4))
    (iblk8 V c 0 t) (iblk8 V c 1 t) (iblk8 V c 2 t) (iblk8 V c 3 t) (iblk8 V c 4 t) p q
    (((cfg8.win 5).blk t).view.emb (ix2 p q)) (emb_out_col t p q)
    (read_x V c t p q) (read_mean V c t q) (read_var V c t q) (read_scale V c t q) (read_shift V c t q)

end AtEntry

/-! ## The ten blocks tile the array -/

/-- An entry of the array is in point t's block of the output iff each coordinate is in the block's range. -/
theorem mem_blk (t : Fin cfg8.N) (i : S50000x128.Idx) :
    i ∈ ((cfg8.win 5).blk t).view.set ↔ ∀ a : Fin 2, win8_5.index t a * S5000x128.size a ≤ (i a).val
      ∧ (i a).val < win8_5.index t a * S5000x128.size a + S5000x128.size a := by
  show i ∈ ((View.whole (Pipeline.arrRef spec8 5)).slice (win8_5.rect t)).set ↔ _
  rw [View.set_slice_whole, Rect.mem_set_unit]
  exact Iff.rfl

/-- Row r is in the block of point r / 5000. -/
theorem cover (i : S50000x128.Idx) :
    ∃ t : Fin cfg8.N, (cfg8.win 5).flush t = true ∧ i ∈ ((cfg8.win 5).blk t).view.set := by
  have hi0 : (i 0).val < 50000 := (i 0).isLt
  have hi1 : (i 1).val < 128 := (i 1).isLt
  obtain ⟨t, ht⟩ := index_onto ⟨(i 0).val / 5000, by omega⟩ ⟨(i 1).val / 128, by omega⟩
  have b0 : win8_5.index t (0 : Fin 2) = (i 0).val / 5000 := congrFun ht 0
  have b1 : win8_5.index t (1 : Fin 2) = (i 1).val / 128 := congrFun ht 1
  refine ⟨t, flush8_5 t, ?_⟩
  rw [mem_blk]
  intro a
  match a with
  | ⟨0, _⟩ =>
    show win8_5.index t (0 : Fin 2) * 5000 ≤ (i 0).val ∧ (i 0).val < win8_5.index t (0 : Fin 2) * 5000 + 5000
    omega
  | ⟨1, _⟩ =>
    show win8_5.index t (1 : Fin 2) * 128 ≤ (i 1).val ∧ (i 1).val < win8_5.index t (1 : Fin 2) * 128 + 128
    omega

/-! ## The array after the region -/

section Final
variable (V : (c : Dev nD) → (b : Ref sig .tc) → Buf (Elt Ideal) ((c : Thread nD τ).loc b))

/-- After the ten points the output array is `bnApply` of the five arrays the region found. -/
theorem arr8_5 (c : Dev nD) :
    ((dat8 (F := Ideal) V c).arrAt 5 cfg8.N : S50000x128.Idx → EReal)
      = Cert.GcnBn.bnApply (V c (Pipeline.arrRef spec8 0)) (V c (Pipeline.arrRef spec8 1)) (V c (Pipeline.arrRef spec8 2))
          (V c (Pipeline.arrRef spec8 3)) (V c (Pipeline.arrRef spec8 4)) :=
  (dat8 V c).arrAt_eq_of_cover 5 _ (fun t _ => flushed_eq V c t) cover

end Final

end Cert.KernelIdeal.RegVal8

end
-- ==== Proof.KChain.lean ====
/-
  The idealized kernel program's result, walked through its sixteen segments. Each of the three layers is: a matrix
  product region; a stretch of host operations (gather along the edges, scaling, scatter-add, the self term, the
  bias) that is the reference's own; a region accumulating the column sums and column sums of squares over ten row
  blocks; a short host stretch turning them into the mean and the variance (mean of squares minus squared mean);
  and a region applying the normalisation and the rectifier. For arguments with real entries every intermediate
  array has real entries, the two ways of computing a variance agree, and so each layer's output array is the
  reference's layer function of the layer's input: the result is the threefold composition.
-/
import proofs.«139531_j89996744720583_1_alg».proof.Proof.Gen.KernelIdeal.Frame
import proofs.«139531_j89996744720583_1_alg».proof.Proof.RefRead
import proofs.«139531_j89996744720583_1_alg».proof.Proof.Spec
import proofs.«139531_j89996744720583_1_alg».proof.Proof.KCarry
import proofs.«139531_j89996744720583_1_alg».proof.Proof.KHost
import proofs.«139531_j89996744720583_1_alg».proof.Proof.KHostBn
import proofs.«139531_j89996744720583_1_alg».proof.Proof.RefBn
import proofs.«139531_j89996744720583_1_alg».proof.Proof.RefPreReal
import proofs.«139531_j89996744720583_1_alg».proof.Proof.MatmulRegion0
import proofs.«139531_j89996744720583_1_alg».proof.Proof.MatmulRegion3
import proofs.«139531_j89996744720583_1_alg».proof.Proof.MatmulRegion6
import proofs.«139531_j89996744720583_1_alg».proof.Proof.BnStatsRegion1
import proofs.«139531_j89996744720583_1_alg».proof.Proof.BnStatsRegion4
import proofs.«139531_j89996744720583_1_alg».proof.Proof.BnStatsRegion7
import proofs.«139531_j89996744720583_1_alg».proof.Proof.BnApplyRegion2
import proofs.«139531_j89996744720583_1_alg».proof.Proof.BnApplyRegion5
import proofs.«139531_j89996744720583_1_alg».proof.Proof.BnApplyRegion8

set_option maxRecDepth 16384

noncomputable section

namespace Cert.KernelIdeal.Chain

open Idealize.ShloMosaic Idealize.ShloMosaic.TcCoe
open Cert.KernelIdeal Cert.KernelIdeal.Gen Cert.KernelIdeal.Carry

variable (m : (ℓ : Loc nD τ sig) → Buf (Elt Ideal) ℓ) (ρ : Dev nD → PrngReg)

/-- Every float argument array of core `c` has real entries. -/
structure ArgsReal (c : Dev nD) : Prop where
  a0 : Cert.GcnBn.AllReal (m ((c : Thread nD τ).loc main_arg0))
  a2 : Cert.GcnBn.AllReal (m ((c : Thread nD τ).loc main_arg2))
  a3 : Cert.GcnBn.AllReal (m ((c : Thread nD τ).loc main_arg3))
  a4 : Cert.GcnBn.AllReal (m ((c : Thread nD τ).loc main_arg4))
  a5 : Cert.GcnBn.AllReal (m ((c : Thread nD τ).loc main_arg5))
  a6 : Cert.GcnBn.AllReal (m ((c : Thread nD τ).loc main_arg6))
  a7 : Cert.GcnBn.AllReal (m ((c : Thread nD τ).loc main_arg7))
  a8 : Cert.GcnBn.AllReal (m ((c : Thread nD τ).loc main_arg8))
  a9 : Cert.GcnBn.AllReal (m ((c : Thread nD τ).loc main_arg9))
  a10 : Cert.GcnBn.AllReal (m ((c : Thread nD τ).loc main_arg10))
  a11 : Cert.GcnBn.AllReal (m ((c : Thread nD τ).loc main_arg11))
  a12 : Cert.GcnBn.AllReal (m ((c : Thread nD τ).loc main_arg12))
  a13 : Cert.GcnBn.AllReal (m ((c : Thread nD τ).loc main_arg13))

/-- The reference's layer function applied once, twice, three times to the arguments. -/
def h1 (c : Dev nD) := Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
def h2 (c : Dev nD) := Cert.ReferenceIdeal.Read.val_main_v79 (F := Ideal) (h1 m c) (m ((c : Thread nD τ).loc main_arg1)) (m ((c : Thread nD τ).loc main_arg6)) (m ((c : Thread nD τ).loc main_arg7)) (m ((c : Thread nD τ).loc main_arg8)) (m ((c : Thread nD τ).loc main_arg9))
def h3 (c : Dev nD) := Cert.ReferenceIdeal.Read.val_main_v79 (F := Ideal) (h2 m c) (m ((c : Thread nD τ).loc main_arg1)) (m ((c : Thread nD τ).loc main_arg10)) (m ((c : Thread nD τ).loc main_arg11)) (m ((c : Thread nD τ).loc main_arg12)) (m ((c : Thread nD τ).loc main_arg13))

/-! ## Real entries, layer by layer -/

theorem preReal1 (c : Dev nD) (hr : ArgsReal m c) : Cert.GcnBn.AllReal (Cert.ReferenceIdeal.Read.val_main_v53 (F := Ideal) (m ((c : Thread nD τ).loc main_arg0)) (m ((c : Thread nD τ).loc main_arg1)) (m ((c : Thread nD τ).loc main_arg2)) (m ((c : Thread nD τ).loc main_arg3))) :=
  Cert.GcnBn.RefReal.pre_allReal _ _ _ _ hr.a0 hr.a2 hr.a3
theorem hReal1 (c : Dev nD) (hr : ArgsReal m c) : Cert.GcnBn.AllReal (h1 m c) := by
  unfold h1; rw [Cert.GcnBn.RefBn.bn_eq _ _ _ _ _ _ (preReal1 m c hr)]; exact Cert.GcnBn.RefBn.bnLayer_allReal _ _ _ (preReal1 m c hr) hr.a4 hr.a5
theorem preReal2 (c : Dev nD) (hr : ArgsReal m c) : Cert.GcnBn.AllReal (Cert.ReferenceIdeal.Read.val_main_v53 (F := Ideal) (h1 m c) (m ((c : Thread nD τ).loc main_arg1)) (m ((c : Thread nD τ).loc main_arg6)) (m ((c : Thread nD τ).loc main_arg7))) :=
  Cert.GcnBn.RefReal.pre_allReal _ _ _ _ (hReal1 m c hr) hr.a6 hr.a7
theorem hReal2 (c : Dev nD) (hr : ArgsReal m c) : Cert.GcnBn.AllReal (h2 m c) := by
  unfold h2; rw [Cert.GcnBn.RefBn.bn_eq _ _ _ _ _ _ (preReal2 m c hr)]; exact Cert.GcnBn.RefBn.bnLayer_allReal _ _ _ (preReal2 m c hr) hr.a8 hr.a9
theorem preReal3 (c : Dev nD) (hr : ArgsReal m c) : Cert.GcnBn.AllReal (Cert.ReferenceIdeal.Read.val_main_v53 (F := Ideal) (h2 m c) (m ((c : Thread nD τ).loc main_arg1)) (m ((c : Thread nD τ).loc main_arg10)) (m ((c : Thread nD τ).loc main_arg11))) :=
  Cert.GcnBn.RefReal.pre_allReal _ _ _ _ (hReal2 m c hr) hr.a10 hr.a11

/-- Equal operands, equal normalised arrays. -/
theorem bnApply_congr {x x' : Cert.GcnBn.SNxD.Idx → EReal} {a a' b b' g g' e e' : Cert.GcnBn.S1xD.Idx → EReal}
    (h1 : x = x') (h2 : a = a') (h3 : b = b') (h4 : g = g') (h5 : e = e') :
    Cert.GcnBn.bnApply x a b g e = Cert.GcnBn.bnApply x' a' b' g' e' := by subst h1 h2 h3 h4 h5; rfl

/-! ## The edge preprocessing, computed once before the first region and read by all three layers -/

theorem edge_main_v1_2 (c : Dev nD) : W2 m ρ c (Proc.devRef .tc main_v1) = Cert.ReferenceIdeal.Read.val_main_v1 (F := Ideal) (m ((c : Thread nD τ).loc main_arg1)) :=
  (carry_main_v1_1_2 m ρ c).trans (Cert.KernelIdeal.HostVal.host0_v1 (W0 m ρ c))
theorem edge_main_v1_7 (c : Dev nD) : W7 m ρ c (Proc.devRef .tc main_v1) = Cert.ReferenceIdeal.Read.val_main_v1 (F := Ideal) (m ((c : Thread nD τ).loc main_arg1)) :=
  (carry_main_v1_2_7 m ρ c).trans (edge_main_v1_2 m ρ c)
theorem edge_main_v1_12 (c : Dev nD) : W12 m ρ c (Proc.devRef .tc main_v1) = Cert.ReferenceIdeal.Read.val_main_v1 (F := Ideal) (m ((c : Thread nD τ).loc main_arg1)) :=
  (carry_main_v1_7_12 m ρ c).trans (edge_main_v1_7 m ρ c)
theorem edge_main_v3_2 (c : Dev nD) : W2 m ρ c (Proc.devRef .tc main_v3) = Cert.ReferenceIdeal.Read.val_main_v3 (F := Ideal) (m ((c : Thread nD τ).loc main_arg1)) :=
  (carry_main_v3_1_2 m ρ c).trans (Cert.KernelIdeal.HostVal.host0_v3 (W0 m ρ c))
theorem edge_main_v3_7 (c : Dev nD) : W7 m ρ c (Proc.devRef .tc main_v3) = Cert.ReferenceIdeal.Read.val_main_v3 (F := Ideal) (m ((c : Thread nD τ).loc main_arg1)) :=
  (carry_main_v3_2_7 m ρ c).trans (edge_main_v3_2 m ρ c)
theorem edge_main_v3_12 (c : Dev nD) : W12 m ρ c (Proc.devRef .tc main_v3) = Cert.ReferenceIdeal.Read.val_main_v3 (F := Ideal) (m ((c : Thread nD τ).loc main_arg1)) :=
  (carry_main_v3_7_12 m ρ c).trans (edge_main_v3_7 m ρ c)
theorem edge_main_v14_2 (c : Dev nD) : W2 m ρ c (Proc.devRef .tc main_v14) = Cert.ReferenceIdeal.Read.val_main_v14 (F := Ideal) (m ((c : Thread nD τ).loc main_arg1)) :=
  (carry_main_v14_1_2 m ρ c).trans (Cert.KernelIdeal.HostVal.host0_v14 (W0 m ρ c))
theorem edge_main_v14_7 (c : Dev nD) : W7 m ρ c (Proc.devRef .tc main_v14) = Cert.ReferenceIdeal.Read.val_main_v14 (F := Ideal) (m ((c : Thread nD τ).loc main_arg1)) :=
  (carry_main_v14_2_7 m ρ c).trans (edge_main_v14_2 m ρ c)
theorem edge_main_v14_12 (c : Dev nD) : W12 m ρ c (Proc.devRef .tc main_v14) = Cert.ReferenceIdeal.Read.val_main_v14 (F := Ideal) (m ((c : Thread nD τ).loc main_arg1)) :=
  (carry_main_v14_7_12 m ρ c).trans (edge_main_v14_7 m ρ c)
theorem edge_main_v30_2 (c : Dev nD) : W2 m ρ c (Proc.devRef .tc main_v30) = Cert.ReferenceIdeal.Read.val_main_v30 (F := Ideal) (m ((c : Thread nD τ).loc main_arg1)) :=
  (carry_main_v30_1_2 m ρ c).trans (Cert.KernelIdeal.HostVal.host0_v30 (W0 m ρ c))
theorem edge_main_v30_7 (c : Dev nD) : W7 m ρ c (Proc.devRef .tc main_v30) = Cert.ReferenceIdeal.Read.val_main_v30 (F := Ideal) (m ((c : Thread nD τ).loc main_arg1)) :=
  (carry_main_v30_2_7 m ρ c).trans (edge_main_v30_2 m ρ c)
theorem edge_main_v30_12 (c : Dev nD) : W12 m ρ c (Proc.devRef .tc main_v30) = Cert.ReferenceIdeal.Read.val_main_v30 (F := Ideal) (m ((c : Thread nD τ).loc main_arg1)) :=
  (carry_main_v30_7_12 m ρ c).trans (edge_main_v30_7 m ρ c)

/-! ## Layer 1 -/

/-- The layer's matrix product, as the reference's product of the layer's input and weight. -/
theorem hw1 (c : Dev nD) (hr : ArgsReal m c) : W2 m ρ c (Proc.devRef .tc main_v31) = Cert.ReferenceIdeal.Read.val_main_v31 (F := Ideal) (m ((c : Thread nD τ).loc main_arg0)) (m ((c : Thread nD τ).loc main_arg2)) := by
  rw [Cert.GcnBn.RefBn.dot_eq_mm]
  exact (W2_arr m ρ c 2).trans ((RegVal0.arr0_2 (V1 m ρ) c).trans
    (congrArg₂ Cert.GcnBn.mm (carry_main_arg0_0_1 m ρ c) (carry_main_arg2_0_1 m ρ c)))

/-- The array entering the normalisation is the reference's. -/
theorem pre1 (c : Dev nD) (hr : ArgsReal m c) : W3 m ρ c (Proc.devRef .tc main_v53) = (Cert.ReferenceIdeal.Read.val_main_v53 (F := Ideal) (m ((c : Thread nD τ).loc main_arg0)) (m ((c : Thread nD τ).loc main_arg1)) (m ((c : Thread nD τ).loc main_arg2)) (m ((c : Thread nD τ).loc main_arg3))) :=
  Cert.KernelIdeal.HostVal.host1_pre (W2 m ρ c) (m ((c : Thread nD τ).loc main_arg0)) (m ((c : Thread nD τ).loc main_arg1)) (m ((c : Thread nD τ).loc main_arg2)) (m ((c : Thread nD τ).loc main_arg3)) (edge_main_v1_2 m ρ c) (edge_main_v3_2 m ρ c) (edge_main_v14_2 m ρ c) (edge_main_v30_2 m ρ c) (hw1 m ρ c hr) (carry_main_arg3_0_2 m ρ c)

/-- The column sums and the column sums of squares the statistics region leaves. -/
theorem sum1 (c : Dev nD) (hr : ArgsReal m c) : W4 m ρ c (Proc.devRef .tc main_v54_0) = Cert.GcnBn.colSum (Cert.ReferenceIdeal.Read.val_main_v53 (F := Ideal) (m ((c : Thread nD τ).loc main_arg0)) (m ((c : Thread nD τ).loc main_arg1)) (m ((c : Thread nD τ).loc main_arg2)) (m ((c : Thread nD τ).loc main_arg3))) :=
  (W4_arr m ρ c 1).trans ((RegVal1.arr1_1 (V3 m ρ) c).trans (congrArg Cert.GcnBn.colSum (pre1 m ρ c hr)))
theorem sumsq1 (c : Dev nD) (hr : ArgsReal m c) : W4 m ρ c (Proc.devRef .tc main_v54_1) = Cert.GcnBn.colSumSq (Cert.ReferenceIdeal.Read.val_main_v53 (F := Ideal) (m ((c : Thread nD τ).loc main_arg0)) (m ((c : Thread nD τ).loc main_arg1)) (m ((c : Thread nD τ).loc main_arg2)) (m ((c : Thread nD τ).loc main_arg3))) :=
  (W4_arr m ρ c 2).trans ((RegVal1.arr1_2 (V3 m ρ) c).trans (congrArg Cert.GcnBn.colSumSq (pre1 m ρ c hr)))

/-- The layer's output: the batch normalisation and rectifier of the reference. -/
theorem out1 (c : Dev nD) (hr : ArgsReal m c) : W6 m ρ c (Proc.devRef .tc main_v63) = h1 m c := by
  have hP : Cert.GcnBn.AllReal (Cert.ReferenceIdeal.Read.val_main_v53 (F := Ideal) (m ((c : Thread nD τ).loc main_arg0)) (m ((c : Thread nD τ).loc main_arg1)) (m ((c : Thread nD τ).loc main_arg2)) (m ((c : Thread nD τ).loc main_arg3))) := preReal1 m c hr
  unfold h1
  rw [Cert.GcnBn.RefBn.bn_eq _ _ _ _ _ _ hP]
  refine (W6_arr m ρ c 5).trans ((RegVal2.arr2_5 (V5 m ρ) c).trans ?_)
  exact bnApply_congr
    ((carry_main_v53_3_5 m ρ c).trans (pre1 m ρ c hr))
    ((Cert.KernelIdeal.HostVal.host2_mean (W4 m ρ c)).trans (congrArg Cert.GcnBn.meanRow (sum1 m ρ c hr)))
    ((Cert.KernelIdeal.HostVal.host2_var (W4 m ρ c)).trans (congrArg₂ Cert.GcnBn.varRow (sum1 m ρ c hr) (sumsq1 m ρ c hr)))
    ((Cert.KernelIdeal.HostVal.host2_g (W4 m ρ c)).trans (congrArg Cert.GcnBn.rowOf (carry_main_arg4_0_4 m ρ c)))
    ((Cert.KernelIdeal.HostVal.host2_be (W4 m ρ c)).trans (congrArg Cert.GcnBn.rowOf (carry_main_arg5_0_4 m ρ c)))

/-! ## Layer 2 -/

/-- The layer's matrix product, as the reference's product of the layer's input and weight. -/
theorem hw2 (c : Dev nD) (hr : ArgsReal m c) : W7 m ρ c (Proc.devRef .tc main_v64) = Cert.ReferenceIdeal.Read.val_main_v31 (F := Ideal) (h1 m c) (m ((c : Thread nD τ).loc main_arg6)) := by
  rw [Cert.GcnBn.RefBn.dot_eq_mm]
  exact (W7_arr m ρ c 2).trans ((RegVal3.arr3_2 (V6 m ρ) c).trans
    (congrArg₂ Cert.GcnBn.mm (out1 m ρ c hr) (carry_main_arg6_0_6 m ρ c)))

/-- The array entering the normalisation is the reference's. -/
theorem pre2 (c : Dev nD) (hr : ArgsReal m c) : W8 m ρ c (Proc.devRef .tc main_v86) = (Cert.ReferenceIdeal.Read.val_main_v53 (F := Ideal) (h1 m c) (m ((c : Thread nD τ).loc main_arg1)) (m ((c : Thread nD τ).loc main_arg6)) (m ((c : Thread nD τ).loc main_arg7))) :=
  Cert.KernelIdeal.HostVal.host4_pre (W7 m ρ c) (h1 m c) (m ((c : Thread nD τ).loc main_arg1)) (m ((c : Thread nD τ).loc main_arg6)) (m ((c : Thread nD τ).loc main_arg7)) (edge_main_v1_7 m ρ c) (edge_main_v3_7 m ρ c) (edge_main_v14_7 m ρ c) (edge_main_v30_7 m ρ c) (hw2 m ρ c hr) (carry_main_arg7_0_7 m ρ c)

/-- The column sums and the column sums of squares the statistics region leaves. -/
theorem sum2 (c : Dev nD) (hr : ArgsReal m c) : W9 m ρ c (Proc.devRef .tc main_v87_0) = Cert.GcnBn.colSum (Cert.ReferenceIdeal.Read.val_main_v53 (F := Ideal) (h1 m c) (m ((c : Thread nD τ).loc main_arg1)) (m ((c : Thread nD τ).loc main_arg6)) (m ((c : Thread nD τ).loc main_arg7))) :=
  (W9_arr m ρ c 1).trans ((RegVal4.arr1_1 (V8 m ρ) c).trans (congrArg Cert.GcnBn.colSum (pre2 m ρ c hr)))
theorem sumsq2 (c : Dev nD) (hr : ArgsReal m c) : W9 m ρ c (Proc.devRef .tc main_v87_1) = Cert.GcnBn.colSumSq (Cert.ReferenceIdeal.Read.val_main_v53 (F := Ideal) (h1 m c) (m ((c : Thread nD τ).loc main_arg1)) (m ((c : Thread nD τ).loc main_arg6)) (m ((c : Thread nD τ).loc main_arg7))) :=
  (W9_arr m ρ c 2).trans ((RegVal4.arr1_2 (V8 m ρ) c).trans (congrArg Cert.GcnBn.colSumSq (pre2 m ρ c hr)))

/-- The layer's output: the batch normalisation and rectifier of the reference. -/
theorem out2 (c : Dev nD) (hr : ArgsReal m c) : W11 m ρ c (Proc.devRef .tc main_v96) = h2 m c := by
  have hP : Cert.GcnBn.AllReal (Cert.ReferenceIdeal.Read.val_main_v53 (F := Ideal) (h1 m c) (m ((c : Thread nD τ).loc main_arg1)) (m ((c : Thread nD τ).loc main_arg6)) (m ((c : Thread nD τ).loc main_arg7))) := preReal2 m c hr
  unfold h2
  rw [Cert.GcnBn.RefBn.bn_eq _ _ _ _ _ _ hP]
  refine (W11_arr m ρ c 5).trans ((RegVal5.arr5_5 (V10 m ρ) c).trans ?_)
  exact bnApply_congr
    ((carry_main_v86_8_10 m ρ c).trans (pre2 m ρ c hr))
    ((Cert.KernelIdeal.HostVal.host5_mean (W9 m ρ c)).trans (congrArg Cert.GcnBn.meanRow (sum2 m ρ c hr)))
    ((Cert.KernelIdeal.HostVal.host5_var (W9 m ρ c)).trans (congrArg₂ Cert.GcnBn.varRow (sum2 m ρ c hr) (sumsq2 m ρ c hr)))
    ((Cert.KernelIdeal.HostVal.host5_g (W9 m ρ c)).trans (congrArg Cert.GcnBn.rowOf (carry_main_arg8_0_9 m ρ c)))
    ((Cert.KernelIdeal.HostVal.host5_be (W9 m ρ c)).trans (congrArg Cert.GcnBn.rowOf (carry_main_arg9_0_9 m ρ c)))

/-! ## Layer 3 -/

/-- The layer's matrix product, as the reference's product of the layer's input and weight. -/
theorem hw3 (c : Dev nD) (hr : ArgsReal m c) : W12 m ρ c (Proc.devRef .tc main_v97) = Cert.ReferenceIdeal.Read.val_main_v31 (F := Ideal) (h2 m c) (m ((c : Thread nD τ).loc main_arg10)) := by
  rw [Cert.GcnBn.RefBn.dot_eq_mm]
  exact (W12_arr m ρ c 2).trans ((RegVal6.arr6_2 (V11 m ρ) c).trans
    (congrArg₂ Cert.GcnBn.mm (out2 m ρ c hr) (carry_main_arg10_0_11 m ρ c)))

/-- The array entering the normalisation is the reference's. -/
theorem pre3 (c : Dev nD) (hr : ArgsReal m c) : W13 m ρ c (Proc.devRef .tc main_v119) = (Cert.ReferenceIdeal.Read.val_main_v53 (F := Ideal) (h2 m c) (m ((c : Thread nD τ).loc main_arg1)) (m ((c : Thread nD τ).loc main_arg10)) (m ((c : Thread nD τ).loc main_arg11))) :=
  Cert.KernelIdeal.HostVal.host7_pre (W12 m ρ c) (h2 m c) (m ((c : Thread nD τ).loc main_arg1)) (m ((c : Thread nD τ).loc main_arg10)) (m ((c : Thread nD τ).loc main_arg11)) (edge_main_v1_12 m ρ c) (edge_main_v3_12 m ρ c) (edge_main_v14_12 m ρ c) (edge_main_v30_12 m ρ c) (hw3 m ρ c hr) (carry_main_arg11_0_12 m ρ c)

/-- The column sums and the column sums of squares the statistics region leaves. -/
theorem sum3 (c : Dev nD) (hr : ArgsReal m c) : W14 m ρ c (Proc.devRef .tc main_v120_0) = Cert.GcnBn.colSum (Cert.ReferenceIdeal.Read.val_main_v53 (F := Ideal) (h2 m c) (m ((c : Thread nD τ).loc main_arg1)) (m ((c : Thread nD τ).loc main_arg10)) (m ((c : Thread nD τ).loc main_arg11))) :=
  (W14_arr m ρ c 1).trans ((RegVal7.arr1_1 (V13 m ρ) c).trans (congrArg Cert.GcnBn.colSum (pre3 m ρ c hr)))
theorem sumsq3 (c : Dev nD) (hr : ArgsReal m c) : W14 m ρ c (Proc.devRef .tc main_v120_1) = Cert.GcnBn.colSumSq (Cert.ReferenceIdeal.Read.val_main_v53 (F := Ideal) (h2 m c) (m ((c : Thread nD τ).loc main_arg1)) (m ((c : Thread nD τ).loc main_arg10)) (m ((c : Thread nD τ).loc main_arg11))) :=
  (W14_arr m ρ c 2).trans ((RegVal7.arr1_2 (V13 m ρ) c).trans (congrArg Cert.GcnBn.colSumSq (pre3 m ρ c hr)))

/-- The layer's output: the batch normalisation and rectifier of the reference. -/
theorem out3 (c : Dev nD) (hr : ArgsReal m c) : W16 m ρ c (Proc.devRef .tc main_v129) = h3 m c := by
  have hP : Cert.GcnBn.AllReal (Cert.ReferenceIdeal.Read.val_main_v53 (F := Ideal) (h2 m c) (m ((c : Thread nD τ).loc main_arg1)) (m ((c : Thread nD τ).loc main_arg10)) (m ((c : Thread nD τ).loc main_arg11))) := preReal3 m c hr
  unfold h3
  rw [Cert.GcnBn.RefBn.bn_eq _ _ _ _ _ _ hP]
  refine (W16_arr m ρ c 5).trans ((RegVal8.arr8_5 (V15 m ρ) c).trans ?_)
  exact bnApply_congr
    ((carry_main_v119_13_15 m ρ c).trans (pre3 m ρ c hr))
    ((Cert.KernelIdeal.HostVal.host8_mean (W14 m ρ c)).trans (congrArg Cert.GcnBn.meanRow (sum3 m ρ c hr)))
    ((Cert.KernelIdeal.HostVal.host8_var (W14 m ρ c)).trans (congrArg₂ Cert.GcnBn.varRow (sum3 m ρ c hr) (sumsq3 m ρ c hr)))
    ((Cert.KernelIdeal.HostVal.host8_g (W14 m ρ c)).trans (congrArg Cert.GcnBn.rowOf (carry_main_arg12_0_14 m ρ c)))
    ((Cert.KernelIdeal.HostVal.host8_be (W14 m ρ c)).trans (congrArg Cert.GcnBn.rowOf (carry_main_arg13_0_14 m ρ c)))

/-- The result array after the last region. -/
theorem result (c : Dev nD) (hr : ArgsReal m c) : W16 m ρ c (Proc.devRef .tc main_v129) = h3 m c := out3 m ρ c hr

end Cert.KernelIdeal.Chain

end
-- ==== Proof.LibAfterAppend.lean ====
/-
  Running a list of host operations: the contents after `A ++ B` are the contents after `B`, started from the contents after `A`.
  (Lets a long operation list be cut at any place, the first part's contents then carried as one unknown.)
-/
import Idealize.ShloMosaic.Lib.StableHlo.Run

namespace Idealize.ShloMosaic.StableHlo

variable {τ : Topo} {sig : RefSig} {Val : EltTy → Type}

/-- The fold over an appended list is the fold over the second part of the fold over the first. -/
theorem after_append (A B : List (HloOp τ sig Val)) (M : Valuation τ sig Val) :
    after (A ++ B) M = after B (after A M) := by
  induction A generalizing M with
  | nil => rfl
  | cons a A ih => simp only [List.cons_append, after_cons, ih]

/-- Cut at position `n`: the first `n` operations, then the rest. -/
theorem after_take_drop (n : Nat) (L : List (HloOp τ sig Val)) (M : Valuation τ sig Val) :
    after L M = after (L.drop n) (after (L.take n) M) := by
  rw [← after_append, List.take_append_drop]

end Idealize.ShloMosaic.StableHlo
-- ==== Proof.RefRun.lean ====
/-
  The idealized reference program's run, read layer by layer. Its @main is a straight line of 292 host operations:
  three graph-convolution layers of 100, 96 and 96 operations. Run from any contents W, each layer's list leaves in
  its result array the FIRST layer's function of the layer's input array, the edge list and the layer's four
  parameter arrays (the three layers apply the same operations), and leaves every argument array as it was. Hence
  every weakly fair execution of @main terminates with the result array at the threefold composition of that one
  layer function on the arguments, the arguments unchanged.
-/
import proofs.«139531_j89996744720583_1_alg».proof.Proof.Gen.ReferenceIdeal
import proofs.«139531_j89996744720583_1_alg».proof.Proof.RefRead
import proofs.«139531_j89996744720583_1_alg».proof.Proof.LibAfterAppend
import Idealize.ShloMosaic.Lib.StableHlo.Run

noncomputable section

namespace Cert.ReferenceIdeal.LayerRun

open Cert.ReferenceIdeal Cert.ReferenceIdeal.Gen Idealize.ShloMosaic Idealize.ShloMosaic.TcCoe Idealize.SL.Sem Idealize.ShloMosaic.StableHlo

variable {F : FTy → Type} [FloatOps F]

/-- The first layer's 100 operations: the edge preprocessing, the layer, its rectifier. -/
abbrev opsA : List (HloOp τ sig (Elt F)) :=
  [
    unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x00000000#32),
    unary main_cst main_v4 (broadcastInDim S50000 ![] bcast_S_S50000 : (⟨S_, .f32⟩ : BufTy).Contents (Elt F) → (⟨S50000, .f32⟩ : BufTy).Contents (Elt F)),
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_v3 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v7 (broadcastInDim S1600000 ![] bcast_S_S1600000 : (⟨S_, .i32⟩ : BufTy).Contents (Elt F) → (⟨S1600000, .i32⟩ : BufTy).Contents (Elt F)),
    binary main_v3 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_v3 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    nullary main_cst_1 (constant S_ .f32 0x3F800000#32),
    unary main_cst_1 main_v11 (broadcastInDim S1600000 ![] bcast_S_S1600000 : (⟨S_, .f32⟩ : BufTy).Contents (Elt F) → (⟨S1600000, .f32⟩ : BufTy).Contents (Elt F)),
    ternary main_v4 main_v10 main_v11 main_v12 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_2 (constant S_ .f32 0x40000000#32),
    unary main_cst_2 main_v13 (broadcastInDim S50000 ![] bcast_S_S50000 : (⟨S_, .f32⟩ : BufTy).Contents (Elt F) → (⟨S50000, .f32⟩ : BufTy).Contents (Elt F)),
    binary main_v12 main_v13 main_v14 (addf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_c_3 (constantI S_ 32 0#32),
    unary main_c_3 main_v16 (broadcastInDim S1600000 ![] bcast_S_S1600000 : (⟨S_, .i32⟩ : BufTy).Contents (Elt F) → (⟨S1600000, .i32⟩ : BufTy).Contents (Elt F)),
    binary main_v1 main_v16 main_v17 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 50000#32),
    unary main_c_4 main_v18 (broadcastInDim S1600000 ![] bcast_S_S1600000 : (⟨S_, .i32⟩ : BufTy).Contents (Elt F) → (⟨S1600000, .i32⟩ : BufTy).Contents (Elt F)),
    binary main_v1 main_v18 main_v19 (addi : (⟨S1600000, .i32⟩ : BufTy).Contents (Elt F) → (⟨S1600000, .i32⟩ : BufTy).Contents (Elt F) → (⟨S1600000, .i32⟩ : BufTy).Contents (Elt F)),
    ternary main_v17 main_v19 main_v1 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v20 main_v21 (broadcastInDim S1600000x1 ![0] bcast_S1600000_S1600000x1_0 : (⟨S1600000, .i32⟩ : BufTy).Contents (Elt F) → (⟨S1600000x1, .i32⟩ : BufTy).Contents (Elt F)),
    binary main_v15 main_v21 main_v22 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    nullary main_c_5 (constantI S_ 32 0#32),
    unary main_c_5 main_v23 (broadcastInDim S1600000 ![] bcast_S_S1600000 : (⟨S_, .i32⟩ : BufTy).Contents (Elt F) → (⟨S1600000, .i32⟩ : BufTy).Contents (Elt F)),
    binary main_v3 main_v23 main_v24 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 50000#32),
    unary main_c_6 main_v25 (broadcastInDim S1600000 ![] bcast_S_S1600000 : (⟨S_, .i32⟩ : BufTy).Contents (Elt F) → (⟨S1600000, .i32⟩ : BufTy).Contents (Elt F)),
    binary main_v3 main_v25 main_v26 (addi : (⟨S1600000, .i32⟩ : BufTy).Contents (Elt F) → (⟨S1600000, .i32⟩ : BufTy).Contents (Elt F) → (⟨S1600000, .i32⟩ : BufTy).Contents (Elt F)),
    ternary main_v24 main_v26 main_v3 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v27 main_v28 (broadcastInDim S1600000x1 ![0] bcast_S1600000_S1600000x1_0 : (⟨S1600000, .i32⟩ : BufTy).Contents (Elt F) → (⟨S1600000x1, .i32⟩ : BufTy).Contents (Elt F)),
    binary main_v15 main_v28 main_v29 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    binary main_v22 main_v29 main_v30 (mulf : (⟨S1600000, .f32⟩ : BufTy).Contents (Elt F) → (⟨S1600000, .f32⟩ : BufTy).Contents (Elt F) → (⟨S1600000, .f32⟩ : BufTy).Contents (Elt F)),
    binary main_arg0 main_arg2 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_7 (constantI S_ 32 0#32),
    unary main_c_7 main_v32 (broadcastInDim S1600000 ![] bcast_S_S1600000 : (⟨S_, .i32⟩ : BufTy).Contents (Elt F) → (⟨S1600000, .i32⟩ : BufTy).Contents (Elt F)),
    binary main_v1 main_v32 main_v33 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 50000#32),
    unary main_c_8 main_v34 (broadcastInDim S1600000 ![] bcast_S_S1600000 : (⟨S_, .i32⟩ : BufTy).Contents (Elt F) → (⟨S1600000, .i32⟩ : BufTy).Contents (Elt F)),
    binary main_v1 main_v34 main_v35 (addi : (⟨S1600000, .i32⟩ : BufTy).Contents (Elt F) → (⟨S1600000, .i32⟩ : BufTy).Contents (Elt F) → (⟨S1600000, .i32⟩ : BufTy).Contents (Elt F)),
    ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v36 main_v37 (broadcastInDim S1600000x1 ![0] bcast_S1600000_S1600000x1_0 : (⟨S1600000, .i32⟩ : BufTy).Contents (Elt F) → (⟨S1600000x1, .i32⟩ : BufTy).Contents (Elt F)),
    binary main_v31 main_v37 main_v38 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_v30 main_v39 (broadcastInDim S1600000x1 ![0] bcast_S1600000_S1600000x1_0 : (⟨S1600000, .f32⟩ : BufTy).Contents (Elt F) → (⟨S1600000x1, .f32⟩ : BufTy).Contents (Elt F)),
    unary main_v39 main_v40 (broadcastInDim S1600000x128 ![0, 1] bcast_S1600000x1_S1600000x128_0_1 : (⟨S1600000x1, .f32⟩ : BufTy).Contents (Elt F) → (⟨S1600000x128, .f32⟩ : BufTy).Contents (Elt F)),
    binary main_v38 main_v40 main_v41 (mulf : (⟨S1600000x128, .f32⟩ : BufTy).Contents (Elt F) → (⟨S1600000x128, .f32⟩ : BufTy).Contents (Elt F) → (⟨S1600000x128, .f32⟩ : BufTy).Contents (Elt F)),
    nullary main_cst_9 (constant S_ .f32 0x00000000#32),
    unary main_cst_9 main_v42 (broadcastInDim S50000x128 ![] bcast_S_S50000x128 : (⟨S_, .f32⟩ : BufTy).Contents (Elt F) → (⟨S50000x128, .f32⟩ : BufTy).Contents (Elt F)),
    unary main_v3 main_v43 (broadcastInDim S1600000x1 ![0] bcast_S1600000_S1600000x1_0 : (⟨S1600000, .i32⟩ : BufTy).Contents (Elt F) → (⟨S1600000x1, .i32⟩ : BufTy).Contents (Elt F)),
    ternary main_v42 main_v43 main_v41 main_v44 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    nullary main_cst_10 (constant S_ .f32 0x40000000#32),
    unary main_cst_10 main_v45 (broadcastInDim S50000 ![] bcast_S_S50000 : (⟨S_, .f32⟩ : BufTy).Contents (Elt F) → (⟨S50000, .f32⟩ : BufTy).Contents (Elt F)),
    binary main_v45 main_v14 main_v46 (Host.divf : (⟨S50000, .f32⟩ : BufTy).Contents (Elt F) → (⟨S50000, .f32⟩ : BufTy).Contents (Elt F) → (⟨S50000, .f32⟩ : BufTy).Contents (Elt F)),
    unary main_v46 main_v47 (broadcastInDim S50000x1 ![0] bcast_S50000_S50000x1_0 : (⟨S50000, .f32⟩ : BufTy).Contents (Elt F) → (⟨S50000x1, .f32⟩ : BufTy).Contents (Elt F)),
    unary main_v47 main_v48 (broadcastInDim S50000x128 ![0, 1] bcast_S50000x1_S50000x128_0_1 : (⟨S50000x1, .f32⟩ : BufTy).Contents (Elt F) → (⟨S50000x128, .f32⟩ : BufTy).Contents (Elt F)),
    binary main_v48 main_v31 main_v49 (mulf : (⟨S50000x128, .f32⟩ : BufTy).Contents (Elt F) → (⟨S50000x128, .f32⟩ : BufTy).Contents (Elt F) → (⟨S50000x128, .f32⟩ : BufTy).Contents (Elt F)),
    binary main_v44 main_v49 main_v50 (addf : (⟨S50000x128, .f32⟩ : BufTy).Contents (Elt F) → (⟨S50000x128, .f32⟩ : BufTy).Contents (Elt F) → (⟨S50000x128, .f32⟩ : BufTy).Contents (Elt F)),
    unary main_arg3 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v53 main_cst_11 main_v54 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v55 (broadcastInDim S128 ![] bcast_S_S128 : (⟨S_, .f32⟩ : BufTy).Contents (Elt F) → (⟨S128, .f32⟩ : BufTy).Contents (Elt F)),
    binary main_v54 main_v55 main_v56 (Host.divf : (⟨S128, .f32⟩ : BufTy).Contents (Elt F) → (⟨S128, .f32⟩ : BufTy).Contents (Elt F) → (⟨S128, .f32⟩ : BufTy).Contents (Elt F)),
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v53 main_v58 main_v59 (subf : (⟨S50000x128, .f32⟩ : BufTy).Contents (Elt F) → (⟨S50000x128, .f32⟩ : BufTy).Contents (Elt F) → (⟨S50000x128, .f32⟩ : BufTy).Contents (Elt F)),
    binary main_v59 main_v59 main_v60 (mulf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x00000000#32),
    binary main_v60 main_cst_13 main_v61 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_14 (constant S_ .f32 0x47435000#32),
    unary main_cst_14 main_v62 (broadcastInDim S128 ![] bcast_S_S128 : (⟨S_, .f32⟩ : BufTy).Contents (Elt F) → (⟨S128, .f32⟩ : BufTy).Contents (Elt F)),
    binary main_v61 main_v62 main_v63 (Host.divf : (⟨S128, .f32⟩ : BufTy).Contents (Elt F) → (⟨S128, .f32⟩ : BufTy).Contents (Elt F) → (⟨S128, .f32⟩ : BufTy).Contents (Elt F)),
    unary main_v56 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v53 main_v65 main_v66 (subf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v67 (broadcastInDim S128 ![] bcast_S_S128 : (⟨S_, .f32⟩ : BufTy).Contents (Elt F) → (⟨S128, .f32⟩ : BufTy).Contents (Elt F)),
    binary main_v63 main_v67 main_v68 (addf : (⟨S128, .f32⟩ : BufTy).Contents (Elt F) → (⟨S128, .f32⟩ : BufTy).Contents (Elt F) → (⟨S128, .f32⟩ : BufTy).Contents (Elt F)),
    unary main_v68 main_v69 (Host.rsqrt : (⟨S128, .f32⟩ : BufTy).Contents (Elt F) → (⟨S128, .f32⟩ : BufTy).Contents (Elt F)),
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v66 main_v71 main_v72 (mulf : (⟨S50000x128, .f32⟩ : BufTy).Contents (Elt F) → (⟨S50000x128, .f32⟩ : BufTy).Contents (Elt F) → (⟨S50000x128, .f32⟩ : BufTy).Contents (Elt F)),
    unary main_arg4 main_v73 (broadcastInDim S1x128 ![1] bcast_S128_S1x128_1 : (⟨S128, .f32⟩ : BufTy).Contents (Elt F) → (⟨S1x128, .f32⟩ : BufTy).Contents (Elt F)),
    unary main_v73 main_v74 (broadcastInDim S50000x128 ![0, 1] bcast_S1x128_S50000x128_0_1 : (⟨S1x128, .f32⟩ : BufTy).Contents (Elt F) → (⟨S50000x128, .f32⟩ : BufTy).Contents (Elt F)),
    binary main_v72 main_v74 main_v75 (mulf : (⟨S50000x128, .f32⟩ : BufTy).Contents (Elt F) → (⟨S50000x128, .f32⟩ : BufTy).Contents (Elt F) → (⟨S50000x128, .f32⟩ : BufTy).Contents (Elt F)),
    unary main_arg5 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v75 main_v77 main_v78 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v78) (TRef.of (T := ⟨S50000x128, .f32⟩) main_call0_v0) (TRef.of (T := ⟨S50000x128, .f32⟩) main_v79) maximumf ]

/-- The second layer's 96 operations. -/
abbrev opsB : List (HloOp τ sig (Elt F)) :=
  [
    nullary main_cst_16 (constant S_ .f32 0x00000000#32),
    unary main_cst_16 main_v80 (broadcastInDim S50000 ![] bcast_S_S50000 : (⟨S_, .f32⟩ : BufTy).Contents (Elt F) → (⟨S50000, .f32⟩ : BufTy).Contents (Elt F)),
    nullary main_c_17 (constantI S_ 32 0#32),
    unary main_c_17 main_v81 (broadcastInDim S1600000 ![] bcast_S_S1600000 : (⟨S_, .i32⟩ : BufTy).Contents (Elt F) → (⟨S1600000, .i32⟩ : BufTy).Contents (Elt F)),
    binary main_v3 main_v81 main_v82 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 50000#32),
    unary main_c_18 main_v83 (broadcastInDim S1600000 ![] bcast_S_S1600000 : (⟨S_, .i32⟩ : BufTy).Contents (Elt F) → (⟨S1600000, .i32⟩ : BufTy).Contents (Elt F)),
    binary main_v3 main_v83 main_v84 (addi : (⟨S1600000, .i32⟩ : BufTy).Contents (Elt F) → (⟨S1600000, .i32⟩ : BufTy).Contents (Elt F) → (⟨S1600000, .i32⟩ : BufTy).Contents (Elt F)),
    ternary main_v82 main_v84 main_v3 main_v85 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v85 main_v86 (broadcastInDim S1600000x1 ![0] bcast_S1600000_S1600000x1_0 : (⟨S1600000, .i32⟩ : BufTy).Contents (Elt F) → (⟨S1600000x1, .i32⟩ : BufTy).Contents (Elt F)),
    nullary main_cst_19 (constant S_ .f32 0x3F800000#32),
    unary main_cst_19 main_v87 (broadcastInDim S1600000 ![] bcast_S_S1600000 : (⟨S_, .f32⟩ : BufTy).Contents (Elt F) → (⟨S1600000, .f32⟩ : BufTy).Contents (Elt F)),
    ternary main_v80 main_v86 main_v87 main_v88 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_20 (constant S_ .f32 0x40000000#32),
    unary main_cst_20 main_v89 (broadcastInDim S50000 ![] bcast_S_S50000 : (⟨S_, .f32⟩ : BufTy).Contents (Elt F) → (⟨S50000, .f32⟩ : BufTy).Contents (Elt F)),
    binary main_v88 main_v89 main_v90 (addf : (⟨S50000, .f32⟩ : BufTy).Contents (Elt F) → (⟨S50000, .f32⟩ : BufTy).Contents (Elt F) → (⟨S50000, .f32⟩ : BufTy).Contents (Elt F)),
    unary main_v90 main_v91 (Host.rsqrt : (⟨S50000, .f32⟩ : BufTy).Contents (Elt F) → (⟨S50000, .f32⟩ : BufTy).Contents (Elt F)),
    nullary main_c_21 (constantI S_ 32 0#32),
    unary main_c_21 main_v92 (broadcastInDim S1600000 ![] bcast_S_S1600000 : (⟨S_, .i32⟩ : BufTy).Contents (Elt F) → (⟨S1600000, .i32⟩ : BufTy).Contents (Elt F)),
    binary main_v1 main_v92 main_v93 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 50000#32),
    unary main_c_22 main_v94 (broadcastInDim S1600000 ![] bcast_S_S1600000 : (⟨S_, .i32⟩ : BufTy).Contents (Elt F) → (⟨S1600000, .i32⟩ : BufTy).Contents (Elt F)),
    binary main_v1 main_v94 main_v95 (addi : (⟨S1600000, .i32⟩ : BufTy).Contents (Elt F) → (⟨S1600000, .i32⟩ : BufTy).Contents (Elt F) → (⟨S1600000, .i32⟩ : BufTy).Contents (Elt F)),
    ternary main_v93 main_v95 main_v1 main_v96 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v96 main_v97 (broadcastInDim S1600000x1 ![0] bcast_S1600000_S1600000x1_0 : (⟨S1600000, .i32⟩ : BufTy).Contents (Elt F) → (⟨S1600000x1, .i32⟩ : BufTy).Contents (Elt F)),
    binary main_v91 main_v97 main_v98 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    nullary main_c_23 (constantI S_ 32 0#32),
    unary main_c_23 main_v99 (broadcastInDim S1600000 ![] bcast_S_S1600000 : (⟨S_, .i32⟩ : BufTy).Contents (Elt F) → (⟨S1600000, .i32⟩ : BufTy).Contents (Elt F)),
    binary main_v3 main_v99 main_v100 (cmpi .slt : (⟨S1600000, .i32⟩ : BufTy).Contents (Elt F) → (⟨S1600000, .i32⟩ : BufTy).Contents (Elt F) → (⟨S1600000, .i1⟩ : BufTy).Contents (Elt F)),
    nullary main_c_24 (constantI S_ 32 50000#32),
    unary main_c_24 main_v101 (broadcastInDim S1600000 ![] bcast_S_S1600000 : (⟨S_, .i32⟩ : BufTy).Contents (Elt F) → (⟨S1600000, .i32⟩ : BufTy).Contents (Elt F)),
    binary main_v3 main_v101 main_v102 (addi : (⟨S1600000, .i32⟩ : BufTy).Contents (Elt F) → (⟨S1600000, .i32⟩ : BufTy).Contents (Elt F) → (⟨S1600000, .i32⟩ : BufTy).Contents (Elt F)),
    ternary main_v100 main_v102 main_v3 main_v103 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v103 main_v104 (broadcastInDim S1600000x1 ![0] bcast_S1600000_S1600000x1_0 : (⟨S1600000, .i32⟩ : BufTy).Contents (Elt F) → (⟨S1600000x1, .i32⟩ : BufTy).Contents (Elt F)),
    binary main_v91 main_v104 main_v105 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    binary main_v98 main_v105 main_v106 (mulf : (⟨S1600000, .f32⟩ : BufTy).Contents (Elt F) → (⟨S1600000, .f32⟩ : BufTy).Contents (Elt F) → (⟨S1600000, .f32⟩ : BufTy).Contents (Elt F)),
    binary main_v79 main_arg6 main_v107 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_25 (constantI S_ 32 0#32),
    unary main_c_25 main_v108 (broadcastInDim S1600000 ![] bcast_S_S1600000 : (⟨S_, .i32⟩ : BufTy).Contents (Elt F) → (⟨S1600000, .i32⟩ : BufTy).Contents (Elt F)),
    binary main_v1 main_v108 main_v109 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 50000#32),
    unary main_c_26 main_v110 (broadcastInDim S1600000 ![] bcast_S_S1600000 : (⟨S_, .i32⟩ : BufTy).Contents (Elt F) → (⟨S1600000, .i32⟩ : BufTy).Contents (Elt F)),
    binary main_v1 main_v110 main_v111 (addi : (⟨S1600000, .i32⟩ : BufTy).Contents (Elt F) → (⟨S1600000, .i32⟩ : BufTy).Contents (Elt F) → (⟨S1600000, .i32⟩ : BufTy).Contents (Elt F)),
    ternary main_v109 main_v111 main_v1 main_v112 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v112 main_v113 (broadcastInDim S1600000x1 ![0] bcast_S1600000_S1600000x1_0 : (⟨S1600000, .i32⟩ : BufTy).Contents (Elt F) → (⟨S1600000x1, .i32⟩ : BufTy).Contents (Elt F)),
    binary main_v107 main_v113 main_v114 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_v106 main_v115 (broadcastInDim S1600000x1 ![0] bcast_S1600000_S1600000x1_0 : (⟨S1600000, .f32⟩ : BufTy).Contents (Elt F) → (⟨S1600000x1, .f32⟩ : BufTy).Contents (Elt F)),
    unary main_v115 main_v116 (broadcastInDim S1600000x128 ![0, 1] bcast_S1600000x1_S1600000x128_0_1 : (⟨S1600000x1, .f32⟩ : BufTy).Contents (Elt F) → (⟨S1600000x128, .f32⟩ : BufTy).Contents (Elt F)),
    binary main_v114 main_v116 main_v117 (mulf : (⟨S1600000x128, .f32⟩ : BufTy).Contents (Elt F) → (⟨S1600000x128, .f32⟩ : BufTy).Contents (Elt F) → (⟨S1600000x128, .f32⟩ : BufTy).Contents (Elt F)),
    nullary main_cst_27 (constant S_ .f32 0x00000000#32),
    unary main_cst_27 main_v118 (broadcastInDim S50000x128 ![] bcast_S_S50000x128 : (⟨S_, .f32⟩ : BufTy).Contents (Elt F) → (⟨S50000x128, .f32⟩ : BufTy).Contents (Elt F)),
    unary main_v3 main_v119 (broadcastInDim S1600000x1 ![0] bcast_S1600000_S1600000x1_0 : (⟨S1600000, .i32⟩ : BufTy).Contents (Elt F) → (⟨S1600000x1, .i32⟩ : BufTy).Contents (Elt F)),
    ternary main_v118 main_v119 main_v117 main_v120 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    nullary main_cst_28 (constant S_ .f32 0x40000000#32),
    unary main_cst_28 main_v121 (broadcastInDim S50000 ![] bcast_S_S50000 : (⟨S_, .f32⟩ : BufTy).Contents (Elt F) → (⟨S50000, .f32⟩ : BufTy).Contents (Elt F)),
    binary main_v121 main_v90 main_v122 (Host.divf : (⟨S50000, .f32⟩ : BufTy).Contents (Elt F) → (⟨S50000, .f32⟩ : BufTy).Contents (Elt F) → (⟨S50000, .f32⟩ : BufTy).Contents (Elt F)),
    unary main_v122 main_v123 (broadcastInDim S50000x1 ![0] bcast_S50000_S50000x1_0 : (⟨S50000, .f32⟩ : BufTy).Contents (Elt F) → (⟨S50000x1, .f32⟩ : BufTy).Contents (Elt F)),
    unary main_v123 main_v124 (broadcastInDim S50000x128 ![0, 1] bcast_S50000x1_S50000x128_0_1 : (⟨S50000x1, .f32⟩ : BufTy).Contents (Elt F) → (⟨S50000x128, .f32⟩ : BufTy).Contents (Elt F)),
    binary main_v124 main_v107 main_v125 (mulf : (⟨S50000x128, .f32⟩ : BufTy).Contents (Elt F) → (⟨S50000x128, .f32⟩ : BufTy).Contents (Elt F) → (⟨S50000x128, .f32⟩ : BufTy).Contents (Elt F)),
    binary main_v120 main_v125 main_v126 (addf : (⟨S50000x128, .f32⟩ : BufTy).Contents (Elt F) → (⟨S50000x128, .f32⟩ : BufTy).Contents (Elt F) → (⟨S50000x128, .f32⟩ : BufTy).Contents (Elt F)),
    unary main_arg7 main_v127 (broadcastInDim S1x128 ![1] bcast_S128_S1x128_1 : (⟨S128, .f32⟩ : BufTy).Contents (Elt F) → (⟨S1x128, .f32⟩ : BufTy).Contents (Elt F)),
    unary main_v127 main_v128 (broadcastInDim S50000x128 ![0, 1] bcast_S1x128_S50000x128_0_1 : (⟨S1x128, .f32⟩ : BufTy).Contents (Elt F) → (⟨S50000x128, .f32⟩ : BufTy).Contents (Elt F)),
    binary main_v126 main_v128 main_v129 (addf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x00000000#32),
    binary main_v129 main_cst_29 main_v130 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_30 (constant S_ .f32 0x47435000#32),
    unary main_cst_30 main_v131 (broadcastInDim S128 ![] bcast_S_S128 : (⟨S_, .f32⟩ : BufTy).Contents (Elt F) → (⟨S128, .f32⟩ : BufTy).Contents (Elt F)),
    binary main_v130 main_v131 main_v132 (Host.divf : (⟨S128, .f32⟩ : BufTy).Contents (Elt F) → (⟨S128, .f32⟩ : BufTy).Contents (Elt F) → (⟨S128, .f32⟩ : BufTy).Contents (Elt F)),
    unary main_v132 main_v133 (broadcastInDim S1x128 ![1] bcast_S128_S1x128_1 : (⟨S128, .f32⟩ : BufTy).Contents (Elt F) → (⟨S1x128, .f32⟩ : BufTy).Contents (Elt F)),
    unary main_v133 main_v134 (broadcastInDim S50000x128 ![0, 1] bcast_S1x128_S50000x128_0_1 : (⟨S1x128, .f32⟩ : BufTy).Contents (Elt F) → (⟨S50000x128, .f32⟩ : BufTy).Contents (Elt F)),
    binary main_v129 main_v134 main_v135 (subf : (⟨S50000x128, .f32⟩ : BufTy).Contents (Elt F) → (⟨S50000x128, .f32⟩ : BufTy).Contents (Elt F) → (⟨S50000x128, .f32⟩ : BufTy).Contents (Elt F)),
    binary main_v135 main_v135 main_v136 (mulf : (⟨S50000x128, .f32⟩ : BufTy).Contents (Elt F) → (⟨S50000x128, .f32⟩ : BufTy).Contents (Elt F) → (⟨S50000x128, .f32⟩ : BufTy).Contents (Elt F)),
    nullary main_cst_31 (constant S_ .f32 0x00000000#32),
    binary main_v136 main_cst_31 main_v137 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_32 (constant S_ .f32 0x47435000#32),
    unary main_cst_32 main_v138 (broadcastInDim S128 ![] bcast_S_S128 : (⟨S_, .f32⟩ : BufTy).Contents (Elt F) → (⟨S128, .f32⟩ : BufTy).Contents (Elt F)),
    binary main_v137 main_v138 main_v139 (Host.divf : (⟨S128, .f32⟩ : BufTy).Contents (Elt F) → (⟨S128, .f32⟩ : BufTy).Contents (Elt F) → (⟨S128, .f32⟩ : BufTy).Contents (Elt F)),
    unary main_v132 main_v140 (broadcastInDim S1x128 ![1] bcast_S128_S1x128_1 : (⟨S128, .f32⟩ : BufTy).Contents (Elt F) → (⟨S1x128, .f32⟩ : BufTy).Contents (Elt F)),
    unary main_v140 main_v141 (broadcastInDim S50000x128 ![0, 1] bcast_S1x128_S50000x128_0_1 : (⟨S1x128, .f32⟩ : BufTy).Contents (Elt F) → (⟨S50000x128, .f32⟩ : BufTy).Contents (Elt F)),
    binary main_v129 main_v141 main_v142 (subf : (⟨S50000x128, .f32⟩ : BufTy).Contents (Elt F) → (⟨S50000x128, .f32⟩ : BufTy).Contents (Elt F) → (⟨S50000x128, .f32⟩ : BufTy).Contents (Elt F)),
    nullary main_cst_33 (constant S_ .f32 0x3727C5AC#32),
    unary main_cst_33 main_v143 (broadcastInDim S128 ![] bcast_S_S128 : (⟨S_, .f32⟩ : BufTy).Contents (Elt F) → (⟨S128, .f32⟩ : BufTy).Contents (Elt F)),
    binary main_v139 main_v143 main_v144 (addf : (⟨S128, .f32⟩ : BufTy).Contents (Elt F) → (⟨S128, .f32⟩ : BufTy).Contents (Elt F) → (⟨S128, .f32⟩ : BufTy).Contents (Elt F)),
    unary main_v144 main_v145 (Host.rsqrt : (⟨S128, .f32⟩ : BufTy).Contents (Elt F) → (⟨S128, .f32⟩ : BufTy).Contents (Elt F)),
    unary main_v145 main_v146 (broadcastInDim S1x128 ![1] bcast_S128_S1x128_1 : (⟨S128, .f32⟩ : BufTy).Contents (Elt F) → (⟨S1x128, .f32⟩ : BufTy).Contents (Elt F)),
    unary main_v146 main_v147 (broadcastInDim S50000x128 ![0, 1] bcast_S1x128_S50000x128_0_1 : (⟨S1x128, .f32⟩ : BufTy).Contents (Elt F) → (⟨S50000x128, .f32⟩ : BufTy).Contents (Elt F)),
    binary main_v142 main_v147 main_v148 (mulf : (⟨S50000x128, .f32⟩ : BufTy).Contents (Elt F) → (⟨S50000x128, .f32⟩ : BufTy).Contents (Elt F) → (⟨S50000x128, .f32⟩ : BufTy).Contents (Elt F)),
    unary main_arg8 main_v149 (broadcastInDim S1x128 ![1] bcast_S128_S1x128_1 : (⟨S128, .f32⟩ : BufTy).Contents (Elt F) → (⟨S1x128, .f32⟩ : BufTy).Contents (Elt F)),
    unary main_v149 main_v150 (broadcastInDim S50000x128 ![0, 1] bcast_S1x128_S50000x128_0_1 : (⟨S1x128, .f32⟩ : BufTy).Contents (Elt F) → (⟨S50000x128, .f32⟩ : BufTy).Contents (Elt F)),
    binary main_v148 main_v150 main_v151 (mulf : (⟨S50000x128, .f32⟩ : BufTy).Contents (Elt F) → (⟨S50000x128, .f32⟩ : BufTy).Contents (Elt F) → (⟨S50000x128, .f32⟩ : BufTy).Contents (Elt F)),
    unary main_arg9 main_v152 (broadcastInDim S1x128 ![1] bcast_S128_S1x128_1 : (⟨S128, .f32⟩ : BufTy).Contents (Elt F) → (⟨S1x128, .f32⟩ : BufTy).Contents (Elt F)),
    unary main_v152 main_v153 (broadcastInDim S50000x128 ![0, 1] bcast_S1x128_S50000x128_0_1 : (⟨S1x128, .f32⟩ : BufTy).Contents (Elt F) → (⟨S50000x128, .f32⟩ : BufTy).Contents (Elt F)),
    binary main_v151 main_v153 main_v154 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v154) (TRef.of (T := ⟨S50000x128, .f32⟩) main_call1_v0) (TRef.of (T := ⟨S50000x128, .f32⟩) main_v155) maximumf ]

/-- The third layer's 96 operations. -/
abbrev opsC : List (HloOp τ sig (Elt F)) :=
  [
    nullary main_cst_34 (constant S_ .f32 0x00000000#32),
    unary main_cst_34 main_v156 (broadcastInDim S50000 ![] bcast_S_S50000 : (⟨S_, .f32⟩ : BufTy).Contents (Elt F) → (⟨S50000, .f32⟩ : BufTy).Contents (Elt F)),
    nullary main_c_35 (constantI S_ 32 0#32),
    unary main_c_35 main_v157 (broadcastInDim S1600000 ![] bcast_S_S1600000 : (⟨S_, .i32⟩ : BufTy).Contents (Elt F) → (⟨S1600000, .i32⟩ : BufTy).Contents (Elt F)),
    binary main_v3 main_v157 main_v158 (cmpi .slt : (⟨S1600000, .i32⟩ : BufTy).Contents (Elt F) → (⟨S1600000, .i32⟩ : BufTy).Contents (Elt F) → (⟨S1600000, .i1⟩ : BufTy).Contents (Elt F)),
    nullary main_c_36 (constantI S_ 32 50000#32),
    unary main_c_36 main_v159 (broadcastInDim S1600000 ![] bcast_S_S1600000 : (⟨S_, .i32⟩ : BufTy).Contents (Elt F) → (⟨S1600000, .i32⟩ : BufTy).Contents (Elt F)),
    binary main_v3 main_v159 main_v160 (addi : (⟨S1600000, .i32⟩ : BufTy).Contents (Elt F) → (⟨S1600000, .i32⟩ : BufTy).Contents (Elt F) → (⟨S1600000, .i32⟩ : BufTy).Contents (Elt F)),
    ternary main_v158 main_v160 main_v3 main_v161 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v161 main_v162 (broadcastInDim S1600000x1 ![0] bcast_S1600000_S1600000x1_0 : (⟨S1600000, .i32⟩ : BufTy).Contents (Elt F) → (⟨S1600000x1, .i32⟩ : BufTy).Contents (Elt F)),
    nullary main_cst_37 (constant S_ .f32 0x3F800000#32),
    unary main_cst_37 main_v163 (broadcastInDim S1600000 ![] bcast_S_S1600000 : (⟨S_, .f32⟩ : BufTy).Contents (Elt F) → (⟨S1600000, .f32⟩ : BufTy).Contents (Elt F)),
    ternary main_v156 main_v162 main_v163 main_v164 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_38 (constant S_ .f32 0x40000000#32),
    unary main_cst_38 main_v165 (broadcastInDim S50000 ![] bcast_S_S50000 : (⟨S_, .f32⟩ : BufTy).Contents (Elt F) → (⟨S50000, .f32⟩ : BufTy).Contents (Elt F)),
    binary main_v164 main_v165 main_v166 (addf : (⟨S50000, .f32⟩ : BufTy).Contents (Elt F) → (⟨S50000, .f32⟩ : BufTy).Contents (Elt F) → (⟨S50000, .f32⟩ : BufTy).Contents (Elt F)),
    unary main_v166 main_v167 (Host.rsqrt : (⟨S50000, .f32⟩ : BufTy).Contents (Elt F) → (⟨S50000, .f32⟩ : BufTy).Contents (Elt F)),
    nullary main_c_39 (constantI S_ 32 0#32),
    unary main_c_39 main_v168 (broadcastInDim S1600000 ![] bcast_S_S1600000 : (⟨S_, .i32⟩ : BufTy).Contents (Elt F) → (⟨S1600000, .i32⟩ : BufTy).Contents (Elt F)),
    binary main_v1 main_v168 main_v169 (cmpi .slt : (⟨S1600000, .i32⟩ : BufTy).Contents (Elt F) → (⟨S1600000, .i32⟩ : BufTy).Contents (Elt F) → (⟨S1600000, .i1⟩ : BufTy).Contents (Elt F)),
    nullary main_c_40 (constantI S_ 32 50000#32),
    unary main_c_40 main_v170 (broadcastInDim S1600000 ![] bcast_S_S1600000 : (⟨S_, .i32⟩ : BufTy).Contents (Elt F) → (⟨S1600000, .i32⟩ : BufTy).Contents (Elt F)),
    binary main_v1 main_v170 main_v171 (addi : (⟨S1600000, .i32⟩ : BufTy).Contents (Elt F) → (⟨S1600000, .i32⟩ : BufTy).Contents (Elt F) → (⟨S1600000, .i32⟩ : BufTy).Contents (Elt F)),
    ternary main_v169 main_v171 main_v1 main_v172 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v172 main_v173 (broadcastInDim S1600000x1 ![0] bcast_S1600000_S1600000x1_0 : (⟨S1600000, .i32⟩ : BufTy).Contents (Elt F) → (⟨S1600000x1, .i32⟩ : BufTy).Contents (Elt F)),
    binary main_v167 main_v173 main_v174 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    nullary main_c_41 (constantI S_ 32 0#32),
    unary main_c_41 main_v175 (broadcastInDim S1600000 ![] bcast_S_S1600000 : (⟨S_, .i32⟩ : BufTy).Contents (Elt F) → (⟨S1600000, .i32⟩ : BufTy).Contents (Elt F)),
    binary main_v3 main_v175 main_v176 (cmpi .slt : (⟨S1600000, .i32⟩ : BufTy).Contents (Elt F) → (⟨S1600000, .i32⟩ : BufTy).Contents (Elt F) → (⟨S1600000, .i1⟩ : BufTy).Contents (Elt F)),
    nullary main_c_42 (constantI S_ 32 50000#32),
    unary main_c_42 main_v177 (broadcastInDim S1600000 ![] bcast_S_S1600000 : (⟨S_, .i32⟩ : BufTy).Contents (Elt F) → (⟨S1600000, .i32⟩ : BufTy).Contents (Elt F)),
    binary main_v3 main_v177 main_v178 (addi : (⟨S1600000, .i32⟩ : BufTy).Contents (Elt F) → (⟨S1600000, .i32⟩ : BufTy).Contents (Elt F) → (⟨S1600000, .i32⟩ : BufTy).Contents (Elt F)),
    ternary main_v176 main_v178 main_v3 main_v179 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v179 main_v180 (broadcastInDim S1600000x1 ![0] bcast_S1600000_S1600000x1_0 : (⟨S1600000, .i32⟩ : BufTy).Contents (Elt F) → (⟨S1600000x1, .i32⟩ : BufTy).Contents (Elt F)),
    binary main_v167 main_v180 main_v181 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    binary main_v174 main_v181 main_v182 (mulf : (⟨S1600000, .f32⟩ : BufTy).Contents (Elt F) → (⟨S1600000, .f32⟩ : BufTy).Contents (Elt F) → (⟨S1600000, .f32⟩ : BufTy).Contents (Elt F)),
    binary main_v155 main_arg10 main_v183 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_43 (constantI S_ 32 0#32),
    unary main_c_43 main_v184 (broadcastInDim S1600000 ![] bcast_S_S1600000 : (⟨S_, .i32⟩ : BufTy).Contents (Elt F) → (⟨S1600000, .i32⟩ : BufTy).Contents (Elt F)),
    binary main_v1 main_v184 main_v185 (cmpi .slt : (⟨S1600000, .i32⟩ : BufTy).Contents (Elt F) → (⟨S1600000, .i32⟩ : BufTy).Contents (Elt F) → (⟨S1600000, .i1⟩ : BufTy).Contents (Elt F)),
    nullary main_c_44 (constantI S_ 32 50000#32),
    unary main_c_44 main_v186 (broadcastInDim S1600000 ![] bcast_S_S1600000 : (⟨S_, .i32⟩ : BufTy).Contents (Elt F) → (⟨S1600000, .i32⟩ : BufTy).Contents (Elt F)),
    binary main_v1 main_v186 main_v187 (addi : (⟨S1600000, .i32⟩ : BufTy).Contents (Elt F) → (⟨S1600000, .i32⟩ : BufTy).Contents (Elt F) → (⟨S1600000, .i32⟩ : BufTy).Contents (Elt F)),
    ternary main_v185 main_v187 main_v1 main_v188 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v188 main_v189 (broadcastInDim S1600000x1 ![0] bcast_S1600000_S1600000x1_0 : (⟨S1600000, .i32⟩ : BufTy).Contents (Elt F) → (⟨S1600000x1, .i32⟩ : BufTy).Contents (Elt F)),
    binary main_v183 main_v189 main_v190 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_v182 main_v191 (broadcastInDim S1600000x1 ![0] bcast_S1600000_S1600000x1_0 : (⟨S1600000, .f32⟩ : BufTy).Contents (Elt F) → (⟨S1600000x1, .f32⟩ : BufTy).Contents (Elt F)),
    unary main_v191 main_v192 (broadcastInDim S1600000x128 ![0, 1] bcast_S1600000x1_S1600000x128_0_1 : (⟨S1600000x1, .f32⟩ : BufTy).Contents (Elt F) → (⟨S1600000x128, .f32⟩ : BufTy).Contents (Elt F)),
    binary main_v190 main_v192 main_v193 (mulf : (⟨S1600000x128, .f32⟩ : BufTy).Contents (Elt F) → (⟨S1600000x128, .f32⟩ : BufTy).Contents (Elt F) → (⟨S1600000x128, .f32⟩ : BufTy).Contents (Elt F)),
    nullary main_cst_45 (constant S_ .f32 0x00000000#32),
    unary main_cst_45 main_v194 (broadcastInDim S50000x128 ![] bcast_S_S50000x128 : (⟨S_, .f32⟩ : BufTy).Contents (Elt F) → (⟨S50000x128, .f32⟩ : BufTy).Contents (Elt F)),
    unary main_v3 main_v195 (broadcastInDim S1600000x1 ![0] bcast_S1600000_S1600000x1_0 : (⟨S1600000, .i32⟩ : BufTy).Contents (Elt F) → (⟨S1600000x1, .i32⟩ : BufTy).Contents (Elt F)),
    ternary main_v194 main_v195 main_v193 main_v196 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    nullary main_cst_46 (constant S_ .f32 0x40000000#32),
    unary main_cst_46 main_v197 (broadcastInDim S50000 ![] bcast_S_S50000 : (⟨S_, .f32⟩ : BufTy).Contents (Elt F) → (⟨S50000, .f32⟩ : BufTy).Contents (Elt F)),
    binary main_v197 main_v166 main_v198 (Host.divf : (⟨S50000, .f32⟩ : BufTy).Contents (Elt F) → (⟨S50000, .f32⟩ : BufTy).Contents (Elt F) → (⟨S50000, .f32⟩ : BufTy).Contents (Elt F)),
    unary main_v198 main_v199 (broadcastInDim S50000x1 ![0] bcast_S50000_S50000x1_0 : (⟨S50000, .f32⟩ : BufTy).Contents (Elt F) → (⟨S50000x1, .f32⟩ : BufTy).Contents (Elt F)),
    unary main_v199 main_v200 (broadcastInDim S50000x128 ![0, 1] bcast_S50000x1_S50000x128_0_1 : (⟨S50000x1, .f32⟩ : BufTy).Contents (Elt F) → (⟨S50000x128, .f32⟩ : BufTy).Contents (Elt F)),
    binary main_v200 main_v183 main_v201 (mulf : (⟨S50000x128, .f32⟩ : BufTy).Contents (Elt F) → (⟨S50000x128, .f32⟩ : BufTy).Contents (Elt F) → (⟨S50000x128, .f32⟩ : BufTy).Contents (Elt F)),
    binary main_v196 main_v201 main_v202 (addf : (⟨S50000x128, .f32⟩ : BufTy).Contents (Elt F) → (⟨S50000x128, .f32⟩ : BufTy).Contents (Elt F) → (⟨S50000x128, .f32⟩ : BufTy).Contents (Elt F)),
    unary main_arg11 main_v203 (broadcastInDim S1x128 ![1] bcast_S128_S1x128_1 : (⟨S128, .f32⟩ : BufTy).Contents (Elt F) → (⟨S1x128, .f32⟩ : BufTy).Contents (Elt F)),
    unary main_v203 main_v204 (broadcastInDim S50000x128 ![0, 1] bcast_S1x128_S50000x128_0_1 : (⟨S1x128, .f32⟩ : BufTy).Contents (Elt F) → (⟨S50000x128, .f32⟩ : BufTy).Contents (Elt F)),
    binary main_v202 main_v204 main_v205 (addf : (⟨S50000x128, .f32⟩ : BufTy).Contents (Elt F) → (⟨S50000x128, .f32⟩ : BufTy).Contents (Elt F) → (⟨S50000x128, .f32⟩ : BufTy).Contents (Elt F)),
    nullary main_cst_47 (constant S_ .f32 0x00000000#32),
    binary main_v205 main_cst_47 main_v206 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_48 (constant S_ .f32 0x47435000#32),
    unary main_cst_48 main_v207 (broadcastInDim S128 ![] bcast_S_S128 : (⟨S_, .f32⟩ : BufTy).Contents (Elt F) → (⟨S128, .f32⟩ : BufTy).Contents (Elt F)),
    binary main_v206 main_v207 main_v208 (Host.divf : (⟨S128, .f32⟩ : BufTy).Contents (Elt F) → (⟨S128, .f32⟩ : BufTy).Contents (Elt F) → (⟨S128, .f32⟩ : BufTy).Contents (Elt F)),
    unary main_v208 main_v209 (broadcastInDim S1x128 ![1] bcast_S128_S1x128_1 : (⟨S128, .f32⟩ : BufTy).Contents (Elt F) → (⟨S1x128, .f32⟩ : BufTy).Contents (Elt F)),
    unary main_v209 main_v210 (broadcastInDim S50000x128 ![0, 1] bcast_S1x128_S50000x128_0_1 : (⟨S1x128, .f32⟩ : BufTy).Contents (Elt F) → (⟨S50000x128, .f32⟩ : BufTy).Contents (Elt F)),
    binary main_v205 main_v210 main_v211 (subf : (⟨S50000x128, .f32⟩ : BufTy).Contents (Elt F) → (⟨S50000x128, .f32⟩ : BufTy).Contents (Elt F) → (⟨S50000x128, .f32⟩ : BufTy).Contents (Elt F)),
    binary main_v211 main_v211 main_v212 (mulf : (⟨S50000x128, .f32⟩ : BufTy).Contents (Elt F) → (⟨S50000x128, .f32⟩ : BufTy).Contents (Elt F) → (⟨S50000x128, .f32⟩ : BufTy).Contents (Elt F)),
    nullary main_cst_49 (constant S_ .f32 0x00000000#32),
    binary main_v212 main_cst_49 main_v213 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_50 (constant S_ .f32 0x47435000#32),
    unary main_cst_50 main_v214 (broadcastInDim S128 ![] bcast_S_S128 : (⟨S_, .f32⟩ : BufTy).Contents (Elt F) → (⟨S128, .f32⟩ : BufTy).Contents (Elt F)),
    binary main_v213 main_v214 main_v215 (Host.divf : (⟨S128, .f32⟩ : BufTy).Contents (Elt F) → (⟨S128, .f32⟩ : BufTy).Contents (Elt F) → (⟨S128, .f32⟩ : BufTy).Contents (Elt F)),
    unary main_v208 main_v216 (broadcastInDim S1x128 ![1] bcast_S128_S1x128_1 : (⟨S128, .f32⟩ : BufTy).Contents (Elt F) → (⟨S1x128, .f32⟩ : BufTy).Contents (Elt F)),
    unary main_v216 main_v217 (broadcastInDim S50000x128 ![0, 1] bcast_S1x128_S50000x128_0_1 : (⟨S1x128, .f32⟩ : BufTy).Contents (Elt F) → (⟨S50000x128, .f32⟩ : BufTy).Contents (Elt F)),
    binary main_v205 main_v217 main_v218 (subf : (⟨S50000x128, .f32⟩ : BufTy).Contents (Elt F) → (⟨S50000x128, .f32⟩ : BufTy).Contents (Elt F) → (⟨S50000x128, .f32⟩ : BufTy).Contents (Elt F)),
    nullary main_cst_51 (constant S_ .f32 0x3727C5AC#32),
    unary main_cst_51 main_v219 (broadcastInDim S128 ![] bcast_S_S128 : (⟨S_, .f32⟩ : BufTy).Contents (Elt F) → (⟨S128, .f32⟩ : BufTy).Contents (Elt F)),
    binary main_v215 main_v219 main_v220 (addf : (⟨S128, .f32⟩ : BufTy).Contents (Elt F) → (⟨S128, .f32⟩ : BufTy).Contents (Elt F) → (⟨S128, .f32⟩ : BufTy).Contents (Elt F)),
    unary main_v220 main_v221 (Host.rsqrt : (⟨S128, .f32⟩ : BufTy).Contents (Elt F) → (⟨S128, .f32⟩ : BufTy).Contents (Elt F)),
    unary main_v221 main_v222 (broadcastInDim S1x128 ![1] bcast_S128_S1x128_1 : (⟨S128, .f32⟩ : BufTy).Contents (Elt F) → (⟨S1x128, .f32⟩ : BufTy).Contents (Elt F)),
    unary main_v222 main_v223 (broadcastInDim S50000x128 ![0, 1] bcast_S1x128_S50000x128_0_1 : (⟨S1x128, .f32⟩ : BufTy).Contents (Elt F) → (⟨S50000x128, .f32⟩ : BufTy).Contents (Elt F)),
    binary main_v218 main_v223 main_v224 (mulf : (⟨S50000x128, .f32⟩ : BufTy).Contents (Elt F) → (⟨S50000x128, .f32⟩ : BufTy).Contents (Elt F) → (⟨S50000x128, .f32⟩ : BufTy).Contents (Elt F)),
    unary main_arg12 main_v225 (broadcastInDim S1x128 ![1] bcast_S128_S1x128_1 : (⟨S128, .f32⟩ : BufTy).Contents (Elt F) → (⟨S1x128, .f32⟩ : BufTy).Contents (Elt F)),
    unary main_v225 main_v226 (broadcastInDim S50000x128 ![0, 1] bcast_S1x128_S50000x128_0_1 : (⟨S1x128, .f32⟩ : BufTy).Contents (Elt F) → (⟨S50000x128, .f32⟩ : BufTy).Contents (Elt F)),
    binary main_v224 main_v226 main_v227 (mulf : (⟨S50000x128, .f32⟩ : BufTy).Contents (Elt F) → (⟨S50000x128, .f32⟩ : BufTy).Contents (Elt F) → (⟨S50000x128, .f32⟩ : BufTy).Contents (Elt F)),
    unary main_arg13 main_v228 (broadcastInDim S1x128 ![1] bcast_S128_S1x128_1 : (⟨S128, .f32⟩ : BufTy).Contents (Elt F) → (⟨S1x128, .f32⟩ : BufTy).Contents (Elt F)),
    unary main_v228 main_v229 (broadcastInDim S50000x128 ![0, 1] bcast_S1x128_S50000x128_0_1 : (⟨S1x128, .f32⟩ : BufTy).Contents (Elt F) → (⟨S50000x128, .f32⟩ : BufTy).Contents (Elt F)),
    binary main_v227 main_v229 main_v230 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v230) (TRef.of (T := ⟨S50000x128, .f32⟩) main_call2_v0) (TRef.of (T := ⟨S50000x128, .f32⟩) main_v231) maximumf ]

/-- @main's 292 operations, in order. -/
abbrev ops : List (HloOp τ sig (Elt F)) := opsA ++ (opsB ++ opsC)

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem opsB_sub : (opsB : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem opsC_sub : (opsC : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsA_sub op h
    · rcases List.mem_append.mp h with h | h
      · exact List.forall_iff_forall_mem.mp opsB_sub op h
      · exact List.forall_iff_forall_mem.mp opsC_sub op h

end Cert.ReferenceIdeal.LayerRun

end
-- ==== Proof.RefLayerBC.lean ====
/-
  The second and the third layer of the idealized reference program, run from any contents in which the two edge
  lists are those of the edge array: each layer's 96 operations leave in the layer's result array the first layer's
  function of the layer's input array, the edge array and the layer's four parameter arrays. Each list is cut after
  the bias is added: the first part leaves the aggregated array, the second part normalises it.
-/
import proofs.«139531_j89996744720583_1_alg».proof.Proof.RefRun

noncomputable section

namespace Cert.ReferenceIdeal.LayerRun

open Cert.ReferenceIdeal Cert.ReferenceIdeal.Gen Idealize.ShloMosaic Idealize.ShloMosaic.TcCoe Idealize.SL.Sem Idealize.ShloMosaic.StableHlo

section Lists
variable {F : FTy → Type} [FloatOps F]

/-- The second layer up to the bias: degrees, edge weights, product, gather, scatter-add, self term, bias. -/
abbrev opsB_pre : List (HloOp τ sig (Elt F)) :=
  [
    nullary main_cst_16 (constant S_ .f32 0x00000000#32),
    unary main_cst_16 main_v80 (broadcastInDim S50000 ![] bcast_S_S50000 : (⟨S_, .f32⟩ : BufTy).Contents (Elt F) → (⟨S50000, .f32⟩ : BufTy).Contents (Elt F)),
    nullary main_c_17 (constantI S_ 32 0#32),
    unary main_c_17 main_v81 (broadcastInDim S1600000 ![] bcast_S_S1600000 : (⟨S_, .i32⟩ : BufTy).Contents (Elt F) → (⟨S1600000, .i32⟩ : BufTy).Contents (Elt F)),
    binary main_v3 main_v81 main_v82 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 50000#32),
    unary main_c_18 main_v83 (broadcastInDim S1600000 ![] bcast_S_S1600000 : (⟨S_, .i32⟩ : BufTy).Contents (Elt F) → (⟨S1600000, .i32⟩ : BufTy).Contents (Elt F)),
    binary main_v3 main_v83 main_v84 (addi : (⟨S1600000, .i32⟩ : BufTy).Contents (Elt F) → (⟨S1600000, .i32⟩ : BufTy).Contents (Elt F) → (⟨S1600000, .i32⟩ : BufTy).Contents (Elt F)),
    ternary main_v82 main_v84 main_v3 main_v85 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v85 main_v86 (broadcastInDim S1600000x1 ![0] bcast_S1600000_S1600000x1_0 : (⟨S1600000, .i32⟩ : BufTy).Contents (Elt F) → (⟨S1600000x1, .i32⟩ : BufTy).Contents (Elt F)),
    nullary main_cst_19 (constant S_ .f32 0x3F800000#32),
    unary main_cst_19 main_v87 (broadcastInDim S1600000 ![] bcast_S_S1600000 : (⟨S_, .f32⟩ : BufTy).Contents (Elt F) → (⟨S1600000, .f32⟩ : BufTy).Contents (Elt F)),
    ternary main_v80 main_v86 main_v87 main_v88 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_20 (constant S_ .f32 0x40000000#32),
    unary main_cst_20 main_v89 (broadcastInDim S50000 ![] bcast_S_S50000 : (⟨S_, .f32⟩ : BufTy).Contents (Elt F) → (⟨S50000, .f32⟩ : BufTy).Contents (Elt F)),
    binary main_v88 main_v89 main_v90 (addf : (⟨S50000, .f32⟩ : BufTy).Contents (Elt F) → (⟨S50000, .f32⟩ : BufTy).Contents (Elt F) → (⟨S50000, .f32⟩ : BufTy).Contents (Elt F)),
    unary main_v90 main_v91 (Host.rsqrt : (⟨S50000, .f32⟩ : BufTy).Contents (Elt F) → (⟨S50000, .f32⟩ : BufTy).Contents (Elt F)),
    nullary main_c_21 (constantI S_ 32 0#32),
    unary main_c_21 main_v92 (broadcastInDim S1600000 ![] bcast_S_S1600000 : (⟨S_, .i32⟩ : BufTy).Contents (Elt F) → (⟨S1600000, .i32⟩ : BufTy).Contents (Elt F)),
    binary main_v1 main_v92 main_v93 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 50000#32),
    unary main_c_22 main_v94 (broadcastInDim S1600000 ![] bcast_S_S1600000 : (⟨S_, .i32⟩ : BufTy).Contents (Elt F) → (⟨S1600000, .i32⟩ : BufTy).Contents (Elt F)),
    binary main_v1 main_v94 main_v95 (addi : (⟨S1600000, .i32⟩ : BufTy).Contents (Elt F) → (⟨S1600000, .i32⟩ : BufTy).Contents (Elt F) → (⟨S1600000, .i32⟩ : BufTy).Contents (Elt F)),
    ternary main_v93 main_v95 main_v1 main_v96 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v96 main_v97 (broadcastInDim S1600000x1 ![0] bcast_S1600000_S1600000x1_0 : (⟨S1600000, .i32⟩ : BufTy).Contents (Elt F) → (⟨S1600000x1, .i32⟩ : BufTy).Contents (Elt F)),
    binary main_v91 main_v97 main_v98 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    nullary main_c_23 (constantI S_ 32 0#32),
    unary main_c_23 main_v99 (broadcastInDim S1600000 ![] bcast_S_S1600000 : (⟨S_, .i32⟩ : BufTy).Contents (Elt F) → (⟨S1600000, .i32⟩ : BufTy).Contents (Elt F)),
    binary main_v3 main_v99 main_v100 (cmpi .slt : (⟨S1600000, .i32⟩ : BufTy).Contents (Elt F) → (⟨S1600000, .i32⟩ : BufTy).Contents (Elt F) → (⟨S1600000, .i1⟩ : BufTy).Contents (Elt F)),
    nullary main_c_24 (constantI S_ 32 50000#32),
    unary main_c_24 main_v101 (broadcastInDim S1600000 ![] bcast_S_S1600000 : (⟨S_, .i32⟩ : BufTy).Contents (Elt F) → (⟨S1600000, .i32⟩ : BufTy).Contents (Elt F)),
    binary main_v3 main_v101 main_v102 (addi : (⟨S1600000, .i32⟩ : BufTy).Contents (Elt F) → (⟨S1600000, .i32⟩ : BufTy).Contents (Elt F) → (⟨S1600000, .i32⟩ : BufTy).Contents (Elt F)),
    ternary main_v100 main_v102 main_v3 main_v103 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v103 main_v104 (broadcastInDim S1600000x1 ![0] bcast_S1600000_S1600000x1_0 : (⟨S1600000, .i32⟩ : BufTy).Contents (Elt F) → (⟨S1600000x1, .i32⟩ : BufTy).Contents (Elt F)),
    binary main_v91 main_v104 main_v105 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    binary main_v98 main_v105 main_v106 (mulf : (⟨S1600000, .f32⟩ : BufTy).Contents (Elt F) → (⟨S1600000, .f32⟩ : BufTy).Contents (Elt F) → (⟨S1600000, .f32⟩ : BufTy).Contents (Elt F)),
    binary main_v79 main_arg6 main_v107 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_25 (constantI S_ 32 0#32),
    unary main_c_25 main_v108 (broadcastInDim S1600000 ![] bcast_S_S1600000 : (⟨S_, .i32⟩ : BufTy).Contents (Elt F) → (⟨S1600000, .i32⟩ : BufTy).Contents (Elt F)),
    binary main_v1 main_v108 main_v109 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 50000#32),
    unary main_c_26 main_v110 (broadcastInDim S1600000 ![] bcast_S_S1600000 : (⟨S_, .i32⟩ : BufTy).Contents (Elt F) → (⟨S1600000, .i32⟩ : BufTy).Contents (Elt F)),
    binary main_v1 main_v110 main_v111 (addi : (⟨S1600000, .i32⟩ : BufTy).Contents (Elt F) → (⟨S1600000, .i32⟩ : BufTy).Contents (Elt F) → (⟨S1600000, .i32⟩ : BufTy).Contents (Elt F)),
    ternary main_v109 main_v111 main_v1 main_v112 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v112 main_v113 (broadcastInDim S1600000x1 ![0] bcast_S1600000_S1600000x1_0 : (⟨S1600000, .i32⟩ : BufTy).Contents (Elt F) → (⟨S1600000x1, .i32⟩ : BufTy).Contents (Elt F)),
    binary main_v107 main_v113 main_v114 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_v106 main_v115 (broadcastInDim S1600000x1 ![0] bcast_S1600000_S1600000x1_0 : (⟨S1600000, .f32⟩ : BufTy).Contents (Elt F) → (⟨S1600000x1, .f32⟩ : BufTy).Contents (Elt F)),
    unary main_v115 main_v116 (broadcastInDim S1600000x128 ![0, 1] bcast_S1600000x1_S1600000x128_0_1 : (⟨S1600000x1, .f32⟩ : BufTy).Contents (Elt F) → (⟨S1600000x128, .f32⟩ : BufTy).Contents (Elt F)),
    binary main_v114 main_v116 main_v117 (mulf : (⟨S1600000x128, .f32⟩ : BufTy).Contents (Elt F) → (⟨S1600000x128, .f32⟩ : BufTy).Contents (Elt F) → (⟨S1600000x128, .f32⟩ : BufTy).Contents (Elt F)),
    nullary main_cst_27 (constant S_ .f32 0x00000000#32),
    unary main_cst_27 main_v118 (broadcastInDim S50000x128 ![] bcast_S_S50000x128 : (⟨S_, .f32⟩ : BufTy).Contents (Elt F) → (⟨S50000x128, .f32⟩ : BufTy).Contents (Elt F)),
    unary main_v3 main_v119 (broadcastInDim S1600000x1 ![0] bcast_S1600000_S1600000x1_0 : (⟨S1600000, .i32⟩ : BufTy).Contents (Elt F) → (⟨S1600000x1, .i32⟩ : BufTy).Contents (Elt F)),
    ternary main_v118 main_v119 main_v117 main_v120 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    nullary main_cst_28 (constant S_ .f32 0x40000000#32),
    unary main_cst_28 main_v121 (broadcastInDim S50000 ![] bcast_S_S50000 : (⟨S_, .f32⟩ : BufTy).Contents (Elt F) → (⟨S50000, .f32⟩ : BufTy).Contents (Elt F)),
    binary main_v121 main_v90 main_v122 (Host.divf : (⟨S50000, .f32⟩ : BufTy).Contents (Elt F) → (⟨S50000, .f32⟩ : BufTy).Contents (Elt F) → (⟨S50000, .f32⟩ : BufTy).Contents (Elt F)),
    unary main_v122 main_v123 (broadcastInDim S50000x1 ![0] bcast_S50000_S50000x1_0 : (⟨S50000, .f32⟩ : BufTy).Contents (Elt F) → (⟨S50000x1, .f32⟩ : BufTy).Contents (Elt F)),
    unary main_v123 main_v124 (broadcastInDim S50000x128 ![0, 1] bcast_S50000x1_S50000x128_0_1 : (⟨S50000x1, .f32⟩ : BufTy).Contents (Elt F) → (⟨S50000x128, .f32⟩ : BufTy).Contents (Elt F)),
    binary main_v124 main_v107 main_v125 (mulf : (⟨S50000x128, .f32⟩ : BufTy).Contents (Elt F) → (⟨S50000x128, .f32⟩ : BufTy).Contents (Elt F) → (⟨S50000x128, .f32⟩ : BufTy).Contents (Elt F)),
    binary main_v120 main_v125 main_v126 (addf : (⟨S50000x128, .f32⟩ : BufTy).Contents (Elt F) → (⟨S50000x128, .f32⟩ : BufTy).Contents (Elt F) → (⟨S50000x128, .f32⟩ : BufTy).Contents (Elt F)),
    unary main_arg7 main_v127 (broadcastInDim S1x128 ![1] bcast_S128_S1x128_1 : (⟨S128, .f32⟩ : BufTy).Contents (Elt F) → (⟨S1x128, .f32⟩ : BufTy).Contents (Elt F)),
    unary main_v127 main_v128 (broadcastInDim S50000x128 ![0, 1] bcast_S1x128_S50000x128_0_1 : (⟨S1x128, .f32⟩ : BufTy).Contents (Elt F) → (⟨S50000x128, .f32⟩ : BufTy).Contents (Elt F)),
    binary main_v126 main_v128 main_v129 (addf : (⟨S50000x128, .f32⟩ : BufTy).Contents (Elt F) → (⟨S50000x128, .f32⟩ : BufTy).Contents (Elt F) → (⟨S50000x128, .f32⟩ : BufTy).Contents (Elt F)) ]

/-- The second layer's batch normalisation and rectifier. -/
abbrev opsB_bn : List (HloOp τ sig (Elt F)) :=
  [
    nullary main_cst_29 (constant S_ .f32 0x00000000#32),
    binary main_v129 main_cst_29 main_v130 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_30 (constant S_ .f32 0x47435000#32),
    unary main_cst_30 main_v131 (broadcastInDim S128 ![] bcast_S_S128 : (⟨S_, .f32⟩ : BufTy).Contents (Elt F) → (⟨S128, .f32⟩ : BufTy).Contents (Elt F)),
    binary main_v130 main_v131 main_v132 (Host.divf : (⟨S128, .f32⟩ : BufTy).Contents (Elt F) → (⟨S128, .f32⟩ : BufTy).Contents (Elt F) → (⟨S128, .f32⟩ : BufTy).Contents (Elt F)),
    unary main_v132 main_v133 (broadcastInDim S1x128 ![1] bcast_S128_S1x128_1 : (⟨S128, .f32⟩ : BufTy).Contents (Elt F) → (⟨S1x128, .f32⟩ : BufTy).Contents (Elt F)),
    unary main_v133 main_v134 (broadcastInDim S50000x128 ![0, 1] bcast_S1x128_S50000x128_0_1 : (⟨S1x128, .f32⟩ : BufTy).Contents (Elt F) → (⟨S50000x128, .f32⟩ : BufTy).Contents (Elt F)),
    binary main_v129 main_v134 main_v135 (subf : (⟨S50000x128, .f32⟩ : BufTy).Contents (Elt F) → (⟨S50000x128, .f32⟩ : BufTy).Contents (Elt F) → (⟨S50000x128, .f32⟩ : BufTy).Contents (Elt F)),
    binary main_v135 main_v135 main_v136 (mulf : (⟨S50000x128, .f32⟩ : BufTy).Contents (Elt F) → (⟨S50000x128, .f32⟩ : BufTy).Contents (Elt F) → (⟨S50000x128, .f32⟩ : BufTy).Contents (Elt F)),
    nullary main_cst_31 (constant S_ .f32 0x00000000#32),
    binary main_v136 main_cst_31 main_v137 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_32 (constant S_ .f32 0x47435000#32),
    unary main_cst_32 main_v138 (broadcastInDim S128 ![] bcast_S_S128 : (⟨S_, .f32⟩ : BufTy).Contents (Elt F) → (⟨S128, .f32⟩ : BufTy).Contents (Elt F)),
    binary main_v137 main_v138 main_v139 (Host.divf : (⟨S128, .f32⟩ : BufTy).Contents (Elt F) → (⟨S128, .f32⟩ : BufTy).Contents (Elt F) → (⟨S128, .f32⟩ : BufTy).Contents (Elt F)),
    unary main_v132 main_v140 (broadcastInDim S1x128 ![1] bcast_S128_S1x128_1 : (⟨S128, .f32⟩ : BufTy).Contents (Elt F) → (⟨S1x128, .f32⟩ : BufTy).Contents (Elt F)),
    unary main_v140 main_v141 (broadcastInDim S50000x128 ![0, 1] bcast_S1x128_S50000x128_0_1 : (⟨S1x128, .f32⟩ : BufTy).Contents (Elt F) → (⟨S50000x128, .f32⟩ : BufTy).Contents (Elt F)),
    binary main_v129 main_v141 main_v142 (subf : (⟨S50000x128, .f32⟩ : BufTy).Contents (Elt F) → (⟨S50000x128, .f32⟩ : BufTy).Contents (Elt F) → (⟨S50000x128, .f32⟩ : BufTy).Contents (Elt F)),
    nullary main_cst_33 (constant S_ .f32 0x3727C5AC#32),
    unary main_cst_33 main_v143 (broadcastInDim S128 ![] bcast_S_S128 : (⟨S_, .f32⟩ : BufTy).Contents (Elt F) → (⟨S128, .f32⟩ : BufTy).Contents (Elt F)),
    binary main_v139 main_v143 main_v144 (addf : (⟨S128, .f32⟩ : BufTy).Contents (Elt F) → (⟨S128, .f32⟩ : BufTy).Contents (Elt F) → (⟨S128, .f32⟩ : BufTy).Contents (Elt F)),
    unary main_v144 main_v145 (Host.rsqrt : (⟨S128, .f32⟩ : BufTy).Contents (Elt F) → (⟨S128, .f32⟩ : BufTy).Contents (Elt F)),
    unary main_v145 main_v146 (broadcastInDim S1x128 ![1] bcast_S128_S1x128_1 : (⟨S128, .f32⟩ : BufTy).Contents (Elt F) → (⟨S1x128, .f32⟩ : BufTy).Contents (Elt F)),
    unary main_v146 main_v147 (broadcastInDim S50000x128 ![0, 1] bcast_S1x128_S50000x128_0_1 : (⟨S1x128, .f32⟩ : BufTy).Contents (Elt F) → (⟨S50000x128, .f32⟩ : BufTy).Contents (Elt F)),
    binary main_v142 main_v147 main_v148 (mulf : (⟨S50000x128, .f32⟩ : BufTy).Contents (Elt F) → (⟨S50000x128, .f32⟩ : BufTy).Contents (Elt F) → (⟨S50000x128, .f32⟩ : BufTy).Contents (Elt F)),
    unary main_arg8 main_v149 (broadcastInDim S1x128 ![1] bcast_S128_S1x128_1 : (⟨S128, .f32⟩ : BufTy).Contents (Elt F) → (⟨S1x128, .f32⟩ : BufTy).Contents (Elt F)),
    unary main_v149 main_v150 (broadcastInDim S50000x128 ![0, 1] bcast_S1x128_S50000x128_0_1 : (⟨S1x128, .f32⟩ : BufTy).Contents (Elt F) → (⟨S50000x128, .f32⟩ : BufTy).Contents (Elt F)),
    binary main_v148 main_v150 main_v151 (mulf : (⟨S50000x128, .f32⟩ : BufTy).Contents (Elt F) → (⟨S50000x128, .f32⟩ : BufTy).Contents (Elt F) → (⟨S50000x128, .f32⟩ : BufTy).Contents (Elt F)),
    unary main_arg9 main_v152 (broadcastInDim S1x128 ![1] bcast_S128_S1x128_1 : (⟨S128, .f32⟩ : BufTy).Contents (Elt F) → (⟨S1x128, .f32⟩ : BufTy).Contents (Elt F)),
    unary main_v152 main_v153 (broadcastInDim S50000x128 ![0, 1] bcast_S1x128_S50000x128_0_1 : (⟨S1x128, .f32⟩ : BufTy).Contents (Elt F) → (⟨S50000x128, .f32⟩ : BufTy).Contents (Elt F)),
    binary main_v151 main_v153 main_v154 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v154) (TRef.of (T := ⟨S50000x128, .f32⟩) main_call1_v0) (TRef.of (T := ⟨S50000x128, .f32⟩) main_v155) maximumf ]

/-- The second layer's list is the two parts in order. -/
theorem opsB_split : (opsB : List (HloOp τ sig (Elt F))) = opsB_pre ++ opsB_bn := rfl

/-- The third layer up to the bias: degrees, edge weights, product, gather, scatter-add, self term, bias. -/
abbrev opsC_pre : List (HloOp τ sig (Elt F)) :=
  [
    nullary main_cst_34 (constant S_ .f32 0x00000000#32),
    unary main_cst_34 main_v156 (broadcastInDim S50000 ![] bcast_S_S50000 : (⟨S_, .f32⟩ : BufTy).Contents (Elt F) → (⟨S50000, .f32⟩ : BufTy).Contents (Elt F)),
    nullary main_c_35 (constantI S_ 32 0#32),
    unary main_c_35 main_v157 (broadcastInDim S1600000 ![] bcast_S_S1600000 : (⟨S_, .i32⟩ : BufTy).Contents (Elt F) → (⟨S1600000, .i32⟩ : BufTy).Contents (Elt F)),
    binary main_v3 main_v157 main_v158 (cmpi .slt : (⟨S1600000, .i32⟩ : BufTy).Contents (Elt F) → (⟨S1600000, .i32⟩ : BufTy).Contents (Elt F) → (⟨S1600000, .i1⟩ : BufTy).Contents (Elt F)),
    nullary main_c_36 (constantI S_ 32 50000#32),
    unary main_c_36 main_v159 (broadcastInDim S1600000 ![] bcast_S_S1600000 : (⟨S_, .i32⟩ : BufTy).Contents (Elt F) → (⟨S1600000, .i32⟩ : BufTy).Contents (Elt F)),
    binary main_v3 main_v159 main_v160 (addi : (⟨S1600000, .i32⟩ : BufTy).Contents (Elt F) → (⟨S1600000, .i32⟩ : BufTy).Contents (Elt F) → (⟨S1600000, .i32⟩ : BufTy).Contents (Elt F)),
    ternary main_v158 main_v160 main_v3 main_v161 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v161 main_v162 (broadcastInDim S1600000x1 ![0] bcast_S1600000_S1600000x1_0 : (⟨S1600000, .i32⟩ : BufTy).Contents (Elt F) → (⟨S1600000x1, .i32⟩ : BufTy).Contents (Elt F)),
    nullary main_cst_37 (constant S_ .f32 0x3F800000#32),
    unary main_cst_37 main_v163 (broadcastInDim S1600000 ![] bcast_S_S1600000 : (⟨S_, .f32⟩ : BufTy).Contents (Elt F) → (⟨S1600000, .f32⟩ : BufTy).Contents (Elt F)),
    ternary main_v156 main_v162 main_v163 main_v164 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_38 (constant S_ .f32 0x40000000#32),
    unary main_cst_38 main_v165 (broadcastInDim S50000 ![] bcast_S_S50000 : (⟨S_, .f32⟩ : BufTy).Contents (Elt F) → (⟨S50000, .f32⟩ : BufTy).Contents (Elt F)),
    binary main_v164 main_v165 main_v166 (addf : (⟨S50000, .f32⟩ : BufTy).Contents (Elt F) → (⟨S50000, .f32⟩ : BufTy).Contents (Elt F) → (⟨S50000, .f32⟩ : BufTy).Contents (Elt F)),
    unary main_v166 main_v167 (Host.rsqrt : (⟨S50000, .f32⟩ : BufTy).Contents (Elt F) → (⟨S50000, .f32⟩ : BufTy).Contents (Elt F)),
    nullary main_c_39 (constantI S_ 32 0#32),
    unary main_c_39 main_v168 (broadcastInDim S1600000 ![] bcast_S_S1600000 : (⟨S_, .i32⟩ : BufTy).Contents (Elt F) → (⟨S1600000, .i32⟩ : BufTy).Contents (Elt F)),
    binary main_v1 main_v168 main_v169 (cmpi .slt : (⟨S1600000, .i32⟩ : BufTy).Contents (Elt F) → (⟨S1600000, .i32⟩ : BufTy).Contents (Elt F) → (⟨S1600000, .i1⟩ : BufTy).Contents (Elt F)),
    nullary main_c_40 (constantI S_ 32 50000#32),
    unary main_c_40 main_v170 (broadcastInDim S1600000 ![] bcast_S_S1600000 : (⟨S_, .i32⟩ : BufTy).Contents (Elt F) → (⟨S1600000, .i32⟩ : BufTy).Contents (Elt F)),
    binary main_v1 main_v170 main_v171 (addi : (⟨S1600000, .i32⟩ : BufTy).Contents (Elt F) → (⟨S1600000, .i32⟩ : BufTy).Contents (Elt F) → (⟨S1600000, .i32⟩ : BufTy).Contents (Elt F)),
    ternary main_v169 main_v171 main_v1 main_v172 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v172 main_v173 (broadcastInDim S1600000x1 ![0] bcast_S1600000_S1600000x1_0 : (⟨S1600000, .i32⟩ : BufTy).Contents (Elt F) → (⟨S1600000x1, .i32⟩ : BufTy).Contents (Elt F)),
    binary main_v167 main_v173 main_v174 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    nullary main_c_41 (constantI S_ 32 0#32),
    unary main_c_41 main_v175 (broadcastInDim S1600000 ![] bcast_S_S1600000 : (⟨S_, .i32⟩ : BufTy).Contents (Elt F) → (⟨S1600000, .i32⟩ : BufTy).Contents (Elt F)),
    binary main_v3 main_v175 main_v176 (cmpi .slt : (⟨S1600000, .i32⟩ : BufTy).Contents (Elt F) → (⟨S1600000, .i32⟩ : BufTy).Contents (Elt F) → (⟨S1600000, .i1⟩ : BufTy).Contents (Elt F)),
    nullary main_c_42 (constantI S_ 32 50000#32),
    unary main_c_42 main_v177 (broadcastInDim S1600000 ![] bcast_S_S1600000 : (⟨S_, .i32⟩ : BufTy).Contents (Elt F) → (⟨S1600000, .i32⟩ : BufTy).Contents (Elt F)),
    binary main_v3 main_v177 main_v178 (addi : (⟨S1600000, .i32⟩ : BufTy).Contents (Elt F) → (⟨S1600000, .i32⟩ : BufTy).Contents (Elt F) → (⟨S1600000, .i32⟩ : BufTy).Contents (Elt F)),
    ternary main_v176 main_v178 main_v3 main_v179 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v179 main_v180 (broadcastInDim S1600000x1 ![0] bcast_S1600000_S1600000x1_0 : (⟨S1600000, .i32⟩ : BufTy).Contents (Elt F) → (⟨S1600000x1, .i32⟩ : BufTy).Contents (Elt F)),
    binary main_v167 main_v180 main_v181 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    binary main_v174 main_v181 main_v182 (mulf : (⟨S1600000, .f32⟩ : BufTy).Contents (Elt F) → (⟨S1600000, .f32⟩ : BufTy).Contents (Elt F) → (⟨S1600000, .f32⟩ : BufTy).Contents (Elt F)),
    binary main_v155 main_arg10 main_v183 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_43 (constantI S_ 32 0#32),
    unary main_c_43 main_v184 (broadcastInDim S1600000 ![] bcast_S_S1600000 : (⟨S_, .i32⟩ : BufTy).Contents (Elt F) → (⟨S1600000, .i32⟩ : BufTy).Contents (Elt F)),
    binary main_v1 main_v184 main_v185 (cmpi .slt : (⟨S1600000, .i32⟩ : BufTy).Contents (Elt F) → (⟨S1600000, .i32⟩ : BufTy).Contents (Elt F) → (⟨S1600000, .i1⟩ : BufTy).Contents (Elt F)),
    nullary main_c_44 (constantI S_ 32 50000#32),
    unary main_c_44 main_v186 (broadcastInDim S1600000 ![] bcast_S_S1600000 : (⟨S_, .i32⟩ : BufTy).Contents (Elt F) → (⟨S1600000, .i32⟩ : BufTy).Contents (Elt F)),
    binary main_v1 main_v186 main_v187 (addi : (⟨S1600000, .i32⟩ : BufTy).Contents (Elt F) → (⟨S1600000, .i32⟩ : BufTy).Contents (Elt F) → (⟨S1600000, .i32⟩ : BufTy).Contents (Elt F)),
    ternary main_v185 main_v187 main_v1 main_v188 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v188 main_v189 (broadcastInDim S1600000x1 ![0] bcast_S1600000_S1600000x1_0 : (⟨S1600000, .i32⟩ : BufTy).Contents (Elt F) → (⟨S1600000x1, .i32⟩ : BufTy).Contents (Elt F)),
    binary main_v183 main_v189 main_v190 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_v182 main_v191 (broadcastInDim S1600000x1 ![0] bcast_S1600000_S1600000x1_0 : (⟨S1600000, .f32⟩ : BufTy).Contents (Elt F) → (⟨S1600000x1, .f32⟩ : BufTy).Contents (Elt F)),
    unary main_v191 main_v192 (broadcastInDim S1600000x128 ![0, 1] bcast_S1600000x1_S1600000x128_0_1 : (⟨S1600000x1, .f32⟩ : BufTy).Contents (Elt F) → (⟨S1600000x128, .f32⟩ : BufTy).Contents (Elt F)),
    binary main_v190 main_v192 main_v193 (mulf : (⟨S1600000x128, .f32⟩ : BufTy).Contents (Elt F) → (⟨S1600000x128, .f32⟩ : BufTy).Contents (Elt F) → (⟨S1600000x128, .f32⟩ : BufTy).Contents (Elt F)),
    nullary main_cst_45 (constant S_ .f32 0x00000000#32),
    unary main_cst_45 main_v194 (broadcastInDim S50000x128 ![] bcast_S_S50000x128 : (⟨S_, .f32⟩ : BufTy).Contents (Elt F) → (⟨S50000x128, .f32⟩ : BufTy).Contents (Elt F)),
    unary main_v3 main_v195 (broadcastInDim S1600000x1 ![0] bcast_S1600000_S1600000x1_0 : (⟨S1600000, .i32⟩ : BufTy).Contents (Elt F) → (⟨S1600000x1, .i32⟩ : BufTy).Contents (Elt F)),
    ternary main_v194 main_v195 main_v193 main_v196 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    nullary main_cst_46 (constant S_ .f32 0x40000000#32),
    unary main_cst_46 main_v197 (broadcastInDim S50000 ![] bcast_S_S50000 : (⟨S_, .f32⟩ : BufTy).Contents (Elt F) → (⟨S50000, .f32⟩ : BufTy).Contents (Elt F)),
    binary main_v197 main_v166 main_v198 (Host.divf : (⟨S50000, .f32⟩ : BufTy).Contents (Elt F) → (⟨S50000, .f32⟩ : BufTy).Contents (Elt F) → (⟨S50000, .f32⟩ : BufTy).Contents (Elt F)),
    unary main_v198 main_v199 (broadcastInDim S50000x1 ![0] bcast_S50000_S50000x1_0 : (⟨S50000, .f32⟩ : BufTy).Contents (Elt F) → (⟨S50000x1, .f32⟩ : BufTy).Contents (Elt F)),
    unary main_v199 main_v200 (broadcastInDim S50000x128 ![0, 1] bcast_S50000x1_S50000x128_0_1 : (⟨S50000x1, .f32⟩ : BufTy).Contents (Elt F) → (⟨S50000x128, .f32⟩ : BufTy).Contents (Elt F)),
    binary main_v200 main_v183 main_v201 (mulf : (⟨S50000x128, .f32⟩ : BufTy).Contents (Elt F) → (⟨S50000x128, .f32⟩ : BufTy).Contents (Elt F) → (⟨S50000x128, .f32⟩ : BufTy).Contents (Elt F)),
    binary main_v196 main_v201 main_v202 (addf : (⟨S50000x128, .f32⟩ : BufTy).Contents (Elt F) → (⟨S50000x128, .f32⟩ : BufTy).Contents (Elt F) → (⟨S50000x128, .f32⟩ : BufTy).Contents (Elt F)),
    unary main_arg11 main_v203 (broadcastInDim S1x128 ![1] bcast_S128_S1x128_1 : (⟨S128, .f32⟩ : BufTy).Contents (Elt F) → (⟨S1x128, .f32⟩ : BufTy).Contents (Elt F)),
    unary main_v203 main_v204 (broadcastInDim S50000x128 ![0, 1] bcast_S1x128_S50000x128_0_1 : (⟨S1x128, .f32⟩ : BufTy).Contents (Elt F) → (⟨S50000x128, .f32⟩ : BufTy).Contents (Elt F)),
    binary main_v202 main_v204 main_v205 (addf : (⟨S50000x128, .f32⟩ : BufTy).Contents (Elt F) → (⟨S50000x128, .f32⟩ : BufTy).Contents (Elt F) → (⟨S50000x128, .f32⟩ : BufTy).Contents (Elt F)) ]

/-- The third layer's batch normalisation and rectifier. -/
abbrev opsC_bn : List (HloOp τ sig (Elt F)) :=
  [
    nullary main_cst_47 (constant S_ .f32 0x00000000#32),
    binary main_v205 main_cst_47 main_v206 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_48 (constant S_ .f32 0x47435000#32),
    unary main_cst_48 main_v207 (broadcastInDim S128 ![] bcast_S_S128 : (⟨S_, .f32⟩ : BufTy).Contents (Elt F) → (⟨S128, .f32⟩ : BufTy).Contents (Elt F)),
    binary main_v206 main_v207 main_v208 (Host.divf : (⟨S128, .f32⟩ : BufTy).Contents (Elt F) → (⟨S128, .f32⟩ : BufTy).Contents (Elt F) → (⟨S128, .f32⟩ : BufTy).Contents (Elt F)),
    unary main_v208 main_v209 (broadcastInDim S1x128 ![1] bcast_S128_S1x128_1 : (⟨S128, .f32⟩ : BufTy).Contents (Elt F) → (⟨S1x128, .f32⟩ : BufTy).Contents (Elt F)),
    unary main_v209 main_v210 (broadcastInDim S50000x128 ![0, 1] bcast_S1x128_S50000x128_0_1 : (⟨S1x128, .f32⟩ : BufTy).Contents (Elt F) → (⟨S50000x128, .f32⟩ : BufTy).Contents (Elt F)),
    binary main_v205 main_v210 main_v211 (subf : (⟨S50000x128, .f32⟩ : BufTy).Contents (Elt F) → (⟨S50000x128, .f32⟩ : BufTy).Contents (Elt F) → (⟨S50000x128, .f32⟩ : BufTy).Contents (Elt F)),
    binary main_v211 main_v211 main_v212 (mulf : (⟨S50000x128, .f32⟩ : BufTy).Contents (Elt F) → (⟨S50000x128, .f32⟩ : BufTy).Contents (Elt F) → (⟨S50000x128, .f32⟩ : BufTy).Contents (Elt F)),
    nullary main_cst_49 (constant S_ .f32 0x00000000#32),
    binary main_v212 main_cst_49 main_v213 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_50 (constant S_ .f32 0x47435000#32),
    unary main_cst_50 main_v214 (broadcastInDim S128 ![] bcast_S_S128 : (⟨S_, .f32⟩ : BufTy).Contents (Elt F) → (⟨S128, .f32⟩ : BufTy).Contents (Elt F)),
    binary main_v213 main_v214 main_v215 (Host.divf : (⟨S128, .f32⟩ : BufTy).Contents (Elt F) → (⟨S128, .f32⟩ : BufTy).Contents (Elt F) → (⟨S128, .f32⟩ : BufTy).Contents (Elt F)),
    unary main_v208 main_v216 (broadcastInDim S1x128 ![1] bcast_S128_S1x128_1 : (⟨S128, .f32⟩ : BufTy).Contents (Elt F) → (⟨S1x128, .f32⟩ : BufTy).Contents (Elt F)),
    unary main_v216 main_v217 (broadcastInDim S50000x128 ![0, 1] bcast_S1x128_S50000x128_0_1 : (⟨S1x128, .f32⟩ : BufTy).Contents (Elt F) → (⟨S50000x128, .f32⟩ : BufTy).Contents (Elt F)),
    binary main_v205 main_v217 main_v218 (subf : (⟨S50000x128, .f32⟩ : BufTy).Contents (Elt F) → (⟨S50000x128, .f32⟩ : BufTy).Contents (Elt F) → (⟨S50000x128, .f32⟩ : BufTy).Contents (Elt F)),
    nullary main_cst_51 (constant S_ .f32 0x3727C5AC#32),
    unary main_cst_51 main_v219 (broadcastInDim S128 ![] bcast_S_S128 : (⟨S_, .f32⟩ : BufTy).Contents (Elt F) → (⟨S128, .f32⟩ : BufTy).Contents (Elt F)),
    binary main_v215 main_v219 main_v220 (addf : (⟨S128, .f32⟩ : BufTy).Contents (Elt F) → (⟨S128, .f32⟩ : BufTy).Contents (Elt F) → (⟨S128, .f32⟩ : BufTy).Contents (Elt F)),
    unary main_v220 main_v221 (Host.rsqrt : (⟨S128, .f32⟩ : BufTy).Contents (Elt F) → (⟨S128, .f32⟩ : BufTy).Contents (Elt F)),
    unary main_v221 main_v222 (broadcastInDim S1x128 ![1] bcast_S128_S1x128_1 : (⟨S128, .f32⟩ : BufTy).Contents (Elt F) → (⟨S1x128, .f32⟩ : BufTy).Contents (Elt F)),
    unary main_v222 main_v223 (broadcastInDim S50000x128 ![0, 1] bcast_S1x128_S50000x128_0_1 : (⟨S1x128, .f32⟩ : BufTy).Contents (Elt F) → (⟨S50000x128, .f32⟩ : BufTy).Contents (Elt F)),
    binary main_v218 main_v223 main_v224 (mulf : (⟨S50000x128, .f32⟩ : BufTy).Contents (Elt F) → (⟨S50000x128, .f32⟩ : BufTy).Contents (Elt F) → (⟨S50000x128, .f32⟩ : BufTy).Contents (Elt F)),
    unary main_arg12 main_v225 (broadcastInDim S1x128 ![1] bcast_S128_S1x128_1 : (⟨S128, .f32⟩ : BufTy).Contents (Elt F) → (⟨S1x128, .f32⟩ : BufTy).Contents (Elt F)),
    unary main_v225 main_v226 (broadcastInDim S50000x128 ![0, 1] bcast_S1x128_S50000x128_0_1 : (⟨S1x128, .f32⟩ : BufTy).Contents (Elt F) → (⟨S50000x128, .f32⟩ : BufTy).Contents (Elt F)),
    binary main_v224 main_v226 main_v227 (mulf : (⟨S50000x128, .f32⟩ : BufTy).Contents (Elt F) → (⟨S50000x128, .f32⟩ : BufTy).Contents (Elt F) → (⟨S50000x128, .f32⟩ : BufTy).Contents (Elt F)),
    unary main_arg13 main_v228 (broadcastInDim S1x128 ![1] bcast_S128_S1x128_1 : (⟨S128, .f32⟩ : BufTy).Contents (Elt F) → (⟨S1x128, .f32⟩ : BufTy).Contents (Elt F)),
    unary main_v228 main_v229 (broadcastInDim S50000x128 ![0, 1] bcast_S1x128_S50000x128_0_1 : (⟨S1x128, .f32⟩ : BufTy).Contents (Elt F) → (⟨S50000x128, .f32⟩ : BufTy).Contents (Elt F)),
    binary main_v227 main_v229 main_v230 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v230) (TRef.of (T := ⟨S50000x128, .f32⟩) main_call2_v0) (TRef.of (T := ⟨S50000x128, .f32⟩) main_v231) maximumf ]

/-- The third layer's list is the two parts in order. -/
theorem opsC_split : (opsC : List (HloOp τ sig (Elt F))) = opsC_pre ++ opsC_bn := rfl
end Lists

/-! ## The second layer -/

set_option maxHeartbeats 1000000 in
/-- The first part of the second layer leaves the aggregated array: the first layer's aggregation of this layer's
    input, the edge array, this layer's weight matrix and bias. -/
theorem opsB_pre_eq (W : Valuation τ sig (Elt Ideal))
    (h1 : W (Proc.devRef .tc main_v1) = Read.val_main_v1 (F := Ideal) (W (Proc.devRef .tc main_arg1)))
    (h3 : W (Proc.devRef .tc main_v3) = Read.val_main_v3 (F := Ideal) (W (Proc.devRef .tc main_arg1))) :
    after (opsB_pre (F := Ideal)) W (Proc.devRef .tc main_v129)
      = Read.val_main_v53 (F := Ideal) (W (Proc.devRef .tc main_v79)) (W (Proc.devRef .tc main_arg1))
          (W (Proc.devRef .tc main_arg6)) (W (Proc.devRef .tc main_arg7)) := by
  after_results_simp
  rw [h1, h3]
  rfl

set_option maxHeartbeats 1000000 in
/-- The first part does not write the scale and shift vectors. -/
theorem opsB_pre_g (W : Valuation τ sig (Elt Ideal)) :
    after (opsB_pre (F := Ideal)) W (Proc.devRef .tc main_arg8) = W (Proc.devRef .tc main_arg8) := by
  after_results_simp
set_option maxHeartbeats 1000000 in
theorem opsB_pre_be (W : Valuation τ sig (Elt Ideal)) :
    after (opsB_pre (F := Ideal)) W (Proc.devRef .tc main_arg9) = W (Proc.devRef .tc main_arg9) := by
  after_results_simp

set_option maxHeartbeats 1000000 in
/-- The second part normalises whatever aggregated array it finds: if that array is the first layer's aggregation of some
    arguments, the result array ends at the first layer's function of them and the scale and shift vectors found. -/
theorem opsB_bn_eq (M : Valuation τ sig (Elt Ideal))
    (x0 : (⟨S50000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (hM : M (Proc.devRef .tc main_v129) = Read.val_main_v53 (F := Ideal) x0 x1 x2 x3) :
    after (opsB_bn (F := Ideal)) M (Proc.devRef .tc main_v155)
      = Read.val_main_v79 (F := Ideal) x0 x1 x2 x3 (M (Proc.devRef .tc main_arg8)) (M (Proc.devRef .tc main_arg9)) := by
  after_results_simp
  simp only [TRef.toBuf, TRef.ofBuf, cast_eq]
  rw [hM]
  rw [Read.val_main_v79, Read.val_main_v78, Read.val_main_v77, Read.val_main_v76, Read.val_main_v75, Read.val_main_v74,
    Read.val_main_v73, Read.val_main_v72, Read.val_main_v71, Read.val_main_v70, Read.val_main_v69, Read.val_main_v68,
    Read.val_main_v67, Read.val_main_cst_15, Read.val_main_v66, Read.val_main_v65, Read.val_main_v64, Read.val_main_v63,
    Read.val_main_v62, Read.val_main_cst_14, Read.val_main_v61, Read.val_main_cst_13, Read.val_main_v60, Read.val_main_v59,
    Read.val_main_v58, Read.val_main_v57, Read.val_main_v56, Read.val_main_v55, Read.val_main_cst_12, Read.val_main_v54,
    Read.val_main_cst_11, Read.val_main_call0_v0, Read.val_main_call0_cst]

set_option maxHeartbeats 1000000 in
/-- The second layer: its result array ends at the first layer's function of its input array, the edge array and its
    four parameter arrays. -/
theorem layerB (W : Valuation τ sig (Elt Ideal))
    (h1 : W (Proc.devRef .tc main_v1) = Read.val_main_v1 (F := Ideal) (W (Proc.devRef .tc main_arg1)))
    (h3 : W (Proc.devRef .tc main_v3) = Read.val_main_v3 (F := Ideal) (W (Proc.devRef .tc main_arg1))) :
    after (opsB (F := Ideal)) W (Proc.devRef .tc main_v155)
      = Read.val_main_v79 (F := Ideal) (W (Proc.devRef .tc main_v79)) (W (Proc.devRef .tc main_arg1))
          (W (Proc.devRef .tc main_arg6)) (W (Proc.devRef .tc main_arg7)) (W (Proc.devRef .tc main_arg8)) (W (Proc.devRef .tc main_arg9)) := by
  rw [opsB_split, after_append,
    opsB_bn_eq (after (opsB_pre (F := Ideal)) W) _ _ _ _ (opsB_pre_eq W h1 h3), opsB_pre_g W, opsB_pre_be W]

/-! ## The third layer -/

set_option maxHeartbeats 1000000 in
/-- The first part of the third layer leaves the aggregated array: the first layer's aggregation of this layer's
    input, the edge array, this layer's weight matrix and bias. -/
theorem opsC_pre_eq (W : Valuation τ sig (Elt Ideal))
    (h1 : W (Proc.devRef .tc main_v1) = Read.val_main_v1 (F := Ideal) (W (Proc.devRef .tc main_arg1)))
    (h3 : W (Proc.devRef .tc main_v3) = Read.val_main_v3 (F := Ideal) (W (Proc.devRef .tc main_arg1))) :
    after (opsC_pre (F := Ideal)) W (Proc.devRef .tc main_v205)
      = Read.val_main_v53 (F := Ideal) (W (Proc.devRef .tc main_v155)) (W (Proc.devRef .tc main_arg1))
          (W (Proc.devRef .tc main_arg10)) (W (Proc.devRef .tc main_arg11)) := by
  after_results_simp
  rw [h1, h3]
  rfl

set_option maxHeartbeats 1000000 in
/-- The first part does not write the scale and shift vectors. -/
theorem opsC_pre_g (W : Valuation τ sig (Elt Ideal)) :
    after (opsC_pre (F := Ideal)) W (Proc.devRef .tc main_arg12) = W (Proc.devRef .tc main_arg12) := by
  after_results_simp
set_option maxHeartbeats 1000000 in
theorem opsC_pre_be (W : Valuation τ sig (Elt Ideal)) :
    after (opsC_pre (F := Ideal)) W (Proc.devRef .tc main_arg13) = W (Proc.devRef .tc main_arg13) := by
  after_results_simp

set_option maxHeartbeats 1000000 in
/-- The second part normalises whatever aggregated array it finds: if that array is the first layer's aggregation of some
    arguments, the result array ends at the first layer's function of them and the scale and shift vectors found. -/
theorem opsC_bn_eq (M : Valuation τ sig (Elt Ideal))
    (x0 : (⟨S50000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (hM : M (Proc.devRef .tc main_v205) = Read.val_main_v53 (F := Ideal) x0 x1 x2 x3) :
    after (opsC_bn (F := Ideal)) M (Proc.devRef .tc main_v231)
      = Read.val_main_v79 (F := Ideal) x0 x1 x2 x3 (M (Proc.devRef .tc main_arg12)) (M (Proc.devRef .tc main_arg13)) := by
  after_results_simp
  simp only [TRef.toBuf, TRef.ofBuf, cast_eq]
  rw [hM]
  rw [Read.val_main_v79, Read.val_main_v78, Read.val_main_v77, Read.val_main_v76, Read.val_main_v75, Read.val_main_v74,
    Read.val_main_v73, Read.val_main_v72, Read.val_main_v71, Read.val_main_v70, Read.val_main_v69, Read.val_main_v68,
    Read.val_main_v67, Read.val_main_cst_15, Read.val_main_v66, Read.val_main_v65, Read.val_main_v64, Read.val_main_v63,
    Read.val_main_v62, Read.val_main_cst_14, Read.val_main_v61, Read.val_main_cst_13, Read.val_main_v60, Read.val_main_v59,
    Read.val_main_v58, Read.val_main_v57, Read.val_main_v56, Read.val_main_v55, Read.val_main_cst_12, Read.val_main_v54,
    Read.val_main_cst_11, Read.val_main_call0_v0, Read.val_main_call0_cst]

set_option maxHeartbeats 1000000 in
/-- The third layer: its result array ends at the first layer's function of its input array, the edge array and its
    four parameter arrays. -/
theorem layerC (W : Valuation τ sig (Elt Ideal))
    (h1 : W (Proc.devRef .tc main_v1) = Read.val_main_v1 (F := Ideal) (W (Proc.devRef .tc main_arg1)))
    (h3 : W (Proc.devRef .tc main_v3) = Read.val_main_v3 (F := Ideal) (W (Proc.devRef .tc main_arg1))) :
    after (opsC (F := Ideal)) W (Proc.devRef .tc main_v231)
      = Read.val_main_v79 (F := Ideal) (W (Proc.devRef .tc main_v155)) (W (Proc.devRef .tc main_arg1))
          (W (Proc.devRef .tc main_arg10)) (W (Proc.devRef .tc main_arg11)) (W (Proc.devRef .tc main_arg12)) (W (Proc.devRef .tc main_arg13)) := by
  rw [opsC_split, after_append,
    opsC_bn_eq (after (opsC_pre (F := Ideal)) W) _ _ _ _ (opsC_pre_eq W h1 h3), opsC_pre_g W, opsC_pre_be W]

end Cert.ReferenceIdeal.LayerRun
end
-- ==== Proof.RefLayers.lean ====
/-
  The idealized reference program's run, layer by layer.  Its @main is three graph-convolution layers; each layer's list
  of host operations, run from any contents, leaves in its result buffer ONE function (the first layer's) of the layer's
  input array, the edge list and the layer's four parameter arrays, and writes no argument buffer.  The first layer is
  read in five pieces (the flattened edge rows; degrees and edge weights; product, weighted sum over edges, self term
  and bias; normalisation over the nodes; rectifier), each piece's inputs held as unknowns so that equal subterms
  stay equal by name.  Hence every weakly fair execution of @main ends with the result buffer at the threefold
  composition of that function on the arguments, and the arguments unchanged.
-/
import proofs.«139531_j89996744720583_1_alg».proof.Proof.RefRun
import proofs.«139531_j89996744720583_1_alg».proof.Proof.RefLayerBC

noncomputable section

namespace Cert.ReferenceIdeal.LayerRun

open Cert.ReferenceIdeal Cert.ReferenceIdeal.Gen Idealize.ShloMosaic Idealize.ShloMosaic.TcCoe Idealize.SL.Sem Idealize.ShloMosaic.StableHlo

variable {F : FTy → Type} [FloatOps F]

/-! ## The first layer's list, cut in five -/

/-- Operations main_v0 … main_v3 of the first layer: the two rows of the edge list, flattened. -/
abbrev A00 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- Operations main_cst … main_v30 of the first layer: the degrees and the edge weights. -/
abbrev A01 : List (HloOp τ sig (Elt F)) :=
  [ nullary main_cst (constant S_ .f32 0x00000000#32),
    unary main_cst main_v4 (broadcastInDim S50000 ![] bcast_S_S50000 : (⟨S_, .f32⟩ : BufTy).Contents (Elt F) → (⟨S50000, .f32⟩ : BufTy).Contents (Elt F)),
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_v3 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v7 (broadcastInDim S1600000 ![] bcast_S_S1600000 : (⟨S_, .i32⟩ : BufTy).Contents (Elt F) → (⟨S1600000, .i32⟩ : BufTy).Contents (Elt F)),
    binary main_v3 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_v3 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    nullary main_cst_1 (constant S_ .f32 0x3F800000#32),
    unary main_cst_1 main_v11 (broadcastInDim S1600000 ![] bcast_S_S1600000 : (⟨S_, .f32⟩ : BufTy).Contents (Elt F) → (⟨S1600000, .f32⟩ : BufTy).Contents (Elt F)),
    ternary main_v4 main_v10 main_v11 main_v12 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_2 (constant S_ .f32 0x40000000#32),
    unary main_cst_2 main_v13 (broadcastInDim S50000 ![] bcast_S_S50000 : (⟨S_, .f32⟩ : BufTy).Contents (Elt F) → (⟨S50000, .f32⟩ : BufTy).Contents (Elt F)),
    binary main_v12 main_v13 main_v14 (addf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_c_3 (constantI S_ 32 0#32),
    unary main_c_3 main_v16 (broadcastInDim S1600000 ![] bcast_S_S1600000 : (⟨S_, .i32⟩ : BufTy).Contents (Elt F) → (⟨S1600000, .i32⟩ : BufTy).Contents (Elt F)),
    binary main_v1 main_v16 main_v17 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 50000#32),
    unary main_c_4 main_v18 (broadcastInDim S1600000 ![] bcast_S_S1600000 : (⟨S_, .i32⟩ : BufTy).Contents (Elt F) → (⟨S1600000, .i32⟩ : BufTy).Contents (Elt F)),
    binary main_v1 main_v18 main_v19 (addi : (⟨S1600000, .i32⟩ : BufTy).Contents (Elt F) → (⟨S1600000, .i32⟩ : BufTy).Contents (Elt F) → (⟨S1600000, .i32⟩ : BufTy).Contents (Elt F)),
    ternary main_v17 main_v19 main_v1 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v20 main_v21 (broadcastInDim S1600000x1 ![0] bcast_S1600000_S1600000x1_0 : (⟨S1600000, .i32⟩ : BufTy).Contents (Elt F) → (⟨S1600000x1, .i32⟩ : BufTy).Contents (Elt F)),
    binary main_v15 main_v21 main_v22 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    nullary main_c_5 (constantI S_ 32 0#32),
    unary main_c_5 main_v23 (broadcastInDim S1600000 ![] bcast_S_S1600000 : (⟨S_, .i32⟩ : BufTy).Contents (Elt F) → (⟨S1600000, .i32⟩ : BufTy).Contents (Elt F)),
    binary main_v3 main_v23 main_v24 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 50000#32),
    unary main_c_6 main_v25 (broadcastInDim S1600000 ![] bcast_S_S1600000 : (⟨S_, .i32⟩ : BufTy).Contents (Elt F) → (⟨S1600000, .i32⟩ : BufTy).Contents (Elt F)),
    binary main_v3 main_v25 main_v26 (addi : (⟨S1600000, .i32⟩ : BufTy).Contents (Elt F) → (⟨S1600000, .i32⟩ : BufTy).Contents (Elt F) → (⟨S1600000, .i32⟩ : BufTy).Contents (Elt F)),
    ternary main_v24 main_v26 main_v3 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v27 main_v28 (broadcastInDim S1600000x1 ![0] bcast_S1600000_S1600000x1_0 : (⟨S1600000, .i32⟩ : BufTy).Contents (Elt F) → (⟨S1600000x1, .i32⟩ : BufTy).Contents (Elt F)),
    binary main_v15 main_v28 main_v29 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    binary main_v22 main_v29 main_v30 (mulf : (⟨S1600000, .f32⟩ : BufTy).Contents (Elt F) → (⟨S1600000, .f32⟩ : BufTy).Contents (Elt F) → (⟨S1600000, .f32⟩ : BufTy).Contents (Elt F)) ]

/-- Operations main_v31 … main_v53 of the first layer: the product with the weight matrix, the weighted sum over edges, the self term and the bias. -/
abbrev A1 : List (HloOp τ sig (Elt F)) :=
  [ binary main_arg0 main_arg2 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_7 (constantI S_ 32 0#32),
    unary main_c_7 main_v32 (broadcastInDim S1600000 ![] bcast_S_S1600000 : (⟨S_, .i32⟩ : BufTy).Contents (Elt F) → (⟨S1600000, .i32⟩ : BufTy).Contents (Elt F)),
    binary main_v1 main_v32 main_v33 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 50000#32),
    unary main_c_8 main_v34 (broadcastInDim S1600000 ![] bcast_S_S1600000 : (⟨S_, .i32⟩ : BufTy).Contents (Elt F) → (⟨S1600000, .i32⟩ : BufTy).Contents (Elt F)),
    binary main_v1 main_v34 main_v35 (addi : (⟨S1600000, .i32⟩ : BufTy).Contents (Elt F) → (⟨S1600000, .i32⟩ : BufTy).Contents (Elt F) → (⟨S1600000, .i32⟩ : BufTy).Contents (Elt F)),
    ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v36 main_v37 (broadcastInDim S1600000x1 ![0] bcast_S1600000_S1600000x1_0 : (⟨S1600000, .i32⟩ : BufTy).Contents (Elt F) → (⟨S1600000x1, .i32⟩ : BufTy).Contents (Elt F)),
    binary main_v31 main_v37 main_v38 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_v30 main_v39 (broadcastInDim S1600000x1 ![0] bcast_S1600000_S1600000x1_0 : (⟨S1600000, .f32⟩ : BufTy).Contents (Elt F) → (⟨S1600000x1, .f32⟩ : BufTy).Contents (Elt F)),
    unary main_v39 main_v40 (broadcastInDim S1600000x128 ![0, 1] bcast_S1600000x1_S1600000x128_0_1 : (⟨S1600000x1, .f32⟩ : BufTy).Contents (Elt F) → (⟨S1600000x128, .f32⟩ : BufTy).Contents (Elt F)),
    binary main_v38 main_v40 main_v41 (mulf : (⟨S1600000x128, .f32⟩ : BufTy).Contents (Elt F) → (⟨S1600000x128, .f32⟩ : BufTy).Contents (Elt F) → (⟨S1600000x128, .f32⟩ : BufTy).Contents (Elt F)),
    nullary main_cst_9 (constant S_ .f32 0x00000000#32),
    unary main_cst_9 main_v42 (broadcastInDim S50000x128 ![] bcast_S_S50000x128 : (⟨S_, .f32⟩ : BufTy).Contents (Elt F) → (⟨S50000x128, .f32⟩ : BufTy).Contents (Elt F)),
    unary main_v3 main_v43 (broadcastInDim S1600000x1 ![0] bcast_S1600000_S1600000x1_0 : (⟨S1600000, .i32⟩ : BufTy).Contents (Elt F) → (⟨S1600000x1, .i32⟩ : BufTy).Contents (Elt F)),
    ternary main_v42 main_v43 main_v41 main_v44 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    nullary main_cst_10 (constant S_ .f32 0x40000000#32),
    unary main_cst_10 main_v45 (broadcastInDim S50000 ![] bcast_S_S50000 : (⟨S_, .f32⟩ : BufTy).Contents (Elt F) → (⟨S50000, .f32⟩ : BufTy).Contents (Elt F)),
    binary main_v45 main_v14 main_v46 (Host.divf : (⟨S50000, .f32⟩ : BufTy).Contents (Elt F) → (⟨S50000, .f32⟩ : BufTy).Contents (Elt F) → (⟨S50000, .f32⟩ : BufTy).Contents (Elt F)),
    unary main_v46 main_v47 (broadcastInDim S50000x1 ![0] bcast_S50000_S50000x1_0 : (⟨S50000, .f32⟩ : BufTy).Contents (Elt F) → (⟨S50000x1, .f32⟩ : BufTy).Contents (Elt F)),
    unary main_v47 main_v48 (broadcastInDim S50000x128 ![0, 1] bcast_S50000x1_S50000x128_0_1 : (⟨S50000x1, .f32⟩ : BufTy).Contents (Elt F) → (⟨S50000x128, .f32⟩ : BufTy).Contents (Elt F)),
    binary main_v48 main_v31 main_v49 (mulf : (⟨S50000x128, .f32⟩ : BufTy).Contents (Elt F) → (⟨S50000x128, .f32⟩ : BufTy).Contents (Elt F) → (⟨S50000x128, .f32⟩ : BufTy).Contents (Elt F)),
    binary main_v44 main_v49 main_v50 (addf : (⟨S50000x128, .f32⟩ : BufTy).Contents (Elt F) → (⟨S50000x128, .f32⟩ : BufTy).Contents (Elt F) → (⟨S50000x128, .f32⟩ : BufTy).Contents (Elt F)),
    unary main_arg3 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)) ]

/-- Operations main_cst_11 … main_v78 of the first layer: the normalisation over the nodes, scale and shift. -/
abbrev A2a : List (HloOp τ sig (Elt F)) :=
  [ nullary main_cst_11 (constant S_ .f32 0x00000000#32),
    binary main_v53 main_cst_11 main_v54 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v55 (broadcastInDim S128 ![] bcast_S_S128 : (⟨S_, .f32⟩ : BufTy).Contents (Elt F) → (⟨S128, .f32⟩ : BufTy).Contents (Elt F)),
    binary main_v54 main_v55 main_v56 (Host.divf : (⟨S128, .f32⟩ : BufTy).Contents (Elt F) → (⟨S128, .f32⟩ : BufTy).Contents (Elt F) → (⟨S128, .f32⟩ : BufTy).Contents (Elt F)),
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v53 main_v58 main_v59 (subf : (⟨S50000x128, .f32⟩ : BufTy).Contents (Elt F) → (⟨S50000x128, .f32⟩ : BufTy).Contents (Elt F) → (⟨S50000x128, .f32⟩ : BufTy).Contents (Elt F)),
    binary main_v59 main_v59 main_v60 (mulf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x00000000#32),
    binary main_v60 main_cst_13 main_v61 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_14 (constant S_ .f32 0x47435000#32),
    unary main_cst_14 main_v62 (broadcastInDim S128 ![] bcast_S_S128 : (⟨S_, .f32⟩ : BufTy).Contents (Elt F) → (⟨S128, .f32⟩ : BufTy).Contents (Elt F)),
    binary main_v61 main_v62 main_v63 (Host.divf : (⟨S128, .f32⟩ : BufTy).Contents (Elt F) → (⟨S128, .f32⟩ : BufTy).Contents (Elt F) → (⟨S128, .f32⟩ : BufTy).Contents (Elt F)),
    unary main_v56 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v53 main_v65 main_v66 (subf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v67 (broadcastInDim S128 ![] bcast_S_S128 : (⟨S_, .f32⟩ : BufTy).Contents (Elt F) → (⟨S128, .f32⟩ : BufTy).Contents (Elt F)),
    binary main_v63 main_v67 main_v68 (addf : (⟨S128, .f32⟩ : BufTy).Contents (Elt F) → (⟨S128, .f32⟩ : BufTy).Contents (Elt F) → (⟨S128, .f32⟩ : BufTy).Contents (Elt F)),
    unary main_v68 main_v69 (Host.rsqrt : (⟨S128, .f32⟩ : BufTy).Contents (Elt F) → (⟨S128, .f32⟩ : BufTy).Contents (Elt F)),
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v66 main_v71 main_v72 (mulf : (⟨S50000x128, .f32⟩ : BufTy).Contents (Elt F) → (⟨S50000x128, .f32⟩ : BufTy).Contents (Elt F) → (⟨S50000x128, .f32⟩ : BufTy).Contents (Elt F)),
    unary main_arg4 main_v73 (broadcastInDim S1x128 ![1] bcast_S128_S1x128_1 : (⟨S128, .f32⟩ : BufTy).Contents (Elt F) → (⟨S1x128, .f32⟩ : BufTy).Contents (Elt F)),
    unary main_v73 main_v74 (broadcastInDim S50000x128 ![0, 1] bcast_S1x128_S50000x128_0_1 : (⟨S1x128, .f32⟩ : BufTy).Contents (Elt F) → (⟨S50000x128, .f32⟩ : BufTy).Contents (Elt F)),
    binary main_v72 main_v74 main_v75 (mulf : (⟨S50000x128, .f32⟩ : BufTy).Contents (Elt F) → (⟨S50000x128, .f32⟩ : BufTy).Contents (Elt F) → (⟨S50000x128, .f32⟩ : BufTy).Contents (Elt F)),
    unary main_arg5 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v75 main_v77 main_v78 (addf : (⟨S50000x128, .f32⟩ : BufTy).Contents (Elt F) → (⟨S50000x128, .f32⟩ : BufTy).Contents (Elt F) → (⟨S50000x128, .f32⟩ : BufTy).Contents (Elt F)) ]

/-- Operations main_call0_cst … main_v79 of the first layer: the rectifier. -/
abbrev A2b : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v78) (TRef.of (T := ⟨S50000x128, .f32⟩) main_call0_v0) (TRef.of (T := ⟨S50000x128, .f32⟩) main_v79) maximumf ]

set_option maxRecDepth 8192 in
/-- The first layer's list is its five pieces in order. -/
theorem opsA_cut : (opsA : List (HloOp τ sig (Elt F))) = A00 ++ (A01 ++ (A1 ++ (A2a ++ A2b))) := rfl

/-! ## What each piece leaves unwritten -/

/-- The buffers the piece A00 writes. -/
def writtenA00 : List (Ref sig .tc) :=
  [
    main_v0, main_v1, main_v2, main_v3 ]
theorem writesA00 : (A00 (F := Ideal)).Forall fun op => op.writes ⊆ (writtenA00.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- A buffer the piece does not write is left as it was. -/
theorem keepA00 (W : Valuation τ sig (Elt Ideal)) (r : Ref sig .tc) (hr : r ∉ writtenA00) :
    after (A00 (F := Ideal)) W (Proc.devRef .tc r) = W (Proc.devRef .tc r) :=
  after_of_writes_sub _ W writesA00 hr

/-- The buffers the piece A01 writes. -/
def writtenA01 : List (Ref sig .tc) :=
  [
    main_cst, main_v4, main_c, main_v5, main_v6, main_c_0, main_v7, main_v8, main_v9, main_v10,
    main_cst_1, main_v11, main_v12, main_cst_2, main_v13, main_v14, main_v15, main_c_3, main_v16, main_v17,
    main_c_4, main_v18, main_v19, main_v20, main_v21, main_v22, main_c_5, main_v23, main_v24, main_c_6,
    main_v25, main_v26, main_v27, main_v28, main_v29, main_v30 ]
theorem writesA01 : (A01 (F := Ideal)).Forall fun op => op.writes ⊆ (writtenA01.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- A buffer the piece does not write is left as it was. -/
theorem keepA01 (W : Valuation τ sig (Elt Ideal)) (r : Ref sig .tc) (hr : r ∉ writtenA01) :
    after (A01 (F := Ideal)) W (Proc.devRef .tc r) = W (Proc.devRef .tc r) :=
  after_of_writes_sub _ W writesA01 hr

/-- The buffers the piece A1 writes. -/
def writtenA1 : List (Ref sig .tc) :=
  [
    main_v31, main_c_7, main_v32, main_v33, main_c_8, main_v34, main_v35, main_v36, main_v37, main_v38,
    main_v39, main_v40, main_v41, main_cst_9, main_v42, main_v43, main_v44, main_cst_10, main_v45, main_v46,
    main_v47, main_v48, main_v49, main_v50, main_v51, main_v52, main_v53 ]
theorem writesA1 : (A1 (F := Ideal)).Forall fun op => op.writes ⊆ (writtenA1.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- A buffer the piece does not write is left as it was. -/
theorem keepA1 (W : Valuation τ sig (Elt Ideal)) (r : Ref sig .tc) (hr : r ∉ writtenA1) :
    after (A1 (F := Ideal)) W (Proc.devRef .tc r) = W (Proc.devRef .tc r) :=
  after_of_writes_sub _ W writesA1 hr

/-- The buffers the piece A2a writes. -/
def writtenA2a : List (Ref sig .tc) :=
  [
    main_cst_11, main_v54, main_cst_12, main_v55, main_v56, main_v57, main_v58, main_v59, main_v60, main_cst_13,
    main_v61, main_cst_14, main_v62, main_v63, main_v64, main_v65, main_v66, main_cst_15, main_v67, main_v68,
    main_v69, main_v70, main_v71, main_v72, main_v73, main_v74, main_v75, main_v76, main_v77, main_v78 ]
theorem writesA2a : (A2a (F := Ideal)).Forall fun op => op.writes ⊆ (writtenA2a.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- A buffer the piece does not write is left as it was. -/
theorem keepA2a (W : Valuation τ sig (Elt Ideal)) (r : Ref sig .tc) (hr : r ∉ writtenA2a) :
    after (A2a (F := Ideal)) W (Proc.devRef .tc r) = W (Proc.devRef .tc r) :=
  after_of_writes_sub _ W writesA2a hr

/-- The buffers the piece A2b writes. -/
def writtenA2b : List (Ref sig .tc) :=
  [
    main_call0_cst, main_call0_v0, main_v79 ]
theorem writesA2b : (A2b (F := Ideal)).Forall fun op => op.writes ⊆ (writtenA2b.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
/-- A buffer the piece does not write is left as it was. -/
theorem keepA2b (W : Valuation τ sig (Elt Ideal)) (r : Ref sig .tc) (hr : r ∉ writtenA2b) :
    after (A2b (F := Ideal)) W (Proc.devRef .tc r) = W (Proc.devRef .tc r) :=
  after_of_writes_sub _ W writesA2b hr

/-! ## What each piece computes -/

/-- The first four operations leave the two rows of the edge list, flattened. -/
theorem edge_v1 (W : Valuation τ sig (Elt Ideal)) :
    after (A00 (F := Ideal)) W (Proc.devRef .tc main_v1) = Read.val_main_v1 (F := Ideal) (W (Proc.devRef .tc main_arg1)) := by
  after_results_simp <;> rfl
theorem edge_v3 (W : Valuation τ sig (Elt Ideal)) :
    after (A00 (F := Ideal)) W (Proc.devRef .tc main_v3) = Read.val_main_v3 (F := Ideal) (W (Proc.devRef .tc main_arg1)) := by
  after_results_simp <;> rfl

/-- From contents holding the two flattened rows of an edge list x1, the next piece leaves the degrees plus two … -/
theorem deg_v14 (W : Valuation τ sig (Elt Ideal)) (x1 : (⟨S2x1600000, .i32⟩ : BufTy).Contents (Elt Ideal))
    (h1 : W (Proc.devRef .tc main_v1) = Read.val_main_v1 (F := Ideal) x1)
    (h3 : W (Proc.devRef .tc main_v3) = Read.val_main_v3 (F := Ideal) x1) :
    after (A01 (F := Ideal)) W (Proc.devRef .tc main_v14) = Read.val_main_v14 (F := Ideal) x1 := by
  after_results_simp
  rw [h3]
  rfl
/-- … and the edge weights. -/
theorem norm_v30 (W : Valuation τ sig (Elt Ideal)) (x1 : (⟨S2x1600000, .i32⟩ : BufTy).Contents (Elt Ideal))
    (h1 : W (Proc.devRef .tc main_v1) = Read.val_main_v1 (F := Ideal) x1)
    (h3 : W (Proc.devRef .tc main_v3) = Read.val_main_v3 (F := Ideal) x1) :
    after (A01 (F := Ideal)) W (Proc.devRef .tc main_v30) = Read.val_main_v30 (F := Ideal) x1 := by
  after_results_simp
  rw [h1, h3]
  rfl

set_option maxHeartbeats 1000000 in
/-- From contents holding the flattened rows, the degrees plus two and the edge weights of x1, the piece leaves the layer's
    pre-normalisation array of the input array, x1, the weight matrix and the bias. -/
theorem conv_v53 (W : Valuation τ sig (Elt Ideal)) (x1 : (⟨S2x1600000, .i32⟩ : BufTy).Contents (Elt Ideal))
    (h1 : W (Proc.devRef .tc main_v1) = Read.val_main_v1 (F := Ideal) x1)
    (h3 : W (Proc.devRef .tc main_v3) = Read.val_main_v3 (F := Ideal) x1)
    (h14 : W (Proc.devRef .tc main_v14) = Read.val_main_v14 (F := Ideal) x1)
    (h30 : W (Proc.devRef .tc main_v30) = Read.val_main_v30 (F := Ideal) x1) :
    after (A1 (F := Ideal)) W (Proc.devRef .tc main_v53)
      = Read.val_main_v53 (F := Ideal) (W (Proc.devRef .tc main_arg0)) x1 (W (Proc.devRef .tc main_arg2)) (W (Proc.devRef .tc main_arg3)) := by
  after_results_simp
  rw [h1, h3, h14, h30]
  rfl

set_option maxHeartbeats 1000000 in
/-- From contents holding the pre-normalisation array of (x0, x1, x2, x3), the piece leaves it normalised over the nodes,
    scaled and shifted. -/
theorem bn_v78 (W : Valuation τ sig (Elt Ideal)) (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal))
    (hP : W (Proc.devRef .tc main_v53) = Read.val_main_v53 (F := Ideal) x0 x1 x2 x3) :
    after (A2a (F := Ideal)) W (Proc.devRef .tc main_v78)
      = Read.val_main_v78 (F := Ideal) x0 x1 x2 x3 (W (Proc.devRef .tc main_arg4)) (W (Proc.devRef .tc main_arg5)) := by
  after_results_simp
  rw [hP]
  rfl

/-- The rectifier: from contents holding y in the normalised array's buffer, the last three operations leave max (y, 0). -/
theorem relu_v79 (W : Valuation τ sig (Elt Ideal)) (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal))
    (h78 : W (Proc.devRef .tc main_v78) = Read.val_main_v78 (F := Ideal) x0 x1 x2 x3 x4 x5) :
    after (A2b (F := Ideal)) W (Proc.devRef .tc main_v79) = Read.val_main_v79 (F := Ideal) x0 x1 x2 x3 x4 x5 := by
  after_results_simp
  simp only [TRef.toBuf, TRef.ofBuf, cast_eq]
  rw [h78]
  rfl

/-! ## The first layer, piece by piece -/

/-- The first layer's list run from W is its pieces run in order. -/
theorem after_opsA (W : Valuation τ sig (Elt Ideal)) :
    after (opsA (F := Ideal)) W
      = after (A2b (F := Ideal)) (after (A2a (F := Ideal)) (after (A1 (F := Ideal)) (after (A01 (F := Ideal)) (after (A00 (F := Ideal)) W)))) := by
  rw [opsA_cut, after_append, after_append, after_append, after_append]

/-- The first layer's list leaves, in its result buffer, the layer function of the input array, the edge list and the four
    parameter arrays. -/
theorem layerA (W : Valuation τ sig (Elt Ideal)) :
    after (opsA (F := Ideal)) W (Proc.devRef .tc main_v79)
      = Read.val_main_v79 (F := Ideal) (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  rw [after_opsA]
  have e1 := edge_v1 W
  have e3 := edge_v3 W
  have k0 := keepA00 W
  generalize after (A00 (F := Ideal)) W = W0 at e1 e3 k0 ⊢
  have d14 := deg_v14 W0 _ e1 e3
  have n30 := norm_v30 W0 _ e1 e3
  have k1 := keepA01 W0
  generalize after (A01 (F := Ideal)) W0 = W1 at d14 n30 k1 ⊢
  have c53 := conv_v53 W1 (W (Proc.devRef .tc main_arg1))
    (by rw [k1 main_v1 (by decide), e1]) (by rw [k1 main_v3 (by decide), e3]) d14 n30
  rw [k1 main_arg0 (by decide), k0 main_arg0 (by decide), k1 main_arg2 (by decide), k0 main_arg2 (by decide),
    k1 main_arg3 (by decide), k0 main_arg3 (by decide)] at c53
  have k2 := keepA1 W1
  generalize after (A1 (F := Ideal)) W1 = W2 at c53 k2 ⊢
  have b78 := bn_v78 W2 _ _ _ _ c53
  rw [k2 main_arg4 (by decide), k1 main_arg4 (by decide), k0 main_arg4 (by decide),
    k2 main_arg5 (by decide), k1 main_arg5 (by decide), k0 main_arg5 (by decide)] at b78
  generalize after (A2a (F := Ideal)) W2 = W3 at b78 ⊢
  exact relu_v79 W3 _ _ _ _ _ _ b78

/-- The first layer leaves the two rows of the edge list, flattened, in their buffers: the later layers read them there. -/
theorem edgeA1 (W : Valuation τ sig (Elt Ideal)) :
    after (opsA (F := Ideal)) W (Proc.devRef .tc main_v1) = Read.val_main_v1 (F := Ideal) (W (Proc.devRef .tc main_arg1)) := by
  rw [after_opsA, keepA2b _ main_v1 (by decide), keepA2a _ main_v1 (by decide), keepA1 _ main_v1 (by decide), keepA01 _ main_v1 (by decide), edge_v1]
theorem edgeA3 (W : Valuation τ sig (Elt Ideal)) :
    after (opsA (F := Ideal)) W (Proc.devRef .tc main_v3) = Read.val_main_v3 (F := Ideal) (W (Proc.devRef .tc main_arg1)) := by
  rw [after_opsA, keepA2b _ main_v3 (by decide), keepA2a _ main_v3 (by decide), keepA1 _ main_v3 (by decide), keepA01 _ main_v3 (by decide), edge_v3]

/-! ## What each layer's list leaves unwritten -/

/-- The buffers layer A's operations write, in program order. -/
def writtenA : List (Ref sig .tc) :=
  [
    main_v0, main_v1, main_v2, main_v3, main_cst, main_v4, main_c, main_v5, main_v6, main_c_0,
    main_v7, main_v8, main_v9, main_v10, main_cst_1, main_v11, main_v12, main_cst_2, main_v13, main_v14,
    main_v15, main_c_3, main_v16, main_v17, main_c_4, main_v18, main_v19, main_v20, main_v21, main_v22,
    main_c_5, main_v23, main_v24, main_c_6, main_v25, main_v26, main_v27, main_v28, main_v29, main_v30,
    main_v31, main_c_7, main_v32, main_v33, main_c_8, main_v34, main_v35, main_v36, main_v37, main_v38,
    main_v39, main_v40, main_v41, main_cst_9, main_v42, main_v43, main_v44, main_cst_10, main_v45, main_v46,
    main_v47, main_v48, main_v49, main_v50, main_v51, main_v52, main_v53, main_cst_11, main_v54, main_cst_12,
    main_v55, main_v56, main_v57, main_v58, main_v59, main_v60, main_cst_13, main_v61, main_cst_14, main_v62,
    main_v63, main_v64, main_v65, main_v66, main_cst_15, main_v67, main_v68, main_v69, main_v70, main_v71,
    main_v72, main_v73, main_v74, main_v75, main_v76, main_v77, main_v78, main_call0_cst, main_call0_v0, main_v79 ]

/-- Each operation of the list writes one buffer of `writtenA`. -/
theorem writesA : (opsA (F := Ideal)).Forall fun op => op.writes ⊆ (writtenA.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the list does not write is left as it was. -/
theorem keepA (W : Valuation τ sig (Elt Ideal)) (r : Ref sig .tc) (hr : r ∉ writtenA) :
    after (opsA (F := Ideal)) W (Proc.devRef .tc r) = W (Proc.devRef .tc r) :=
  after_of_writes_sub _ W writesA hr

/-- The buffers layer B's operations write, in program order. -/
def writtenB : List (Ref sig .tc) :=
  [
    main_cst_16, main_v80, main_c_17, main_v81, main_v82, main_c_18, main_v83, main_v84, main_v85, main_v86,
    main_cst_19, main_v87, main_v88, main_cst_20, main_v89, main_v90, main_v91, main_c_21, main_v92, main_v93,
    main_c_22, main_v94, main_v95, main_v96, main_v97, main_v98, main_c_23, main_v99, main_v100, main_c_24,
    main_v101, main_v102, main_v103, main_v104, main_v105, main_v106, main_v107, main_c_25, main_v108, main_v109,
    main_c_26, main_v110, main_v111, main_v112, main_v113, main_v114, main_v115, main_v116, main_v117, main_cst_27,
    main_v118, main_v119, main_v120, main_cst_28, main_v121, main_v122, main_v123, main_v124, main_v125, main_v126,
    main_v127, main_v128, main_v129, main_cst_29, main_v130, main_cst_30, main_v131, main_v132, main_v133, main_v134,
    main_v135, main_v136, main_cst_31, main_v137, main_cst_32, main_v138, main_v139, main_v140, main_v141, main_v142,
    main_cst_33, main_v143, main_v144, main_v145, main_v146, main_v147, main_v148, main_v149, main_v150, main_v151,
    main_v152, main_v153, main_v154, main_call1_cst, main_call1_v0, main_v155 ]

/-- Each operation of the list writes one buffer of `writtenB`. -/
theorem writesB : (opsB (F := Ideal)).Forall fun op => op.writes ⊆ (writtenB.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the list does not write is left as it was. -/
theorem keepB (W : Valuation τ sig (Elt Ideal)) (r : Ref sig .tc) (hr : r ∉ writtenB) :
    after (opsB (F := Ideal)) W (Proc.devRef .tc r) = W (Proc.devRef .tc r) :=
  after_of_writes_sub _ W writesB hr

/-- The buffers layer C's operations write, in program order. -/
def writtenC : List (Ref sig .tc) :=
  [
    main_cst_34, main_v156, main_c_35, main_v157, main_v158, main_c_36, main_v159, main_v160, main_v161, main_v162,
    main_cst_37, main_v163, main_v164, main_cst_38, main_v165, main_v166, main_v167, main_c_39, main_v168, main_v169,
    main_c_40, main_v170, main_v171, main_v172, main_v173, main_v174, main_c_41, main_v175, main_v176, main_c_42,
    main_v177, main_v178, main_v179, main_v180, main_v181, main_v182, main_v183, main_c_43, main_v184, main_v185,
    main_c_44, main_v186, main_v187, main_v188, main_v189, main_v190, main_v191, main_v192, main_v193, main_cst_45,
    main_v194, main_v195, main_v196, main_cst_46, main_v197, main_v198, main_v199, main_v200, main_v201, main_v202,
    main_v203, main_v204, main_v205, main_cst_47, main_v206, main_cst_48, main_v207, main_v208, main_v209, main_v210,
    main_v211, main_v212, main_cst_49, main_v213, main_cst_50, main_v214, main_v215, main_v216, main_v217, main_v218,
    main_cst_51, main_v219, main_v220, main_v221, main_v222, main_v223, main_v224, main_v225, main_v226, main_v227,
    main_v228, main_v229, main_v230, main_call2_cst, main_call2_v0, main_v231 ]

/-- Each operation of the list writes one buffer of `writtenC`. -/
theorem writesC : (opsC (F := Ideal)).Forall fun op => op.writes ⊆ (writtenC.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the list does not write is left as it was. -/
theorem keepC (W : Valuation τ sig (Elt Ideal)) (r : Ref sig .tc) (hr : r ∉ writtenC) :
    after (opsC (F := Ideal)) W (Proc.devRef .tc r) = W (Proc.devRef .tc r) :=
  after_of_writes_sub _ W writesC hr

/-! ## The three layers, one after the other -/

/-- The network: the layer function three times, each time on the previous result, the edge list, and its own four parameter arrays. -/
def net (a0 : (⟨S50000x128, .f32⟩ : BufTy).Contents (Elt Ideal)) (a1 : (⟨S2x1600000, .i32⟩ : BufTy).Contents (Elt Ideal))
    (a2 : (⟨S128x128, .f32⟩ : BufTy).Contents (Elt Ideal)) (a3 a4 a5 : (⟨S128, .f32⟩ : BufTy).Contents (Elt Ideal))
    (a6 : (⟨S128x128, .f32⟩ : BufTy).Contents (Elt Ideal)) (a7 a8 a9 : (⟨S128, .f32⟩ : BufTy).Contents (Elt Ideal))
    (a10 : (⟨S128x128, .f32⟩ : BufTy).Contents (Elt Ideal)) (a11 a12 a13 : (⟨S128, .f32⟩ : BufTy).Contents (Elt Ideal)) :
    (⟨S50000x128, .f32⟩ : BufTy).Contents (Elt Ideal) :=
  Read.val_main_v79 (F := Ideal) (Read.val_main_v79 (F := Ideal) (Read.val_main_v79 (F := Ideal) a0 a1 a2 a3 a4 a5) a1 a6 a7 a8 a9) a1 a10 a11 a12 a13

/-- The whole list is the three layers' lists run in order. -/
theorem after_ops (W : Valuation τ sig (Elt Ideal)) :
    after (ops (F := Ideal)) W = after (opsC (F := Ideal)) (after (opsB (F := Ideal)) (after (opsA (F := Ideal)) W)) := by
  show after (opsA ++ (opsB ++ opsC)) W = _
  rw [after_append, after_append]

/-- A buffer none of the three lists writes is left as it was by the whole list. -/
theorem keep (W : Valuation τ sig (Elt Ideal)) (r : Ref sig .tc) (hA : r ∉ writtenA) (hB : r ∉ writtenB) (hC : r ∉ writtenC) :
    after (ops (F := Ideal)) W (Proc.devRef .tc r) = W (Proc.devRef .tc r) := by
  rw [after_ops, keepC _ r hC, keepB _ r hB, keepA _ r hA]

/-- After the whole list the result buffer holds the network's value of the fourteen argument buffers. -/
theorem result (W : Valuation τ sig (Elt Ideal)) :
    after (ops (F := Ideal)) W (Proc.devRef .tc main_v231)
      = net (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  rw [after_ops]
  -- the first layer, from W
  have a79 := layerA W
  have a1 := edgeA1 W
  have a3 := edgeA3 W
  have kA := keepA W
  generalize after (opsA (F := Ideal)) W = WA at a79 a1 a3 kA ⊢
  -- the second layer, from the contents the first leaves
  have b155 := layerB WA (by rw [a1, kA main_arg1 (by decide)]) (by rw [a3, kA main_arg1 (by decide)])
  rw [a79, kA main_arg1 (by decide), kA main_arg6 (by decide), kA main_arg7 (by decide), kA main_arg8 (by decide),
    kA main_arg9 (by decide)] at b155
  have kB := keepB WA
  generalize after (opsB (F := Ideal)) WA = WB at b155 kB ⊢
  -- the third layer, from the contents the second leaves
  have c231 := layerC WB
    (by rw [kB main_v1 (by decide), kB main_arg1 (by decide), a1, kA main_arg1 (by decide)])
    (by rw [kB main_v3 (by decide), kB main_arg1 (by decide), a3, kA main_arg1 (by decide)])
  rw [b155, kB main_arg1 (by decide), kA main_arg1 (by decide),
    kB main_arg10 (by decide), kA main_arg10 (by decide), kB main_arg11 (by decide), kA main_arg11 (by decide),
    kB main_arg12 (by decide), kA main_arg12 (by decide), kB main_arg13 (by decide), kA main_arg13 (by decide)] at c231
  rw [c231]
  rfl

/-- On every device, from any memory with zero counters: every weakly fair execution of @main terminates with the result
    buffer at the network's value of the arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v231) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v231).trans (result (launchContents m c)),
      (h c main_arg0).trans (keep (launchContents m c) main_arg0 (by decide) (by decide) (by decide)),
      (h c main_arg1).trans (keep (launchContents m c) main_arg1 (by decide) (by decide) (by decide)),
      (h c main_arg2).trans (keep (launchContents m c) main_arg2 (by decide) (by decide) (by decide)),
      (h c main_arg3).trans (keep (launchContents m c) main_arg3 (by decide) (by decide) (by decide)),
      (h c main_arg4).trans (keep (launchContents m c) main_arg4 (by decide) (by decide) (by decide)),
      (h c main_arg5).trans (keep (launchContents m c) main_arg5 (by decide) (by decide) (by decide)),
      (h c main_arg6).trans (keep (launchContents m c) main_arg6 (by decide) (by decide) (by decide)),
      (h c main_arg7).trans (keep (launchContents m c) main_arg7 (by decide) (by decide) (by decide)),
      (h c main_arg8).trans (keep (launchContents m c) main_arg8 (by decide) (by decide) (by decide)),
      (h c main_arg9).trans (keep (launchContents m c) main_arg9 (by decide) (by decide) (by decide)),
      (h c main_arg10).trans (keep (launchContents m c) main_arg10 (by decide) (by decide) (by decide)),
      (h c main_arg11).trans (keep (launchContents m c) main_arg11 (by decide) (by decide) (by decide)),
      (h c main_arg12).trans (keep (launchContents m c) main_arg12 (by decide) (by decide) (by decide)),
      (h c main_arg13).trans (keep (launchContents m c) main_arg13 (by decide) (by decide) (by decide))⟩)
    (run_seq scopedRefs_eq scopedSems_eq defs main (fun _ => ops) main_eq (fun _ => ops_sub) m ρ)

end Cert.ReferenceIdeal.LayerRun

end
-- ==== Proof.FiniteInputs.lean ====
/-
  The precondition read back: the printed predicate is the conjunction, over the thirteen float arrays, of
  "every entry has absolute value below +infinity". On the extended reals an entry x with max x (-x) < ⊤ is neither
  ⊤ nor ⊥, so it is a real number. One lemma per reduced shape turns "the all-reduction of the entrywise test is 1"
  into "every entry is real"; the main theorem splits the conjunction and applies it thirteen times.
-/
import proofs.«139531_j89996744720583_1_alg».proof.Pre_finite_inputs
import proofs.«139531_j89996744720583_1_alg».proof.Proof.Spec
import Idealize.ShloMosaic.Lib.ReduceAll
import Idealize.ShloMosaic.Lib.IdealHost
import Idealize.ShloMosaic.Lib.ValueIdx

noncomputable section

namespace Cert.GcnBn.Pre

open Idealize.ShloMosaic Idealize.ShloMosaic.ValueIdx

/-- The result shape of every reduction here has exactly one index. -/
instance : Subsingleton Cert.Pre_finite_inputs.S_.Idx := ⟨fun a b => funext fun d => d.elim0⟩

/-- The single-precision pattern 0x7F800000 denotes +infinity. -/
theorem ofBits_inf : Ideal.ofBits .f32 0x7F800000#32 = (⊤ : EReal) := by
  simp [Ideal.ofBits, Ideal.ieee]

/-- An extended real whose absolute value max x (-x) tests below +infinity is a real number. -/
theorem real_of_abs_lt (x : EReal)
    (h : Ideal.cmp .olt (max x (-x)) (Ideal.ofBits .f32 0x7F800000#32) = 1#1) : ∃ r : ℝ, x = (r : EReal) := by
  rw [ofBits_inf] at h
  unfold Ideal.cmp at h
  have hlt : max x (-x) < ⊤ := by
    by_contra hn
    simp [hn] at h
  rw [max_lt_iff] at hlt
  induction x using EReal.rec with
  | bot => exact absurd hlt.2 (by simp)
  | coe r => exact ⟨r, rfl⟩
  | top => exact absurd hlt.1 (by simp)

/-- The all-reduction of the entrywise test |x| < +infinity being 1 makes every entry of x real; any operand shape,
    any list of reduced axes, the result the one-index shape. -/
theorem allReal_of_all {S : Shape} {axes : List (Fin S.rank)}
    (hb : Cert.Pre_finite_inputs.S_.BroadcastsInDim S (![] : Fin 0 → Fin S.rank))
    (hr : S.ReducesTo axes Cert.Pre_finite_inputs.S_) (hu : 0 < Cert.Pre_finite_inputs.S_.numel)
    (x : FVec Ideal S .f32) (init : IVec Cert.Pre_finite_inputs.S_ 1)
    (h : Host.reduce IntOp.andi
        (cmpf .olt (Host.absf x) (broadcastInDim S ![] hb (constant Cert.Pre_finite_inputs.S_ .f32 0x7F800000#32)))
        init hr hu ix0 = 1#1) : AllReal x := by
  intro i
  have e := Host.reduce_andi_all _ init hr hu ix0 h i
  refine real_of_abs_lt (x i) ?_
  rw [← e]
  show Ideal.cmp .olt (max (x i) (-(x i))) (Ideal.ofBits .f32 0x7F800000#32) = _
  rw [cmpf_apply, broadcastInDim_scalar_apply]
  rfl

/-- The conjunction of two one-index truth values is 1 exactly when both are. -/
theorem andi_ix0 (x y : IVec Cert.Pre_finite_inputs.S_ 1) :
    andi x y ix0 = 1#1 ↔ x ix0 = 1#1 ∧ y ix0 = 1#1 := by
  show IntOp.andi (x ix0) (y ix0) = 1#1 ↔ _
  exact IntOp.andi_eq_one

/-- The precondition, stated over the fourteen argument arrays: if the printed predicate evaluates to the all-ones
    scalar, every float argument has only real entries (the integer argument is not constrained). -/
theorem allReal_of_fn [hF : Cert.Pre_finite_inputs.Facts]
    (a0 : FVec Ideal Cert.Pre_finite_inputs.S50000x128 .f32) (a1 : IVec Cert.Pre_finite_inputs.S2x1600000 32)
    (a2 : FVec Ideal Cert.Pre_finite_inputs.S128x128 .f32) (a3 : FVec Ideal Cert.Pre_finite_inputs.S128 .f32)
    (a4 : FVec Ideal Cert.Pre_finite_inputs.S128 .f32) (a5 : FVec Ideal Cert.Pre_finite_inputs.S128 .f32)
    (a6 : FVec Ideal Cert.Pre_finite_inputs.S128x128 .f32) (a7 : FVec Ideal Cert.Pre_finite_inputs.S128 .f32)
    (a8 : FVec Ideal Cert.Pre_finite_inputs.S128 .f32) (a9 : FVec Ideal Cert.Pre_finite_inputs.S128 .f32)
    (a10 : FVec Ideal Cert.Pre_finite_inputs.S128x128 .f32) (a11 : FVec Ideal Cert.Pre_finite_inputs.S128 .f32)
    (a12 : FVec Ideal Cert.Pre_finite_inputs.S128 .f32) (a13 : FVec Ideal Cert.Pre_finite_inputs.S128 .f32)
    (h : Cert.Pre_finite_inputs.fn (F := Ideal) a0 a1 a2 a3 a4 a5 a6 a7 a8 a9 a10 a11 a12 a13 = (fun _ => 1#1)) :
    AllReal a0 ∧ AllReal a2 ∧ AllReal a3 ∧ AllReal a4 ∧ AllReal a5 ∧ AllReal a6 ∧ AllReal a7 ∧ AllReal a8 ∧
      AllReal a9 ∧ AllReal a10 ∧ AllReal a11 ∧ AllReal a12 ∧ AllReal a13 := by
  have h0 := congrFun h ix0
  dsimp only [Cert.Pre_finite_inputs.fn, Cert.Pre_finite_inputs.fn_part1, Cert.Pre_finite_inputs.fn_part2,
    Cert.Pre_finite_inputs.fn_part3] at h0
  simp only [andi_ix0] at h0
  obtain ⟨⟨⟨⟨⟨⟨⟨⟨⟨⟨⟨⟨e0, e2⟩, e3⟩, e4⟩, e5⟩, e6⟩, e7⟩, e8⟩, e9⟩, e10⟩, e11⟩, e12⟩, e13⟩ := h0
  exact ⟨allReal_of_all _ _ _ a0 _ e0, allReal_of_all _ _ _ a2 _ e2, allReal_of_all _ _ _ a3 _ e3,
    allReal_of_all _ _ _ a4 _ e4, allReal_of_all _ _ _ a5 _ e5, allReal_of_all _ _ _ a6 _ e6,
    allReal_of_all _ _ _ a7 _ e7, allReal_of_all _ _ _ a8 _ e8, allReal_of_all _ _ _ a9 _ e9,
    allReal_of_all _ _ _ a10 _ e10, allReal_of_all _ _ _ a11 _ e11, allReal_of_all _ _ _ a12 _ e12,
    allReal_of_all _ _ _ a13 _ e13⟩

end Cert.GcnBn.Pre

end
-- ==== Proof.lean ====
/-
  The certificate of a three-layer graph convolution network with training-mode batch normalisation: the kernel
  program (per layer: a matrix-product region, the irregular gather / scatter-add glue on the host, a region
  accumulating column sums and sums of squares over ten row blocks, a region applying the normalisation and the
  rectifier) against the plain reference. On the extended reals both compute, layer by layer, the same array:
  the matrix products are the same sums, the host glue is the same operations, and the kernel's variance
  (mean of squares minus squared mean) equals the reference's (mean of squared deviations) because every entry
  that enters a normalisation is a real number when the inputs are finite — degrees are at least 2, gathers pick
  entries, scatter-adds add finitely many, and a variance of reals plus a positive stabiliser is positive.
  The frames of the two kernel programs are the generated ones; the reference's frame is its run with the result
  dropped; the idealization rewrote nothing, so it preserves the program trivially.
-/
import proofs.«139531_j89996744720583_1_alg».proof.Defs
import proofs.«139531_j89996744720583_1_alg».proof.Proof.Gen.Kernel
import proofs.«139531_j89996744720583_1_alg».proof.Proof.Gen.Kernel.Skeleton
import proofs.«139531_j89996744720583_1_alg».proof.Proof.Gen.Kernel.Launch
import proofs.«139531_j89996744720583_1_alg».proof.Proof.Gen.Kernel.Points
import proofs.«139531_j89996744720583_1_alg».proof.Proof.Gen.Kernel.Frame
import proofs.«139531_j89996744720583_1_alg».proof.Proof.Gen.KernelIdeal
import proofs.«139531_j89996744720583_1_alg».proof.Proof.Gen.KernelIdeal.Skeleton
import proofs.«139531_j89996744720583_1_alg».proof.Proof.Gen.KernelIdeal.Launch
import proofs.«139531_j89996744720583_1_alg».proof.Proof.Gen.KernelIdeal.Points
import proofs.«139531_j89996744720583_1_alg».proof.Proof.Gen.KernelIdeal.Frame
import proofs.«139531_j89996744720583_1_alg».proof.Proof.Gen.ReferenceIdeal
import proofs.«139531_j89996744720583_1_alg».proof.Proof.Gen.Pre_finite_inputs
import proofs.«139531_j89996744720583_1_alg».proof.Proof.KRun
import proofs.«139531_j89996744720583_1_alg».proof.Proof.KChain
import proofs.«139531_j89996744720583_1_alg».proof.Proof.RefLayers
import proofs.«139531_j89996744720583_1_alg».proof.Proof.FiniteInputs
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.LayerRun.run m ρ)

/-- The idealization rewrote no operation. -/
theorem preserves : Cert.preserves_Kernel_KernelIdeal := trivial

/-- Under the precondition every float argument has real entries. -/
theorem argsReal (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Chain.ArgsReal m c := by
  obtain ⟨h0, h2, h3, h4, h5, h6, h7, h8, h9, h10, h11, h12, h13⟩ :=
    Cert.GcnBn.Pre.allReal_of_fn _ _ _ _ _ _ _ _ _ _ _ _ _ _ (hpre c)
  exact ⟨h0, h2, h3, h4, h5, h6, h7, h8, h9, h10, h11, h12, h13⟩

/-- Both idealized programs end with the threefold composition of the reference's layer function on the arguments. -/
theorem algebraic : Cert.algebraic_KernelIdeal_ReferenceIdeal := by
  intro m ρ m' ρ' hpre hagree
  refine ⟨fun c => Cert.KernelIdeal.Chain.h3 m c, ?_, ?_⟩
  · exact (θ_run Cert.KernelIdeal.defs _ _).mono
      (fun r h c => ⟨(h c).1.trans (Cert.KernelIdeal.Chain.result m ρ c (argsReal m hpre c)), (h c).2⟩)
      (Cert.KernelIdeal.RunValue.run_value m ρ)
  · refine (θ_run Cert.ReferenceIdeal.defs _ _).mono (fun r h c => ⟨(h c).1.trans ?_, (h c).2⟩)
      (Cert.ReferenceIdeal.LayerRun.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
